-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x24x4 : Shape := ⟨3, ![131072, 24, 4]⟩
abbrev S2x128 : Shape := ⟨2, ![2, 128]⟩
abbrev S3x4x8 : Shape := ⟨3, ![3, 4, 8]⟩
abbrev S8 : Shape := ⟨1, ![8]⟩
abbrev S3x8x8 : Shape := ⟨3, ![3, 8, 8]⟩
abbrev S64x192 : Shape := ⟨2, ![64, 192]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S131072x24x4 : S_.BroadcastsInDim S131072x24x4 (![] : Fin 0 → Fin S131072x24x4.rank)
  reducesTo_S131072x24x4_S_d0_1_2 : S131072x24x4.ReducesTo [0, 1, 2] S_
  h_S_ : 0 < S_.numel
  bcast_S_S3x4x8 : S_.BroadcastsInDim S3x4x8 (![] : Fin 0 → Fin S3x4x8.rank)
  reducesTo_S3x4x8_S_d0_1_2 : S3x4x8.ReducesTo [0, 1, 2] S_
  bcast_S_S8 : S_.BroadcastsInDim S8 (![] : Fin 0 → Fin S8.rank)
  reducesTo_S8_S_d0 : S8.ReducesTo [0] S_
  bcast_S_S3x8x8 : S_.BroadcastsInDim S3x8x8 (![] : Fin 0 → Fin S3x8x8.rank)
  reducesTo_S3x8x8_S_d0_1_2 : S3x8x8.ReducesTo [0, 1, 2] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S2x128 : S_.BroadcastsInDim S2x128 (![] : Fin 0 → Fin S2x128.rank)
  reducesTo_S2x128_S_d0_1 : S2x128.ReducesTo [0, 1] S_

variable [Facts]

def fn_part3 {F : FTy → Type} [FloatOps F] (main_v47 : IVec S_ 1) (main_v49 : IVec S2x128 1) (main_c_19 : IVec S_ 1) : IVec S_ 1 :=
  let main_v50 : IVec S_ 1 := (fun x v => Host.reduce IntOp.andi x v reducesTo_S2x128_S_d0_1 h_S_) main_v49 main_c_19
  let main_v51 : IVec S_ 1 := andi main_v47 main_v50
  main_v51

def fn_part2 {F : FTy → Type} [FloatOps F] (main_arg1 : IVec S2x128 32) (main_arg8 : FVec F S2x64 .f32) (main_arg9 : FVec F S2 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S2x128 32 := broadcastInDim S2x128 ![] bcast_S_S2x128 main_c_16
  let main_v45 : IVec S2x128 1 := cmpi .sge main_arg1 main_v44
  let main_c_17 : IVec S_ 1 := constantI S_ 1 1#1
  let main_v46 : IVec S_ 1 := (fun x v => Host.reduce IntOp.andi x v reducesTo_S2x128_S_d0_1 h_S_) main_v45 main_c_17
  let main_v47 : IVec S_ 1 := andi main_v43 main_v46
  let main_c_18 : IVec S_ 32 := constantI S_ 32 24#32
  let main_v48 : IVec S2x128 32 := broadcastInDim S2x128 ![] bcast_S_S2x128 main_c_18
  let main_v49 : IVec S2x128 1 := cmpi .slt main_arg1 main_v48
  let main_c_19 : IVec S_ 1 := constantI S_ 1 1#1
  fn_part3 (F := F) main_v47 main_v49 main_c_19

def fn_part1 {F : FTy → Type} [FloatOps F] (main_arg1 : IVec S2x128 32) (main_arg5 : FVec F S8 .f32) (main_arg6 : FVec F S64x192 .f32) (main_arg7 : FVec F S64 .f32) (main_arg8 : FVec F S2x64 .f32) (main_arg9 : FVec F S2 .f32) (main_v13 : IVec S_ 1) (main_v16 : IVec S3x8x8 1) : IVec S_ 1 :=
  let main_c_5 : IVec S_ 1 := constantI S_ 1 1#1
  let main_v17 : IVec S_ 1 := (fun x v => Host.reduce IntOp.andi x v reducesTo_S3x8x8_S_d0_1_2 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S64x192 .f32 := Host.absf main_arg6
  let main_cst_8 : FVec F S_ .f32 := constant S_ .f32 0x7F800000#32
  let main_v25 : FVec F S64x192 .f32 := broadcastInDim S64x192 ![] bcast_S_S64x192 main_cst_8
  let main_v26 : IVec S64x192 1 := cmpf .olt main_v24 main_v25
  let main_c_9 : IVec S_ 1 := constantI S_ 1 1#1
  let main_v27 : IVec S_ 1 := (fun x v => Host.reduce IntOp.andi x v reducesTo_S64x192_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S131072x24x4 .f32) (main_arg1 : IVec S2x128 32) (main_arg2 : FVec F S3x4x8 .f32) (main_arg3 : FVec F S8 .f32) (main_arg4 : FVec F S3x8x8 .f32) (main_arg5 : FVec F S8 .f32) (main_arg6 : FVec F S64x192 .f32) (main_arg7 : FVec F S64 .f32) (main_arg8 : FVec F S2x64 .f32) (main_arg9 : FVec F S2 .f32) : IVec S_ 1 :=
  let main_v0 : FVec F S131072x24x4 .f32 := Host.absf main_arg0
  let main_cst : FVec F S_ .f32 := constant S_ .f32 0x7F800000#32
  let main_v1 : FVec F S131072x24x4 .f32 := broadcastInDim S131072x24x4 ![] bcast_S_S131072x24x4 main_cst
  let main_v2 : IVec S131072x24x4 1 := cmpf .olt main_v0 main_v1
  let main_c : IVec S_ 1 := constantI S_ 1 1#1
  let main_v3 : IVec S_ 1 := (fun x v => Host.reduce IntOp.andi x v reducesTo_S131072x24x4_S_d0_1_2 h_S_) main_v2 main_c
  let main_v4 : FVec F S3x4x8 .f32 := Host.absf main_arg2
  let main_cst_0 : FVec F S_ .f32 := constant S_ .f32 0x7F800000#32
  let main_v5 : FVec F S3x4x8 .f32 := broadcastInDim S3x4x8 ![] bcast_S_S3x4x8 main_cst_0
  let main_v6 : IVec S3x4x8 1 := cmpf .olt main_v4 main_v5
  let main_c_1 : IVec S_ 1 := constantI S_ 1 1#1
  let main_v7 : IVec S_ 1 := (fun x v => Host.reduce IntOp.andi x v reducesTo_S3x4x8_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S3x8x8 .f32 := Host.absf main_arg4
  let main_cst_4 : FVec F S_ .f32 := constant S_ .f32 0x7F800000#32
  let main_v15 : FVec F S3x8x8 .f32 := broadcastInDim S3x8x8 ![] bcast_S_S3x8x8 main_cst_4
  let main_v16 : IVec S3x8x8 1 := cmpf .olt main_v14 main_v15
  fn_part1 (F := F) main_arg1 main_arg5 main_arg6 main_arg7 main_arg8 main_arg9 main_v13 main_v16
-- ==== Kernel.lean ====
abbrev S131072x24x4 : Shape := ⟨3, ![131072, 24, 4]⟩
abbrev S2x128 : Shape := ⟨2, ![2, 128]⟩
abbrev S3x4x8 : Shape := ⟨3, ![3, 4, 8]⟩
abbrev S8 : Shape := ⟨1, ![8]⟩
abbrev S3x8x8 : Shape := ⟨3, ![3, 8, 8]⟩
abbrev S64x192 : Shape := ⟨2, ![64, 192]⟩
abbrev S64 : Shape := ⟨1, ![64]⟩
abbrev S2x64 : Shape := ⟨2, ![2, 64]⟩
abbrev S2 : Shape := ⟨1, ![2]⟩
abbrev S1x128 : Shape := ⟨2, ![1, 128]⟩
abbrev S128 : Shape := ⟨1, ![128]⟩
abbrev S_ : Shape := ⟨0, ![]⟩
abbrev S24 : Shape := ⟨1, ![24]⟩
abbrev S128x1 : Shape := ⟨2, ![128, 1]⟩
abbrev S24x24 : Shape := ⟨2, ![24, 24]⟩
abbrev S128x2 : Shape := ⟨2, ![128, 2]⟩
abbrev S1x4x8 : Shape := ⟨3, ![1, 4, 8]⟩
abbrev S4x8 : Shape := ⟨2, ![4, 8]⟩
abbrev S24x1x24x1 : Shape := ⟨4, ![24, 1, 24, 1]⟩
abbrev S1x4x1x8 : Shape := ⟨4, ![1, 4, 1, 8]⟩
abbrev S24x4x24x8 : Shape := ⟨4, ![24, 4, 24, 8]⟩
abbrev S96x192 : Shape := ⟨2, ![96, 192]⟩
abbrev S1x8x8 : Shape := ⟨3, ![1, 8, 8]⟩
abbrev S8x8 : Shape := ⟨2, ![8, 8]⟩
abbrev S1x8x1x8 : Shape := ⟨4, ![1, 8, 1, 8]⟩
abbrev S24x8x24x8 : Shape := ⟨4, ![24, 8, 24, 8]⟩
abbrev S192x192 : Shape := ⟨2, ![192, 192]⟩
abbrev S1x8 : Shape := ⟨2, ![1, 8]⟩
abbrev S24x8 : Shape := ⟨2, ![24, 8]⟩
abbrev S192 : Shape := ⟨1, ![192]⟩
abbrev S1x192 : Shape := ⟨2, ![1, 192]⟩
abbrev S192x64 : Shape := ⟨2, ![192, 64]⟩
abbrev S1x64 : Shape := ⟨2, ![1, 64]⟩
abbrev S64x2 : Shape := ⟨2, ![64, 2]⟩
abbrev S1x2 : Shape := ⟨2, ![1, 2]⟩
abbrev S131072x96 : Shape := ⟨2, ![131072, 96]⟩
abbrev S131072x2 : Shape := ⟨2, ![131072, 2]⟩
abbrev S4096x96 : Shape := ⟨2, ![4096, 96]⟩
abbrev S4096x2 : Shape := ⟨2, ![4096, 2]⟩
abbrev S4096x192 : Shape := ⟨2, ![4096, 192]⟩
abbrev S4096x64 : Shape := ⟨2, ![4096, 64]⟩
abbrev S4096 : Shape := ⟨1, ![4096]⟩
abbrev S4096x1 : Shape := ⟨2, ![4096, 1]⟩
abbrev S131072x1x2 : Shape := ⟨3, ![131072, 1, 2]⟩

abbrev nBuf : Space → Nat
  | .hbm => 169
  | .vmem => 12
  | .smem => 0
  | _ => 0

abbrev hbmTy0_0 (i : Nat) : BufTy := match i % 128 with
  | 0 => ⟨S131072x24x4, .f32⟩
  | 1 => ⟨S2x128, .i32⟩
  | 2 => ⟨S3x4x8, .f32⟩
  | 3 => ⟨S8, .f32⟩
  | 4 => ⟨S3x8x8, .f32⟩
  | 5 => ⟨S8, .f32⟩
  | 6 => ⟨S64x192, .f32⟩
  | 7 => ⟨S64, .f32⟩
  | 8 => ⟨S2x64, .f32⟩
  | 9 => ⟨S2, .f32⟩
  | 10 => ⟨S1x128, .i32⟩
  | 11 => ⟨S128, .i32⟩
  | 12 => ⟨S1x128, .i32⟩
  | 13 => ⟨S128, .i32⟩
  | 14 => ⟨S_, .f32⟩
  | 15 => ⟨S24, .f32⟩
  | 16 => ⟨S_, .i32⟩
  | 17 => ⟨S128, .i32⟩
  | 18 => ⟨S128, .i1⟩
  | 19 => ⟨S_, .i32⟩
  | 20 => ⟨S128, .i32⟩
  | 21 => ⟨S128, .i32⟩
  | 22 => ⟨S128, .i32⟩
  | 23 => ⟨S128x1, .i32⟩
  | 24 => ⟨S_, .f32⟩
  | 25 => ⟨S128, .f32⟩
  | 26 => ⟨S24, .f32⟩
  | 27 => ⟨S_, .f32⟩
  | 28 => ⟨S24, .f32⟩
  | 29 => ⟨S24, .i1⟩
  | 30 => ⟨S_, .f32⟩
  | 31 => ⟨S24, .f32⟩
  | 32 => ⟨S24, .f32⟩
  | 33 => ⟨S_, .f32⟩
  | 34 => ⟨S_, .f32⟩
  | 35 => ⟨S24, .f32⟩
  | 36 => ⟨S24, .f32⟩
  | 37 => ⟨S_, .i32⟩
  | 38 => ⟨S128, .i32⟩
  | 39 => ⟨S128, .i1⟩
  | 40 => ⟨S_, .i32⟩
  | 41 => ⟨S128, .i32⟩
  | 42 => ⟨S128, .i32⟩
  | 43 => ⟨S128, .i32⟩
  | 44 => ⟨S128x1, .i32⟩
  | 45 => ⟨S128, .f32⟩
  | 46 => ⟨S128, .f32⟩
  | 47 => ⟨S_, .i32⟩
  | 48 => ⟨S128, .i32⟩
  | 49 => ⟨S128, .i1⟩
  | 50 => ⟨S_, .i32⟩
  | 51 => ⟨S128, .i32⟩
  | 52 => ⟨S128, .i32⟩
  | 53 => ⟨S128, .i32⟩
  | 54 => ⟨S128x1, .i32⟩
  | 55 => ⟨S128, .f32⟩
  | 56 => ⟨S128, .f32⟩
  | 57 => ⟨S_, .f32⟩
  | 58 => ⟨S24x24, .f32⟩
  | 59 => ⟨S_, .i32⟩
  | 60 => ⟨S128, .i32⟩
  | 61 => ⟨S128, .i1⟩
  | 62 => ⟨S_, .i32⟩
  | 63 => ⟨S128, .i32⟩
  | 64 => ⟨S128, .i32⟩
  | 65 => ⟨S128, .i32⟩
  | 66 => ⟨S_, .i32⟩
  | 67 => ⟨S128, .i32⟩
  | 68 => ⟨S128, .i1⟩
  | 69 => ⟨S_, .i32⟩
  | 70 => ⟨S128, .i32⟩
  | 71 => ⟨S128, .i32⟩
  | 72 => ⟨S128, .i32⟩
  | 73 => ⟨S128x1, .i32⟩
  | 74 => ⟨S128x1, .i32⟩
  | 75 => ⟨S128x2, .i32⟩
  | 76 => ⟨S24x24, .f32⟩
  | 77 => ⟨S24x24, .i32⟩
  | 78 => ⟨S24x24, .i32⟩
  | 79 => ⟨S_, .i32⟩
  | 80 => ⟨S24x24, .i32⟩
  | 81 => ⟨S24x24, .i32⟩
  | 82 => ⟨S24x24, .i1⟩
  | 83 => ⟨S24x24, .f32⟩
  | 84 => ⟨S24x24, .f32⟩
  | 85 => ⟨S_, .f32⟩
  | 86 => ⟨S24x24, .f32⟩
  | 87 => ⟨S24x24, .f32⟩
  | 88 => ⟨S24x24, .f32⟩
  | 89 => ⟨S24x24, .f32⟩
  | 90 => ⟨S24x24, .f32⟩
  | 91 => ⟨S24x24, .f32⟩
  | 92 => ⟨S1x4x8, .f32⟩
  | 93 => ⟨S4x8, .f32⟩
  | 94 => ⟨S24x1x24x1, .f32⟩
  | 95 => ⟨S1x4x1x8, .f32⟩
  | 96 => ⟨S24x4x24x8, .f32⟩
  | 97 => ⟨S24x4x24x8, .f32⟩
  | 98 => ⟨S24x4x24x8, .f32⟩
  | 99 => ⟨S96x192, .f32⟩
  | 100 => ⟨S_, .f32⟩
  | 101 => ⟨S96x192, .f32⟩
  | 102 => ⟨S96x192, .f32⟩
  | 103 => ⟨S1x4x8, .f32⟩
  | 104 => ⟨S4x8, .f32⟩
  | 105 => ⟨S24x1x24x1, .f32⟩
  | 106 => ⟨S1x4x1x8, .f32⟩
  | 107 => ⟨S24x4x24x8, .f32⟩
  | 108 => ⟨S24x4x24x8, .f32⟩
  | 109 => ⟨S24x4x24x8, .f32⟩
  | 110 => ⟨S96x192, .f32⟩
  | 111 => ⟨S96x192, .f32⟩
  | 112 => ⟨S1x4x8, .f32⟩
  | 113 => ⟨S4x8, .f32⟩
  | 114 => ⟨S24x1x24x1, .f32⟩
  | 115 => ⟨S1x4x1x8, .f32⟩
  | 116 => ⟨S24x4x24x8, .f32⟩
  | 117 => ⟨S24x4x24x8, .f32⟩
  | 118 => ⟨S24x4x24x8, .f32⟩
  | 119 => ⟨S96x192, .f32⟩
  | 120 => ⟨S96x192, .f32⟩
  | 121 => ⟨S96x192, .bf16⟩
  | 122 => ⟨S1x8x8, .f32⟩
  | 123 => ⟨S8x8, .f32⟩
  | 124 => ⟨S24x1x24x1, .f32⟩
  | 125 => ⟨S1x8x1x8, .f32⟩
  | 126 => ⟨S24x8x24x8, .f32⟩
  | 127 => ⟨S24x8x24x8, .f32⟩
  | _ => ⟨S131072x24x4, .f32⟩

abbrev hbmTy0_1 (i : Nat) : BufTy := match i % 128 with
  | 0 => ⟨S24x8x24x8, .f32⟩
  | 1 => ⟨S192x192, .f32⟩
  | 2 => ⟨S_, .f32⟩
  | 3 => ⟨S192x192, .f32⟩
  | 4 => ⟨S192x192, .f32⟩
  | 5 => ⟨S1x8x8, .f32⟩
  | 6 => ⟨S8x8, .f32⟩
  | 7 => ⟨S24x1x24x1, .f32⟩
  | 8 => ⟨S1x8x1x8, .f32⟩
  | 9 => ⟨S24x8x24x8, .f32⟩
  | 10 => ⟨S24x8x24x8, .f32⟩
  | 11 => ⟨S24x8x24x8, .f32⟩
  | 12 => ⟨S192x192, .f32⟩
  | 13 => ⟨S192x192, .f32⟩
  | 14 => ⟨S1x8x8, .f32⟩
  | 15 => ⟨S8x8, .f32⟩
  | 16 => ⟨S24x1x24x1, .f32⟩
  | 17 => ⟨S1x8x1x8, .f32⟩
  | 18 => ⟨S24x8x24x8, .f32⟩
  | 19 => ⟨S24x8x24x8, .f32⟩
  | 20 => ⟨S24x8x24x8, .f32⟩
  | 21 => ⟨S192x192, .f32⟩
  | 22 => ⟨S192x192, .f32⟩
  | 23 => ⟨S192x192, .bf16⟩
  | 24 => ⟨S1x8, .f32⟩
  | 25 => ⟨S24x8, .f32⟩
  | 26 => ⟨S192, .f32⟩
  | 27 => ⟨S1x192, .f32⟩
  | 28 => ⟨S1x8, .f32⟩
  | 29 => ⟨S24x8, .f32⟩
  | 30 => ⟨S192, .f32⟩
  | 31 => ⟨S1x192, .f32⟩
  | 32 => ⟨S192x64, .f32⟩
  | 33 => ⟨S192x64, .bf16⟩
  | 34 => ⟨S1x64, .f32⟩
  | 35 => ⟨S64x2, .f32⟩
  | 36 => ⟨S64x2, .bf16⟩
  | 37 => ⟨S1x2, .f32⟩
  | 38 => ⟨S131072x96, .f32⟩
  | 39 => ⟨S131072x2, .f32⟩
  | 40 => ⟨S131072x1x2, .f32⟩
  | _ => ⟨S131072x24x4, .f32⟩

abbrev hbmTy (i : Nat) : BufTy := match i / 128 with
  | 0 => hbmTy0_0 i
  | 1 => hbmTy0_1 i
  | _ => ⟨S131072x24x4, .f32⟩

abbrev bufTy : (tb : Table) → Fin (tcTables nBuf tb) → BufTy
  | .hbm, ⟨i, _⟩ => hbmTy i
  | .local _ .vmem, ⟨0, _⟩ => ⟨S4096x96, .f32⟩
  | .local _ .vmem, ⟨1, _⟩ => ⟨S4096x96, .f32⟩
  | .local _ .vmem, ⟨2, _⟩ => ⟨S96x192, .bf16⟩
  | .local _ .vmem, ⟨3, _⟩ => ⟨S1x192, .f32⟩
  | .local _ .vmem, ⟨4, _⟩ => ⟨S192x192, .bf16⟩
  | .local _ .vmem, ⟨5, _⟩ => ⟨S1x192, .f32⟩
  | .local _ .vmem, ⟨6, _⟩ => ⟨S192x64, .bf16⟩
  | .local _ .vmem, ⟨7, _⟩ => ⟨S1x64, .f32⟩
  | .local _ .vmem, ⟨8, _⟩ => ⟨S64x2, .bf16⟩
  | .local _ .vmem, ⟨9, _⟩ => ⟨S1x2, .f32⟩
  | .local _ .vmem, ⟨10, _⟩ => ⟨S4096x2, .f32⟩
  | .local _ .vmem, ⟨11, _⟩ => ⟨S4096x2, .f32⟩
  | _, _ => ⟨S131072x24x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_c_13 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v78 : Ref sig .tc := ⟨.hbm, 129, rfl⟩
abbrev main_cst_17 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_call5_v0 : Ref sig .tc := ⟨.hbm, 135, rfl⟩
abbrev main_call5_v1 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_call6_v0 : Ref sig .tc := ⟨.hbm, 144, rfl⟩
abbrev main_call6_v1 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x128_S1x128_0_0 : S2x128.Slices ![0, 0] S1x128
  shapeCasts_S1x128_S128 : S1x128.ShapeCasts S128
  slices_S2x128_S1x128_1_0 : S2x128.Slices ![1, 0] S1x128
  bcast_S_S24 : S_.BroadcastsInDim S24 (![] : Fin 0 → Fin S24.rank)
  bcast_S_S128 : S_.BroadcastsInDim S128 (![] : Fin 0 → Fin S128.rank)
  bcast_S128_S128x1_0 : S128.BroadcastsInDim S128x1 (![0] : Fin 1 → Fin S128x1.rank)
  bcast_S_S24x24 : S_.BroadcastsInDim S24x24 (![] : Fin 0 → Fin S24x24.rank)
  concatenates_S128x1_S128x1_S128x2_d1 : Shape.Concatenates [S128x1, S128x1] S128x2 1
  transposes_S24x24_S24x24_1_0 : S24x24.Transposes [1, 0] S24x24
  slices_S3x4x8_S1x4x8_0_0_0 : S3x4x8.Slices ![0, 0, 0] S1x4x8
  shapeCasts_S1x4x8_S4x8 : S1x4x8.ShapeCasts S4x8
  bcast_S24x24_S24x1x24x1_0_2 : S24x24.BroadcastsInDim S24x1x24x1 (![0, 2] : Fin 2 → Fin S24x1x24x1.rank)
  bcast_S4x8_S1x4x1x8_1_3 : S4x8.BroadcastsInDim S1x4x1x8 (![1, 3] : Fin 2 → Fin S1x4x1x8.rank)
  bcast_S24x1x24x1_S24x4x24x8_0_1_2_3 : S24x1x24x1.BroadcastsInDim S24x4x24x8 (![0, 1, 2, 3] : Fin 4 → Fin S24x4x24x8.rank)
  bcast_S1x4x1x8_S24x4x24x8_0_1_2_3 : S1x4x1x8.BroadcastsInDim S24x4x24x8 (![0, 1, 2, 3] : Fin 4 → Fin S24x4x24x8.rank)
  shapeCasts_S24x4x24x8_S96x192 : S24x4x24x8.ShapeCasts S96x192
  bcast_S_S96x192 : S_.BroadcastsInDim S96x192 (![] : Fin 0 → Fin S96x192.rank)
  slices_S3x4x8_S1x4x8_1_0_0 : S3x4x8.Slices ![1, 0, 0] S1x4x8
  slices_S3x4x8_S1x4x8_2_0_0 : S3x4x8.Slices ![2, 0, 0] S1x4x8
  bitsLt_bf16_f32 : FTy.bits .bf16 < FTy.bits .f32
  slices_S3x8x8_S1x8x8_0_0_0 : S3x8x8.Slices ![0, 0, 0] S1x8x8
  shapeCasts_S1x8x8_S8x8 : S1x8x8.ShapeCasts S8x8
  bcast_S8x8_S1x8x1x8_1_3 : S8x8.BroadcastsInDim S1x8x1x8 (![1, 3] : Fin 2 → Fin S1x8x1x8.rank)
  bcast_S24x1x24x1_S24x8x24x8_0_1_2_3 : S24x1x24x1.BroadcastsInDim S24x8x24x8 (![0, 1, 2, 3] : Fin 4 → Fin S24x8x24x8.rank)
  bcast_S1x8x1x8_S24x8x24x8_0_1_2_3 : S1x8x1x8.BroadcastsInDim S24x8x24x8 (![0, 1, 2, 3] : Fin 4 → Fin S24x8x24x8.rank)
  shapeCasts_S24x8x24x8_S192x192 : S24x8x24x8.ShapeCasts S192x192
  bcast_S_S192x192 : S_.BroadcastsInDim S192x192 (![] : Fin 0 → Fin S192x192.rank)
  slices_S3x8x8_S1x8x8_1_0_0 : S3x8x8.Slices ![1, 0, 0] S1x8x8
  slices_S3x8x8_S1x8x8_2_0_0 : S3x8x8.Slices ![2, 0, 0] S1x8x8
  shapeCasts_S8_S1x8 : S8.ShapeCasts S1x8
  bcast_S1x8_S24x8_0_1 : S1x8.BroadcastsInDim S24x8 (![0, 1] : Fin 2 → Fin S24x8.rank)
  shapeCasts_S24x8_S192 : S24x8.ShapeCasts S192
  shapeCasts_S192_S1x192 : S192.ShapeCasts S1x192
  transposes_S64x192_S192x64_1_0 : S64x192.Transposes [1, 0] S192x64
  shapeCasts_S64_S1x64 : S64.ShapeCasts S1x64
  transposes_S2x64_S64x2_1_0 : S2x64.Transposes [1, 0] S64x2
  shapeCasts_S2_S1x2 : S2.ShapeCasts S1x2
  shapeCasts_S131072x24x4_S131072x96 : S131072x24x4.ShapeCasts S131072x96
  inb_S4096x96_S4096x96_0_0 : ∀ a, (![0, 0] : Fin 2 → Nat) a + S4096x96.size a ≤ S4096x96.size a
  h_S4096x96 : 0 < S4096x96.numel
  shapeCasts_S4096x96_S4096x96 : S4096x96.ShapeCasts S4096x96
  inb_S96x192_S96x192_0_0 : ∀ a, (![0, 0] : Fin 2 → Nat) a + S96x192.size a ≤ S96x192.size a
  h_S96x192 : 0 < S96x192.numel
  shapeCasts_S96x192_S96x192 : S96x192.ShapeCasts S96x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4096x192 : S1x192.Broadcasts S4096x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  reduces_S4096x2_S4096 : S4096x2.Reduces [1] S4096
  shapeCasts_S4096_S4096x1 : S4096.ShapeCasts S4096x1
  broadcasts_S4096x1_S4096x2 : S4096x1.Broadcasts S4096x2
  inb_S4096x2_S4096x2_0_0 : ∀ a, (![0, 0] : Fin 2 → Nat) a + S4096x2.size a ≤ S4096x2.size a
  h_S4096x2 : 0 < S4096x2.numel
  shapeCasts_S131072x2_S131072x1x2 : S131072x2.ShapeCasts S131072x1x2
  scatter_S24_S128x1_S128_n_0_0_1_wf : ScatterDims.WF S24 S128x1 S128 [] [0] [0] 1
  gather_S24_S128x1_S128_n_0_n_n_0_1_1_wf : GatherDims.WF S24 S128x1 S128 [] [0] [] [0] [] 1 ![1]
  scatter_S24x24_S128x2_S128_n_01_01_1_wf : ScatterDims.WF S24x24 S128x2 S128 [] [0, 1] [0, 1] 1
  dot_S24x24_S24x24_S24x24_1_0_0_1_n_n_wf : DotDims.WF S24x24 S24x24 S24x24 [1] [0] [0] [1] [] []
  dot_S4096x96_S96x192_S4096x192_1_0_0_1_n_n_wf : DotDims.WF S4096x96 S96x192 S4096x192 [1] [0] [0] [1] [] []
  dot_S4096x192_S192x192_S4096x192_1_0_0_1_n_n_wf : DotDims.WF S4096x192 S192x192 S4096x192 [1] [0] [0] [1] [] []
  dot_S4096x192_S192x64_S4096x64_1_0_0_1_n_n_wf : DotDims.WF S4096x192 S192x64 S4096x64 [1] [0] [0] [1] [] []
  dot_S4096x64_S64x2_S4096x2_1_0_0_1_n_n_wf : DotDims.WF S4096x64 S64x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x96.size a ≤ S131072x96.size a
  hwx0_0 : ∀ i : grid0.Coords, EltTy.bits .f32 = 32 ∨ (Rect.block (s := S131072x96) S4096x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x192.size a ≤ S96x192.size a
  hwx0_1 : ∀ i : grid0.Coords, EltTy.bits .bf16 = 32 ∨ (Rect.block (s := S96x192) S96x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x192.size a ≤ S192x192.size a
  hwx0_3 : ∀ i : grid0.Coords, EltTy.bits .bf16 = 32 ∨ (Rect.block (s := S192x192) S192x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x64.size a ≤ S192x64.size a
  hwx0_5 : ∀ i : grid0.Coords, EltTy.bits .bf16 = 32 ∨ (Rect.block (s := S192x64) S192x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x2.size a ≤ S64x2.size a
  hwx0_7 : ∀ i : grid0.Coords, EltTy.bits .bf16 = 32 ∨ (Rect.block (s := S64x2) S64x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x2.size a ≤ S131072x2.size a
  hwx0_9 : ∀ i : grid0.Coords, EltTy.bits .f32 = 32 ∨ (Rect.block (s := S131072x2) S4096x2.size (cc0_transform_9 i) (hinb0_9 i)).WholeWords (EltTy.packing .f32)

variable [Facts₀]

def scatter_S24_S128x1_S128_n_0_0_1 : ScatterDims S24 S128x1 S128 where
  updateWindowDims := []
  insertedWindowDims := [0]
  scatterDimsToOperandDims := [0]
  indexVectorDim := 1
  wf := scatter_S24_S128x1_S128_n_0_0_1_wf
def gather_S24_S128x1_S128_n_0_n_n_0_1_1 : GatherDims S24 S128x1 S128 where
  offsetDims := []
  collapsedSliceDims := [0]
  operandBatchingDims := []
  startIndicesBatchingDims := []
  startIndexMap := [0]
  indexVectorDim := 1
  sliceSizes := ![1]
  wf := gather_S24_S128x1_S128_n_0_n_n_0_1_1_wf
def scatter_S24x24_S128x2_S128_n_01_01_1 : ScatterDims S24x24 S128x2 S128 where
  updateWindowDims := []
  insertedWindowDims := [0, 1]
  scatterDimsToOperandDims := [0, 1]
  indexVectorDim := 1
  wf := scatter_S24x24_S128x2_S128_n_01_01_1_wf
def dot_S24x24_S24x24_S24x24_1_0_0_1_n_n : DotDims S24x24 S24x24 S24x24 where
  lhsContracting := [1]
  rhsContracting := [0]
  lhsNonContracting := [0]
  rhsNonContracting := [1]
  lhsBatch := []
  rhsBatch := []
  wf := dot_S24x24_S24x24_S24x24_1_0_0_1_n_n_wf
def dot_S4096x96_S96x192_S4096x192_1_0_0_1_n_n : DotDims S4096x96 S96x192 S4096x192 where
  lhsContracting := [1]
  rhsContracting := [0]
  lhsNonContracting := [0]
  rhsNonContracting := [1]
  lhsBatch := []
  rhsBatch := []
  wf := dot_S4096x96_S96x192_S4096x192_1_0_0_1_n_n_wf
def dot_S4096x192_S192x192_S4096x192_1_0_0_1_n_n : DotDims S4096x192 S192x192 S4096x192 where
  lhsContracting := [1]
  rhsContracting := [0]
  lhsNonContracting := [0]
  rhsNonContracting := [1]
  lhsBatch := []
  rhsBatch := []
  wf := dot_S4096x192_S192x192_S4096x192_1_0_0_1_n_n_wf
def dot_S4096x192_S192x64_S4096x64_1_0_0_1_n_n : DotDims S4096x192 S192x64 S4096x64 where
  lhsContracting := [1]
  rhsContracting := [0]
  lhsNonContracting := [0]
  rhsNonContracting := [1]
  lhsBatch := []
  rhsBatch := []
  wf := dot_S4096x192_S192x64_S4096x64_1_0_0_1_n_n_wf
def dot_S4096x64_S64x2_S4096x2_1_0_0_1_n_n : DotDims S4096x64 S64x2 S4096x2 where
  lhsContracting := [1]
  rhsContracting := [0]
  lhsNonContracting := [0]
  rhsNonContracting := [1]
  lhsBatch := []
  rhsBatch := []
  wf := dot_S4096x64_S64x2_S4096x2_1_0_0_1_n_n_wf

abbrev win0_0 : Pipeline.Window sig grid0 :=
  Pipeline.Window.ofSpec (Memref.whole main_v104) S4096x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S96x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v93) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v89) S192x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v97) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v99) S192x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v100) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v102) S64x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v103) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v105) S4096x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x24x4 : Shape := ⟨3, ![131072, 24, 4]⟩
abbrev S2x128 : Shape := ⟨2, ![2, 128]⟩
abbrev S3x4x8 : Shape := ⟨3, ![3, 4, 8]⟩
abbrev S8 : Shape := ⟨1, ![8]⟩
abbrev S3x8x8 : Shape := ⟨3, ![3, 8, 8]⟩
abbrev S64x192 : Shape := ⟨2, ![64, 192]⟩
abbrev S64 : Shape := ⟨1, ![64]⟩
abbrev S2x64 : Shape := ⟨2, ![2, 64]⟩
abbrev S2 : Shape := ⟨1, ![2]⟩
abbrev S1x128 : Shape := ⟨2, ![1, 128]⟩
abbrev S128 : Shape := ⟨1, ![128]⟩
abbrev S_ : Shape := ⟨0, ![]⟩
abbrev S24 : Shape := ⟨1, ![24]⟩
abbrev S128x1 : Shape := ⟨2, ![128, 1]⟩
abbrev S131072x128x4 : Shape := ⟨3, ![131072, 128, 4]⟩
abbrev S1x128x1 : Shape := ⟨3, ![1, 128, 1]⟩
abbrev S1x4x8 : Shape := ⟨3, ![1, 4, 8]⟩
abbrev S4x8 : Shape := ⟨2, ![4, 8]⟩
abbrev S131072x24x8 : Shape := ⟨3, ![131072, 24, 8]⟩
abbrev S1x1x8 : Shape := ⟨3, ![1, 1, 8]⟩
abbrev S131072x128x8 : Shape := ⟨3, ![131072, 128, 8]⟩
abbrev S1x8x8 : Shape := ⟨3, ![1, 8, 8]⟩
abbrev S8x8 : Shape := ⟨2, ![8, 8]⟩
abbrev S131072x192 : Shape := ⟨2, ![131072, 192]⟩
abbrev S192x64 : Shape := ⟨2, ![192, 64]⟩
abbrev S131072x64 : Shape := ⟨2, ![131072, 64]⟩
abbrev S1x64 : Shape := ⟨2, ![1, 64]⟩
abbrev S64x2 : Shape := ⟨2, ![64, 2]⟩
abbrev S131072x2 : Shape := ⟨2, ![131072, 2]⟩
abbrev S1x2 : Shape := ⟨2, ![1, 2]⟩
abbrev S131072x1x2 : Shape := ⟨3, ![131072, 1, 2]⟩
abbrev S131072x1 : Shape := ⟨2, ![131072, 1]⟩
abbrev S131072x1x1 : Shape := ⟨3, ![131072, 1, 1]⟩

abbrev nBuf : Space → Nat
  | .hbm => 242
  | .vmem => 0
  | .smem => 0
  | _ => 0

abbrev hbmTy0_0 (i : Nat) : BufTy := match i % 128 with
  | 0 => ⟨S131072x24x4, .f32⟩
  | 1 => ⟨S2x128, .i32⟩
  | 2 => ⟨S3x4x8, .f32⟩
  | 3 => ⟨S8, .f32⟩
  | 4 => ⟨S3x8x8, .f32⟩
  | 5 => ⟨S8, .f32⟩
  | 6 => ⟨S64x192, .f32⟩
  | 7 => ⟨S64, .f32⟩
  | 8 => ⟨S2x64, .f32⟩
  | 9 => ⟨S2, .f32⟩
  | 10 => ⟨S1x128, .i32⟩
  | 11 => ⟨S128, .i32⟩
  | 12 => ⟨S1x128, .i32⟩
  | 13 => ⟨S128, .i32⟩
  | 14 => ⟨S_, .f32⟩
  | 15 => ⟨S24, .f32⟩
  | 16 => ⟨S_, .i32⟩
  | 17 => ⟨S128, .i32⟩
  | 18 => ⟨S128, .i1⟩
  | 19 => ⟨S_, .i32⟩
  | 20 => ⟨S128, .i32⟩
  | 21 => ⟨S128, .i32⟩
  | 22 => ⟨S128, .i32⟩
  | 23 => ⟨S128x1, .i32⟩
  | 24 => ⟨S_, .f32⟩
  | 25 => ⟨S128, .f32⟩
  | 26 => ⟨S24, .f32⟩
  | 27 => ⟨S_, .f32⟩
  | 28 => ⟨S24, .f32⟩
  | 29 => ⟨S24, .i1⟩
  | 30 => ⟨S_, .f32⟩
  | 31 => ⟨S24, .f32⟩
  | 32 => ⟨S24, .f32⟩
  | 33 => ⟨S_, .f32⟩
  | 34 => ⟨S_, .f32⟩
  | 35 => ⟨S24, .f32⟩
  | 36 => ⟨S24, .f32⟩
  | 37 => ⟨S_, .i32⟩
  | 38 => ⟨S128, .i32⟩
  | 39 => ⟨S128, .i1⟩
  | 40 => ⟨S_, .i32⟩
  | 41 => ⟨S128, .i32⟩
  | 42 => ⟨S128, .i32⟩
  | 43 => ⟨S128, .i32⟩
  | 44 => ⟨S128x1, .i32⟩
  | 45 => ⟨S128, .f32⟩
  | 46 => ⟨S128, .f32⟩
  | 47 => ⟨S_, .i32⟩
  | 48 => ⟨S128, .i32⟩
  | 49 => ⟨S128, .i1⟩
  | 50 => ⟨S_, .i32⟩
  | 51 => ⟨S128, .i32⟩
  | 52 => ⟨S128, .i32⟩
  | 53 => ⟨S128, .i32⟩
  | 54 => ⟨S128x1, .i32⟩
  | 55 => ⟨S128, .f32⟩
  | 56 => ⟨S128, .f32⟩
  | 57 => ⟨S_, .f32⟩
  | 58 => ⟨S131072x24x4, .f32⟩
  | 59 => ⟨S_, .i32⟩
  | 60 => ⟨S128, .i32⟩
  | 61 => ⟨S128, .i1⟩
  | 62 => ⟨S_, .i32⟩
  | 63 => ⟨S128, .i32⟩
  | 64 => ⟨S128, .i32⟩
  | 65 => ⟨S128, .i32⟩
  | 66 => ⟨S128x1, .i32⟩
  | 67 => ⟨S131072x128x4, .f32⟩
  | 68 => ⟨S1x128x1, .f32⟩
  | 69 => ⟨S131072x128x4, .f32⟩
  | 70 => ⟨S131072x128x4, .f32⟩
  | 71 => ⟨S_, .i32⟩
  | 72 => ⟨S128, .i32⟩
  | 73 => ⟨S128, .i1⟩
  | 74 => ⟨S_, .i32⟩
  | 75 => ⟨S128, .i32⟩
  | 76 => ⟨S128, .i32⟩
  | 77 => ⟨S128, .i32⟩
  | 78 => ⟨S128x1, .i32⟩
  | 79 => ⟨S131072x24x4, .f32⟩
  | 80 => ⟨S1x4x8, .f32⟩
  | 81 => ⟨S4x8, .f32⟩
  | 82 => ⟨S131072x24x8, .f32⟩
  | 83 => ⟨S1x4x8, .f32⟩
  | 84 => ⟨S4x8, .f32⟩
  | 85 => ⟨S131072x24x8, .f32⟩
  | 86 => ⟨S131072x24x8, .f32⟩
  | 87 => ⟨S_, .f32⟩
  | 88 => ⟨S131072x24x4, .f32⟩
  | 89 => ⟨S_, .i32⟩
  | 90 => ⟨S128, .i32⟩
  | 91 => ⟨S128, .i1⟩
  | 92 => ⟨S_, .i32⟩
  | 93 => ⟨S128, .i32⟩
  | 94 => ⟨S128, .i32⟩
  | 95 => ⟨S128, .i32⟩
  | 96 => ⟨S128x1, .i32⟩
  | 97 => ⟨S131072x128x4, .f32⟩
  | 98 => ⟨S1x128x1, .f32⟩
  | 99 => ⟨S131072x128x4, .f32⟩
  | 100 => ⟨S131072x128x4, .f32⟩
  | 101 => ⟨S_, .i32⟩
  | 102 => ⟨S128, .i32⟩
  | 103 => ⟨S128, .i1⟩
  | 104 => ⟨S_, .i32⟩
  | 105 => ⟨S128, .i32⟩
  | 106 => ⟨S128, .i32⟩
  | 107 => ⟨S128, .i32⟩
  | 108 => ⟨S128x1, .i32⟩
  | 109 => ⟨S131072x24x4, .f32⟩
  | 110 => ⟨S_, .f32⟩
  | 111 => ⟨S131072x24x4, .f32⟩
  | 112 => ⟨S131072x24x4, .f32⟩
  | 113 => ⟨S131072x24x4, .f32⟩
  | 114 => ⟨S1x4x8, .f32⟩
  | 115 => ⟨S4x8, .f32⟩
  | 116 => ⟨S131072x24x8, .f32⟩
  | 117 => ⟨S131072x24x8, .f32⟩
  | 118 => ⟨S1x1x8, .f32⟩
  | 119 => ⟨S131072x24x8, .f32⟩
  | 120 => ⟨S131072x24x8, .f32⟩
  | 121 => ⟨S_, .f32⟩
  | 122 => ⟨S131072x24x8, .f32⟩
  | 123 => ⟨S131072x24x8, .i1⟩
  | 124 => ⟨S_, .f32⟩
  | 125 => ⟨S131072x24x8, .f32⟩
  | 126 => ⟨S131072x24x8, .i1⟩
  | 127 => ⟨S_, .f32⟩
  | _ => ⟨S131072x24x4, .f32⟩

abbrev hbmTy0_1 (i : Nat) : BufTy := match i % 128 with
  | 0 => ⟨S_, .f32⟩
  | 1 => ⟨S131072x24x8, .f32⟩
  | 2 => ⟨S131072x24x8, .f32⟩
  | 3 => ⟨S131072x24x8, .f32⟩
  | 4 => ⟨S_, .f32⟩
  | 5 => ⟨S131072x24x8, .f32⟩
  | 6 => ⟨S131072x24x8, .f32⟩
  | 7 => ⟨S131072x24x8, .f32⟩
  | 8 => ⟨S_, .f32⟩
  | 9 => ⟨S131072x24x8, .f32⟩
  | 10 => ⟨S_, .i32⟩
  | 11 => ⟨S128, .i32⟩
  | 12 => ⟨S128, .i1⟩
  | 13 => ⟨S_, .i32⟩
  | 14 => ⟨S128, .i32⟩
  | 15 => ⟨S128, .i32⟩
  | 16 => ⟨S128, .i32⟩
  | 17 => ⟨S128x1, .i32⟩
  | 18 => ⟨S131072x128x8, .f32⟩
  | 19 => ⟨S1x128x1, .f32⟩
  | 20 => ⟨S131072x128x8, .f32⟩
  | 21 => ⟨S131072x128x8, .f32⟩
  | 22 => ⟨S_, .i32⟩
  | 23 => ⟨S128, .i32⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S131072x24x8, .f32⟩
  | 31 => ⟨S1x8x8, .f32⟩
  | 32 => ⟨S8x8, .f32⟩
  | 33 => ⟨S131072x24x8, .f32⟩
  | 34 => ⟨S1x8x8, .f32⟩
  | 35 => ⟨S8x8, .f32⟩
  | 36 => ⟨S131072x24x8, .f32⟩
  | 37 => ⟨S131072x24x8, .f32⟩
  | 38 => ⟨S_, .f32⟩
  | 39 => ⟨S131072x24x8, .f32⟩
  | 40 => ⟨S_, .i32⟩
  | 41 => ⟨S128, .i32⟩
  | 42 => ⟨S128, .i1⟩
  | 43 => ⟨S_, .i32⟩
  | 44 => ⟨S128, .i32⟩
  | 45 => ⟨S128, .i32⟩
  | 46 => ⟨S128, .i32⟩
  | 47 => ⟨S128x1, .i32⟩
  | 48 => ⟨S131072x128x8, .f32⟩
  | 49 => ⟨S1x128x1, .f32⟩
  | 50 => ⟨S131072x128x8, .f32⟩
  | 51 => ⟨S131072x128x8, .f32⟩
  | 52 => ⟨S_, .i32⟩
  | 53 => ⟨S128, .i32⟩
  | 54 => ⟨S128, .i1⟩
  | 55 => ⟨S_, .i32⟩
  | 56 => ⟨S128, .i32⟩
  | 57 => ⟨S128, .i32⟩
  | 58 => ⟨S128, .i32⟩
  | 59 => ⟨S128x1, .i32⟩
  | 60 => ⟨S131072x24x8, .f32⟩
  | 61 => ⟨S_, .f32⟩
  | 62 => ⟨S131072x24x8, .f32⟩
  | 63 => ⟨S131072x24x8, .f32⟩
  | 64 => ⟨S131072x24x8, .f32⟩
  | 65 => ⟨S1x8x8, .f32⟩
  | 66 => ⟨S8x8, .f32⟩
  | 67 => ⟨S131072x24x8, .f32⟩
  | 68 => ⟨S131072x24x8, .f32⟩
  | 69 => ⟨S1x1x8, .f32⟩
  | 70 => ⟨S131072x24x8, .f32⟩
  | 71 => ⟨S131072x24x8, .f32⟩
  | 72 => ⟨S_, .f32⟩
  | 73 => ⟨S131072x24x8, .f32⟩
  | 74 => ⟨S131072x24x8, .i1⟩
  | 75 => ⟨S_, .f32⟩
  | 76 => ⟨S131072x24x8, .f32⟩
  | 77 => ⟨S131072x24x8, .i1⟩
  | 78 => ⟨S_, .f32⟩
  | 79 => ⟨S_, .f32⟩
  | 80 => ⟨S131072x24x8, .f32⟩
  | 81 => ⟨S131072x24x8, .f32⟩
  | 82 => ⟨S131072x24x8, .f32⟩
  | 83 => ⟨S_, .f32⟩
  | 84 => ⟨S131072x24x8, .f32⟩
  | 85 => ⟨S131072x24x8, .f32⟩
  | 86 => ⟨S131072x24x8, .f32⟩
  | 87 => ⟨S131072x192, .f32⟩
  | 88 => ⟨S192x64, .f32⟩
  | 89 => ⟨S131072x64, .f32⟩
  | 90 => ⟨S1x64, .f32⟩
  | 91 => ⟨S131072x64, .f32⟩
  | 92 => ⟨S131072x64, .f32⟩
  | 93 => ⟨S64x2, .f32⟩
  | 94 => ⟨S131072x2, .f32⟩
  | 95 => ⟨S1x2, .f32⟩
  | 96 => ⟨S131072x2, .f32⟩
  | 97 => ⟨S131072x2, .f32⟩
  | 98 => ⟨S131072x1x2, .f32⟩
  | 99 => ⟨S_, .f32⟩
  | 100 => ⟨S131072x1, .f32⟩
  | 101 => ⟨S_, .f32⟩
  | 102 => ⟨S131072x1, .f32⟩
  | 103 => ⟨S131072x1, .f32⟩
  | 104 => ⟨S131072x1x1, .f32⟩
  | 105 => ⟨S131072x1x2, .f32⟩
  | 106 => ⟨S131072x1x2, .f32⟩
  | 107 => ⟨S131072x1x2, .f32⟩
  | 108 => ⟨S_, .f32⟩
  | 109 => ⟨S131072x1, .f32⟩
  | 110 => ⟨S131072x1x1, .f32⟩
  | 111 => ⟨S131072x1x1, .f32⟩
  | 112 => ⟨S131072x1x2, .f32⟩
  | 113 => ⟨S131072x1x2, .f32⟩
  | _ => ⟨S131072x24x4, .f32⟩

abbrev hbmTy (i : Nat) : BufTy := match i / 128 with
  | 0 => hbmTy0_0 i
  | 1 => hbmTy0_1 i
  | _ => ⟨S131072x24x4, .f32⟩

abbrev bufTy : (tb : Table) → Fin (tcTables nBuf tb) → BufTy
  | .hbm, ⟨i, _⟩ => hbmTy i
  | _, _ => ⟨S131072x24x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_c_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_19 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_call1_cst : Ref sig .tc := ⟨.hbm, 121, rfl⟩
abbrev main_call1_v0 : Ref sig .tc := ⟨.hbm, 122, rfl⟩
abbrev main_call1_v1 : Ref sig .tc := ⟨.hbm, 123, rfl⟩
abbrev main_call1_cst_0 : Ref sig .tc := ⟨.hbm, 124, rfl⟩
abbrev main_call1_v2 : Ref sig .tc := ⟨.hbm, 125, rfl⟩
abbrev main_call1_v3 : Ref sig .tc := ⟨.hbm, 126, rfl⟩
abbrev main_call1_cst_1 : Ref sig .tc := ⟨.hbm, 127, rfl⟩
abbrev main_call1_call0_v0 : Ref sig .tc := ⟨.hbm, 128, rfl⟩
abbrev main_call1_call0_v1 : Ref sig .tc := ⟨.hbm, 129, rfl⟩
abbrev main_call1_v4 : Ref sig .tc := ⟨.hbm, 130, rfl⟩
abbrev main_call1_v5 : Ref sig .tc := ⟨.hbm, 131, rfl⟩
abbrev main_call1_cst_2 : Ref sig .tc := ⟨.hbm, 132, rfl⟩
abbrev main_call1_v6 : Ref sig .tc := ⟨.hbm, 133, rfl⟩
abbrev main_call1_v7 : Ref sig .tc := ⟨.hbm, 134, rfl⟩
abbrev main_v87 : Ref sig .tc := ⟨.hbm, 135, rfl⟩
abbrev main_cst_20 : Ref sig .tc := ⟨.hbm, 136, rfl⟩
abbrev main_v88 : Ref sig .tc := ⟨.hbm, 137, rfl⟩
abbrev main_c_21 : Ref sig .tc := ⟨.hbm, 138, rfl⟩
abbrev main_v89 : Ref sig .tc := ⟨.hbm, 139, rfl⟩
abbrev main_v90 : Ref sig .tc := ⟨.hbm, 140, rfl⟩
abbrev main_c_22 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_23 : Ref sig .tc := ⟨.hbm, 150, rfl⟩
abbrev main_v99 : Ref sig .tc := ⟨.hbm, 151, rfl⟩
abbrev main_v100 : Ref sig .tc := ⟨.hbm, 152, rfl⟩
abbrev main_c_24 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_25 : Ref sig .tc := ⟨.hbm, 166, rfl⟩
abbrev main_v113 : Ref sig .tc := ⟨.hbm, 167, rfl⟩
abbrev main_c_26 : Ref sig .tc := ⟨.hbm, 168, rfl⟩
abbrev main_v114 : Ref sig .tc := ⟨.hbm, 169, rfl⟩
abbrev main_v115 : Ref sig .tc := ⟨.hbm, 170, rfl⟩
abbrev main_c_27 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_c_28 : Ref sig .tc := ⟨.hbm, 180, rfl⟩
abbrev main_v124 : Ref sig .tc := ⟨.hbm, 181, rfl⟩
abbrev main_v125 : Ref sig .tc := ⟨.hbm, 182, rfl⟩
abbrev main_c_29 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_30 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_call2_cst : Ref sig .tc := ⟨.hbm, 200, rfl⟩
abbrev main_call2_v0 : Ref sig .tc := ⟨.hbm, 201, rfl⟩
abbrev main_call2_v1 : Ref sig .tc := ⟨.hbm, 202, rfl⟩
abbrev main_call2_cst_0 : Ref sig .tc := ⟨.hbm, 203, rfl⟩
abbrev main_call2_v2 : Ref sig .tc := ⟨.hbm, 204, rfl⟩
abbrev main_call2_v3 : Ref sig .tc := ⟨.hbm, 205, rfl⟩
abbrev main_call2_cst_1 : Ref sig .tc := ⟨.hbm, 206, rfl⟩
abbrev main_call2_call0_v0 : Ref sig .tc := ⟨.hbm, 207, rfl⟩
abbrev main_call2_call0_v1 : Ref sig .tc := ⟨.hbm, 208, rfl⟩
abbrev main_call2_v4 : Ref sig .tc := ⟨.hbm, 209, rfl⟩
abbrev main_call2_v5 : Ref sig .tc := ⟨.hbm, 210, rfl⟩
abbrev main_call2_cst_2 : Ref sig .tc := ⟨.hbm, 211, rfl⟩
abbrev main_call2_v6 : Ref sig .tc := ⟨.hbm, 212, rfl⟩
abbrev main_call2_v7 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_call3_cst : Ref sig .tc := ⟨.hbm, 227, rfl⟩
abbrev main_call3_v0 : Ref sig .tc := ⟨.hbm, 228, rfl⟩
abbrev main_call3_cst_0 : Ref sig .tc := ⟨.hbm, 229, rfl⟩
abbrev main_call3_v1 : Ref sig .tc := ⟨.hbm, 230, rfl⟩
abbrev main_call3_v2 : Ref sig .tc := ⟨.hbm, 231, rfl⟩
abbrev main_call3_v3 : Ref sig .tc := ⟨.hbm, 232, rfl⟩
abbrev main_call3_v4 : Ref sig .tc := ⟨.hbm, 233, rfl⟩
abbrev main_call3_v5 : Ref sig .tc := ⟨.hbm, 234, rfl⟩
abbrev main_call3_v6 : Ref sig .tc := ⟨.hbm, 235, rfl⟩
abbrev main_call3_cst_1 : Ref sig .tc := ⟨.hbm, 236, rfl⟩
abbrev main_call3_v7 : Ref sig .tc := ⟨.hbm, 237, rfl⟩
abbrev main_call3_v8 : Ref sig .tc := ⟨.hbm, 238, rfl⟩
abbrev main_call3_v9 : Ref sig .tc := ⟨.hbm, 239, rfl⟩
abbrev main_call3_v10 : Ref sig .tc := ⟨.hbm, 240, rfl⟩
abbrev main_v154 : Ref sig .tc := ⟨.hbm, 241, rfl⟩

abbrev nD : Nat := 1
abbrev τ : Topo := Topo.v7x

variable {F : FTy → Type} [FloatOps F]

class Facts₀ : Prop where
  slices_S2x128_S1x128_0_0 : S2x128.Slices ![0, 0] S1x128
  shapeCasts_S1x128_S128 : S1x128.ShapeCasts S128
  slices_S2x128_S1x128_1_0 : S2x128.Slices ![1, 0] S1x128
  bcast_S_S24 : S_.BroadcastsInDim S24 (![] : Fin 0 → Fin S24.rank)
  bcast_S_S128 : S_.BroadcastsInDim S128 (![] : Fin 0 → Fin S128.rank)
  bcast_S128_S128x1_0 : S128.BroadcastsInDim S128x1 (![0] : Fin 1 → Fin S128x1.rank)
  bcast_S_S131072x24x4 : S_.BroadcastsInDim S131072x24x4 (![] : Fin 0 → Fin S131072x24x4.rank)
  bcast_S128_S1x128x1_1 : S128.BroadcastsInDim S1x128x1 (![1] : Fin 1 → Fin S1x128x1.rank)
  bcast_S1x128x1_S131072x128x4_0_1_2 : S1x128x1.BroadcastsInDim S131072x128x4 (![0, 1, 2] : Fin 3 → Fin S131072x128x4.rank)
  slices_S3x4x8_S1x4x8_0_0_0 : S3x4x8.Slices ![0, 0, 0] S1x4x8
  shapeCasts_S1x4x8_S4x8 : S1x4x8.ShapeCasts S4x8
  slices_S3x4x8_S1x4x8_1_0_0 : S3x4x8.Slices ![1, 0, 0] S1x4x8
  slices_S3x4x8_S1x4x8_2_0_0 : S3x4x8.Slices ![2, 0, 0] S1x4x8
  bcast_S8_S1x1x8_2 : S8.BroadcastsInDim S1x1x8 (![2] : Fin 1 → Fin S1x1x8.rank)
  bcast_S1x1x8_S131072x24x8_0_1_2 : S1x1x8.BroadcastsInDim S131072x24x8 (![0, 1, 2] : Fin 3 → Fin S131072x24x8.rank)
  bcast_S_S131072x24x8 : S_.BroadcastsInDim S131072x24x8 (![] : Fin 0 → Fin S131072x24x8.rank)
  bcast_S1x128x1_S131072x128x8_0_1_2 : S1x128x1.BroadcastsInDim S131072x128x8 (![0, 1, 2] : Fin 3 → Fin S131072x128x8.rank)
  slices_S3x8x8_S1x8x8_0_0_0 : S3x8x8.Slices ![0, 0, 0] S1x8x8
  shapeCasts_S1x8x8_S8x8 : S1x8x8.ShapeCasts S8x8
  slices_S3x8x8_S1x8x8_1_0_0 : S3x8x8.Slices ![1, 0, 0] S1x8x8
  slices_S3x8x8_S1x8x8_2_0_0 : S3x8x8.Slices ![2, 0, 0] S1x8x8
  shapeCasts_S131072x24x8_S131072x192 : S131072x24x8.ShapeCasts S131072x192
  transposes_S64x192_S192x64_1_0 : S64x192.Transposes [1, 0] S192x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  transposes_S2x64_S64x2_1_0 : S2x64.Transposes [1, 0] S64x2
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  shapeCasts_S131072x2_S131072x1x2 : S131072x2.ShapeCasts S131072x1x2
  reducesTo_S131072x1x2_S131072x1_d2 : S131072x1x2.ReducesTo [2] S131072x1
  h_S_ : 0 < S_.numel
  bcast_S_S131072x1 : S_.BroadcastsInDim S131072x1 (![] : Fin 0 → Fin S131072x1.rank)
  bcast_S131072x1_S131072x1x1_0_1 : S131072x1.BroadcastsInDim S131072x1x1 (![0, 1] : Fin 2 → Fin S131072x1x1.rank)
  bcast_S131072x1x1_S131072x1x2_0_1_2 : S131072x1x1.BroadcastsInDim S131072x1x2 (![0, 1, 2] : Fin 3 → Fin S131072x1x2.rank)
  scatter_S24_S128x1_S128_n_0_0_1_wf : ScatterDims.WF S24 S128x1 S128 [] [0] [0] 1
  gather_S24_S128x1_S128_n_0_n_n_0_1_1_wf : GatherDims.WF S24 S128x1 S128 [] [0] [] [0] [] 1 ![1]
  gather_S131072x24x4_S128x1_S131072x128x4_02_1_n_n_1_1_13107214_wf : GatherDims.WF S131072x24x4 S128x1 S131072x128x4 [0, 2] [1] [] [1] [] 1 ![131072, 1, 4]
  scatter_S131072x24x4_S128x1_S131072x128x4_02_1_1_1_wf : ScatterDims.WF S131072x24x4 S128x1 S131072x128x4 [0, 2] [1] [1] 1
  dot_S131072x24x4_S4x8_S131072x24x8_2_0_01_1_n_n_wf : DotDims.WF S131072x24x4 S4x8 S131072x24x8 [2] [0] [0, 1] [1] [] []
  gather_S131072x24x8_S128x1_S131072x128x8_02_1_n_n_1_1_13107218_wf : GatherDims.WF S131072x24x8 S128x1 S131072x128x8 [0, 2] [1] [] [1] [] 1 ![131072, 1, 8]
  scatter_S131072x24x8_S128x1_S131072x128x8_02_1_1_1_wf : ScatterDims.WF S131072x24x8 S128x1 S131072x128x8 [0, 2] [1] [1] 1
  dot_S131072x24x8_S8x8_S131072x24x8_2_0_01_1_n_n_wf : DotDims.WF S131072x24x8 S8x8 S131072x24x8 [2] [0] [0, 1] [1] [] []
  dot_S131072x192_S192x64_S131072x64_1_0_0_1_n_n_wf : DotDims.WF S131072x192 S192x64 S131072x64 [1] [0] [0] [1] [] []
  dot_S131072x64_S64x2_S131072x2_1_0_0_1_n_n_wf : DotDims.WF S131072x64 S64x2 S131072x2 [1] [0] [0] [1] [] []

variable [Facts₀]

def scatter_S24_S128x1_S128_n_0_0_1 : ScatterDims S24 S128x1 S128 where
  updateWindowDims := []
  insertedWindowDims := [0]
  scatterDimsToOperandDims := [0]
  indexVectorDim := 1
  wf := scatter_S24_S128x1_S128_n_0_0_1_wf
def gather_S24_S128x1_S128_n_0_n_n_0_1_1 : GatherDims S24 S128x1 S128 where
  offsetDims := []
  collapsedSliceDims := [0]
  operandBatchingDims := []
  startIndicesBatchingDims := []
  startIndexMap := [0]
  indexVectorDim := 1
  sliceSizes := ![1]
  wf := gather_S24_S128x1_S128_n_0_n_n_0_1_1_wf
def gather_S131072x24x4_S128x1_S131072x128x4_02_1_n_n_1_1_13107214 : GatherDims S131072x24x4 S128x1 S131072x128x4 where
  offsetDims := [0, 2]
  collapsedSliceDims := [1]
  operandBatchingDims := []
  startIndicesBatchingDims := []
  startIndexMap := [1]
  indexVectorDim := 1
  sliceSizes := ![131072, 1, 4]
  wf := gather_S131072x24x4_S128x1_S131072x128x4_02_1_n_n_1_1_13107214_wf
def scatter_S131072x24x4_S128x1_S131072x128x4_02_1_1_1 : ScatterDims S131072x24x4 S128x1 S131072x128x4 where
  updateWindowDims := [0, 2]
  insertedWindowDims := [1]
  scatterDimsToOperandDims := [1]
  indexVectorDim := 1
  wf := scatter_S131072x24x4_S128x1_S131072x128x4_02_1_1_1_wf
def dot_S131072x24x4_S4x8_S131072x24x8_2_0_01_1_n_n : DotDims S131072x24x4 S4x8 S131072x24x8 where
  lhsContracting := [2]
  rhsContracting := [0]
  lhsNonContracting := [0, 1]
  rhsNonContracting := [1]
  lhsBatch := []
  rhsBatch := []
  wf := dot_S131072x24x4_S4x8_S131072x24x8_2_0_01_1_n_n_wf
def gather_S131072x24x8_S128x1_S131072x128x8_02_1_n_n_1_1_13107218 : GatherDims S131072x24x8 S128x1 S131072x128x8 where
  offsetDims := [0, 2]
  collapsedSliceDims := [1]
  operandBatchingDims := []
  startIndicesBatchingDims := []
  startIndexMap := [1]
  indexVectorDim := 1
  sliceSizes := ![131072, 1, 8]
  wf := gather_S131072x24x8_S128x1_S131072x128x8_02_1_n_n_1_1_13107218_wf
def scatter_S131072x24x8_S128x1_S131072x128x8_02_1_1_1 : ScatterDims S131072x24x8 S128x1 S131072x128x8 where
  updateWindowDims := [0, 2]
  insertedWindowDims := [1]
  scatterDimsToOperandDims := [1]
  indexVectorDim := 1
  wf := scatter_S131072x24x8_S128x1_S131072x128x8_02_1_1_1_wf
def dot_S131072x24x8_S8x8_S131072x24x8_2_0_01_1_n_n : DotDims S131072x24x8 S8x8 S131072x24x8 where
  lhsContracting := [2]
  rhsContracting := [0]
  lhsNonContracting := [0, 1]
  rhsNonContracting := [1]
  lhsBatch := []
  rhsBatch := []
  wf := dot_S131072x24x8_S8x8_S131072x24x8_2_0_01_1_n_n_wf
def dot_S131072x192_S192x64_S131072x64_1_0_0_1_n_n : DotDims S131072x192 S192x64 S131072x64 where
  lhsContracting := [1]
  rhsContracting := [0]
  lhsNonContracting := [0]
  rhsNonContracting := [1]
  lhsBatch := []
  rhsBatch := []
  wf := dot_S131072x192_S192x64_S131072x64_1_0_0_1_n_n_wf
def dot_S131072x64_S64x2_S131072x2_1_0_0_1_n_n : DotDims S131072x64 S64x2 S131072x2 where
  lhsContracting := [1]
  rhsContracting := [0]
  lhsNonContracting := [0]
  rhsNonContracting := [1]
  lhsBatch := []
  rhsBatch := []
  wf := dot_S131072x64_S64x2_S131072x2_1_0_0_1_n_n_wf

class Facts : Prop extends Facts₀ where

variable [Facts]
-- ==== Proof.RefTerm.lean ====
/-
  The reference function as a composition of stage functions.

  * `rowV`, `colV`: the two rows of the edge list, as vectors of 128 node indices.
  * `wrapC`: an index vector with its negative entries shifted up by the number of nodes (24), as a column.
  * `dinvT`: the degree of each node (a scatter-add of ones along the rows) to the power -1/2 where the degree is
    positive, zero elsewhere.
  * `ewT`: the edge weights  -(dinv[row]) * dinv[col].
  * `prop4`, `prop8`: one propagation step: gather along the columns, scale by the edge weight, scatter-add along
    the rows (on four and on eight features).
  * `slab4_k`, `slab8_k`: the k-th weight matrix of a layer.
  * `cheb4`, `cheb8`: a Chebyshev layer of order three: T0 = z, T1 = prop z, T2 = 2 prop T1 - z, the sum of
    Tk times the k-th weight matrix, plus the bias.
  * `eluT`: the exponential linear unit, entry by entry.
  * `logitsT`, `shiftT`, `lsmT`, `headT`: the two dense layers, the logits less their maximum over the two classes,
    the log-softmax, and their composition.
  * `refOut`: the whole function of the ten arguments.
-/
import proofs.«144586_j5729486372945_2_alg».proof.ReferenceIdeal
import Idealize.ShloMosaic.PureOps.Ideal

noncomputable section

namespace Cert.Cheb.RefRun

open Idealize.ShloMosaic Cert.ReferenceIdeal Cert.ReferenceIdeal.Facts₀ Cert.ReferenceIdeal.Facts

variable [Cert.ReferenceIdeal.Facts]

/-- Ops %0, %1: the first row of the edge list. -/
def rowV (ei : IVec S2x128 32) : IVec S128 32 :=
  shapeCast S128 (extractStridedSlice S1x128 ![0, 0] ei slices_S2x128_S1x128_0_0) shapeCasts_S1x128_S128

/-- Ops %2, %3: the second row of the edge list. -/
def colV (ei : IVec S2x128 32) : IVec S128 32 :=
  shapeCast S128 (extractStridedSlice S1x128 ![1, 0] ei slices_S2x128_S1x128_1_0) shapeCasts_S1x128_S128

/-- The pattern of ops %c, %5, %6, %c_0, %7, %8, %9, %10: entries below zero shifted up by 24, as a column. -/
def wrapC (v : IVec S128 32) : IVec S128x1 32 :=
  broadcastInDim S128x1 ![0] bcast_S128_S128x1_0
    (select (cmpi .slt v (broadcastInDim S128 ![] bcast_S_S128 (constantI S_ 32 0#32)))
      (addi v (broadcastInDim S128 ![] bcast_S_S128 (constantI S_ 32 24#32))) v)

/-- Ops %cst … %17: the degree (a scatter-add of ones along the rows) to the power -1/2 where it is positive,
    zero elsewhere. -/
def dinvT (ei : IVec S2x128 32) : FVec Ideal S24 .f32 :=
  select
    (cmpf .ogt
      (Host.scatterAdd (F := Ideal) scatter_S24_S128x1_S128_n_0_0_1
        (broadcastInDim S24 ![] bcast_S_S24 (constant (F := Ideal) S_ .f32 0x00000000#32))
        (wrapC (rowV ei))
        (broadcastInDim S128 ![] bcast_S_S128 (constant (F := Ideal) S_ .f32 0x3F800000#32)))
      (broadcastInDim S24 ![] bcast_S_S24 (constant (F := Ideal) S_ .f32 0x00000000#32)))
    (Host.powf (F := Ideal)
      (Host.scatterAdd (F := Ideal) scatter_S24_S128x1_S128_n_0_0_1
        (broadcastInDim S24 ![] bcast_S_S24 (constant (F := Ideal) S_ .f32 0x00000000#32))
        (wrapC (rowV ei))
        (broadcastInDim S128 ![] bcast_S_S128 (constant (F := Ideal) S_ .f32 0x3F800000#32)))
      (broadcastInDim S24 ![] bcast_S_S24 (constant (F := Ideal) S_ .f32 0xBF000000#32)))
    (broadcastInDim S24 ![] bcast_S_S24 (id (constant (F := Ideal) S_ .f32 0x00000000#32)))

/-- Ops %cst … %33: the edge weights. -/
def ewT (ei : IVec S2x128 32) : FVec Ideal S128 .f32 :=
  mulf
    (Host.negf (F := Ideal) (Host.gather gather_S24_S128x1_S128_n_0_n_n_0_1_1 (dinvT ei) (wrapC (rowV ei))))
    (Host.gather gather_S24_S128x1_S128_n_0_n_n_0_1_1 (dinvT ei) (wrapC (colV ei)))

/-- The pattern of ops %34, %41–%44, %51: one propagation step on four features. -/
def prop4 (rowC colC : IVec S128x1 32) (ew : FVec Ideal S128 .f32) (z : FVec Ideal S131072x24x4 .f32) :
    FVec Ideal S131072x24x4 .f32 :=
  Host.scatterAdd (F := Ideal) scatter_S131072x24x4_S128x1_S131072x128x4_02_1_1_1
    (broadcastInDim S131072x24x4 ![] bcast_S_S131072x24x4 (constant (F := Ideal) S_ .f32 0x00000000#32))
    rowC
    (mulf (Host.gather gather_S131072x24x4_S128x1_S131072x128x4_02_1_n_n_1_1_13107214 z colC)
      (broadcastInDim S131072x128x4 ![0, 1, 2] bcast_S1x128x1_S131072x128x4_0_1_2
        (broadcastInDim S1x128x1 ![1] bcast_S128_S1x128x1_1 ew)))

/-- The pattern of ops %88, %95–%98, %105: one propagation step on eight features. -/
def prop8 (rowC colC : IVec S128x1 32) (ew : FVec Ideal S128 .f32) (z : FVec Ideal S131072x24x8 .f32) :
    FVec Ideal S131072x24x8 .f32 :=
  Host.scatterAdd (F := Ideal) scatter_S131072x24x8_S128x1_S131072x128x8_02_1_1_1
    (broadcastInDim S131072x24x8 ![] bcast_S_S131072x24x8 (constant (F := Ideal) S_ .f32 0x00000000#32))
    rowC
    (mulf (Host.gather gather_S131072x24x8_S128x1_S131072x128x8_02_1_n_n_1_1_13107218 z colC)
      (broadcastInDim S131072x128x8 ![0, 1, 2] bcast_S1x128x1_S131072x128x8_0_1_2
        (broadcastInDim S1x128x1 ![1] bcast_S128_S1x128x1_1 ew)))

/-- Ops %52, %53: the first weight matrix of the first layer. -/
def slab4_0 (W : FVec Ideal S3x4x8 .f32) : FVec Ideal S4x8 .f32 :=
  shapeCast S4x8 (extractStridedSlice S1x4x8 ![0, 0, 0] W slices_S3x4x8_S1x4x8_0_0_0) shapeCasts_S1x4x8_S4x8
/-- Ops %55, %56: the second. -/
def slab4_1 (W : FVec Ideal S3x4x8 .f32) : FVec Ideal S4x8 .f32 :=
  shapeCast S4x8 (extractStridedSlice S1x4x8 ![1, 0, 0] W slices_S3x4x8_S1x4x8_1_0_0) shapeCasts_S1x4x8_S4x8
/-- Ops %80, %81: the third. -/
def slab4_2 (W : FVec Ideal S3x4x8 .f32) : FVec Ideal S4x8 .f32 :=
  shapeCast S4x8 (extractStridedSlice S1x4x8 ![2, 0, 0] W slices_S3x4x8_S1x4x8_2_0_0) shapeCasts_S1x4x8_S4x8

/-- Ops %106, %107: the first weight matrix of the second layer. -/
def slab8_0 (W : FVec Ideal S3x8x8 .f32) : FVec Ideal S8x8 .f32 :=
  shapeCast S8x8 (extractStridedSlice S1x8x8 ![0, 0, 0] W slices_S3x8x8_S1x8x8_0_0_0) shapeCasts_S1x8x8_S8x8
/-- Ops %109, %110: the second. -/
def slab8_1 (W : FVec Ideal S3x8x8 .f32) : FVec Ideal S8x8 .f32 :=
  shapeCast S8x8 (extractStridedSlice S1x8x8 ![1, 0, 0] W slices_S3x8x8_S1x8x8_1_0_0) shapeCasts_S1x8x8_S8x8
/-- Ops %134, %135: the third. -/
def slab8_2 (W : FVec Ideal S3x8x8 .f32) : FVec Ideal S8x8 .f32 :=
  shapeCast S8x8 (extractStridedSlice S1x8x8 ![2, 0, 0] W slices_S3x8x8_S1x8x8_2_0_0) shapeCasts_S1x8x8_S8x8

/-- Ops %34–%86: the first Chebyshev layer. -/
def cheb4 (rowC colC : IVec S128x1 32) (ew : FVec Ideal S128 .f32) (z : FVec Ideal S131072x24x4 .f32)
    (W : FVec Ideal S3x4x8 .f32) (b : FVec Ideal S8 .f32) : FVec Ideal S131072x24x8 .f32 :=
  addf
    (addf
      (addf
        (Host.dotGeneral (F := Ideal) dot_S131072x24x4_S4x8_S131072x24x8_2_0_01_1_n_n none z (slab4_0 W))
        (Host.dotGeneral (F := Ideal) dot_S131072x24x4_S4x8_S131072x24x8_2_0_01_1_n_n none (prop4 rowC colC ew z) (slab4_1 W)))
      (Host.dotGeneral (F := Ideal) dot_S131072x24x4_S4x8_S131072x24x8_2_0_01_1_n_n none
        (subf
          (mulf (broadcastInDim S131072x24x4 ![] bcast_S_S131072x24x4 (constant (F := Ideal) S_ .f32 0x40000000#32))
            (prop4 rowC colC ew (prop4 rowC colC ew z)))
          z)
        (slab4_2 W)))
    (broadcastInDim S131072x24x8 ![0, 1, 2] bcast_S1x1x8_S131072x24x8_0_1_2
      (broadcastInDim S1x1x8 ![2] bcast_S8_S1x1x8_2 b))

/-- Ops %88–%140: the second Chebyshev layer. -/
def cheb8 (rowC colC : IVec S128x1 32) (ew : FVec Ideal S128 .f32) (z : FVec Ideal S131072x24x8 .f32)
    (W : FVec Ideal S3x8x8 .f32) (b : FVec Ideal S8 .f32) : FVec Ideal S131072x24x8 .f32 :=
  addf
    (addf
      (addf
        (Host.dotGeneral (F := Ideal) dot_S131072x24x8_S8x8_S131072x24x8_2_0_01_1_n_n none z (slab8_0 W))
        (Host.dotGeneral (F := Ideal) dot_S131072x24x8_S8x8_S131072x24x8_2_0_01_1_n_n none (prop8 rowC colC ew z) (slab8_1 W)))
      (Host.dotGeneral (F := Ideal) dot_S131072x24x8_S8x8_S131072x24x8_2_0_01_1_n_n none
        (subf
          (mulf (broadcastInDim S131072x24x8 ![] bcast_S_S131072x24x8 (constant (F := Ideal) S_ .f32 0x40000000#32))
            (prop8 rowC colC ew (prop8 rowC colC ew z)))
          z)
        (slab8_2 W)))
    (broadcastInDim S131072x24x8 ![0, 1, 2] bcast_S1x1x8_S131072x24x8_0_1_2
      (broadcastInDim S1x1x8 ![2] bcast_S8_S1x1x8_2 b))

/-- The call of the exponential linear unit: where the entry is positive the entry, elsewhere
    1 * expm1 of (the entry where it is not positive, zero where it is). -/
def eluT (v : FVec Ideal S131072x24x8 .f32) : FVec Ideal S131072x24x8 .f32 :=
  select
    (cmpf .ogt v (broadcastInDim S131072x24x8 ![] bcast_S_S131072x24x8 (constant (F := Ideal) S_ .f32 0x00000000#32)))
    v
    (mulf
      (broadcastInDim S131072x24x8 ![] bcast_S_S131072x24x8 (constant (F := Ideal) S_ .f32 0x3F800000#32))
      (Host.expm1 (F := Ideal)
        (select
          (cmpf .ogt v (broadcastInDim S131072x24x8 ![] bcast_S_S131072x24x8 (constant (F := Ideal) S_ .f32 0x00000000#32)))
          (broadcastInDim S131072x24x8 ![] bcast_S_S131072x24x8 (id (constant (F := Ideal) S_ .f32 0x00000000#32)))
          v)))

/-- Ops %142 … %153: the two dense layers, the logits as a 131072 x 1 x 2 array. -/
def logitsT (h : FVec Ideal S131072x24x8 .f32) (fc1W : FVec Ideal S64x192 .f32) (fc1b : FVec Ideal S64 .f32)
    (fc2W : FVec Ideal S2x64 .f32) (fc2b : FVec Ideal S2 .f32) : FVec Ideal S131072x1x2 .f32 :=
  shapeCast S131072x1x2
    (addf
      (Host.dotGeneral (F := Ideal) dot_S131072x64_S64x2_S131072x2_1_0_0_1_n_n none
        (addf
          (Host.dotGeneral (F := Ideal) dot_S131072x192_S192x64_S131072x64_1_0_0_1_n_n none
            (shapeCast S131072x192 h shapeCasts_S131072x24x8_S131072x192)
            (transpose S192x64 [1, 0] fc1W transposes_S64x192_S192x64_1_0))
          (broadcastInDim S131072x64 ![0, 1] bcast_S1x64_S131072x64_0_1
            (broadcastInDim S1x64 ![1] bcast_S64_S1x64_1 fc1b)))
        (transpose S64x2 [1, 0] fc2W transposes_S2x64_S64x2_1_0))
      (broadcastInDim S131072x2 ![0, 1] bcast_S1x2_S131072x2_0_1
        (broadcastInDim S1x2 ![1] bcast_S2_S1x2_1 fc2b)))
    shapeCasts_S131072x2_S131072x1x2

/-- The logits less their maximum over the two classes (ops %cst … %5 of the log-softmax call). -/
def shiftT (l : FVec Ideal S131072x1x2 .f32) : FVec Ideal S131072x1x2 .f32 :=
  subf l
    (broadcastInDim S131072x1x2 ![0, 1, 2] bcast_S131072x1x1_S131072x1x2_0_1_2
      (broadcastInDim S131072x1x1 ![0, 1] bcast_S131072x1_S131072x1x1_0_1
        (maximumf
          (broadcastInDim S131072x1 ![] bcast_S_S131072x1 (constant (F := Ideal) S_ .f32 0xFF800000#32))
          (Host.reduce (FloatOps.maximumf (F := Ideal) (φ := .f32)) l (constant (F := Ideal) S_ .f32 0xFF800000#32)
            reducesTo_S131072x1x2_S131072x1_d2 h_S_))))

/-- The log-softmax call (ops %cst … %11 of it): the shifted logits less the logarithm of the sum of their
    exponentials. -/
def lsmT (l : FVec Ideal S131072x1x2 .f32) : FVec Ideal S131072x1x2 .f32 :=
  subf (shiftT l)
    (broadcastInDim S131072x1x2 ![0, 1, 2] bcast_S131072x1x1_S131072x1x2_0_1_2
      (Host.log (F := Ideal)
        (broadcastInDim S131072x1x1 ![0, 1] bcast_S131072x1_S131072x1x1_0_1
          (Host.reduceAdd (F := Ideal) (Host.exp (F := Ideal) (shiftT l)) (constant (F := Ideal) S_ .f32 0x00000000#32)
            reducesTo_S131072x1x2_S131072x1_d2 h_S_))))

/-- Ops %142 … %154: the dense layers and the log-softmax. -/
def headT (h : FVec Ideal S131072x24x8 .f32) (fc1W : FVec Ideal S64x192 .f32) (fc1b : FVec Ideal S64 .f32)
    (fc2W : FVec Ideal S2x64 .f32) (fc2b : FVec Ideal S2 .f32) : FVec Ideal S131072x1x2 .f32 :=
  lsmT (logitsT h fc1W fc1b fc2W fc2b)

/-- The reference's result, of its ten arguments. -/
def refOut (x : FVec Ideal S131072x24x4 .f32) (ei : IVec S2x128 32) (W1 : FVec Ideal S3x4x8 .f32) (b1 : FVec Ideal S8 .f32)
    (W2 : FVec Ideal S3x8x8 .f32) (b2 : FVec Ideal S8 .f32) (fc1W : FVec Ideal S64x192 .f32) (fc1b : FVec Ideal S64 .f32)
    (fc2W : FVec Ideal S2x64 .f32) (fc2b : FVec Ideal S2 .f32) : FVec Ideal S131072x1x2 .f32 :=
  headT
    (eluT (cheb8 (wrapC (rowV ei)) (wrapC (colV ei)) (ewT ei)
      (eluT (cheb4 (wrapC (rowV ei)) (wrapC (colV ei)) (ewT ei) x W1 b1)) W2 b2))
    fc1W fc1b fc2W fc2b

end Cert.Cheb.RefRun

end
-- ==== Proof.RefOps0.lean ====
/-
  The operations of statements 1 to 60 of the reference function, in order, as one list (a call of a
  local function stands as the callee's operations over the buffers of that call), and what the buffers read
  later hold once the list has run, in terms of the stage functions.
-/
import proofs.«144586_j5729486372945_2_alg».proof.Proof.RefTerm
import Idealize.ShloMosaic.Lib.StableHlo.Run
import Idealize.ShloMosaic.Lib.Pipeline.Regions

noncomputable section

namespace Cert.Cheb.RefRun

open Idealize.ShloMosaic Idealize.ShloMosaic.TcCoe Idealize.SL.Sem Idealize.ShloMosaic.StableHlo
open Cert.ReferenceIdeal Cert.ReferenceIdeal.Facts₀ Cert.ReferenceIdeal.Facts

variable [Cert.ReferenceIdeal.Facts]

section Ops
variable {F : FTy → Type} [FloatOps F]
/-- The operations of the window, in order. -/
abbrev ops0 : List (HloOp τ sig (Elt F)) :=
  [ StableHlo.unary main_arg1 main_v0 ((extractStridedSlice S1x128 ![0, 0] · slices_S2x128_S1x128_0_0) : (⟨S2x128, .i32⟩ : BufTy).Contents (Elt F) → (⟨S1x128, .i32⟩ : BufTy).Contents (Elt F)),
    StableHlo.reshape main_v0 main_v1 rfl shapeCasts_S1x128_S128,
    StableHlo.unary main_arg1 main_v2 ((extractStridedSlice S1x128 ![1, 0] · slices_S2x128_S1x128_1_0) : (⟨S2x128, .i32⟩ : BufTy).Contents (Elt F) → (⟨S1x128, .i32⟩ : BufTy).Contents (Elt F)),
    StableHlo.reshape main_v2 main_v3 rfl shapeCasts_S1x128_S128,
    StableHlo.nullary main_cst (constant S_ .f32 0x00000000#32),
    StableHlo.unary main_cst main_v4 (broadcastInDim S24 ![] bcast_S_S24 : (⟨S_, .f32⟩ : BufTy).Contents (Elt F) → (⟨S24, .f32⟩ : BufTy).Contents (Elt F)),
    StableHlo.nullary main_c (constantI S_ 32 0#32),
    StableHlo.unary main_c main_v5 (broadcastInDim S128 ![] bcast_S_S128 : (⟨S_, .i32⟩ : BufTy).Contents (Elt F) → (⟨S128, .i32⟩ : BufTy).Contents (Elt F)),
    StableHlo.binary main_v1 main_v5 main_v6 (cmpi .slt : (⟨S128, .i32⟩ : BufTy).Contents (Elt F) → (⟨S128, .i32⟩ : BufTy).Contents (Elt F) → (⟨S128, .i1⟩ : BufTy).Contents (Elt F)),
    StableHlo.nullary main_c_0 (constantI S_ 32 24#32),
    StableHlo.unary main_c_0 main_v7 (broadcastInDim S128 ![] bcast_S_S128 : (⟨S_, .i32⟩ : BufTy).Contents (Elt F) → (⟨S128, .i32⟩ : BufTy).Contents (Elt F)),
    StableHlo.binary main_v1 main_v7 main_v8 (addi : (⟨S128, .i32⟩ : BufTy).Contents (Elt F) → (⟨S128, .i32⟩ : BufTy).Contents (Elt F) → (⟨S128, .i32⟩ : BufTy).Contents (Elt F)),
    StableHlo.ternary main_v6 main_v8 main_v1 main_v9 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v9 main_v10 (broadcastInDim S128x1 ![0] bcast_S128_S128x1_0 : (⟨S128, .i32⟩ : BufTy).Contents (Elt F) → (⟨S128x1, .i32⟩ : BufTy).Contents (Elt F)),
    StableHlo.nullary main_cst_1 (constant S_ .f32 0x3F800000#32),
    StableHlo.unary main_cst_1 main_v11 (broadcastInDim S128 ![] bcast_S_S128 : (⟨S_, .f32⟩ : BufTy).Contents (Elt F) → (⟨S128, .f32⟩ : BufTy).Contents (Elt F)),
    StableHlo.ternary main_v4 main_v10 main_v11 main_v12 ((fun x i u => Host.scatterAdd scatter_S24_S128x1_S128_n_0_0_1 x i u) : (⟨S24, .f32⟩ : BufTy).Contents (Elt F) → (⟨S128x1, .i32⟩ : BufTy).Contents (Elt F) → (⟨S128, .f32⟩ : BufTy).Contents (Elt F) → (⟨S24, .f32⟩ : BufTy).Contents (Elt F)),
    StableHlo.nullary main_cst_2 (constant S_ .f32 0x00000000#32),
    StableHlo.unary main_cst_2 main_v13 (broadcastInDim S24 ![] bcast_S_S24 : (⟨S_, .f32⟩ : BufTy).Contents (Elt F) → (⟨S24, .f32⟩ : BufTy).Contents (Elt F)),
    StableHlo.binary main_v12 main_v13 main_v14 (cmpf .ogt : (⟨S24, .f32⟩ : BufTy).Contents (Elt F) → (⟨S24, .f32⟩ : BufTy).Contents (Elt F) → (⟨S24, .i1⟩ : BufTy).Contents (Elt F)),
    StableHlo.nullary main_cst_3 (constant S_ .f32 0xBF000000#32),
    StableHlo.unary main_cst_3 main_v15 (broadcastInDim S24 ![] bcast_S_S24 : (⟨S_, .f32⟩ : BufTy).Contents (Elt F) → (⟨S24, .f32⟩ : BufTy).Contents (Elt F)),
    StableHlo.binary main_v12 main_v15 main_v16 (Host.powf : (⟨S24, .f32⟩ : BufTy).Contents (Elt F) → (⟨S24, .f32⟩ : BufTy).Contents (Elt F) → (⟨S24, .f32⟩ : BufTy).Contents (Elt F)),
    StableHlo.nullary main_cst_4 (constant S_ .f32 0x00000000#32),
    StableHlo.unary main_cst_4 main_call0_v0 (id : (⟨S_, .f32⟩ : BufTy).Contents (Elt F) → (⟨S_, .f32⟩ : BufTy).Contents (Elt F)),
    StableHlo.unary main_call0_v0 main_call0_v1 ((broadcastInDim S24 ![] bcast_S_S24) : (⟨S_, .f32⟩ : BufTy).Contents (Elt F) → (⟨S24, .f32⟩ : BufTy).Contents (Elt F)),
    StableHlo.ternary main_v14 main_v16 main_call0_v1 main_v17 (select : (⟨S24, .i1⟩ : BufTy).Contents (Elt F) → (⟨S24, .f32⟩ : BufTy).Contents (Elt F) → (⟨S24, .f32⟩ : BufTy).Contents (Elt F) → (⟨S24, .f32⟩ : BufTy).Contents (Elt F)),
    StableHlo.nullary main_c_5 (constantI S_ 32 0#32),
    StableHlo.unary main_c_5 main_v18 (broadcastInDim S128 ![] bcast_S_S128 : (⟨S_, .i32⟩ : BufTy).Contents (Elt F) → (⟨S128, .i32⟩ : BufTy).Contents (Elt F)),
    StableHlo.binary main_v1 main_v18 main_v19 (cmpi .slt : (⟨S128, .i32⟩ : BufTy).Contents (Elt F) → (⟨S128, .i32⟩ : BufTy).Contents (Elt F) → (⟨S128, .i1⟩ : BufTy).Contents (Elt F)),
    StableHlo.nullary main_c_6 (constantI S_ 32 24#32),
    StableHlo.unary main_c_6 main_v20 (broadcastInDim S128 ![] bcast_S_S128 : (⟨S_, .i32⟩ : BufTy).Contents (Elt F) → (⟨S128, .i32⟩ : BufTy).Contents (Elt F)),
    StableHlo.binary main_v1 main_v20 main_v21 (addi : (⟨S128, .i32⟩ : BufTy).Contents (Elt F) → (⟨S128, .i32⟩ : BufTy).Contents (Elt F) → (⟨S128, .i32⟩ : BufTy).Contents (Elt F)),
    StableHlo.ternary main_v19 main_v21 main_v1 main_v22 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v22 main_v23 (broadcastInDim S128x1 ![0] bcast_S128_S128x1_0 : (⟨S128, .i32⟩ : BufTy).Contents (Elt F) → (⟨S128x1, .i32⟩ : BufTy).Contents (Elt F)),
    StableHlo.binary main_v17 main_v23 main_v24 ((fun x i => Host.gather gather_S24_S128x1_S128_n_0_n_n_0_1_1 x i) : (⟨S24, .f32⟩ : BufTy).Contents (Elt F) → (⟨S128x1, .i32⟩ : BufTy).Contents (Elt F) → (⟨S128, .f32⟩ : BufTy).Contents (Elt F)),
    StableHlo.unary main_v24 main_v25 (Host.negf : (⟨S128, .f32⟩ : BufTy).Contents (Elt F) → (⟨S128, .f32⟩ : BufTy).Contents (Elt F)),
    StableHlo.nullary main_c_7 (constantI S_ 32 0#32),
    StableHlo.unary main_c_7 main_v26 (broadcastInDim S128 ![] bcast_S_S128 : (⟨S_, .i32⟩ : BufTy).Contents (Elt F) → (⟨S128, .i32⟩ : BufTy).Contents (Elt F)),
    StableHlo.binary main_v3 main_v26 main_v27 (cmpi .slt : (⟨S128, .i32⟩ : BufTy).Contents (Elt F) → (⟨S128, .i32⟩ : BufTy).Contents (Elt F) → (⟨S128, .i1⟩ : BufTy).Contents (Elt F)),
    StableHlo.nullary main_c_8 (constantI S_ 32 24#32),
    StableHlo.unary main_c_8 main_v28 (broadcastInDim S128 ![] bcast_S_S128 : (⟨S_, .i32⟩ : BufTy).Contents (Elt F) → (⟨S128, .i32⟩ : BufTy).Contents (Elt F)),
    StableHlo.binary main_v3 main_v28 main_v29 (addi : (⟨S128, .i32⟩ : BufTy).Contents (Elt F) → (⟨S128, .i32⟩ : BufTy).Contents (Elt F) → (⟨S128, .i32⟩ : BufTy).Contents (Elt F)),
    StableHlo.ternary main_v27 main_v29 main_v3 main_v30 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v30 main_v31 (broadcastInDim S128x1 ![0] bcast_S128_S128x1_0 : (⟨S128, .i32⟩ : BufTy).Contents (Elt F) → (⟨S128x1, .i32⟩ : BufTy).Contents (Elt F)),
    StableHlo.binary main_v17 main_v31 main_v32 ((fun x i => Host.gather gather_S24_S128x1_S128_n_0_n_n_0_1_1 x i) : (⟨S24, .f32⟩ : BufTy).Contents (Elt F) → (⟨S128x1, .i32⟩ : BufTy).Contents (Elt F) → (⟨S128, .f32⟩ : BufTy).Contents (Elt F)),
    StableHlo.binary main_v25 main_v32 main_v33 (mulf : (⟨S128, .f32⟩ : BufTy).Contents (Elt F) → (⟨S128, .f32⟩ : BufTy).Contents (Elt F) → (⟨S128, .f32⟩ : BufTy).Contents (Elt F)),
    StableHlo.nullary main_cst_9 (constant S_ .f32 0x00000000#32),
    StableHlo.unary main_cst_9 main_v34 (broadcastInDim S131072x24x4 ![] bcast_S_S131072x24x4 : (⟨S_, .f32⟩ : BufTy).Contents (Elt F) → (⟨S131072x24x4, .f32⟩ : BufTy).Contents (Elt F)),
    StableHlo.nullary main_c_10 (constantI S_ 32 0#32),
    StableHlo.unary main_c_10 main_v35 (broadcastInDim S128 ![] bcast_S_S128 : (⟨S_, .i32⟩ : BufTy).Contents (Elt F) → (⟨S128, .i32⟩ : BufTy).Contents (Elt F)),
    StableHlo.binary main_v3 main_v35 main_v36 (cmpi .slt : (⟨S128, .i32⟩ : BufTy).Contents (Elt F) → (⟨S128, .i32⟩ : BufTy).Contents (Elt F) → (⟨S128, .i1⟩ : BufTy).Contents (Elt F)),
    StableHlo.nullary main_c_11 (constantI S_ 32 24#32),
    StableHlo.unary main_c_11 main_v37 (broadcastInDim S128 ![] bcast_S_S128 : (⟨S_, .i32⟩ : BufTy).Contents (Elt F) → (⟨S128, .i32⟩ : BufTy).Contents (Elt F)),
    StableHlo.binary main_v3 main_v37 main_v38 (addi : (⟨S128, .i32⟩ : BufTy).Contents (Elt F) → (⟨S128, .i32⟩ : BufTy).Contents (Elt F) → (⟨S128, .i32⟩ : BufTy).Contents (Elt F)),
    StableHlo.ternary main_v36 main_v38 main_v3 main_v39 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v39 main_v40 (broadcastInDim S128x1 ![0] bcast_S128_S128x1_0 : (⟨S128, .i32⟩ : BufTy).Contents (Elt F) → (⟨S128x1, .i32⟩ : BufTy).Contents (Elt F)),
    StableHlo.binary main_arg0 main_v40 main_v41 ((fun x i => Host.gather gather_S131072x24x4_S128x1_S131072x128x4_02_1_n_n_1_1_13107214 x i) : (⟨S131072x24x4, .f32⟩ : BufTy).Contents (Elt F) → (⟨S128x1, .i32⟩ : BufTy).Contents (Elt F) → (⟨S131072x128x4, .f32⟩ : BufTy).Contents (Elt F)),
    StableHlo.unary main_v33 main_v42 (broadcastInDim S1x128x1 ![1] bcast_S128_S1x128x1_1 : (⟨S128, .f32⟩ : BufTy).Contents (Elt F) → (⟨S1x128x1, .f32⟩ : BufTy).Contents (Elt F)),
    StableHlo.unary main_v42 main_v43 (broadcastInDim S131072x128x4 ![0, 1, 2] bcast_S1x128x1_S131072x128x4_0_1_2 : (⟨S1x128x1, .f32⟩ : BufTy).Contents (Elt F) → (⟨S131072x128x4, .f32⟩ : BufTy).Contents (Elt F)),
    StableHlo.binary main_v41 main_v43 main_v44 (mulf : (⟨S131072x128x4, .f32⟩ : BufTy).Contents (Elt F) → (⟨S131072x128x4, .f32⟩ : BufTy).Contents (Elt F) → (⟨S131072x128x4, .f32⟩ : BufTy).Contents (Elt F)),
    StableHlo.nullary main_c_12 (constantI S_ 32 0#32) ]

/-- The window is that straight line. -/
theorem part0_eq (c : Dev nD) : main_part0 (F := F) c = seq ops0 := by chain_rfl

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub ..⟩

theorem ops0_fresh : ∀ op ∈ (ops0 : List (HloOp τ sig (Elt F))), op.fresh = ∅ := by
  intro _ h; (repeat (cases h with | head => rfl | tail _ h => ?_)); exact nomatch h

end Ops

/-- The first row of the edge list. -/
theorem w0_v1 (Wv : Valuation τ sig (Elt Ideal)) (ei : IVec S2x128 32) (h1 : Wv (Proc.devRef .tc main_arg1) = ei) :
    after (ops0 (F := Ideal)) Wv (Proc.devRef .tc main_v1) = rowV ei := by
  after_results_simp; rw [h1]; rfl
/-- The second row. -/
theorem w0_v3 (Wv : Valuation τ sig (Elt Ideal)) (ei : IVec S2x128 32) (h1 : Wv (Proc.devRef .tc main_arg1) = ei) :
    after (ops0 (F := Ideal)) Wv (Proc.devRef .tc main_v3) = colV ei := by
  after_results_simp; rw [h1]; rfl
/-- The edge weights. -/
theorem w0_v33 (Wv : Valuation τ sig (Elt Ideal)) (ei : IVec S2x128 32) (h1 : Wv (Proc.devRef .tc main_arg1) = ei) :
    after (ops0 (F := Ideal)) Wv (Proc.devRef .tc main_v33) = ewT ei := by
  after_results_simp; rw [h1]; rfl
/-- The zero array the first scatter-add starts from. -/
theorem w0_v34 (Wv : Valuation τ sig (Elt Ideal)) :
    after (ops0 (F := Ideal)) Wv (Proc.devRef .tc main_v34) = broadcastInDim S131072x24x4 ![] bcast_S_S131072x24x4 (constant (F := Ideal) S_ .f32 0x00000000#32) := by
  after_results_simp
/-- The gathered, weighted features of the first propagation step. -/
theorem w0_v44 (Wv : Valuation τ sig (Elt Ideal)) (x : FVec Ideal S131072x24x4 .f32) (ei : IVec S2x128 32)
    (h0 : Wv (Proc.devRef .tc main_arg0) = x) (h1 : Wv (Proc.devRef .tc main_arg1) = ei) :
    after (ops0 (F := Ideal)) Wv (Proc.devRef .tc main_v44)
      = mulf (Host.gather gather_S131072x24x4_S128x1_S131072x128x4_02_1_n_n_1_1_13107214 x (wrapC (colV ei)))
        (broadcastInDim S131072x128x4 ![0, 1, 2] bcast_S1x128x1_S131072x128x4_0_1_2 (broadcastInDim S1x128x1 ![1] bcast_S128_S1x128x1_1 (ewT ei))) := by
  after_results_simp; rw [h0, h1]; rfl
/-- The scalar zero the next window broadcasts. -/
theorem w0_c12 (Wv : Valuation τ sig (Elt Ideal)) :
    after (ops0 (F := Ideal)) Wv (Proc.devRef .tc main_c_12) = constantI S_ 32 0#32 := by
  after_results_simp

theorem w0_arg0 (Wv : Valuation τ sig (Elt Ideal)) :
    after (ops0 (F := Ideal)) Wv (Proc.devRef .tc main_arg0) = Wv (Proc.devRef .tc main_arg0) := by after_results_simp
theorem w0_arg1 (Wv : Valuation τ sig (Elt Ideal)) :
    after (ops0 (F := Ideal)) Wv (Proc.devRef .tc main_arg1) = Wv (Proc.devRef .tc main_arg1) := by after_results_simp
theorem w0_arg2 (Wv : Valuation τ sig (Elt Ideal)) :
    after (ops0 (F := Ideal)) Wv (Proc.devRef .tc main_arg2) = Wv (Proc.devRef .tc main_arg2) := by after_results_simp
theorem w0_arg3 (Wv : Valuation τ sig (Elt Ideal)) :
    after (ops0 (F := Ideal)) Wv (Proc.devRef .tc main_arg3) = Wv (Proc.devRef .tc main_arg3) := by after_results_simp
theorem w0_arg4 (Wv : Valuation τ sig (Elt Ideal)) :
    after (ops0 (F := Ideal)) Wv (Proc.devRef .tc main_arg4) = Wv (Proc.devRef .tc main_arg4) := by after_results_simp
theorem w0_arg5 (Wv : Valuation τ sig (Elt Ideal)) :
    after (ops0 (F := Ideal)) Wv (Proc.devRef .tc main_arg5) = Wv (Proc.devRef .tc main_arg5) := by after_results_simp
theorem w0_arg6 (Wv : Valuation τ sig (Elt Ideal)) :
    after (ops0 (F := Ideal)) Wv (Proc.devRef .tc main_arg6) = Wv (Proc.devRef .tc main_arg6) := by after_results_simp
theorem w0_arg7 (Wv : Valuation τ sig (Elt Ideal)) :
    after (ops0 (F := Ideal)) Wv (Proc.devRef .tc main_arg7) = Wv (Proc.devRef .tc main_arg7) := by after_results_simp
theorem w0_arg8 (Wv : Valuation τ sig (Elt Ideal)) :
    after (ops0 (F := Ideal)) Wv (Proc.devRef .tc main_arg8) = Wv (Proc.devRef .tc main_arg8) := by after_results_simp
theorem w0_arg9 (Wv : Valuation τ sig (Elt Ideal)) :
    after (ops0 (F := Ideal)) Wv (Proc.devRef .tc main_arg9) = Wv (Proc.devRef .tc main_arg9) := by after_results_simp

end Cert.Cheb.RefRun

end
-- ==== Proof.RefOps1.lean ====
/-
  The operations of statements 61 to 120 of the reference function, in order, as one list (a call of a
  local function stands as the callee's operations over the buffers of that call), and what the buffers read
  later hold once the list has run, in terms of the stage functions.
-/
import proofs.«144586_j5729486372945_2_alg».proof.Proof.RefTerm
import Idealize.ShloMosaic.Lib.StableHlo.Run
import Idealize.ShloMosaic.Lib.Pipeline.Regions

noncomputable section

namespace Cert.Cheb.RefRun

open Idealize.ShloMosaic Idealize.ShloMosaic.TcCoe Idealize.SL.Sem Idealize.ShloMosaic.StableHlo
open Cert.ReferenceIdeal Cert.ReferenceIdeal.Facts₀ Cert.ReferenceIdeal.Facts

variable [Cert.ReferenceIdeal.Facts]

section Ops
variable {F : FTy → Type} [FloatOps F]
/-- The operations of the window, in order. -/
abbrev ops1 : List (HloOp τ sig (Elt F)) :=
  [ StableHlo.unary main_c_12 main_v45 (broadcastInDim S128 ![] bcast_S_S128 : (⟨S_, .i32⟩ : BufTy).Contents (Elt F) → (⟨S128, .i32⟩ : BufTy).Contents (Elt F)),
    StableHlo.binary main_v1 main_v45 main_v46 (cmpi .slt : (⟨S128, .i32⟩ : BufTy).Contents (Elt F) → (⟨S128, .i32⟩ : BufTy).Contents (Elt F) → (⟨S128, .i1⟩ : BufTy).Contents (Elt F)),
    StableHlo.nullary main_c_13 (constantI S_ 32 24#32),
    StableHlo.unary main_c_13 main_v47 (broadcastInDim S128 ![] bcast_S_S128 : (⟨S_, .i32⟩ : BufTy).Contents (Elt F) → (⟨S128, .i32⟩ : BufTy).Contents (Elt F)),
    StableHlo.binary main_v1 main_v47 main_v48 (addi : (⟨S128, .i32⟩ : BufTy).Contents (Elt F) → (⟨S128, .i32⟩ : BufTy).Contents (Elt F) → (⟨S128, .i32⟩ : BufTy).Contents (Elt F)),
    StableHlo.ternary main_v46 main_v48 main_v1 main_v49 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v49 main_v50 (broadcastInDim S128x1 ![0] bcast_S128_S128x1_0 : (⟨S128, .i32⟩ : BufTy).Contents (Elt F) → (⟨S128x1, .i32⟩ : BufTy).Contents (Elt F)),
    StableHlo.ternary main_v34 main_v50 main_v44 main_v51 ((fun x i u => Host.scatterAdd scatter_S131072x24x4_S128x1_S131072x128x4_02_1_1_1 x i u) : (⟨S131072x24x4, .f32⟩ : BufTy).Contents (Elt F) → (⟨S128x1, .i32⟩ : BufTy).Contents (Elt F) → (⟨S131072x128x4, .f32⟩ : BufTy).Contents (Elt F) → (⟨S131072x24x4, .f32⟩ : BufTy).Contents (Elt F)),
    StableHlo.unary main_arg2 main_v52 ((extractStridedSlice S1x4x8 ![0, 0, 0] · slices_S3x4x8_S1x4x8_0_0_0) : (⟨S3x4x8, .f32⟩ : BufTy).Contents (Elt F) → (⟨S1x4x8, .f32⟩ : BufTy).Contents (Elt F)),
    StableHlo.reshape main_v52 main_v53 rfl shapeCasts_S1x4x8_S4x8,
    StableHlo.binary main_arg0 main_v53 main_v54 ((fun l r => Host.dotGeneral dot_S131072x24x4_S4x8_S131072x24x8_2_0_01_1_n_n none l r) : (⟨S131072x24x4, .f32⟩ : BufTy).Contents (Elt F) → (⟨S4x8, .f32⟩ : BufTy).Contents (Elt F) → (⟨S131072x24x8, .f32⟩ : BufTy).Contents (Elt F)),
    StableHlo.unary main_arg2 main_v55 ((extractStridedSlice S1x4x8 ![1, 0, 0] · slices_S3x4x8_S1x4x8_1_0_0) : (⟨S3x4x8, .f32⟩ : BufTy).Contents (Elt F) → (⟨S1x4x8, .f32⟩ : BufTy).Contents (Elt F)),
    StableHlo.reshape main_v55 main_v56 rfl shapeCasts_S1x4x8_S4x8,
    StableHlo.binary main_v51 main_v56 main_v57 ((fun l r => Host.dotGeneral dot_S131072x24x4_S4x8_S131072x24x8_2_0_01_1_n_n none l r) : (⟨S131072x24x4, .f32⟩ : BufTy).Contents (Elt F) → (⟨S4x8, .f32⟩ : BufTy).Contents (Elt F) → (⟨S131072x24x8, .f32⟩ : BufTy).Contents (Elt F)),
    StableHlo.binary main_v54 main_v57 main_v58 (addf : (⟨S131072x24x8, .f32⟩ : BufTy).Contents (Elt F) → (⟨S131072x24x8, .f32⟩ : BufTy).Contents (Elt F) → (⟨S131072x24x8, .f32⟩ : BufTy).Contents (Elt F)),
    StableHlo.nullary main_cst_14 (constant S_ .f32 0x00000000#32),
    StableHlo.unary main_cst_14 main_v59 (broadcastInDim S131072x24x4 ![] bcast_S_S131072x24x4 : (⟨S_, .f32⟩ : BufTy).Contents (Elt F) → (⟨S131072x24x4, .f32⟩ : BufTy).Contents (Elt F)),
    StableHlo.nullary main_c_15 (constantI S_ 32 0#32),
    StableHlo.unary main_c_15 main_v60 (broadcastInDim S128 ![] bcast_S_S128 : (⟨S_, .i32⟩ : BufTy).Contents (Elt F) → (⟨S128, .i32⟩ : BufTy).Contents (Elt F)),
    StableHlo.binary main_v3 main_v60 main_v61 (cmpi .slt : (⟨S128, .i32⟩ : BufTy).Contents (Elt F) → (⟨S128, .i32⟩ : BufTy).Contents (Elt F) → (⟨S128, .i1⟩ : BufTy).Contents (Elt F)),
    StableHlo.nullary main_c_16 (constantI S_ 32 24#32),
    StableHlo.unary main_c_16 main_v62 (broadcastInDim S128 ![] bcast_S_S128 : (⟨S_, .i32⟩ : BufTy).Contents (Elt F) → (⟨S128, .i32⟩ : BufTy).Contents (Elt F)),
    StableHlo.binary main_v3 main_v62 main_v63 (addi : (⟨S128, .i32⟩ : BufTy).Contents (Elt F) → (⟨S128, .i32⟩ : BufTy).Contents (Elt F) → (⟨S128, .i32⟩ : BufTy).Contents (Elt F)),
    StableHlo.ternary main_v61 main_v63 main_v3 main_v64 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v64 main_v65 (broadcastInDim S128x1 ![0] bcast_S128_S128x1_0 : (⟨S128, .i32⟩ : BufTy).Contents (Elt F) → (⟨S128x1, .i32⟩ : BufTy).Contents (Elt F)),
    StableHlo.binary main_v51 main_v65 main_v66 ((fun x i => Host.gather gather_S131072x24x4_S128x1_S131072x128x4_02_1_n_n_1_1_13107214 x i) : (⟨S131072x24x4, .f32⟩ : BufTy).Contents (Elt F) → (⟨S128x1, .i32⟩ : BufTy).Contents (Elt F) → (⟨S131072x128x4, .f32⟩ : BufTy).Contents (Elt F)),
    StableHlo.unary main_v33 main_v67 (broadcastInDim S1x128x1 ![1] bcast_S128_S1x128x1_1 : (⟨S128, .f32⟩ : BufTy).Contents (Elt F) → (⟨S1x128x1, .f32⟩ : BufTy).Contents (Elt F)),
    StableHlo.unary main_v67 main_v68 (broadcastInDim S131072x128x4 ![0, 1, 2] bcast_S1x128x1_S131072x128x4_0_1_2 : (⟨S1x128x1, .f32⟩ : BufTy).Contents (Elt F) → (⟨S131072x128x4, .f32⟩ : BufTy).Contents (Elt F)),
    StableHlo.binary main_v66 main_v68 main_v69 (mulf : (⟨S131072x128x4, .f32⟩ : BufTy).Contents (Elt F) → (⟨S131072x128x4, .f32⟩ : BufTy).Contents (Elt F) → (⟨S131072x128x4, .f32⟩ : BufTy).Contents (Elt F)),
    StableHlo.nullary main_c_17 (constantI S_ 32 0#32),
    StableHlo.unary main_c_17 main_v70 (broadcastInDim S128 ![] bcast_S_S128 : (⟨S_, .i32⟩ : BufTy).Contents (Elt F) → (⟨S128, .i32⟩ : BufTy).Contents (Elt F)),
    StableHlo.binary main_v1 main_v70 main_v71 (cmpi .slt : (⟨S128, .i32⟩ : BufTy).Contents (Elt F) → (⟨S128, .i32⟩ : BufTy).Contents (Elt F) → (⟨S128, .i1⟩ : BufTy).Contents (Elt F)),
    StableHlo.nullary main_c_18 (constantI S_ 32 24#32),
    StableHlo.unary main_c_18 main_v72 (broadcastInDim S128 ![] bcast_S_S128 : (⟨S_, .i32⟩ : BufTy).Contents (Elt F) → (⟨S128, .i32⟩ : BufTy).Contents (Elt F)),
    StableHlo.binary main_v1 main_v72 main_v73 (addi : (⟨S128, .i32⟩ : BufTy).Contents (Elt F) → (⟨S128, .i32⟩ : BufTy).Contents (Elt F) → (⟨S128, .i32⟩ : BufTy).Contents (Elt F)),
    StableHlo.ternary main_v71 main_v73 main_v1 main_v74 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v74 main_v75 (broadcastInDim S128x1 ![0] bcast_S128_S128x1_0 : (⟨S128, .i32⟩ : BufTy).Contents (Elt F) → (⟨S128x1, .i32⟩ : BufTy).Contents (Elt F)),
    StableHlo.ternary main_v59 main_v75 main_v69 main_v76 ((fun x i u => Host.scatterAdd scatter_S131072x24x4_S128x1_S131072x128x4_02_1_1_1 x i u) : (⟨S131072x24x4, .f32⟩ : BufTy).Contents (Elt F) → (⟨S128x1, .i32⟩ : BufTy).Contents (Elt F) → (⟨S131072x128x4, .f32⟩ : BufTy).Contents (Elt F) → (⟨S131072x24x4, .f32⟩ : BufTy).Contents (Elt F)),
    StableHlo.nullary main_cst_19 (constant S_ .f32 0x40000000#32),
    StableHlo.unary main_cst_19 main_v77 (broadcastInDim S131072x24x4 ![] bcast_S_S131072x24x4 : (⟨S_, .f32⟩ : BufTy).Contents (Elt F) → (⟨S131072x24x4, .f32⟩ : BufTy).Contents (Elt F)),
    StableHlo.binary main_v77 main_v76 main_v78 (mulf : (⟨S131072x24x4, .f32⟩ : BufTy).Contents (Elt F) → (⟨S131072x24x4, .f32⟩ : BufTy).Contents (Elt F) → (⟨S131072x24x4, .f32⟩ : BufTy).Contents (Elt F)),
    StableHlo.binary main_v78 main_arg0 main_v79 (subf : (⟨S131072x24x4, .f32⟩ : BufTy).Contents (Elt F) → (⟨S131072x24x4, .f32⟩ : BufTy).Contents (Elt F) → (⟨S131072x24x4, .f32⟩ : BufTy).Contents (Elt F)),
    StableHlo.unary main_arg2 main_v80 ((extractStridedSlice S1x4x8 ![2, 0, 0] · slices_S3x4x8_S1x4x8_2_0_0) : (⟨S3x4x8, .f32⟩ : BufTy).Contents (Elt F) → (⟨S1x4x8, .f32⟩ : BufTy).Contents (Elt F)),
    StableHlo.reshape main_v80 main_v81 rfl shapeCasts_S1x4x8_S4x8,
    StableHlo.binary main_v79 main_v81 main_v82 ((fun l r => Host.dotGeneral dot_S131072x24x4_S4x8_S131072x24x8_2_0_01_1_n_n none l r) : (⟨S131072x24x4, .f32⟩ : BufTy).Contents (Elt F) → (⟨S4x8, .f32⟩ : BufTy).Contents (Elt F) → (⟨S131072x24x8, .f32⟩ : BufTy).Contents (Elt F)),
    StableHlo.binary main_v58 main_v82 main_v83 (addf : (⟨S131072x24x8, .f32⟩ : BufTy).Contents (Elt F) → (⟨S131072x24x8, .f32⟩ : BufTy).Contents (Elt F) → (⟨S131072x24x8, .f32⟩ : BufTy).Contents (Elt F)),
    StableHlo.unary main_arg3 main_v84 (broadcastInDim S1x1x8 ![2] bcast_S8_S1x1x8_2 : (⟨S8, .f32⟩ : BufTy).Contents (Elt F) → (⟨S1x1x8, .f32⟩ : BufTy).Contents (Elt F)),
    StableHlo.unary main_v84 main_v85 (broadcastInDim S131072x24x8 ![0, 1, 2] bcast_S1x1x8_S131072x24x8_0_1_2 : (⟨S1x1x8, .f32⟩ : BufTy).Contents (Elt F) → (⟨S131072x24x8, .f32⟩ : BufTy).Contents (Elt F)),
    StableHlo.binary main_v83 main_v85 main_v86 (addf : (⟨S131072x24x8, .f32⟩ : BufTy).Contents (Elt F) → (⟨S131072x24x8, .f32⟩ : BufTy).Contents (Elt F) → (⟨S131072x24x8, .f32⟩ : BufTy).Contents (Elt F)),
    StableHlo.nullary main_call1_cst (constant S_ .f32 0x00000000#32),
    StableHlo.unary main_call1_cst main_call1_v0 ((broadcastInDim S131072x24x8 ![] bcast_S_S131072x24x8) : (⟨S_, .f32⟩ : BufTy).Contents (Elt F) → (⟨S131072x24x8, .f32⟩ : BufTy).Contents (Elt F)),
    StableHlo.binary main_v86 main_call1_v0 main_call1_v1 ((cmpf .ogt) : (⟨S131072x24x8, .f32⟩ : BufTy).Contents (Elt F) → (⟨S131072x24x8, .f32⟩ : BufTy).Contents (Elt F) → (⟨S131072x24x8, .i1⟩ : BufTy).Contents (Elt F)),
    StableHlo.nullary main_call1_cst_0 (constant S_ .f32 0x00000000#32),
    StableHlo.unary main_call1_cst_0 main_call1_v2 ((broadcastInDim S131072x24x8 ![] bcast_S_S131072x24x8) : (⟨S_, .f32⟩ : BufTy).Contents (Elt F) → (⟨S131072x24x8, .f32⟩ : BufTy).Contents (Elt F)),
    StableHlo.binary main_v86 main_call1_v2 main_call1_v3 ((cmpf .ogt) : (⟨S131072x24x8, .f32⟩ : BufTy).Contents (Elt F) → (⟨S131072x24x8, .f32⟩ : BufTy).Contents (Elt F) → (⟨S131072x24x8, .i1⟩ : BufTy).Contents (Elt F)),
    StableHlo.nullary main_call1_cst_1 (constant S_ .f32 0x00000000#32),
    StableHlo.unary main_call1_cst_1 main_call1_call0_v0 (id : (⟨S_, .f32⟩ : BufTy).Contents (Elt F) → (⟨S_, .f32⟩ : BufTy).Contents (Elt F)),
    StableHlo.unary main_call1_call0_v0 main_call1_call0_v1 ((broadcastInDim S131072x24x8 ![] bcast_S_S131072x24x8) : (⟨S_, .f32⟩ : BufTy).Contents (Elt F) → (⟨S131072x24x8, .f32⟩ : BufTy).Contents (Elt F)),
    StableHlo.ternary main_call1_v3 main_call1_call0_v1 main_v86 main_call1_v4 (select : (⟨S131072x24x8, .i1⟩ : BufTy).Contents (Elt F) → (⟨S131072x24x8, .f32⟩ : BufTy).Contents (Elt F) → (⟨S131072x24x8, .f32⟩ : BufTy).Contents (Elt F) → (⟨S131072x24x8, .f32⟩ : BufTy).Contents (Elt F)),
    StableHlo.unary main_call1_v4 main_call1_v5 (Host.expm1 : (⟨S131072x24x8, .f32⟩ : BufTy).Contents (Elt F) → (⟨S131072x24x8, .f32⟩ : BufTy).Contents (Elt F)),
    StableHlo.nullary main_call1_cst_2 (constant S_ .f32 0x3F800000#32),
    StableHlo.unary main_call1_cst_2 main_call1_v6 ((broadcastInDim S131072x24x8 ![] bcast_S_S131072x24x8) : (⟨S_, .f32⟩ : BufTy).Contents (Elt F) → (⟨S131072x24x8, .f32⟩ : BufTy).Contents (Elt F)),
    StableHlo.binary main_call1_v6 main_call1_v5 main_call1_v7 (mulf : (⟨S131072x24x8, .f32⟩ : BufTy).Contents (Elt F) → (⟨S131072x24x8, .f32⟩ : BufTy).Contents (Elt F) → (⟨S131072x24x8, .f32⟩ : BufTy).Contents (Elt F)),
    StableHlo.ternary main_call1_v1 main_v86 main_call1_v7 main_v87 (select : (⟨S131072x24x8, .i1⟩ : BufTy).Contents (Elt F) → (⟨S131072x24x8, .f32⟩ : BufTy).Contents (Elt F) → (⟨S131072x24x8, .f32⟩ : BufTy).Contents (Elt F) → (⟨S131072x24x8, .f32⟩ : BufTy).Contents (Elt F)),
    StableHlo.nullary main_cst_20 (constant S_ .f32 0x00000000#32),
    StableHlo.unary main_cst_20 main_v88 (broadcastInDim S131072x24x8 ![] bcast_S_S131072x24x8 : (⟨S_, .f32⟩ : BufTy).Contents (Elt F) → (⟨S131072x24x8, .f32⟩ : BufTy).Contents (Elt F)),
    StableHlo.nullary main_c_21 (constantI S_ 32 0#32),
    StableHlo.unary main_c_21 main_v89 (broadcastInDim S128 ![] bcast_S_S128 : (⟨S_, .i32⟩ : BufTy).Contents (Elt F) → (⟨S128, .i32⟩ : BufTy).Contents (Elt F)),
    StableHlo.binary main_v3 main_v89 main_v90 (cmpi .slt : (⟨S128, .i32⟩ : BufTy).Contents (Elt F) → (⟨S128, .i32⟩ : BufTy).Contents (Elt F) → (⟨S128, .i1⟩ : BufTy).Contents (Elt F)),
    StableHlo.nullary main_c_22 (constantI S_ 32 24#32),
    StableHlo.unary main_c_22 main_v91 (broadcastInDim S128 ![] bcast_S_S128 : (⟨S_, .i32⟩ : BufTy).Contents (Elt F) → (⟨S128, .i32⟩ : BufTy).Contents (Elt F)),
    StableHlo.binary main_v3 main_v91 main_v92 (addi : (⟨S128, .i32⟩ : BufTy).Contents (Elt F) → (⟨S128, .i32⟩ : BufTy).Contents (Elt F) → (⟨S128, .i32⟩ : BufTy).Contents (Elt F)),
    StableHlo.ternary main_v90 main_v92 main_v3 main_v93 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v93 main_v94 (broadcastInDim S128x1 ![0] bcast_S128_S128x1_0 : (⟨S128, .i32⟩ : BufTy).Contents (Elt F) → (⟨S128x1, .i32⟩ : BufTy).Contents (Elt F)) ]

/-- The window is that straight line. -/
theorem part1_eq (c : Dev nD) : main_part1 (F := F) c = seq ops1 := by chain_rfl

theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., ternary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub ..⟩

theorem ops1_fresh : ∀ op ∈ (ops1 : List (HloOp τ sig (Elt F))), op.fresh = ∅ := by
  intro _ h; (repeat (cases h with | head => rfl | tail _ h => ?_)); exact nomatch h

end Ops

set_option maxHeartbeats 4000000 in
/-- The first layer: the exponential linear unit of the first Chebyshev layer. -/
theorem w1_v87 (Wv : Valuation τ sig (Elt Ideal)) (x : FVec Ideal S131072x24x4 .f32) (ei : IVec S2x128 32) (W1 : FVec Ideal S3x4x8 .f32) (b1 : FVec Ideal S8 .f32)
    (hc12 : Wv (Proc.devRef .tc main_c_12) = constantI S_ 32 0#32)
    (hv1 : Wv (Proc.devRef .tc main_v1) = rowV ei) (hv3 : Wv (Proc.devRef .tc main_v3) = colV ei) (hv33 : Wv (Proc.devRef .tc main_v33) = ewT ei)
    (hv34 : Wv (Proc.devRef .tc main_v34) = broadcastInDim S131072x24x4 ![] bcast_S_S131072x24x4 (constant (F := Ideal) S_ .f32 0x00000000#32))
    (hv44 : Wv (Proc.devRef .tc main_v44)
      = mulf (Host.gather gather_S131072x24x4_S128x1_S131072x128x4_02_1_n_n_1_1_13107214 x (wrapC (colV ei)))
        (broadcastInDim S131072x128x4 ![0, 1, 2] bcast_S1x128x1_S131072x128x4_0_1_2 (broadcastInDim S1x128x1 ![1] bcast_S128_S1x128x1_1 (ewT ei))))
    (h0 : Wv (Proc.devRef .tc main_arg0) = x) (h2 : Wv (Proc.devRef .tc main_arg2) = W1) (h3 : Wv (Proc.devRef .tc main_arg3) = b1) :
    after (ops1 (F := Ideal)) Wv (Proc.devRef .tc main_v87)
      = eluT (cheb4 (wrapC (rowV ei)) (wrapC (colV ei)) (ewT ei) x W1 b1) := by
  after_results_simp
  rw [hc12, hv1, hv3, hv33, hv34, hv44, h0, h2, h3]
  rfl
/-- The zero array the second layer's first scatter-add starts from. -/
theorem w1_v88 (Wv : Valuation τ sig (Elt Ideal)) :
    after (ops1 (F := Ideal)) Wv (Proc.devRef .tc main_v88) = broadcastInDim S131072x24x8 ![] bcast_S_S131072x24x8 (constant (F := Ideal) S_ .f32 0x00000000#32) := by
  after_results_simp
/-- The wrapped column indices, for the second layer's first gather. -/
theorem w1_v94 (Wv : Valuation τ sig (Elt Ideal)) (ei : IVec S2x128 32) (hv3 : Wv (Proc.devRef .tc main_v3) = colV ei) :
    after (ops1 (F := Ideal)) Wv (Proc.devRef .tc main_v94) = wrapC (colV ei) := by
  after_results_simp; rw [hv3]; rfl
theorem w1_v1 (Wv : Valuation τ sig (Elt Ideal)) : after (ops1 (F := Ideal)) Wv (Proc.devRef .tc main_v1) = Wv (Proc.devRef .tc main_v1) := by after_results_simp
theorem w1_v3 (Wv : Valuation τ sig (Elt Ideal)) : after (ops1 (F := Ideal)) Wv (Proc.devRef .tc main_v3) = Wv (Proc.devRef .tc main_v3) := by after_results_simp
theorem w1_v33 (Wv : Valuation τ sig (Elt Ideal)) : after (ops1 (F := Ideal)) Wv (Proc.devRef .tc main_v33) = Wv (Proc.devRef .tc main_v33) := by after_results_simp

theorem w1_arg0 (Wv : Valuation τ sig (Elt Ideal)) :
    after (ops1 (F := Ideal)) Wv (Proc.devRef .tc main_arg0) = Wv (Proc.devRef .tc main_arg0) := by after_results_simp
theorem w1_arg1 (Wv : Valuation τ sig (Elt Ideal)) :
    after (ops1 (F := Ideal)) Wv (Proc.devRef .tc main_arg1) = Wv (Proc.devRef .tc main_arg1) := by after_results_simp
theorem w1_arg2 (Wv : Valuation τ sig (Elt Ideal)) :
    after (ops1 (F := Ideal)) Wv (Proc.devRef .tc main_arg2) = Wv (Proc.devRef .tc main_arg2) := by after_results_simp
theorem w1_arg3 (Wv : Valuation τ sig (Elt Ideal)) :
    after (ops1 (F := Ideal)) Wv (Proc.devRef .tc main_arg3) = Wv (Proc.devRef .tc main_arg3) := by after_results_simp
theorem w1_arg4 (Wv : Valuation τ sig (Elt Ideal)) :
    after (ops1 (F := Ideal)) Wv (Proc.devRef .tc main_arg4) = Wv (Proc.devRef .tc main_arg4) := by after_results_simp
theorem w1_arg5 (Wv : Valuation τ sig (Elt Ideal)) :
    after (ops1 (F := Ideal)) Wv (Proc.devRef .tc main_arg5) = Wv (Proc.devRef .tc main_arg5) := by after_results_simp
theorem w1_arg6 (Wv : Valuation τ sig (Elt Ideal)) :
    after (ops1 (F := Ideal)) Wv (Proc.devRef .tc main_arg6) = Wv (Proc.devRef .tc main_arg6) := by after_results_simp
theorem w1_arg7 (Wv : Valuation τ sig (Elt Ideal)) :
    after (ops1 (F := Ideal)) Wv (Proc.devRef .tc main_arg7) = Wv (Proc.devRef .tc main_arg7) := by after_results_simp
theorem w1_arg8 (Wv : Valuation τ sig (Elt Ideal)) :
    after (ops1 (F := Ideal)) Wv (Proc.devRef .tc main_arg8) = Wv (Proc.devRef .tc main_arg8) := by after_results_simp
theorem w1_arg9 (Wv : Valuation τ sig (Elt Ideal)) :
    after (ops1 (F := Ideal)) Wv (Proc.devRef .tc main_arg9) = Wv (Proc.devRef .tc main_arg9) := by after_results_simp

end Cert.Cheb.RefRun

end
-- ==== Proof.RefOps2.lean ====
/-
  The operations of statements 121 to 180 of the reference function, in order, as one list (a call of a
  local function stands as the callee's operations over the buffers of that call), and what the buffers read
  later hold once the list has run, in terms of the stage functions.
-/
import proofs.«144586_j5729486372945_2_alg».proof.Proof.RefTerm
import Idealize.ShloMosaic.Lib.StableHlo.Run
import Idealize.ShloMosaic.Lib.Pipeline.Regions

noncomputable section

namespace Cert.Cheb.RefRun

open Idealize.ShloMosaic Idealize.ShloMosaic.TcCoe Idealize.SL.Sem Idealize.ShloMosaic.StableHlo
open Cert.ReferenceIdeal Cert.ReferenceIdeal.Facts₀ Cert.ReferenceIdeal.Facts

variable [Cert.ReferenceIdeal.Facts]

section Ops
variable {F : FTy → Type} [FloatOps F]
/-- The operations of the window, in order. -/
abbrev ops2 : List (HloOp τ sig (Elt F)) :=
  [ StableHlo.binary main_v87 main_v94 main_v95 ((fun x i => Host.gather gather_S131072x24x8_S128x1_S131072x128x8_02_1_n_n_1_1_13107218 x i) : (⟨S131072x24x8, .f32⟩ : BufTy).Contents (Elt F) → (⟨S128x1, .i32⟩ : BufTy).Contents (Elt F) → (⟨S131072x128x8, .f32⟩ : BufTy).Contents (Elt F)),
    StableHlo.unary main_v33 main_v96 (broadcastInDim S1x128x1 ![1] bcast_S128_S1x128x1_1 : (⟨S128, .f32⟩ : BufTy).Contents (Elt F) → (⟨S1x128x1, .f32⟩ : BufTy).Contents (Elt F)),
    StableHlo.unary main_v96 main_v97 (broadcastInDim S131072x128x8 ![0, 1, 2] bcast_S1x128x1_S131072x128x8_0_1_2 : (⟨S1x128x1, .f32⟩ : BufTy).Contents (Elt F) → (⟨S131072x128x8, .f32⟩ : BufTy).Contents (Elt F)),
    StableHlo.binary main_v95 main_v97 main_v98 (mulf : (⟨S131072x128x8, .f32⟩ : BufTy).Contents (Elt F) → (⟨S131072x128x8, .f32⟩ : BufTy).Contents (Elt F) → (⟨S131072x128x8, .f32⟩ : BufTy).Contents (Elt F)),
    StableHlo.nullary main_c_23 (constantI S_ 32 0#32),
    StableHlo.unary main_c_23 main_v99 (broadcastInDim S128 ![] bcast_S_S128 : (⟨S_, .i32⟩ : BufTy).Contents (Elt F) → (⟨S128, .i32⟩ : BufTy).Contents (Elt F)),
    StableHlo.binary main_v1 main_v99 main_v100 (cmpi .slt : (⟨S128, .i32⟩ : BufTy).Contents (Elt F) → (⟨S128, .i32⟩ : BufTy).Contents (Elt F) → (⟨S128, .i1⟩ : BufTy).Contents (Elt F)),
    StableHlo.nullary main_c_24 (constantI S_ 32 24#32),
    StableHlo.unary main_c_24 main_v101 (broadcastInDim S128 ![] bcast_S_S128 : (⟨S_, .i32⟩ : BufTy).Contents (Elt F) → (⟨S128, .i32⟩ : BufTy).Contents (Elt F)),
    StableHlo.binary main_v1 main_v101 main_v102 (addi : (⟨S128, .i32⟩ : BufTy).Contents (Elt F) → (⟨S128, .i32⟩ : BufTy).Contents (Elt F) → (⟨S128, .i32⟩ : BufTy).Contents (Elt F)),
    StableHlo.ternary main_v100 main_v102 main_v1 main_v103 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v103 main_v104 (broadcastInDim S128x1 ![0] bcast_S128_S128x1_0 : (⟨S128, .i32⟩ : BufTy).Contents (Elt F) → (⟨S128x1, .i32⟩ : BufTy).Contents (Elt F)),
    StableHlo.ternary main_v88 main_v104 main_v98 main_v105 ((fun x i u => Host.scatterAdd scatter_S131072x24x8_S128x1_S131072x128x8_02_1_1_1 x i u) : (⟨S131072x24x8, .f32⟩ : BufTy).Contents (Elt F) → (⟨S128x1, .i32⟩ : BufTy).Contents (Elt F) → (⟨S131072x128x8, .f32⟩ : BufTy).Contents (Elt F) → (⟨S131072x24x8, .f32⟩ : BufTy).Contents (Elt F)),
    StableHlo.unary main_arg4 main_v106 ((extractStridedSlice S1x8x8 ![0, 0, 0] · slices_S3x8x8_S1x8x8_0_0_0) : (⟨S3x8x8, .f32⟩ : BufTy).Contents (Elt F) → (⟨S1x8x8, .f32⟩ : BufTy).Contents (Elt F)),
    StableHlo.reshape main_v106 main_v107 rfl shapeCasts_S1x8x8_S8x8,
    StableHlo.binary main_v87 main_v107 main_v108 ((fun l r => Host.dotGeneral dot_S131072x24x8_S8x8_S131072x24x8_2_0_01_1_n_n none l r) : (⟨S131072x24x8, .f32⟩ : BufTy).Contents (Elt F) → (⟨S8x8, .f32⟩ : BufTy).Contents (Elt F) → (⟨S131072x24x8, .f32⟩ : BufTy).Contents (Elt F)),
    StableHlo.unary main_arg4 main_v109 ((extractStridedSlice S1x8x8 ![1, 0, 0] · slices_S3x8x8_S1x8x8_1_0_0) : (⟨S3x8x8, .f32⟩ : BufTy).Contents (Elt F) → (⟨S1x8x8, .f32⟩ : BufTy).Contents (Elt F)),
    StableHlo.reshape main_v109 main_v110 rfl shapeCasts_S1x8x8_S8x8,
    StableHlo.binary main_v105 main_v110 main_v111 ((fun l r => Host.dotGeneral dot_S131072x24x8_S8x8_S131072x24x8_2_0_01_1_n_n none l r) : (⟨S131072x24x8, .f32⟩ : BufTy).Contents (Elt F) → (⟨S8x8, .f32⟩ : BufTy).Contents (Elt F) → (⟨S131072x24x8, .f32⟩ : BufTy).Contents (Elt F)),
    StableHlo.binary main_v108 main_v111 main_v112 (addf : (⟨S131072x24x8, .f32⟩ : BufTy).Contents (Elt F) → (⟨S131072x24x8, .f32⟩ : BufTy).Contents (Elt F) → (⟨S131072x24x8, .f32⟩ : BufTy).Contents (Elt F)),
    StableHlo.nullary main_cst_25 (constant S_ .f32 0x00000000#32),
    StableHlo.unary main_cst_25 main_v113 (broadcastInDim S131072x24x8 ![] bcast_S_S131072x24x8 : (⟨S_, .f32⟩ : BufTy).Contents (Elt F) → (⟨S131072x24x8, .f32⟩ : BufTy).Contents (Elt F)),
    StableHlo.nullary main_c_26 (constantI S_ 32 0#32),
    StableHlo.unary main_c_26 main_v114 (broadcastInDim S128 ![] bcast_S_S128 : (⟨S_, .i32⟩ : BufTy).Contents (Elt F) → (⟨S128, .i32⟩ : BufTy).Contents (Elt F)),
    StableHlo.binary main_v3 main_v114 main_v115 (cmpi .slt : (⟨S128, .i32⟩ : BufTy).Contents (Elt F) → (⟨S128, .i32⟩ : BufTy).Contents (Elt F) → (⟨S128, .i1⟩ : BufTy).Contents (Elt F)),
    StableHlo.nullary main_c_27 (constantI S_ 32 24#32),
    StableHlo.unary main_c_27 main_v116 (broadcastInDim S128 ![] bcast_S_S128 : (⟨S_, .i32⟩ : BufTy).Contents (Elt F) → (⟨S128, .i32⟩ : BufTy).Contents (Elt F)),
    StableHlo.binary main_v3 main_v116 main_v117 (addi : (⟨S128, .i32⟩ : BufTy).Contents (Elt F) → (⟨S128, .i32⟩ : BufTy).Contents (Elt F) → (⟨S128, .i32⟩ : BufTy).Contents (Elt F)),
    StableHlo.ternary main_v115 main_v117 main_v3 main_v118 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v118 main_v119 (broadcastInDim S128x1 ![0] bcast_S128_S128x1_0 : (⟨S128, .i32⟩ : BufTy).Contents (Elt F) → (⟨S128x1, .i32⟩ : BufTy).Contents (Elt F)),
    StableHlo.binary main_v105 main_v119 main_v120 ((fun x i => Host.gather gather_S131072x24x8_S128x1_S131072x128x8_02_1_n_n_1_1_13107218 x i) : (⟨S131072x24x8, .f32⟩ : BufTy).Contents (Elt F) → (⟨S128x1, .i32⟩ : BufTy).Contents (Elt F) → (⟨S131072x128x8, .f32⟩ : BufTy).Contents (Elt F)),
    StableHlo.unary main_v33 main_v121 (broadcastInDim S1x128x1 ![1] bcast_S128_S1x128x1_1 : (⟨S128, .f32⟩ : BufTy).Contents (Elt F) → (⟨S1x128x1, .f32⟩ : BufTy).Contents (Elt F)),
    StableHlo.unary main_v121 main_v122 (broadcastInDim S131072x128x8 ![0, 1, 2] bcast_S1x128x1_S131072x128x8_0_1_2 : (⟨S1x128x1, .f32⟩ : BufTy).Contents (Elt F) → (⟨S131072x128x8, .f32⟩ : BufTy).Contents (Elt F)),
    StableHlo.binary main_v120 main_v122 main_v123 (mulf : (⟨S131072x128x8, .f32⟩ : BufTy).Contents (Elt F) → (⟨S131072x128x8, .f32⟩ : BufTy).Contents (Elt F) → (⟨S131072x128x8, .f32⟩ : BufTy).Contents (Elt F)),
    StableHlo.nullary main_c_28 (constantI S_ 32 0#32),
    StableHlo.unary main_c_28 main_v124 (broadcastInDim S128 ![] bcast_S_S128 : (⟨S_, .i32⟩ : BufTy).Contents (Elt F) → (⟨S128, .i32⟩ : BufTy).Contents (Elt F)),
    StableHlo.binary main_v1 main_v124 main_v125 (cmpi .slt : (⟨S128, .i32⟩ : BufTy).Contents (Elt F) → (⟨S128, .i32⟩ : BufTy).Contents (Elt F) → (⟨S128, .i1⟩ : BufTy).Contents (Elt F)),
    StableHlo.nullary main_c_29 (constantI S_ 32 24#32),
    StableHlo.unary main_c_29 main_v126 (broadcastInDim S128 ![] bcast_S_S128 : (⟨S_, .i32⟩ : BufTy).Contents (Elt F) → (⟨S128, .i32⟩ : BufTy).Contents (Elt F)),
    StableHlo.binary main_v1 main_v126 main_v127 (addi : (⟨S128, .i32⟩ : BufTy).Contents (Elt F) → (⟨S128, .i32⟩ : BufTy).Contents (Elt F) → (⟨S128, .i32⟩ : BufTy).Contents (Elt F)),
    StableHlo.ternary main_v125 main_v127 main_v1 main_v128 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v128 main_v129 (broadcastInDim S128x1 ![0] bcast_S128_S128x1_0 : (⟨S128, .i32⟩ : BufTy).Contents (Elt F) → (⟨S128x1, .i32⟩ : BufTy).Contents (Elt F)),
    StableHlo.ternary main_v113 main_v129 main_v123 main_v130 ((fun x i u => Host.scatterAdd scatter_S131072x24x8_S128x1_S131072x128x8_02_1_1_1 x i u) : (⟨S131072x24x8, .f32⟩ : BufTy).Contents (Elt F) → (⟨S128x1, .i32⟩ : BufTy).Contents (Elt F) → (⟨S131072x128x8, .f32⟩ : BufTy).Contents (Elt F) → (⟨S131072x24x8, .f32⟩ : BufTy).Contents (Elt F)),
    StableHlo.nullary main_cst_30 (constant S_ .f32 0x40000000#32),
    StableHlo.unary main_cst_30 main_v131 (broadcastInDim S131072x24x8 ![] bcast_S_S131072x24x8 : (⟨S_, .f32⟩ : BufTy).Contents (Elt F) → (⟨S131072x24x8, .f32⟩ : BufTy).Contents (Elt F)),
    StableHlo.binary main_v131 main_v130 main_v132 (mulf : (⟨S131072x24x8, .f32⟩ : BufTy).Contents (Elt F) → (⟨S131072x24x8, .f32⟩ : BufTy).Contents (Elt F) → (⟨S131072x24x8, .f32⟩ : BufTy).Contents (Elt F)),
    StableHlo.binary main_v132 main_v87 main_v133 (subf : (⟨S131072x24x8, .f32⟩ : BufTy).Contents (Elt F) → (⟨S131072x24x8, .f32⟩ : BufTy).Contents (Elt F) → (⟨S131072x24x8, .f32⟩ : BufTy).Contents (Elt F)),
    StableHlo.unary main_arg4 main_v134 ((extractStridedSlice S1x8x8 ![2, 0, 0] · slices_S3x8x8_S1x8x8_2_0_0) : (⟨S3x8x8, .f32⟩ : BufTy).Contents (Elt F) → (⟨S1x8x8, .f32⟩ : BufTy).Contents (Elt F)),
    StableHlo.reshape main_v134 main_v135 rfl shapeCasts_S1x8x8_S8x8,
    StableHlo.binary main_v133 main_v135 main_v136 ((fun l r => Host.dotGeneral dot_S131072x24x8_S8x8_S131072x24x8_2_0_01_1_n_n none l r) : (⟨S131072x24x8, .f32⟩ : BufTy).Contents (Elt F) → (⟨S8x8, .f32⟩ : BufTy).Contents (Elt F) → (⟨S131072x24x8, .f32⟩ : BufTy).Contents (Elt F)),
    StableHlo.binary main_v112 main_v136 main_v137 (addf : (⟨S131072x24x8, .f32⟩ : BufTy).Contents (Elt F) → (⟨S131072x24x8, .f32⟩ : BufTy).Contents (Elt F) → (⟨S131072x24x8, .f32⟩ : BufTy).Contents (Elt F)),
    StableHlo.unary main_arg5 main_v138 (broadcastInDim S1x1x8 ![2] bcast_S8_S1x1x8_2 : (⟨S8, .f32⟩ : BufTy).Contents (Elt F) → (⟨S1x1x8, .f32⟩ : BufTy).Contents (Elt F)),
    StableHlo.unary main_v138 main_v139 (broadcastInDim S131072x24x8 ![0, 1, 2] bcast_S1x1x8_S131072x24x8_0_1_2 : (⟨S1x1x8, .f32⟩ : BufTy).Contents (Elt F) → (⟨S131072x24x8, .f32⟩ : BufTy).Contents (Elt F)),
    StableHlo.binary main_v137 main_v139 main_v140 (addf : (⟨S131072x24x8, .f32⟩ : BufTy).Contents (Elt F) → (⟨S131072x24x8, .f32⟩ : BufTy).Contents (Elt F) → (⟨S131072x24x8, .f32⟩ : BufTy).Contents (Elt F)),
    StableHlo.nullary main_call2_cst (constant S_ .f32 0x00000000#32),
    StableHlo.unary main_call2_cst main_call2_v0 ((broadcastInDim S131072x24x8 ![] bcast_S_S131072x24x8) : (⟨S_, .f32⟩ : BufTy).Contents (Elt F) → (⟨S131072x24x8, .f32⟩ : BufTy).Contents (Elt F)),
    StableHlo.binary main_v140 main_call2_v0 main_call2_v1 ((cmpf .ogt) : (⟨S131072x24x8, .f32⟩ : BufTy).Contents (Elt F) → (⟨S131072x24x8, .f32⟩ : BufTy).Contents (Elt F) → (⟨S131072x24x8, .i1⟩ : BufTy).Contents (Elt F)),
    StableHlo.nullary main_call2_cst_0 (constant S_ .f32 0x00000000#32),
    StableHlo.unary main_call2_cst_0 main_call2_v2 ((broadcastInDim S131072x24x8 ![] bcast_S_S131072x24x8) : (⟨S_, .f32⟩ : BufTy).Contents (Elt F) → (⟨S131072x24x8, .f32⟩ : BufTy).Contents (Elt F)),
    StableHlo.binary main_v140 main_call2_v2 main_call2_v3 ((cmpf .ogt) : (⟨S131072x24x8, .f32⟩ : BufTy).Contents (Elt F) → (⟨S131072x24x8, .f32⟩ : BufTy).Contents (Elt F) → (⟨S131072x24x8, .i1⟩ : BufTy).Contents (Elt F)),
    StableHlo.nullary main_call2_cst_1 (constant S_ .f32 0x00000000#32),
    StableHlo.unary main_call2_cst_1 main_call2_call0_v0 (id : (⟨S_, .f32⟩ : BufTy).Contents (Elt F) → (⟨S_, .f32⟩ : BufTy).Contents (Elt F)),
    StableHlo.unary main_call2_call0_v0 main_call2_call0_v1 ((broadcastInDim S131072x24x8 ![] bcast_S_S131072x24x8) : (⟨S_, .f32⟩ : BufTy).Contents (Elt F) → (⟨S131072x24x8, .f32⟩ : BufTy).Contents (Elt F)),
    StableHlo.ternary main_call2_v3 main_call2_call0_v1 main_v140 main_call2_v4 (select : (⟨S131072x24x8, .i1⟩ : BufTy).Contents (Elt F) → (⟨S131072x24x8, .f32⟩ : BufTy).Contents (Elt F) → (⟨S131072x24x8, .f32⟩ : BufTy).Contents (Elt F) → (⟨S131072x24x8, .f32⟩ : BufTy).Contents (Elt F)),
    StableHlo.unary main_call2_v4 main_call2_v5 (Host.expm1 : (⟨S131072x24x8, .f32⟩ : BufTy).Contents (Elt F) → (⟨S131072x24x8, .f32⟩ : BufTy).Contents (Elt F)),
    StableHlo.nullary main_call2_cst_2 (constant S_ .f32 0x3F800000#32),
    StableHlo.unary main_call2_cst_2 main_call2_v6 ((broadcastInDim S131072x24x8 ![] bcast_S_S131072x24x8) : (⟨S_, .f32⟩ : BufTy).Contents (Elt F) → (⟨S131072x24x8, .f32⟩ : BufTy).Contents (Elt F)),
    StableHlo.binary main_call2_v6 main_call2_v5 main_call2_v7 (mulf : (⟨S131072x24x8, .f32⟩ : BufTy).Contents (Elt F) → (⟨S131072x24x8, .f32⟩ : BufTy).Contents (Elt F) → (⟨S131072x24x8, .f32⟩ : BufTy).Contents (Elt F)),
    StableHlo.ternary main_call2_v1 main_v140 main_call2_v7 main_v141 (select : (⟨S131072x24x8, .i1⟩ : BufTy).Contents (Elt F) → (⟨S131072x24x8, .f32⟩ : BufTy).Contents (Elt F) → (⟨S131072x24x8, .f32⟩ : BufTy).Contents (Elt F) → (⟨S131072x24x8, .f32⟩ : BufTy).Contents (Elt F)),
    StableHlo.reshape main_v141 main_v142 rfl shapeCasts_S131072x24x8_S131072x192,
    StableHlo.unary main_arg6 main_v143 ((transpose S192x64 [1, 0] · transposes_S64x192_S192x64_1_0) : (⟨S64x192, .f32⟩ : BufTy).Contents (Elt F) → (⟨S192x64, .f32⟩ : BufTy).Contents (Elt F)),
    StableHlo.binary main_v142 main_v143 main_v144 ((fun l r => Host.dotGeneral dot_S131072x192_S192x64_S131072x64_1_0_0_1_n_n none l r) : (⟨S131072x192, .f32⟩ : BufTy).Contents (Elt F) → (⟨S192x64, .f32⟩ : BufTy).Contents (Elt F) → (⟨S131072x64, .f32⟩ : BufTy).Contents (Elt F)),
    StableHlo.unary main_arg7 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S131072x64 ![0, 1] bcast_S1x64_S131072x64_0_1 : (⟨S1x64, .f32⟩ : BufTy).Contents (Elt F) → (⟨S131072x64, .f32⟩ : BufTy).Contents (Elt F)) ]

/-- The window is that straight line. -/
theorem part2_eq (c : Dev nD) : main_part2 (F := F) c = seq ops2 := by chain_rfl

theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., reshape_bufs_sub .., unary_bufs_sub .., binary_bufs_sub .., unary_bufs_sub .., unary_bufs_sub ..⟩

theorem ops2_fresh : ∀ op ∈ (ops2 : List (HloOp τ sig (Elt F))), op.fresh = ∅ := by
  intro _ h; (repeat (cases h with | head => rfl | tail _ h => ?_)); exact nomatch h

end Ops

/-- The first dense layer's product, of the second layer's output. -/
theorem w2_v144 (Wv : Valuation τ sig (Elt Ideal)) (hh : FVec Ideal S131072x24x8 .f32) (ei : IVec S2x128 32) (W2 : FVec Ideal S3x8x8 .f32) (b2 : FVec Ideal S8 .f32)
    (fc1W : FVec Ideal S64x192 .f32)
    (hv1 : Wv (Proc.devRef .tc main_v1) = rowV ei) (hv3 : Wv (Proc.devRef .tc main_v3) = colV ei) (hv33 : Wv (Proc.devRef .tc main_v33) = ewT ei)
    (hv87 : Wv (Proc.devRef .tc main_v87) = hh) (hv88 : Wv (Proc.devRef .tc main_v88) = broadcastInDim S131072x24x8 ![] bcast_S_S131072x24x8 (constant (F := Ideal) S_ .f32 0x00000000#32))
    (hv94 : Wv (Proc.devRef .tc main_v94) = wrapC (colV ei))
    (h4 : Wv (Proc.devRef .tc main_arg4) = W2) (h5 : Wv (Proc.devRef .tc main_arg5) = b2) (h6 : Wv (Proc.devRef .tc main_arg6) = fc1W) :
    after (ops2 (F := Ideal)) Wv (Proc.devRef .tc main_v144)
      = Host.dotGeneral (F := Ideal) dot_S131072x192_S192x64_S131072x64_1_0_0_1_n_n none
          (shapeCast S131072x192 (eluT (cheb8 (wrapC (rowV ei)) (wrapC (colV ei)) (ewT ei) hh W2 b2)) shapeCasts_S131072x24x8_S131072x192)
          (transpose S192x64 [1, 0] fc1W transposes_S64x192_S192x64_1_0) := by
  after_results_simp
  rw [hv1, hv3, hv33, hv87, hv88, hv94, h4, h5, h6]
  rfl
/-- The first dense layer's bias, broadcast. -/
theorem w2_v146 (Wv : Valuation τ sig (Elt Ideal)) (fc1b : FVec Ideal S64 .f32) (h7 : Wv (Proc.devRef .tc main_arg7) = fc1b) :
    after (ops2 (F := Ideal)) Wv (Proc.devRef .tc main_v146)
      = broadcastInDim S131072x64 ![0, 1] bcast_S1x64_S131072x64_0_1 (broadcastInDim S1x64 ![1] bcast_S64_S1x64_1 fc1b) := by
  after_results_simp; rw [h7]

theorem w2_arg0 (Wv : Valuation τ sig (Elt Ideal)) :
    after (ops2 (F := Ideal)) Wv (Proc.devRef .tc main_arg0) = Wv (Proc.devRef .tc main_arg0) := by after_results_simp
theorem w2_arg1 (Wv : Valuation τ sig (Elt Ideal)) :
    after (ops2 (F := Ideal)) Wv (Proc.devRef .tc main_arg1) = Wv (Proc.devRef .tc main_arg1) := by after_results_simp
theorem w2_arg2 (Wv : Valuation τ sig (Elt Ideal)) :
    after (ops2 (F := Ideal)) Wv (Proc.devRef .tc main_arg2) = Wv (Proc.devRef .tc main_arg2) := by after_results_simp
theorem w2_arg3 (Wv : Valuation τ sig (Elt Ideal)) :
    after (ops2 (F := Ideal)) Wv (Proc.devRef .tc main_arg3) = Wv (Proc.devRef .tc main_arg3) := by after_results_simp
theorem w2_arg4 (Wv : Valuation τ sig (Elt Ideal)) :
    after (ops2 (F := Ideal)) Wv (Proc.devRef .tc main_arg4) = Wv (Proc.devRef .tc main_arg4) := by after_results_simp
theorem w2_arg5 (Wv : Valuation τ sig (Elt Ideal)) :
    after (ops2 (F := Ideal)) Wv (Proc.devRef .tc main_arg5) = Wv (Proc.devRef .tc main_arg5) := by after_results_simp
theorem w2_arg6 (Wv : Valuation τ sig (Elt Ideal)) :
    after (ops2 (F := Ideal)) Wv (Proc.devRef .tc main_arg6) = Wv (Proc.devRef .tc main_arg6) := by after_results_simp
theorem w2_arg7 (Wv : Valuation τ sig (Elt Ideal)) :
    after (ops2 (F := Ideal)) Wv (Proc.devRef .tc main_arg7) = Wv (Proc.devRef .tc main_arg7) := by after_results_simp
theorem w2_arg8 (Wv : Valuation τ sig (Elt Ideal)) :
    after (ops2 (F := Ideal)) Wv (Proc.devRef .tc main_arg8) = Wv (Proc.devRef .tc main_arg8) := by after_results_simp
theorem w2_arg9 (Wv : Valuation τ sig (Elt Ideal)) :
    after (ops2 (F := Ideal)) Wv (Proc.devRef .tc main_arg9) = Wv (Proc.devRef .tc main_arg9) := by after_results_simp

end Cert.Cheb.RefRun

end
-- ==== Proof.RefOps3.lean ====
/-
  The operations of statements 181 to 189 of the reference function, in order, as one list (a call of a
  local function stands as the callee's operations over the buffers of that call), and what the buffers read
  later hold once the list has run, in terms of the stage functions.
-/
import proofs.«144586_j5729486372945_2_alg».proof.Proof.RefTerm
import Idealize.ShloMosaic.Lib.StableHlo.Run
import Idealize.ShloMosaic.Lib.Pipeline.Regions

noncomputable section

namespace Cert.Cheb.RefRun

open Idealize.ShloMosaic Idealize.ShloMosaic.TcCoe Idealize.SL.Sem Idealize.ShloMosaic.StableHlo
open Cert.ReferenceIdeal Cert.ReferenceIdeal.Facts₀ Cert.ReferenceIdeal.Facts

variable [Cert.ReferenceIdeal.Facts]

section Ops
variable {F : FTy → Type} [FloatOps F]
/-- The operations of the window, in order. -/
abbrev ops3 : List (HloOp τ sig (Elt F)) :=
  [ StableHlo.binary main_v144 main_v146 main_v147 (addf : (⟨S131072x64, .f32⟩ : BufTy).Contents (Elt F) → (⟨S131072x64, .f32⟩ : BufTy).Contents (Elt F) → (⟨S131072x64, .f32⟩ : BufTy).Contents (Elt F)),
    StableHlo.unary main_arg8 main_v148 ((transpose S64x2 [1, 0] · transposes_S2x64_S64x2_1_0) : (⟨S2x64, .f32⟩ : BufTy).Contents (Elt F) → (⟨S64x2, .f32⟩ : BufTy).Contents (Elt F)),
    StableHlo.binary main_v147 main_v148 main_v149 ((fun l r => Host.dotGeneral dot_S131072x64_S64x2_S131072x2_1_0_0_1_n_n none l r) : (⟨S131072x64, .f32⟩ : BufTy).Contents (Elt F) → (⟨S64x2, .f32⟩ : BufTy).Contents (Elt F) → (⟨S131072x2, .f32⟩ : BufTy).Contents (Elt F)),
    StableHlo.unary main_arg9 main_v150 (broadcastInDim S1x2 ![1] bcast_S2_S1x2_1 : (⟨S2, .f32⟩ : BufTy).Contents (Elt F) → (⟨S1x2, .f32⟩ : BufTy).Contents (Elt F)),
    StableHlo.unary main_v150 main_v151 (broadcastInDim S131072x2 ![0, 1] bcast_S1x2_S131072x2_0_1 : (⟨S1x2, .f32⟩ : BufTy).Contents (Elt F) → (⟨S131072x2, .f32⟩ : BufTy).Contents (Elt F)),
    StableHlo.binary main_v149 main_v151 main_v152 (addf : (⟨S131072x2, .f32⟩ : BufTy).Contents (Elt F) → (⟨S131072x2, .f32⟩ : BufTy).Contents (Elt F) → (⟨S131072x2, .f32⟩ : BufTy).Contents (Elt F)),
    StableHlo.reshape main_v152 main_v153 rfl shapeCasts_S131072x2_S131072x1x2,
    StableHlo.nullary main_call3_cst (constant S_ .f32 0xFF800000#32),
    StableHlo.binary main_v153 main_call3_cst main_call3_v0 ((fun x v => Host.reduce FloatOps.maximumf x v reducesTo_S131072x1x2_S131072x1_d2 h_S_) : (⟨S131072x1x2, .f32⟩ : BufTy).Contents (Elt F) → (⟨S_, .f32⟩ : BufTy).Contents (Elt F) → (⟨S131072x1, .f32⟩ : BufTy).Contents (Elt F)),
    StableHlo.nullary main_call3_cst_0 (constant S_ .f32 0xFF800000#32),
    StableHlo.unary main_call3_cst_0 main_call3_v1 ((broadcastInDim S131072x1 ![] bcast_S_S131072x1) : (⟨S_, .f32⟩ : BufTy).Contents (Elt F) → (⟨S131072x1, .f32⟩ : BufTy).Contents (Elt F)),
    StableHlo.binary main_call3_v1 main_call3_v0 main_call3_v2 (maximumf : (⟨S131072x1, .f32⟩ : BufTy).Contents (Elt F) → (⟨S131072x1, .f32⟩ : BufTy).Contents (Elt F) → (⟨S131072x1, .f32⟩ : BufTy).Contents (Elt F)),
    StableHlo.unary main_call3_v2 main_call3_v3 ((broadcastInDim S131072x1x1 ![0, 1] bcast_S131072x1_S131072x1x1_0_1) : (⟨S131072x1, .f32⟩ : BufTy).Contents (Elt F) → (⟨S131072x1x1, .f32⟩ : BufTy).Contents (Elt F)),
    StableHlo.unary main_call3_v3 main_call3_v4 ((broadcastInDim S131072x1x2 ![0, 1, 2] bcast_S131072x1x1_S131072x1x2_0_1_2) : (⟨S131072x1x1, .f32⟩ : BufTy).Contents (Elt F) → (⟨S131072x1x2, .f32⟩ : BufTy).Contents (Elt F)),
    StableHlo.binary main_v153 main_call3_v4 main_call3_v5 (subf : (⟨S131072x1x2, .f32⟩ : BufTy).Contents (Elt F) → (⟨S131072x1x2, .f32⟩ : BufTy).Contents (Elt F) → (⟨S131072x1x2, .f32⟩ : BufTy).Contents (Elt F)),
    StableHlo.unary main_call3_v5 main_call3_v6 (Host.exp : (⟨S131072x1x2, .f32⟩ : BufTy).Contents (Elt F) → (⟨S131072x1x2, .f32⟩ : BufTy).Contents (Elt F)),
    StableHlo.nullary main_call3_cst_1 (constant S_ .f32 0x00000000#32),
    StableHlo.binary main_call3_v6 main_call3_cst_1 main_call3_v7 ((fun x v => Host.reduceAdd x v reducesTo_S131072x1x2_S131072x1_d2 h_S_) : (⟨S131072x1x2, .f32⟩ : BufTy).Contents (Elt F) → (⟨S_, .f32⟩ : BufTy).Contents (Elt F) → (⟨S131072x1, .f32⟩ : BufTy).Contents (Elt F)),
    StableHlo.unary main_call3_v7 main_call3_v8 ((broadcastInDim S131072x1x1 ![0, 1] bcast_S131072x1_S131072x1x1_0_1) : (⟨S131072x1, .f32⟩ : BufTy).Contents (Elt F) → (⟨S131072x1x1, .f32⟩ : BufTy).Contents (Elt F)),
    StableHlo.unary main_call3_v8 main_call3_v9 (Host.log : (⟨S131072x1x1, .f32⟩ : BufTy).Contents (Elt F) → (⟨S131072x1x1, .f32⟩ : BufTy).Contents (Elt F)),
    StableHlo.unary main_call3_v9 main_call3_v10 ((broadcastInDim S131072x1x2 ![0, 1, 2] bcast_S131072x1x1_S131072x1x2_0_1_2) : (⟨S131072x1x1, .f32⟩ : BufTy).Contents (Elt F) → (⟨S131072x1x2, .f32⟩ : BufTy).Contents (Elt F)),
    StableHlo.binary main_call3_v5 main_call3_v10 main_v154 (subf : (⟨S131072x1x2, .f32⟩ : BufTy).Contents (Elt F) → (⟨S131072x1x2, .f32⟩ : BufTy).Contents (Elt F) → (⟨S131072x1x2, .f32⟩ : BufTy).Contents (Elt F)) ]

/-- The window is that straight line. -/
theorem part3_eq (c : Dev nD) : main_part3 (F := F) c = seq ops3 := by chain_rfl

theorem ops3_sub : (ops3 : List (HloOp τ sig (Elt F))).Forall fun op => op.bufs ⊆ tcRefs τ sig :=
  ⟨binary_bufs_sub .., unary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops3_fresh : ∀ op ∈ (ops3 : List (HloOp τ sig (Elt F))), op.fresh = ∅ := by
  intro _ h; (repeat (cases h with | head => rfl | tail _ h => ?_)); exact nomatch h

end Ops

/-- The result: the log-softmax of the second dense layer of the first. -/
theorem w3 (Wv : Valuation τ sig (Elt Ideal)) (h : FVec Ideal S131072x24x8 .f32) (fc1W : FVec Ideal S64x192 .f32)
    (fc1b : FVec Ideal S64 .f32) (fc2W : FVec Ideal S2x64 .f32) (fc2b : FVec Ideal S2 .f32)
    (h144 : Wv (Proc.devRef .tc main_v144) = Host.dotGeneral (F := Ideal) dot_S131072x192_S192x64_S131072x64_1_0_0_1_n_n none
        (shapeCast S131072x192 h shapeCasts_S131072x24x8_S131072x192) (transpose S192x64 [1, 0] fc1W transposes_S64x192_S192x64_1_0))
    (h146 : Wv (Proc.devRef .tc main_v146) = broadcastInDim S131072x64 ![0, 1] bcast_S1x64_S131072x64_0_1 (broadcastInDim S1x64 ![1] bcast_S64_S1x64_1 fc1b))
    (h8 : Wv (Proc.devRef .tc main_arg8) = fc2W) (h9 : Wv (Proc.devRef .tc main_arg9) = fc2b) :
    after (ops3 (F := Ideal)) Wv (Proc.devRef .tc main_v154) = headT h fc1W fc1b fc2W fc2b := by
  after_results_simp
  rw [h144, h146, h8, h9]
  rfl

theorem w3_arg0 (Wv : Valuation τ sig (Elt Ideal)) :
    after (ops3 (F := Ideal)) Wv (Proc.devRef .tc main_arg0) = Wv (Proc.devRef .tc main_arg0) := by after_results_simp
theorem w3_arg1 (Wv : Valuation τ sig (Elt Ideal)) :
    after (ops3 (F := Ideal)) Wv (Proc.devRef .tc main_arg1) = Wv (Proc.devRef .tc main_arg1) := by after_results_simp
theorem w3_arg2 (Wv : Valuation τ sig (Elt Ideal)) :
    after (ops3 (F := Ideal)) Wv (Proc.devRef .tc main_arg2) = Wv (Proc.devRef .tc main_arg2) := by after_results_simp
theorem w3_arg3 (Wv : Valuation τ sig (Elt Ideal)) :
    after (ops3 (F := Ideal)) Wv (Proc.devRef .tc main_arg3) = Wv (Proc.devRef .tc main_arg3) := by after_results_simp
theorem w3_arg4 (Wv : Valuation τ sig (Elt Ideal)) :
    after (ops3 (F := Ideal)) Wv (Proc.devRef .tc main_arg4) = Wv (Proc.devRef .tc main_arg4) := by after_results_simp
theorem w3_arg5 (Wv : Valuation τ sig (Elt Ideal)) :
    after (ops3 (F := Ideal)) Wv (Proc.devRef .tc main_arg5) = Wv (Proc.devRef .tc main_arg5) := by after_results_simp
theorem w3_arg6 (Wv : Valuation τ sig (Elt Ideal)) :
    after (ops3 (F := Ideal)) Wv (Proc.devRef .tc main_arg6) = Wv (Proc.devRef .tc main_arg6) := by after_results_simp
theorem w3_arg7 (Wv : Valuation τ sig (Elt Ideal)) :
    after (ops3 (F := Ideal)) Wv (Proc.devRef .tc main_arg7) = Wv (Proc.devRef .tc main_arg7) := by after_results_simp
theorem w3_arg8 (Wv : Valuation τ sig (Elt Ideal)) :
    after (ops3 (F := Ideal)) Wv (Proc.devRef .tc main_arg8) = Wv (Proc.devRef .tc main_arg8) := by after_results_simp
theorem w3_arg9 (Wv : Valuation τ sig (Elt Ideal)) :
    after (ops3 (F := Ideal)) Wv (Proc.devRef .tc main_arg9) = Wv (Proc.devRef .tc main_arg9) := by after_results_simp

end Cert.Cheb.RefRun

end
-- ==== Proof.RefRun.lean ====
/-
  The run of the reference function: every weakly fair execution terminates with the result buffer at
  `refOut` of the ten arguments' launch contents, and the arguments unchanged.

  The four windows' lists are joined into one; what a buffer holds after the joined list is what it holds after
  the last window run from the contents the earlier windows leave, so the windows' readings compose.
-/
import proofs.«144586_j5729486372945_2_alg».proof.Proof.RefOps0
import proofs.«144586_j5729486372945_2_alg».proof.Proof.RefOps1
import proofs.«144586_j5729486372945_2_alg».proof.Proof.RefOps2
import proofs.«144586_j5729486372945_2_alg».proof.Proof.RefOps3

noncomputable section

namespace Cert.Cheb.RefRun

open Idealize.ShloMosaic Idealize.ShloMosaic.TcCoe Idealize.SL.Sem Idealize.ShloMosaic.StableHlo
open Cert.ReferenceIdeal Cert.ReferenceIdeal.Facts₀ Cert.ReferenceIdeal.Facts

variable [Cert.ReferenceIdeal.Facts]

/-- What the buffers hold after two lists run one after the other. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => after_append l l₂ (op.result V)

section Ops
variable {F : FTy → Type} [FloatOps F]

/-- All the operations of the function, in order. -/
abbrev opsAll : List (HloOp τ sig (Elt F)) := ops0 ++ (ops1 ++ (ops2 ++ ops3))

theorem main_eq (c : Dev nD) : main (F := F) c = seq opsAll := by
  rw [seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    · exact List.forall_iff_forall_mem.mp ops3_sub op h

theorem opsAll_fresh : ∀ op ∈ (opsAll : List (HloOp τ sig (Elt F))), op.fresh = ∅ := fun op h => by
  rcases List.mem_append.mp h with h | h
  · exact ops0_fresh op h
  rcases List.mem_append.mp h with h | h
  · exact ops1_fresh op h
  rcases List.mem_append.mp h with h | h
  · exact ops2_fresh op h
  · exact ops3_fresh op h

end Ops

/-- The joined list read window by window. -/
theorem after_all (V : Valuation τ sig (Elt Ideal)) :
    after (opsAll (F := Ideal)) V = after ops3 (after ops2 (after ops1 (after ops0 V))) := by
  rw [after_append, after_append, after_append]

/-- The result buffer after the whole function. -/
theorem out_eq (V : Valuation τ sig (Elt Ideal)) :
    after (opsAll (F := Ideal)) V (Proc.devRef .tc main_v154)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  rw [after_all]
  -- the contents the first window leaves
  have a1 := w0_v1 V _ rfl
  have a3 := w0_v3 V _ rfl
  have a33 := w0_v33 V _ rfl
  have a34 := w0_v34 V
  have a44 := w0_v44 V _ _ rfl rfl
  have a12 := w0_c12 V
  -- the second
  have b87 := w1_v87 (after ops0 V) _ _ _ _ a12 a1 a3 a33 a34 a44 (w0_arg0 V) (w0_arg2 V) (w0_arg3 V)
  have b88 := w1_v88 (after ops0 V)
  have b94 := w1_v94 (after ops0 V) _ a3
  have b1 := (w1_v1 (after ops0 V)).trans a1
  have b3 := (w1_v3 (after ops0 V)).trans a3
  have b33 := (w1_v33 (after ops0 V)).trans a33
  -- the third
  have c144 := w2_v144 (after ops1 (after ops0 V)) _ _ _ _ _ b1 b3 b33 b87 b88 b94
    ((w1_arg4 _).trans (w0_arg4 V)) ((w1_arg5 _).trans (w0_arg5 V)) ((w1_arg6 _).trans (w0_arg6 V))
  have c146 := w2_v146 (after ops1 (after ops0 V)) _ ((w1_arg7 _).trans (w0_arg7 V))
  -- the last
  exact w3 (after ops2 (after ops1 (after ops0 V))) _ _ _ _ _ c144 c146
    ((w2_arg8 _).trans ((w1_arg8 _).trans (w0_arg8 V))) ((w2_arg9 _).trans ((w1_arg9 _).trans (w0_arg9 V)))

theorem arg0_eq (V : Valuation τ sig (Elt Ideal)) :
    after (opsAll (F := Ideal)) V (Proc.devRef .tc main_arg0) = V (Proc.devRef .tc main_arg0) := by
  rw [after_all, w3_arg0, w2_arg0, w1_arg0, w0_arg0]
theorem arg1_eq (V : Valuation τ sig (Elt Ideal)) :
    after (opsAll (F := Ideal)) V (Proc.devRef .tc main_arg1) = V (Proc.devRef .tc main_arg1) := by
  rw [after_all, w3_arg1, w2_arg1, w1_arg1, w0_arg1]
theorem arg2_eq (V : Valuation τ sig (Elt Ideal)) :
    after (opsAll (F := Ideal)) V (Proc.devRef .tc main_arg2) = V (Proc.devRef .tc main_arg2) := by
  rw [after_all, w3_arg2, w2_arg2, w1_arg2, w0_arg2]
theorem arg3_eq (V : Valuation τ sig (Elt Ideal)) :
    after (opsAll (F := Ideal)) V (Proc.devRef .tc main_arg3) = V (Proc.devRef .tc main_arg3) := by
  rw [after_all, w3_arg3, w2_arg3, w1_arg3, w0_arg3]
theorem arg4_eq (V : Valuation τ sig (Elt Ideal)) :
    after (opsAll (F := Ideal)) V (Proc.devRef .tc main_arg4) = V (Proc.devRef .tc main_arg4) := by
  rw [after_all, w3_arg4, w2_arg4, w1_arg4, w0_arg4]
theorem arg5_eq (V : Valuation τ sig (Elt Ideal)) :
    after (opsAll (F := Ideal)) V (Proc.devRef .tc main_arg5) = V (Proc.devRef .tc main_arg5) := by
  rw [after_all, w3_arg5, w2_arg5, w1_arg5, w0_arg5]
theorem arg6_eq (V : Valuation τ sig (Elt Ideal)) :
    after (opsAll (F := Ideal)) V (Proc.devRef .tc main_arg6) = V (Proc.devRef .tc main_arg6) := by
  rw [after_all, w3_arg6, w2_arg6, w1_arg6, w0_arg6]
theorem arg7_eq (V : Valuation τ sig (Elt Ideal)) :
    after (opsAll (F := Ideal)) V (Proc.devRef .tc main_arg7) = V (Proc.devRef .tc main_arg7) := by
  rw [after_all, w3_arg7, w2_arg7, w1_arg7, w0_arg7]
theorem arg8_eq (V : Valuation τ sig (Elt Ideal)) :
    after (opsAll (F := Ideal)) V (Proc.devRef .tc main_arg8) = V (Proc.devRef .tc main_arg8) := by
  rw [after_all, w3_arg8, w2_arg8, w1_arg8, w0_arg8]
theorem arg9_eq (V : Valuation τ sig (Elt Ideal)) :
    after (opsAll (F := Ideal)) V (Proc.devRef .tc main_arg9) = V (Proc.devRef .tc main_arg9) := by
  rw [after_all, w3_arg9, w2_arg9, w1_arg9, w0_arg9]

/-- On every device, from any memory with zero counters: every weakly fair execution of the reference function
    terminates with the result at `refOut` of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v154) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (Cert.ReferenceIdeal.defs (F := Ideal)) _ _).mono (fun _ h c => ⟨(h c main_v154).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq (Cert.ReferenceIdeal.defs (F := Ideal)) (Cert.ReferenceIdeal.main (F := Ideal)) (fun _ => opsAll) main_eq (fun _ => opsAll_sub) m ρ
      (fun _ => opsAll_fresh))

end Cert.Cheb.RefRun

end
-- ==== Proof.Scalars.lean ====
/-
  The two scalar functions that both programs apply entry by entry.

  * `eluS x` is the exponential linear unit on one extended real: `x` itself where `x` is positive and
    `exp x - 1` everywhere else.
  * `lsm2 l q` is the log-softmax of a PAIR of logits `l 0, l 1` read at position `q`: the logit less the
    larger of the two, less the logarithm of the sum of the two exponentials of the logits so shifted.
-/
import Idealize.ShloMosaic.PureOps.Ideal

noncomputable section

namespace Cert.Cheb

open Idealize.ShloMosaic

/-- The exponential linear unit on one extended real. -/
def eluS (x : EReal) : EReal := if 0 < x then x else Ideal.exp x - 1

/-- The log-softmax of two logits, at position `q`. -/
def lsm2 (l : Fin 2 → EReal) (q : Fin 2) : EReal :=
  (l q - max (l 0) (l 1))
    - Ideal.log (Ideal.exp (l 0 - max (l 0) (l 1)) + Ideal.exp (l 1 - max (l 0) (l 1)))

end Cert.Cheb

end
-- ==== Proof.GraphSpec.lean ====
/-
  The mathematics of one sample, over the extended reals, in the two arrangements the two programs use.

  A graph has 24 nodes and 128 directed edges; edge `e` goes into node `rN e` from node `cN e` and carries
  the weight `ew e`.  PROPAGATION sends per-node features `z` to `(prop z) n f = Σ_{e into n} z (cN e) f · ew e`.
  The propagation MATRIX is `Pm n m = Σ_{e : m → n} ew e`, so that `prop z n f = Σ_m Pm n m · z m f` whenever
  every number involved is real.

  A Chebyshev layer of order three applies the three polynomials `T₀ = 1`, `T₁ = P`, `T₂ = 2P² − 1` of the
  propagation to the features and mixes the feature axis by one weight slab per polynomial:
  * `chebRefS` propagates the features (the reference's arrangement);
  * `chebKerS` contracts the flattened features with ONE matrix `wbigS` built from the polynomials of `Pm` and
    the slabs (the kernel's arrangement).
  The head is two dense layers on the flattened node-major features and a log-softmax over the two classes.
-/
import Mathlib.Algebra.BigOperators.Fin
import proofs.«144586_j5729486372945_2_alg».proof.Proof.Scalars

noncomputable section

namespace Cert.Cheb

open Idealize.ShloMosaic
open scoped BigOperators

/-- Position `n·8 + h` of the node-major flattening of 24 × 8 features. -/
def fl8 (n : Fin 24) (h : Fin 8) : Fin 192 := ⟨n.val * 8 + h.val, by omega⟩
/-- Position `m·4 + f` of the node-major flattening of 24 × 4 features. -/
def fl4 (m : Fin 24) (f : Fin 4) : Fin 96 := ⟨m.val * 4 + f.val, by omega⟩
/-- Position `m·F + f` of the node-major flattening of 24 × F features. -/
def flF {F : ℕ} (m : Fin 24) (f : Fin F) : Fin (24 * F) :=
  ⟨m.val * F + f.val, by
    have h1 := m.isLt; have h2 := f.isLt
    calc m.val * F + f.val < m.val * F + F := by omega
      _ = (m.val + 1) * F := by ring
      _ ≤ 24 * F := Nat.mul_le_mul_right F (by omega)⟩

section graph

variable (rN cN : Fin 128 → Fin 24) (ew : Fin 128 → EReal)

/-- Propagation of per-node features along the weighted edges. -/
def propS {F : ℕ} (z : Fin 24 → Fin F → EReal) (n : Fin 24) (f : Fin F) : EReal :=
  ∑ e : Fin 128, if rN e = n then z (cN e) f * ew e else 0

/-- One Chebyshev layer in the propagating arrangement. -/
def chebRefS {F H : ℕ} (z : Fin 24 → Fin F → EReal) (W : Fin 3 → Fin F → Fin H → EReal) (bias : Fin H → EReal)
    (n : Fin 24) (h : Fin H) : EReal :=
  (((∑ f : Fin F, z n f * W 0 f h) + (∑ f : Fin F, propS rN cN ew z n f * W 1 f h))
      + (∑ f : Fin F, (2 * propS rN cN ew (propS rN cN ew z) n f - z n f) * W 2 f h))
    + bias h

/-- The propagation matrix: the total weight of the edges into `n` from `m`. -/
def PmS (n m : Fin 24) : EReal := ∑ e : Fin 128, if rN e = n ∧ cN e = m then ew e else 0

/-- The identity matrix. -/
def eyeS (n m : Fin 24) : EReal := if n = m then 1 else 0

/-- The second Chebyshev polynomial of the propagation matrix, `2 P² − 1`. -/
def T2S (n m : Fin 24) : EReal := 2 * (∑ k : Fin 24, PmS rN cN ew n k * PmS rN cN ew k m) - eyeS n m

/-- The collapsed layer matrix at row (m, f) and column (n, h). -/
def wbigS {F H : ℕ} (W : Fin 3 → Fin F → Fin H → EReal) (m : Fin 24) (f : Fin F) (n : Fin 24) (h : Fin H) : EReal :=
  (eyeS n m * W 0 f h + PmS rN cN ew n m * W 1 f h) + T2S rN cN ew n m * W 2 f h

/-- One Chebyshev layer in the collapsed arrangement. -/
def chebKerS {F H : ℕ} (z : Fin 24 → Fin F → EReal) (W : Fin 3 → Fin F → Fin H → EReal) (bias : Fin H → EReal)
    (n : Fin 24) (h : Fin H) : EReal :=
  (∑ m : Fin 24, ∑ f : Fin F, z m f * wbigS rN cN ew W m f n h) + bias h

end graph

/-- The head on flattened features `g`: dense 192 → 64, dense 64 → 2, log-softmax. -/
def headS (g : Fin 192 → EReal) (fc1W : Fin 64 → Fin 192 → EReal) (fc1b : Fin 64 → EReal)
    (fc2W : Fin 2 → Fin 64 → EReal) (fc2b : Fin 2 → EReal) (q : Fin 2) : EReal :=
  lsm2 (fun c => (∑ j : Fin 64, ((∑ i : Fin 192, g i * fc1W j i) + fc1b j) * fc2W c j) + fc2b c) q

end Cert.Cheb

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibSoftmaxRows.lean ====
/-
  A row-wise centred softmax of an `a × n` block, as a kernel body spells it, read at an entry, for any sizes.

  The body takes the largest entry of each row (a lane maximum from minus infinity, then once more the maximum with
  minus infinity), keeps it as an `a × 1` column and spreads it back over the lanes, subtracts it, exponentiates, sums
  each row of exponentials the same way, divides, and subtracts a constant. At entry `(r, q)` nothing but row `r` of
  the block is read: the result is `exp (z r q - top r) / ∑ c, exp (z r c - top r)` minus the constant, where
  `top r = max ⊥ (fold max ⊥ (z r ·))`.
-/
import proofs.«144586_j5729486372945_2_alg».proof.Proof.LibRowMax
import proofs.«144586_j5729486372945_2_alg».proof.Proof.LibRowOps
import proofs.«144586_j5729486372945_2_alg».proof.Proof.LibGram
import Idealize.ShloMosaic.Lib.Pipeline.Value
import Idealize.ShloMosaic.Lib.ValueIdx
import Idealize.ShloMosaic.PureOps.Ideal.Laws

noncomputable section

open scoped BigOperators

namespace Cert.Lib.SoftmaxRows

open Idealize.ShloMosaic Idealize.ShloMosaic.ValueIdx

variable {a n : ℕ}

/-- The row maximum kept as a column and spread over the lanes reads, at `(r, q)`, the maximum with minus infinity of
    the fold of `max` over row `r`. -/
theorem spreadTop_apply (z : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (hacc : (0xFF800000#32 : BitVec 32) = 0xFF800000#32) (r : Fin a) (q : Fin n) :
    broadcastTo ⟨2, ![a, n]⟩ (shapeCast ⟨2, ![a, 1]⟩
        (maximumf (broadcast ⟨1, ![a]⟩ (Scalar.ofBits .f32 0xFF800000#32 : Ideal .f32))
          (multiReduction .maximumf [1] ⟨1, ![a]⟩ z 0xFF800000#32 hred hφ hacc)) hcast) hb (ix2 r q)
      = max (Ideal.ofBits .f32 0xFF800000#32)
          ((Finset.univ : Finset (Fin n)).fold max (Ideal.ofBits .f32 0xFF800000#32) (fun c => z (ix2 r c))) := by
  rw [Cert.Lib.RowOps.broadcastTo_a1_ab_apply, Cert.Lib.Gram.shapeCast_a_a1_apply]
  show max _ (multiReduction .maximumf [1] ⟨1, ![a]⟩ z 0xFF800000#32 hred hφ hacc (ix1 r)) = _
  rw [Cert.Lib.RowMax.laneMax_apply]
  rfl

/-- A row sum kept as a column and spread over the lanes reads, at `(r, q)`, the sum of row `r`. -/
theorem spreadSum_apply (e : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (hacc : (0x00000000#32 : BitVec 32) = 0x00000000#32) (r : Fin a) (q : Fin n) :
    broadcastTo ⟨2, ![a, n]⟩ (shapeCast ⟨2, ![a, 1]⟩
        (multiReduction .add [1] ⟨1, ![a]⟩ e 0x00000000#32 hred hφ hacc) hcast) hb (ix2 r q)
      = ∑ c : Fin n, e (ix2 r c) := by
  rw [Cert.Lib.RowOps.broadcastTo_a1_ab_apply, Cert.Lib.Gram.shapeCast_a_a1_apply, Cert.Lib.RowOps.laneSum_apply]

/-- The row maximum of a block, kept as a column and spread back over the lanes, as a kernel body spells it. -/
abbrev spreadTop (z : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (hacc : (0xFF800000#32 : BitVec 32) = 0xFF800000#32) : FVec Ideal ⟨2, ![a, n]⟩ .f32 :=
  broadcastTo ⟨2, ![a, n]⟩ (shapeCast ⟨2, ![a, 1]⟩
    (maximumf (broadcast ⟨1, ![a]⟩ (Scalar.ofBits .f32 0xFF800000#32 : Ideal .f32))
      (multiReduction .maximumf [1] ⟨1, ![a]⟩ z 0xFF800000#32 hred hφ hacc)) hcast) hb

/-- The spread row maximum under its name, read at an entry. -/
theorem spreadTop_eq (z : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (hacc : (0xFF800000#32 : BitVec 32) = 0xFF800000#32) (r : Fin a) (q : Fin n) :
    spreadTop z hred hcast hb hφ hacc (ix2 r q)
      = max (Ideal.ofBits .f32 0xFF800000#32)
          ((Finset.univ : Finset (Fin n)).fold max (Ideal.ofBits .f32 0xFF800000#32) (fun c => z (ix2 r c))) :=
  spreadTop_apply z hred hcast hb hφ hacc r q

/-- The centred softmax of one row `z` at column `q`, less the constant of word `w`. -/
def centredRow (w : BitVec 32) (z : Fin n → EReal) (q : Fin n) : EReal :=
  Ideal.div
      (Ideal.exp (z q - max (Ideal.ofBits .f32 0xFF800000#32)
        ((Finset.univ : Finset (Fin n)).fold max (Ideal.ofBits .f32 0xFF800000#32) z)))
      (∑ c : Fin n, Ideal.exp (z c - max (Ideal.ofBits .f32 0xFF800000#32)
        ((Finset.univ : Finset (Fin n)).fold max (Ideal.ofBits .f32 0xFF800000#32) z)))
    - Ideal.ofBits .f32 w

/-- The centred softmax of a block's rows read at `(r, q)`: the exponential of the entry less its row's top, over
    the sum of the row's such exponentials, less the constant `w`. Only row `r` of the block is read. -/
theorem centred_apply (z : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (haccM : (0xFF800000#32 : BitVec 32) = 0xFF800000#32)
    (hacc0 : (0x00000000#32 : BitVec 32) = 0x00000000#32) (w : BitVec 32) (r : Fin a) (q : Fin n) :
    subf (divf (exp (subf z (spreadTop z hred hcast hb hφ haccM)))
        (broadcastTo ⟨2, ![a, n]⟩ (shapeCast ⟨2, ![a, 1]⟩
          (multiReduction .add [1] ⟨1, ![a]⟩ (exp (subf z (spreadTop z hred hcast hb hφ haccM))) 0x00000000#32 hred hφ hacc0)
          hcast) hb))
      (broadcast ⟨2, ![a, n]⟩ (Scalar.ofBits .f32 w : Ideal .f32)) (ix2 r q)
      = centredRow w (fun c => z (ix2 r c)) q := by
  unfold centredRow
  show Ideal.div (Ideal.exp (z (ix2 r q) - spreadTop z hred hcast hb hφ haccM (ix2 r q)))
      (broadcastTo ⟨2, ![a, n]⟩ (shapeCast ⟨2, ![a, 1]⟩
          (multiReduction .add [1] ⟨1, ![a]⟩ (exp (subf z (spreadTop z hred hcast hb hφ haccM))) 0x00000000#32 hred hφ hacc0)
          hcast) hb (ix2 r q)) - Ideal.ofBits .f32 w = _
  rw [spreadSum_apply, spreadTop_eq]
  refine congrArg (fun s => Ideal.div _ s - _) (Finset.sum_congr rfl fun c _ => ?_)
  show Ideal.exp (z (ix2 r c) - spreadTop z hred hcast hb hφ haccM (ix2 r c)) = _
  rw [spreadTop_eq]

end Cert.Lib.SoftmaxRows

end
-- ==== Proof.LibElu.lean ====
/-
  The exponential linear unit in its two spellings, entry by entry over the extended reals.

  One program writes `x` where `x > 0` and `exp x - 1` elsewhere. The other writes `x` where `x > 0` and elsewhere
  `1 * expm1 y`, with `y` the entry where it is not positive and `0` where it is (a guard that only matters for rounding).
  Over the extended reals `expm1 y = exp y - 1`; where `x > 0` both give `x`; elsewhere `y = x`, and the float word
  0x3F800000 is 1, so `1 * (exp x - 1) = exp x - 1`.
-/
import Idealize.ShloMosaic.Lib.ValueIdx
import Idealize.ShloMosaic.PureOps.Ideal
import Idealize.ShloMosaic.PureOps.Ideal.Laws

noncomputable section

namespace Cert.LibElu

open Idealize.ShloMosaic Idealize.ShloMosaic.ValueIdx

/-- The float word 0x3F800000 is 1. -/
theorem one_word : Ideal.ofBits .f32 0x3F800000#32 = 1 := by
  simp [Ideal.ofBits, Ideal.ieee, -EReal.coe_mul]; norm_num

/-- One entry: under any one-bit condition `b`, "x if b else 1 * (exp (0 if b else x) - 1)" is
    "x if b else exp x - 1" (the second with the word for 1 subtracted). -/
theorem elu_scalar (b : BitVec 1) (x z : EReal) :
    Scalar.select b x (Ideal.ofBits .f32 0x3F800000#32 * (Ideal.exp (Scalar.select b z x) - 1))
      = Scalar.select b x (Ideal.exp x - Ideal.ofBits .f32 0x3F800000#32) := by
  by_cases h : b = 1#1
  · subst h; rw [select_one, select_one]
  · have h0 := eq_zero_of_ne_one h
    subst h0
    rw [select_zero, select_zero, select_zero, one_word, one_mul]

end Cert.LibElu

end
-- ==== Proof.KerBody.lean ====
/-
  What the kernel body stores, read at one entry of its 4096 × 2 output block.

  The body is four dense layers on the rows of the input block — the first two followed by the exponential
  linear unit — and a log-softmax along the two lanes.  A dense layer in the body's spelling is a matrix product
  accumulated into zero, of the input narrowed to the weights' shorter float format (the identity on extended
  reals), plus the bias row spread down the rows: at entry (p, q) it is Σ_k X(p,k)·W(k,q) + B(0,q).  The unit is
  a select on the flag of `0 < x`.  The log-softmax takes the row maximum (from −∞, and once more against −∞),
  keeps it as a column and spreads it back, subtracts, exponentiates, sums the lanes, takes the logarithm of
  the kept column, spreads it back and subtracts.  Every step reads row p of its input only.
-/
import proofs.«144586_j5729486372945_2_alg».proof.Proof.Gen.KernelIdeal.Skeleton
import proofs.«144586_j5729486372945_2_alg».proof.Proof.GraphSpec
import proofs.«144586_j5729486372945_2_alg».proof.Proof.LibTwoBlocks
import proofs.«144586_j5729486372945_2_alg».proof.Proof.LibSoftmaxRows
import proofs.«144586_j5729486372945_2_alg».proof.Proof.LibElu
import Idealize.ShloMosaic.Lib.ValueIdx
import Idealize.ShloMosaic.Lib.Pipeline.Value
import Idealize.ShloMosaic.PureOps.Ideal.Laws

noncomputable section

open scoped BigOperators

namespace Cert.Cheb.KerBody

open Idealize.ShloMosaic Idealize.ShloMosaic.ValueIdx

/-! ## The three kinds of step, for any sizes -/

/-- A dense layer as a kernel body spells it, the weights already in the shorter format. -/
def denseK {n K C : ℕ} {ψ : FTy} (D : DotDims ⟨2, ![n, K]⟩ ⟨2, ![K, C]⟩ ⟨2, ![n, C]⟩) (prec : Option ContractPrecision)
    (X : FVec Ideal ⟨2, ![n, K]⟩ .f32) (W : FVec Ideal ⟨2, ![K, C]⟩ ψ) (B : FVec Ideal ⟨2, ![1, C]⟩ .f32)
    (hlt : ψ.bits < FTy.f32.bits)
    (hW : (⟨2, ![K, C]⟩ : Shape).ShapeCasts ⟨2, ![K, C]⟩) (hB : (⟨2, ![1, C]⟩ : Shape).ShapeCasts ⟨2, ![1, C]⟩)
    (hbc : (⟨2, ![1, C]⟩ : Shape).Broadcasts ⟨2, ![n, C]⟩) : FVec Ideal ⟨2, ![n, C]⟩ .f32 :=
  addf (matmul D prec (truncf ψ X hlt) (shapeCast ⟨2, ![K, C]⟩ W hW) (constant ⟨2, ![n, C]⟩ .f32 0x00000000#32))
    (broadcastTo ⟨2, ![n, C]⟩ (shapeCast ⟨2, ![1, C]⟩ B hB) hbc)

theorem denseK_entry {n K C : ℕ} {ψ : FTy} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ ψ) (B : FVec Ideal ⟨2, ![1, C]⟩ .f32)
    (hlt : ψ.bits < FTy.f32.bits)
    (hW : (⟨2, ![K, C]⟩ : Shape).ShapeCasts ⟨2, ![K, C]⟩) (hB : (⟨2, ![1, C]⟩ : Shape).ShapeCasts ⟨2, ![1, C]⟩)
    (hbc : (⟨2, ![1, C]⟩ : Shape).Broadcasts ⟨2, ![n, C]⟩) (p : Fin n) (q : Fin C) :
    denseK D prec X W B hlt hW hB hbc (ix2 p q)
      = (∑ k : Fin K, X (ix2 p k) * W (ix2 k q)) + B (ix2 (0 : Fin 1) q) := by
  unfold denseK
  rw [addf_apply, shapeCast_self, shapeCast_self, Cert.Lib.TwoBlocks.plain_matmul_zero_apply D hD prec _ _ p q]
  refine congrArg₂ (· + ·) rfl ?_
  refine broadcastTo_apply B hbc (ix2 p q) (ix2 (0 : Fin 1) q) fun a => ?_
  match a with
  | ⟨0, _⟩ => exact (if_pos rfl).symm
  | ⟨1, _⟩ =>
    show q.val = if C = 1 then 0 else q.val
    have hq := q.isLt
    split <;> omega

/-- The exponential linear unit as a kernel body spells it. -/
def eluK {s : Shape} (v : FVec Ideal s .f32) : FVec Ideal s .f32 :=
  select (cmpf .ogt v (broadcast s (Scalar.ofBits .f32 0x00000000#32 : Ideal .f32))) v
    (subf (exp v) (broadcast s (Scalar.ofBits .f32 0x3F800000#32 : Ideal .f32)))

theorem eluK_entry {s : Shape} (v : FVec Ideal s .f32) (i : s.Idx) : eluK v i = eluS (v i) := by
  show Scalar.select (Ideal.cmp .ogt (v i) (Ideal.ofBits .f32 0x00000000#32)) (v i)
      (Ideal.exp (v i) - Ideal.ofBits .f32 0x3F800000#32) = _
  rw [Ideal.ofBits_zero_f32, Cert.LibElu.one_word]
  unfold eluS Scalar.select Ideal.cmp
  by_cases h : 0 < v i <;> simp [h]

/-- The log-softmax along the two lanes as a kernel body spells it. -/
def lsmK {a : ℕ} (z : FVec Ideal ⟨2, ![a, 2]⟩ .f32) (hred : (⟨2, ![a, 2]⟩ : Shape).Reduces [1] ⟨1, ![a]⟩)
    (hcast : (⟨1, ![a]⟩ : Shape).ShapeCasts ⟨2, ![a, 1]⟩) (hb : (⟨2, ![a, 1]⟩ : Shape).Broadcasts ⟨2, ![a, 2]⟩)
    (hφ : FKind.Formats .f32) (haccM : (0xFF800000#32 : BitVec 32) = 0xFF800000#32)
    (hacc0 : (0x00000000#32 : BitVec 32) = 0x00000000#32) : FVec Ideal ⟨2, ![a, 2]⟩ .f32 :=
  subf (subf z (Cert.Lib.SoftmaxRows.spreadTop z hred hcast hb hφ haccM))
    (broadcastTo ⟨2, ![a, 2]⟩ (log (shapeCast ⟨2, ![a, 1]⟩
      (multiReduction .add [1] ⟨1, ![a]⟩ (exp (subf z (Cert.Lib.SoftmaxRows.spreadTop z hred hcast hb hφ haccM)))
        0x00000000#32 hred hφ hacc0) hcast)) hb)

theorem fold_max_two (f : Fin 2 → EReal) :
    (Finset.univ : Finset (Fin 2)).fold max (Ideal.ofBits .f32 0xFF800000#32) f = max (f 0) (f 1) := by
  have hbot : Ideal.ofBits .f32 0xFF800000#32 = (⊥ : EReal) := by simp [Ideal.ofBits, Ideal.ieee]
  have hu : (Finset.univ : Finset (Fin 2)) = {0, 1} := by decide
  rw [hbot, hu, Finset.fold_insert (by decide), Finset.fold_singleton, max_eq_left (bot_le : (⊥ : EReal) ≤ f 1)]

theorem lsmK_entry {a : ℕ} (z : FVec Ideal ⟨2, ![a, 2]⟩ .f32) (hred : (⟨2, ![a, 2]⟩ : Shape).Reduces [1] ⟨1, ![a]⟩)
    (hcast : (⟨1, ![a]⟩ : Shape).ShapeCasts ⟨2, ![a, 1]⟩) (hb : (⟨2, ![a, 1]⟩ : Shape).Broadcasts ⟨2, ![a, 2]⟩)
    (hφ : FKind.Formats .f32) (haccM : (0xFF800000#32 : BitVec 32) = 0xFF800000#32)
    (hacc0 : (0x00000000#32 : BitVec 32) = 0x00000000#32) (r : Fin a) (q : Fin 2) :
    lsmK z hred hcast hb hφ haccM hacc0 (ix2 r q) = lsm2 (fun c => z (ix2 r c)) q := by
  have htop : ∀ c : Fin 2, Cert.Lib.SoftmaxRows.spreadTop z hred hcast hb hφ haccM (ix2 r c)
      = max (z (ix2 r 0)) (z (ix2 r 1)) := fun c => by
    rw [Cert.Lib.SoftmaxRows.spreadTop_eq, fold_max_two, Cert.Lib.RowMax.max_negInf]
  show (z (ix2 r q) - Cert.Lib.SoftmaxRows.spreadTop z hred hcast hb hφ haccM (ix2 r q))
      - broadcastTo ⟨2, ![a, 2]⟩ (log (shapeCast ⟨2, ![a, 1]⟩
          (multiReduction .add [1] ⟨1, ![a]⟩ (exp (subf z (Cert.Lib.SoftmaxRows.spreadTop z hred hcast hb hφ haccM)))
            0x00000000#32 hred hφ hacc0) hcast)) hb (ix2 r q) = _
  rw [Cert.Lib.RowOps.broadcastTo_a1_ab_apply]
  show _ - Ideal.log (shapeCast ⟨2, ![a, 1]⟩ _ hcast (ix2 r (0 : Fin 1))) = _
  rw [Cert.Lib.Gram.shapeCast_a_a1_apply, Cert.Lib.RowOps.laneSum_apply, Fin.sum_univ_two, htop]
  show _ - Ideal.log (Ideal.exp (z (ix2 r 0) - Cert.Lib.SoftmaxRows.spreadTop z hred hcast hb hφ haccM (ix2 r 0))
      + Ideal.exp (z (ix2 r 1) - Cert.Lib.SoftmaxRows.spreadTop z hred hcast hb hφ haccM (ix2 r 1))) = _
  rw [htop, htop]
  rfl

/-! ## The body's stored value -/

section payload

open Cert.KernelIdeal Cert.KernelIdeal.Gen

variable [Cert.KernelIdeal.Facts]

/-- The value the first part of the body hands on — three dense layers, the first two through the unit — is the
    composition of those steps. -/
theorem pay2_eq (x0 : Vec Ideal S4096x96 .f32) (w1 : Vec Ideal S96x192 .bf16) (b1 : Vec Ideal S1x192 .f32)
    (w2 : Vec Ideal S192x192 .bf16) (b2 : Vec Ideal S1x192 .f32) (w3 : Vec Ideal S192x64 .bf16) (b3 : Vec Ideal S1x64 .f32) :
    k0_pay2 x0 w1 b1 w2 b2 w3 b3
      = denseK dot_S4096x192_S192x64_S4096x64_1_0_0_1_n_n none
          (eluK (denseK dot_S4096x192_S192x192_S4096x192_1_0_0_1_n_n none
            (eluK (denseK dot_S4096x96_S96x192_S4096x192_1_0_0_1_n_n none
              (shapeCast S4096x96 x0 shapeCasts_S4096x96_S4096x96) w1 b1
              bitsLt_bf16_f32 shapeCasts_S96x192_S96x192 shapeCasts_S1x192_S1x192 broadcasts_S1x192_S4096x192))
            w2 b2 bitsLt_bf16_f32 shapeCasts_S192x192_S192x192 shapeCasts_S1x192_S1x192 broadcasts_S1x192_S4096x192))
          w3 b3 bitsLt_bf16_f32 shapeCasts_S192x64_S192x64 shapeCasts_S1x64_S1x64 broadcasts_S1x64_S4096x64 := rfl

/-- The stored value — the last dense layer and the log-softmax — is the composition of those steps. -/
theorem pay1_eq (a : FVec Ideal S4096x64 .f32) (w4 : Vec Ideal S64x2 .bf16) (b4 : Vec Ideal S1x2 .f32) :
    k0_pay1 a w4 b4
      = lsmK (denseK dot_S4096x64_S64x2_S4096x2_1_0_0_1_n_n none a w4 b4
          bitsLt_bf16_f32 shapeCasts_S64x2_S64x2 shapeCasts_S1x2_S1x2 broadcasts_S1x2_S4096x2)
          reduces_S4096x2_S4096 shapeCasts_S4096_S4096x1 broadcasts_S4096x1_S4096x2 (.inl rfl) rfl rfl := rfl

/-- Entry (p, q) of the stored block: the head applied to row p's twice-transformed features. Only row p of
    the input block is read. -/
theorem pay_entry (x0 : Vec Ideal S4096x96 .f32) (w1 : Vec Ideal S96x192 .bf16) (b1 : Vec Ideal S1x192 .f32)
    (w2 : Vec Ideal S192x192 .bf16) (b2 : Vec Ideal S1x192 .f32) (w3 : Vec Ideal S192x64 .bf16) (b3 : Vec Ideal S1x64 .f32)
    (w4 : Vec Ideal S64x2 .bf16) (b4 : Vec Ideal S1x2 .f32) (p : Fin 4096) (q : Fin 2) :
    k0_pay1 (k0_pay2 x0 w1 b1 w2 b2 w3 b3) w4 b4 (ix2 p q)
      = headS
          (fun i : Fin 192 => eluS ((∑ k : Fin 192,
              eluS ((∑ k' : Fin 96, x0 (ix2 p k') * w1 (ix2 k' k)) + b1 (ix2 (0 : Fin 1) k)) * w2 (ix2 k i))
            + b2 (ix2 (0 : Fin 1) i)))
          (fun j i => w3 (ix2 i j)) (fun j => b3 (ix2 (0 : Fin 1) j))
          (fun c j => w4 (ix2 j c)) (fun c => b4 (ix2 (0 : Fin 1) c)) q := by
  rw [pay1_eq, pay2_eq, lsmK_entry]
  unfold headS
  simp only [denseK_entry dot_S4096x64_S64x2_S4096x2_1_0_0_1_n_n rfl,
    denseK_entry dot_S4096x192_S192x64_S4096x64_1_0_0_1_n_n rfl,
    denseK_entry dot_S4096x192_S192x192_S4096x192_1_0_0_1_n_n rfl,
    denseK_entry dot_S4096x96_S96x192_S4096x192_1_0_0_1_n_n rfl, eluK_entry, shapeCast_self]

end payload

end Cert.Cheb.KerBody

end
-- ==== Proof.KerBlocks.lean ====
/-
  From the blocks the grid points write back to the whole output array.

  The grid has 32 points; point t reads rows 4096·t … 4096·t + 4095 of the flattened input, the whole of each
  weight matrix and bias row, and writes back rows 4096·t … 4096·t + 4095 of the 131072 × 2 output.  Entry (p, q)
  of the block a point stores depends on row p of its input block only, so it is the entry (4096·t + p, q) of ONE
  whole-array function `rowOut` of the arrays the region finds; the 32 blocks tile the output, so the output
  array ends holding that function.
-/
import proofs.«144586_j5729486372945_2_alg».proof.Proof.Gen.KernelIdeal.Frame
import proofs.«144586_j5729486372945_2_alg».proof.Proof.KerBody
import Idealize.ShloMosaic.Lib.Pipeline.Value

set_option maxRecDepth 16384

noncomputable section

open scoped BigOperators

namespace Cert.Cheb.KerBlocks

open Cert.KernelIdeal Cert.KernelIdeal.Gen Idealize.ShloMosaic Idealize.ShloMosaic.ValueIdx Idealize.ShloMosaic.TcCoe
open Idealize.SL.Sem

/-- Entry (r, q) of the output as a function of the region's nine input arrays: the head applied to row r's
    twice-transformed features. -/
def rowOut (X : S131072x96.Idx → EReal) (w1 : S96x192.Idx → EReal) (b1 : S1x192.Idx → EReal)
    (w2 : S192x192.Idx → EReal) (b2 : S1x192.Idx → EReal) (w3 : S192x64.Idx → EReal) (b3 : S1x64.Idx → EReal)
    (w4 : S64x2.Idx → EReal) (b4 : S1x2.Idx → EReal) (r : Fin 131072) (q : Fin 2) : EReal :=
  headS
    (fun i : Fin 192 => eluS ((∑ k : Fin 192,
        eluS ((∑ k' : Fin 96, X (ix2 r k') * w1 (ix2 k' k)) + b1 (ix2 (0 : Fin 1) k)) * w2 (ix2 k i))
      + b2 (ix2 (0 : Fin 1) i)))
    (fun j i => w3 (ix2 i j)) (fun j => b3 (ix2 (0 : Fin 1) j))
    (fun c j => w4 (ix2 j c)) (fun c => b4 (ix2 (0 : Fin 1) c)) q

/-- The output array as a function of the region's nine input arrays. -/
def arrOut (X : S131072x96.Idx → EReal) (w1 : S96x192.Idx → EReal) (b1 : S1x192.Idx → EReal)
    (w2 : S192x192.Idx → EReal) (b2 : S1x192.Idx → EReal) (w3 : S192x64.Idx → EReal) (b3 : S1x64.Idx → EReal)
    (w4 : S64x2.Idx → EReal) (b4 : S1x2.Idx → EReal) : S131072x2.Idx → EReal :=
  fun i => rowOut X w1 b1 w2 b2 w3 b3 w4 b4 (i 0) (i 1)

theorem hz : (![0, 0] : Fin 2 → Nat) = fun _ => 0 := funext fun a => by fin_cases a <;> rfl

/-- The printed index maps, decided over the grid: the input rows move with the output rows, block t sits at
    row-block t, and every other window stays at its one block. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem n_eq : cfg0.N = 32 := rfl

variable (m : (ℓ : Loc nD τ sig) → Buf (Elt Ideal) ℓ)

set_option maxHeartbeats 2000000 in
/-- WHAT POINT t WRITES BACK is block t of `arrOut` of the arrays as the region finds them. -/
theorem flushed9_eq (c : Dev nD) (t : Fin cfg0.N) :
    (dats m 0 c).flushed 9 t = ((cfg0.win 9).blk t).view.read (Elt Ideal)
      (arrOut (V m c main_v104) (V m c main_v75) (V m c main_v93) (V m c main_v89) (V m c main_v97)
        (V m c main_v99) (V m c main_v100) (V m c main_v102) (V m c main_v103)) := by
  show (cfg0.win 9).cut (grid0.coords t) ((dats m 0 c).after 9 t) = _
  rw [after0_9]
  unfold out0_9
  rw [View.canon_unit_zero hz]
  simp only [View.ld_unit_zero (S := S4096x96) hz, View.ld_unit_zero (S := S96x192) hz, View.ld_unit_zero (S := S1x192) hz,
    View.ld_unit_zero (S := S192x192) hz, View.ld_unit_zero (S := S192x64) hz, View.ld_unit_zero (S := S1x64) hz,
    View.ld_unit_zero (S := S64x2) hz, View.ld_unit_zero (S := S1x2) hz]
  obtain ⟨e90, e91, e00, e01, e10, e11, e20, e21, e30, e31, e40, e41, e50, e51, e60, e61, e70, e71, e80, e81⟩ := idx_facts t
  refine funext fun (j : S4096x2.Idx) => ?_
  obtain ⟨p, q, rfl⟩ : ∃ (p : Fin 4096) (q : Fin 2), j = ix2 p q := ⟨j 0, j 1, eq_ix2 j⟩
  refine (KerBody.pay_entry (iblk m c 0 t) (iblk m c 1 t) (iblk m c 2 t) (iblk m c 3 t) (iblk m c 4 t) (iblk m c 5 t)
    (iblk m c 6 t) (iblk m c 7 t) (iblk m c 8 t) p q).trans ?_
  have ht : t.val < 32 := t.isLt
  have hp := p.isLt
  -- the row of the whole arrays that row p of block t is
  have hR : t.val * 4096 + p.val < 131072 := by omega
  rw [View.read_apply]
  have hemb : ((cfg0.win 9).blk t).view.emb (ix2 p q) = ix2 (⟨t.val * 4096 + p.val, hR⟩ : Fin 131072) q := by
    funext a; apply Fin.ext
    match a with
    | ⟨0, _⟩ => show win0_9.index t (0 : Fin 2) * 4096 + 1 * p.val = t.val * 4096 + p.val; omega
    | ⟨1, _⟩ => show win0_9.index t (1 : Fin 2) * 2 + 1 * q.val = q.val; omega
  rw [hemb]
  have r0 : ∀ k' : Fin 96, iblk m c 0 t (ix2 p k') = V m c main_v104 (ix2 (⟨t.val * 4096 + p.val, hR⟩ : Fin 131072) k') := fun k' => by
    show V m c main_v104 (((cfg0.win 0).blk t).view.emb (ix2 p k')) = _
    refine congrArg (V m c main_v104) (funext fun a => Fin.ext ?_)
    match a with
    | ⟨0, _⟩ => show win0_0.index t (0 : Fin 2) * 4096 + 1 * p.val = t.val * 4096 + p.val; omega
    | ⟨1, _⟩ => show win0_0.index t (1 : Fin 2) * 96 + 1 * k'.val = k'.val; omega
  have r1 : ∀ (a' : Fin 96) (b' : Fin 192), iblk m c 1 t (ix2 a' b') = V m c main_v75 (ix2 a' b') := fun a' b' => by
    show V m c main_v75 (((cfg0.win 1).blk t).view.emb (ix2 a' b')) = _
    refine congrArg (V m c main_v75) (funext fun a => Fin.ext ?_)
    match a with
    | ⟨0, _⟩ => show win0_1.index t (0 : Fin 2) * 96 + 1 * a'.val = a'.val; omega
    | ⟨1, _⟩ => show win0_1.index t (1 : Fin 2) * 192 + 1 * b'.val = b'.val; omega
  have r2 : ∀ (a' : Fin 1) (b' : Fin 192), iblk m c 2 t (ix2 a' b') = V m c main_v93 (ix2 a' b') := fun a' b' => by
    show V m c main_v93 (((cfg0.win 2).blk t).view.emb (ix2 a' b')) = _
    refine congrArg (V m c main_v93) (funext fun a => Fin.ext ?_)
    match a with
    | ⟨0, _⟩ => show win0_2.index t (0 : Fin 2) * 1 + 1 * a'.val = a'.val; omega
    | ⟨1, _⟩ => show win0_2.index t (1 : Fin 2) * 192 + 1 * b'.val = b'.val; omega
  have r3 : ∀ (a' : Fin 192) (b' : Fin 192), iblk m c 3 t (ix2 a' b') = V m c main_v89 (ix2 a' b') := fun a' b' => by
    show V m c main_v89 (((cfg0.win 3).blk t).view.emb (ix2 a' b')) = _
    refine congrArg (V m c main_v89) (funext fun a => Fin.ext ?_)
    match a with
    | ⟨0, _⟩ => show win0_3.index t (0 : Fin 2) * 192 + 1 * a'.val = a'.val; omega
    | ⟨1, _⟩ => show win0_3.index t (1 : Fin 2) * 192 + 1 * b'.val = b'.val; omega
  have r4 : ∀ (a' : Fin 1) (b' : Fin 192), iblk m c 4 t (ix2 a' b') = V m c main_v97 (ix2 a' b') := fun a' b' => by
    show V m c main_v97 (((cfg0.win 4).blk t).view.emb (ix2 a' b')) = _
    refine congrArg (V m c main_v97) (funext fun a => Fin.ext ?_)
    match a with
    | ⟨0, _⟩ => show win0_4.index t (0 : Fin 2) * 1 + 1 * a'.val = a'.val; omega
    | ⟨1, _⟩ => show win0_4.index t (1 : Fin 2) * 192 + 1 * b'.val = b'.val; omega
  have r5 : ∀ (a' : Fin 192) (b' : Fin 64), iblk m c 5 t (ix2 a' b') = V m c main_v99 (ix2 a' b') := fun a' b' => by
    show V m c main_v99 (((cfg0.win 5).blk t).view.emb (ix2 a' b')) = _
    refine congrArg (V m c main_v99) (funext fun a => Fin.ext ?_)
    match a with
    | ⟨0, _⟩ => show win0_5.index t (0 : Fin 2) * 192 + 1 * a'.val = a'.val; omega
    | ⟨1, _⟩ => show win0_5.index t (1 : Fin 2) * 64 + 1 * b'.val = b'.val; omega
  have r6 : ∀ (a' : Fin 1) (b' : Fin 64), iblk m c 6 t (ix2 a' b') = V m c main_v100 (ix2 a' b') := fun a' b' => by
    show V m c main_v100 (((cfg0.win 6).blk t).view.emb (ix2 a' b')) = _
    refine congrArg (V m c main_v100) (funext fun a => Fin.ext ?_)
    match a with
    | ⟨0, _⟩ => show win0_6.index t (0 : Fin 2) * 1 + 1 * a'.val = a'.val; omega
    | ⟨1, _⟩ => show win0_6.index t (1 : Fin 2) * 64 + 1 * b'.val = b'.val; omega
  have r7 : ∀ (a' : Fin 64) (b' : Fin 2), iblk m c 7 t (ix2 a' b') = V m c main_v102 (ix2 a' b') := fun a' b' => by
    show V m c main_v102 (((cfg0.win 7).blk t).view.emb (ix2 a' b')) = _
    refine congrArg (V m c main_v102) (funext fun a => Fin.ext ?_)
    match a with
    | ⟨0, _⟩ => show win0_7.index t (0 : Fin 2) * 64 + 1 * a'.val = a'.val; omega
    | ⟨1, _⟩ => show win0_7.index t (1 : Fin 2) * 2 + 1 * b'.val = b'.val; omega
  have r8 : ∀ (a' : Fin 1) (b' : Fin 2), iblk m c 8 t (ix2 a' b') = V m c main_v103 (ix2 a' b') := fun a' b' => by
    show V m c main_v103 (((cfg0.win 8).blk t).view.emb (ix2 a' b')) = _
    refine congrArg (V m c main_v103) (funext fun a => Fin.ext ?_)
    match a with
    | ⟨0, _⟩ => show win0_8.index t (0 : Fin 2) * 1 + 1 * a'.val = a'.val; omega
    | ⟨1, _⟩ => show win0_8.index t (1 : Fin 2) * 2 + 1 * b'.val = b'.val; omega
  simp only [r0, r1, r2, r3, r4, r5, r6, r7, r8]
  rfl

/-- An index of the output array is in point t's block iff its row is among that block's 4096 rows. -/
theorem mem_blk9 (t : Fin cfg0.N) (i : S131072x2.Idx) :
    i ∈ ((cfg0.win 9).blk t).view.set ↔ ∀ a : Fin 2, win0_9.index t a * S4096x2.size a ≤ (i a).val ∧ (i a).val < win0_9.index t a * S4096x2.size a + S4096x2.size a := by
  show i ∈ ((View.whole main_v105).slice (win0_9.rect t)).set ↔ _
  rw [View.set_slice_whole, Rect.mem_set_unit]
  exact Iff.rfl

/-- Every row-block of the output is some point's. -/
theorem idx_onto : ∀ q0 : Fin 32, ∃ t : Fin cfg0.N, win0_9.index t = ![q0.val, 0] :=
  (by decide +kernel : ∀ q0 : Fin 32, ∃ t : Fin grid0.N, win0_9.index t = ![q0.val, 0])

/-- The 32 blocks tile the output array. -/
theorem cover9 (i : S131072x2.Idx) :
    ∃ t : Fin cfg0.N, (cfg0.win 9).flush t = true ∧ i ∈ ((cfg0.win 9).blk t).view.set := by
  have hi0 : (i 0).val < 131072 := (i 0).isLt
  have hi1 : (i 1).val < 2 := (i 1).isLt
  obtain ⟨t, ht⟩ := idx_onto ⟨(i 0).val / 4096, by omega⟩
  have q0 : win0_9.index t (0 : Fin 2) = (i 0).val / 4096 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 2 ≤ (i 1).val ∧ (i 1).val < win0_9.index t (1 : Fin 2) * 2 + 2; omega

/-- THE OUTPUT ARRAY after the region: `arrOut` of the nine input arrays as the region finds them. -/
theorem final9 (c : Dev nD) : (dats m 0 c).arrAt 9 cfg0.N
    = arrOut (V m c main_v104) (V m c main_v75) (V m c main_v93) (V m c main_v89) (V m c main_v97)
        (V m c main_v99) (V m c main_v100) (V m c main_v102) (V m c main_v103) :=
  (dats m 0 c).arrAt_eq_of_cover 9 _ (fun t _ => flushed9_eq m c t) cover9

end Cert.Cheb.KerBlocks

end
-- ==== Proof.KerRun.lean ====
/-
  The run of the kernel function with its result named.

  After the region the output array, 131072 rows of two numbers, is reshaped to 131072 × 1 × 2: entry (b, 0, q) of
  the result is entry (b, q) of the array. The array itself is `arrOut` of the nine arrays the region finds, so every
  weakly fair execution ends with the result buffer at that reshape of `arrOut`, and the ten arguments as launched.
-/
import proofs.«144586_j5729486372945_2_alg».proof.Proof.KerBlocks
import Idealize.ShloMosaic.Lib.StableHlo.Run

set_option maxRecDepth 16384

noncomputable section

namespace Cert.Cheb.KerRun

open Cert.KernelIdeal Cert.KernelIdeal.Gen Idealize.ShloMosaic Idealize.ShloMosaic.TcCoe Idealize.SL.Sem
open Idealize.ShloMosaic.ValueIdx

/-- The reshape after the region: a 131072 × 2 array read as 131072 × 1 × 2, same row-major order. -/
def tailT (a : S131072x2.Idx → EReal) : S131072x1x2.Idx → EReal :=
  shapeCast S131072x1x2 a Facts₀.shapeCasts_S131072x2_S131072x1x2

/-- Entry (b, 0, q) of the reshaped array is entry (b, q) of the array. -/
theorem tailT_apply (a : S131072x2.Idx → EReal) (b : Fin 131072) (q : Fin 2) :
    tailT a (ix3 b (0 : Fin 1) q) = a (ix2 b q) :=
  shapeCast_apply a _ _ _ (by
    rw [Shape.rowMajor_val_two, Shape.rowMajor_val_three]
    show b.val * 2 + q.val = (b.val * 1 + 0) * 2 + q.val
    omega)

variable (m : (ℓ : Loc nD τ sig) → Buf (Elt Ideal) ℓ)

/-- The output array as the region leaves it, among the buffers the reshape reads from. -/
theorem arr9_eq (c : Dev nD) :
    Pipeline.withArrays spec0 c (V0 m c) (fun w => (dats m 0 c).arrAt w cfg0.N) (Proc.devRef .tc main_v105)
      = KerBlocks.arrOut (V m c main_v104) (V m c main_v75) (V m c main_v93) (V m c main_v89) (V m c main_v97)
        (V m c main_v99) (V m c main_v100) (V m c main_v102) (V m c main_v103) :=
  (Pipeline.withArrays_arr spec0 launch0.win.arr_inj c _ _ 9).trans (KerBlocks.final9 m c)

/-- The result buffer after the one operation that follows the region. -/
theorem out_eq (c : Dev nD) :
    Pipeline.afterTail₀ cfgs (dats m) 0 (V0 m) [hostOps1] c main_v106
      = tailT (KerBlocks.arrOut (V m c main_v104) (V m c main_v75) (V m c main_v93) (V m c main_v89) (V m c main_v97)
        (V m c main_v99) (V m c main_v100) (V m c main_v102) (V m c main_v103)) := by
  unfold Pipeline.afterTail₀
  show StableHlo.after hostOps1 _ (Proc.devRef .tc main_v106) = _
  after_results
  exact congrArg tailT (arr9_eq m c)

/-- On every device, from any memory with zero counters: every weakly fair execution of the kernel function terminates
    with the result at the reshape of `arrOut` of the arrays the region finds, and the arguments unchanged. -/
theorem run (ρ : Dev nD → PrngReg) :
    θ_run (Cert.KernelIdeal.defs (F := Ideal)) (onTc (τ := τ) (Cert.KernelIdeal.main (F := Ideal))) ⟨m, fun _ => 0, ρ⟩ fun r => ∀ c : Dev nD,
      r.2.mem ((c.tc : Thread nD τ).loc main_v106) = tailT (KerBlocks.arrOut (V m c main_v104) (V m c main_v75) (V m c main_v93) (V m c main_v89) (V m c main_v97)
        (V m c main_v99) (V m c main_v100) (V m c main_v102) (V m c main_v103))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (Cert.KernelIdeal.defs (F := Ideal)) _ _).mono (fun _ h c =>
    ⟨((h c).2 main_v106 (Pipeline.mem_restRefs_of main_v106 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.Cheb.KerRun

end
-- ==== Proof.KerTerm.lean ====
/-
  The host computation that precedes the kernel call, as pure functions of the argument arrays, over the
  extended reals.  Each function is the composition, in program order, of the functions of the printed
  operations it covers; nothing is simplified here.
-/
import proofs.«144586_j5729486372945_2_alg».proof.KernelIdeal
import Idealize.ShloMosaic.PureOps.Ideal
import Idealize.ShloMosaic.Lib.ValueIdx

noncomputable section

namespace Cert.Cheb.KerHost

open Cert.KernelIdeal Idealize.ShloMosaic Idealize.ShloMosaic.ValueIdx
open Cert.KernelIdeal.Facts₀ Cert.KernelIdeal.Facts

variable [Cert.KernelIdeal.Facts]

/-! ## The edge list -/

/-- Row 0 of the edge array as a vector: the node each edge goes into. -/
def rowV (ei : IVec S2x128 32) : IVec S128 32 :=
  shapeCast S128 (((extractStridedSlice S1x128 ![0, 0] · slices_S2x128_S1x128_0_0) : (⟨S2x128, .i32⟩ : BufTy).Contents (Elt Ideal) → (⟨S1x128, .i32⟩ : BufTy).Contents (Elt Ideal)) ei) shapeCasts_S1x128_S128

/-- Row 1 of the edge array as a vector: the node each edge comes from. -/
def colV (ei : IVec S2x128 32) : IVec S128 32 :=
  shapeCast S128 (((extractStridedSlice S1x128 ![1, 0] · slices_S2x128_S1x128_1_0) : (⟨S2x128, .i32⟩ : BufTy).Contents (Elt Ideal) → (⟨S1x128, .i32⟩ : BufTy).Contents (Elt Ideal)) ei) shapeCasts_S1x128_S128

/-- The index normalisation: a negative index has 24 added to it. -/
def wrapV (v : IVec S128 32) : IVec S128 32 :=
  (select : (⟨S128, .i1⟩ : BufTy).Contents (Elt Ideal) → (⟨S128, .i32⟩ : BufTy).Contents (Elt Ideal) → (⟨S128, .i32⟩ : BufTy).Contents (Elt Ideal) → (⟨S128, .i32⟩ : BufTy).Contents (Elt Ideal))
    ((cmpi .slt : (⟨S128, .i32⟩ : BufTy).Contents (Elt Ideal) → (⟨S128, .i32⟩ : BufTy).Contents (Elt Ideal) → (⟨S128, .i1⟩ : BufTy).Contents (Elt Ideal)) v
      ((broadcastInDim S128 ![] bcast_S_S128 : (⟨S_, .i32⟩ : BufTy).Contents (Elt Ideal) → (⟨S128, .i32⟩ : BufTy).Contents (Elt Ideal)) (constantI S_ 32 0#32)))
    ((addi : (⟨S128, .i32⟩ : BufTy).Contents (Elt Ideal) → (⟨S128, .i32⟩ : BufTy).Contents (Elt Ideal) → (⟨S128, .i32⟩ : BufTy).Contents (Elt Ideal)) v
      ((broadcastInDim S128 ![] bcast_S_S128 : (⟨S_, .i32⟩ : BufTy).Contents (Elt Ideal) → (⟨S128, .i32⟩ : BufTy).Contents (Elt Ideal)) (constantI S_ 32 24#32)))
    v

/-- A vector of indices as a one-column array. -/
def colOf (v : IVec S128 32) : IVec S128x1 32 :=
  (broadcastInDim S128x1 ![0] bcast_S128_S128x1_0 : (⟨S128, .i32⟩ : BufTy).Contents (Elt Ideal) → (⟨S128x1, .i32⟩ : BufTy).Contents (Elt Ideal)) v

/-- The in-degree of every node: ones scattered onto zeros at the (normalised) head of each edge. -/
def degT (ei : IVec S2x128 32) : FVec Ideal S24 .f32 :=
  ((fun x i u => Host.scatterAdd (F := Ideal) scatter_S24_S128x1_S128_n_0_0_1 x i u) : (⟨S24, .f32⟩ : BufTy).Contents (Elt Ideal) → (⟨S128x1, .i32⟩ : BufTy).Contents (Elt Ideal) → (⟨S128, .f32⟩ : BufTy).Contents (Elt Ideal) → (⟨S24, .f32⟩ : BufTy).Contents (Elt Ideal))
    ((broadcastInDim S24 ![] bcast_S_S24 : (⟨S_, .f32⟩ : BufTy).Contents (Elt Ideal) → (⟨S24, .f32⟩ : BufTy).Contents (Elt Ideal)) (constant (F := Ideal) S_ .f32 0x00000000#32))
    (colOf (wrapV (rowV ei)))
    ((broadcastInDim S128 ![] bcast_S_S128 : (⟨S_, .f32⟩ : BufTy).Contents (Elt Ideal) → (⟨S128, .f32⟩ : BufTy).Contents (Elt Ideal)) (constant (F := Ideal) S_ .f32 0x3F800000#32))

/-- The degree normalisation: `deg ^ (-1/2)` where the degree is positive, else 0. -/
def disT (ei : IVec S2x128 32) : FVec Ideal S24 .f32 :=
  (select : (⟨S24, .i1⟩ : BufTy).Contents (Elt Ideal) → (⟨S24, .f32⟩ : BufTy).Contents (Elt Ideal) → (⟨S24, .f32⟩ : BufTy).Contents (Elt Ideal) → (⟨S24, .f32⟩ : BufTy).Contents (Elt Ideal))
    ((cmpf (F := Ideal) .ogt : (⟨S24, .f32⟩ : BufTy).Contents (Elt Ideal) → (⟨S24, .f32⟩ : BufTy).Contents (Elt Ideal) → (⟨S24, .i1⟩ : BufTy).Contents (Elt Ideal)) (degT ei)
      ((broadcastInDim S24 ![] bcast_S_S24 : (⟨S_, .f32⟩ : BufTy).Contents (Elt Ideal) → (⟨S24, .f32⟩ : BufTy).Contents (Elt Ideal)) (constant (F := Ideal) S_ .f32 0x00000000#32)))
    ((Host.powf (F := Ideal) : (⟨S24, .f32⟩ : BufTy).Contents (Elt Ideal) → (⟨S24, .f32⟩ : BufTy).Contents (Elt Ideal) → (⟨S24, .f32⟩ : BufTy).Contents (Elt Ideal)) (degT ei)
      ((broadcastInDim S24 ![] bcast_S_S24 : (⟨S_, .f32⟩ : BufTy).Contents (Elt Ideal) → (⟨S24, .f32⟩ : BufTy).Contents (Elt Ideal)) (constant (F := Ideal) S_ .f32 0xBF000000#32)))
    ((broadcastInDim S24 ![] bcast_S_S24 : (⟨S_, .f32⟩ : BufTy).Contents (Elt Ideal) → (⟨S24, .f32⟩ : BufTy).Contents (Elt Ideal)) (constant (F := Ideal) S_ .f32 0x00000000#32))

/-- The weight of every edge: minus the product of the normalisations of its two ends. -/
def ewT (ei : IVec S2x128 32) : FVec Ideal S128 .f32 :=
  (mulf (F := Ideal) : (⟨S128, .f32⟩ : BufTy).Contents (Elt Ideal) → (⟨S128, .f32⟩ : BufTy).Contents (Elt Ideal) → (⟨S128, .f32⟩ : BufTy).Contents (Elt Ideal))
    ((Host.negf (F := Ideal) : (⟨S128, .f32⟩ : BufTy).Contents (Elt Ideal) → (⟨S128, .f32⟩ : BufTy).Contents (Elt Ideal))
      (((fun x i => Host.gather gather_S24_S128x1_S128_n_0_n_n_0_1_1 x i) : (⟨S24, .f32⟩ : BufTy).Contents (Elt Ideal) → (⟨S128x1, .i32⟩ : BufTy).Contents (Elt Ideal) → (⟨S128, .f32⟩ : BufTy).Contents (Elt Ideal))
        (disT ei) (colOf (wrapV (rowV ei)))))
    (((fun x i => Host.gather gather_S24_S128x1_S128_n_0_n_n_0_1_1 x i) : (⟨S24, .f32⟩ : BufTy).Contents (Elt Ideal) → (⟨S128x1, .i32⟩ : BufTy).Contents (Elt Ideal) → (⟨S128, .f32⟩ : BufTy).Contents (Elt Ideal))
      (disT ei) (colOf (wrapV (colV ei))))

/-! ## The propagation matrix and its polynomials -/

/-- The edge weights scattered onto a zero matrix at (head, tail). -/
def pmat (rowW colW : IVec S128 32) (ew : FVec Ideal S128 .f32) : FVec Ideal S24x24 .f32 :=
  ((fun x i u => Host.scatterAdd (F := Ideal) scatter_S24x24_S128x2_S128_n_01_01_1 x i u) : (⟨S24x24, .f32⟩ : BufTy).Contents (Elt Ideal) → (⟨S128x2, .i32⟩ : BufTy).Contents (Elt Ideal) → (⟨S128, .f32⟩ : BufTy).Contents (Elt Ideal) → (⟨S24x24, .f32⟩ : BufTy).Contents (Elt Ideal))
    ((broadcastInDim S24x24 ![] bcast_S_S24x24 : (⟨S_, .f32⟩ : BufTy).Contents (Elt Ideal) → (⟨S24x24, .f32⟩ : BufTy).Contents (Elt Ideal)) (constant (F := Ideal) S_ .f32 0x00000000#32))
    (((fun a b => concatenate S128x2 1 [⟨S128x1, a⟩, ⟨S128x1, b⟩] concatenates_S128x1_S128x1_S128x2_d1) : (⟨S128x1, .i32⟩ : BufTy).Contents (Elt Ideal) → (⟨S128x1, .i32⟩ : BufTy).Contents (Elt Ideal) → (⟨S128x2, .i32⟩ : BufTy).Contents (Elt Ideal))
      (colOf rowW) (colOf colW))
    ew

/-- The identity matrix: the flag "row index = column index" as a number. -/
def eyeT : FVec Ideal S24x24 .f32 :=
  (uitofp (F := Ideal) .f32 : (⟨S24x24, .i1⟩ : BufTy).Contents (Elt Ideal) → (⟨S24x24, .f32⟩ : BufTy).Contents (Elt Ideal))
    ((cmpi .eq : (⟨S24x24, .i32⟩ : BufTy).Contents (Elt Ideal) → (⟨S24x24, .i32⟩ : BufTy).Contents (Elt Ideal) → (⟨S24x24, .i1⟩ : BufTy).Contents (Elt Ideal))
      ((addi : (⟨S24x24, .i32⟩ : BufTy).Contents (Elt Ideal) → (⟨S24x24, .i32⟩ : BufTy).Contents (Elt Ideal) → (⟨S24x24, .i32⟩ : BufTy).Contents (Elt Ideal))
        (iotaInDim S24x24 32 0)
        ((broadcastInDim S24x24 ![] bcast_S_S24x24 : (⟨S_, .i32⟩ : BufTy).Contents (Elt Ideal) → (⟨S24x24, .i32⟩ : BufTy).Contents (Elt Ideal)) (constantI S_ 32 0#32)))
      (iotaInDim S24x24 32 1))

/-- The second Chebyshev polynomial of a matrix: twice its square, minus the identity. -/
def t2T (P : FVec Ideal S24x24 .f32) : FVec Ideal S24x24 .f32 :=
  (subf (F := Ideal) : (⟨S24x24, .f32⟩ : BufTy).Contents (Elt Ideal) → (⟨S24x24, .f32⟩ : BufTy).Contents (Elt Ideal) → (⟨S24x24, .f32⟩ : BufTy).Contents (Elt Ideal))
    ((mulf (F := Ideal) : (⟨S24x24, .f32⟩ : BufTy).Contents (Elt Ideal) → (⟨S24x24, .f32⟩ : BufTy).Contents (Elt Ideal) → (⟨S24x24, .f32⟩ : BufTy).Contents (Elt Ideal))
      ((broadcastInDim S24x24 ![] bcast_S_S24x24 : (⟨S_, .f32⟩ : BufTy).Contents (Elt Ideal) → (⟨S24x24, .f32⟩ : BufTy).Contents (Elt Ideal)) (constant (F := Ideal) S_ .f32 0x40000000#32))
      (((fun l r => Host.dotGeneral (F := Ideal) (φ₁ := .f32) (φ₂ := .f32) dot_S24x24_S24x24_S24x24_1_0_0_1_n_n none l r) : (⟨S24x24, .f32⟩ : BufTy).Contents (Elt Ideal) → (⟨S24x24, .f32⟩ : BufTy).Contents (Elt Ideal) → (⟨S24x24, .f32⟩ : BufTy).Contents (Elt Ideal)) P P))
    eyeT

/-- The transpose of a 24 × 24 matrix. -/
def trT (A : FVec Ideal S24x24 .f32) : FVec Ideal S24x24 .f32 :=
  ((transpose S24x24 [1, 0] · transposes_S24x24_S24x24_1_0) : (⟨S24x24, .f32⟩ : BufTy).Contents (Elt Ideal) → (⟨S24x24, .f32⟩ : BufTy).Contents (Elt Ideal)) A

/-! ## Kronecker products and the collapsed layer matrices -/

/-- The Kronecker product of a 24 × 24 matrix with a 4 × 8 matrix. -/
def kron4 (A : FVec Ideal S24x24 .f32) (W : FVec Ideal S4x8 .f32) : FVec Ideal S96x192 .f32 :=
  shapeCast S96x192
    ((mulf (F := Ideal) : FVec Ideal S24x4x24x8 .f32 → FVec Ideal S24x4x24x8 .f32 → FVec Ideal S24x4x24x8 .f32)
      (broadcastInDim S24x4x24x8 ![0, 1, 2, 3] bcast_S24x1x24x1_S24x4x24x8_0_1_2_3 (broadcastInDim S24x1x24x1 ![0, 2] bcast_S24x24_S24x1x24x1_0_2 A))
      (broadcastInDim S24x4x24x8 ![0, 1, 2, 3] bcast_S1x4x1x8_S24x4x24x8_0_1_2_3 (broadcastInDim S1x4x1x8 ![1, 3] bcast_S4x8_S1x4x1x8_1_3 W)))
    shapeCasts_S24x4x24x8_S96x192

/-- The Kronecker product of a 24 × 24 matrix with an 8 × 8 matrix. -/
def kron8 (A : FVec Ideal S24x24 .f32) (W : FVec Ideal S8x8 .f32) : FVec Ideal S192x192 .f32 :=
  shapeCast S192x192
    ((mulf (F := Ideal) : FVec Ideal S24x8x24x8 .f32 → FVec Ideal S24x8x24x8 .f32 → FVec Ideal S24x8x24x8 .f32)
      (broadcastInDim S24x8x24x8 ![0, 1, 2, 3] bcast_S24x1x24x1_S24x8x24x8_0_1_2_3 (broadcastInDim S24x1x24x1 ![0, 2] bcast_S24x24_S24x1x24x1_0_2 A))
      (broadcastInDim S24x8x24x8 ![0, 1, 2, 3] bcast_S1x8x1x8_S24x8x24x8_0_1_2_3 (broadcastInDim S1x8x1x8 ![1, 3] bcast_S8x8_S1x8x1x8_1_3 W)))
    shapeCasts_S24x8x24x8_S192x192

/-- Slab `k` of the first layer's weights as a 4 × 8 matrix. -/
def slab4_0 (W : FVec Ideal S3x4x8 .f32) : FVec Ideal S4x8 .f32 :=
  shapeCast S4x8 (((extractStridedSlice S1x4x8 ![0, 0, 0] · slices_S3x4x8_S1x4x8_0_0_0) : (⟨S3x4x8, .f32⟩ : BufTy).Contents (Elt Ideal) → (⟨S1x4x8, .f32⟩ : BufTy).Contents (Elt Ideal)) W) shapeCasts_S1x4x8_S4x8
@[inherit_doc slab4_0]
def slab4_1 (W : FVec Ideal S3x4x8 .f32) : FVec Ideal S4x8 .f32 :=
  shapeCast S4x8 (((extractStridedSlice S1x4x8 ![1, 0, 0] · slices_S3x4x8_S1x4x8_1_0_0) : (⟨S3x4x8, .f32⟩ : BufTy).Contents (Elt Ideal) → (⟨S1x4x8, .f32⟩ : BufTy).Contents (Elt Ideal)) W) shapeCasts_S1x4x8_S4x8
@[inherit_doc slab4_0]
def slab4_2 (W : FVec Ideal S3x4x8 .f32) : FVec Ideal S4x8 .f32 :=
  shapeCast S4x8 (((extractStridedSlice S1x4x8 ![2, 0, 0] · slices_S3x4x8_S1x4x8_2_0_0) : (⟨S3x4x8, .f32⟩ : BufTy).Contents (Elt Ideal) → (⟨S1x4x8, .f32⟩ : BufTy).Contents (Elt Ideal)) W) shapeCasts_S1x4x8_S4x8

/-- Slab `k` of the second layer's weights as an 8 × 8 matrix. -/
def slab8_0 (W : FVec Ideal S3x8x8 .f32) : FVec Ideal S8x8 .f32 :=
  shapeCast S8x8 (((extractStridedSlice S1x8x8 ![0, 0, 0] · slices_S3x8x8_S1x8x8_0_0_0) : (⟨S3x8x8, .f32⟩ : BufTy).Contents (Elt Ideal) → (⟨S1x8x8, .f32⟩ : BufTy).Contents (Elt Ideal)) W) shapeCasts_S1x8x8_S8x8
@[inherit_doc slab8_0]
def slab8_1 (W : FVec Ideal S3x8x8 .f32) : FVec Ideal S8x8 .f32 :=
  shapeCast S8x8 (((extractStridedSlice S1x8x8 ![1, 0, 0] · slices_S3x8x8_S1x8x8_1_0_0) : (⟨S3x8x8, .f32⟩ : BufTy).Contents (Elt Ideal) → (⟨S1x8x8, .f32⟩ : BufTy).Contents (Elt Ideal)) W) shapeCasts_S1x8x8_S8x8
@[inherit_doc slab8_0]
def slab8_2 (W : FVec Ideal S3x8x8 .f32) : FVec Ideal S8x8 .f32 :=
  shapeCast S8x8 (((extractStridedSlice S1x8x8 ![2, 0, 0] · slices_S3x8x8_S1x8x8_2_0_0) : (⟨S3x8x8, .f32⟩ : BufTy).Contents (Elt Ideal) → (⟨S1x8x8, .f32⟩ : BufTy).Contents (Elt Ideal)) W) shapeCasts_S1x8x8_S8x8

/-- The first collapsed matrix before the change of format: zeros, plus one Kronecker product per polynomial. -/
def wsum4 (P : FVec Ideal S24x24 .f32) (W : FVec Ideal S3x4x8 .f32) : FVec Ideal S96x192 .f32 :=
  (addf (F := Ideal) : (⟨S96x192, .f32⟩ : BufTy).Contents (Elt Ideal) → (⟨S96x192, .f32⟩ : BufTy).Contents (Elt Ideal) → (⟨S96x192, .f32⟩ : BufTy).Contents (Elt Ideal))
    ((addf (F := Ideal) : (⟨S96x192, .f32⟩ : BufTy).Contents (Elt Ideal) → (⟨S96x192, .f32⟩ : BufTy).Contents (Elt Ideal) → (⟨S96x192, .f32⟩ : BufTy).Contents (Elt Ideal))
      ((addf (F := Ideal) : (⟨S96x192, .f32⟩ : BufTy).Contents (Elt Ideal) → (⟨S96x192, .f32⟩ : BufTy).Contents (Elt Ideal) → (⟨S96x192, .f32⟩ : BufTy).Contents (Elt Ideal))
        ((broadcastInDim S96x192 ![] bcast_S_S96x192 : (⟨S_, .f32⟩ : BufTy).Contents (Elt Ideal) → (⟨S96x192, .f32⟩ : BufTy).Contents (Elt Ideal)) (constant (F := Ideal) S_ .f32 0x00000000#32))
        (kron4 (trT eyeT) (slab4_0 W)))
      (kron4 (trT P) (slab4_1 W)))
    (kron4 (trT (t2T P)) (slab4_2 W))

/-- The first collapsed matrix. -/
def wbig4 (P : FVec Ideal S24x24 .f32) (W : FVec Ideal S3x4x8 .f32) : FVec Ideal S96x192 .bf16 :=
  ((truncf (F := Ideal) .bf16 · bitsLt_bf16_f32) : (⟨S96x192, .f32⟩ : BufTy).Contents (Elt Ideal) → (⟨S96x192, .bf16⟩ : BufTy).Contents (Elt Ideal)) (wsum4 P W)

/-- The second collapsed matrix before the change of format. -/
def wsum8 (P : FVec Ideal S24x24 .f32) (W : FVec Ideal S3x8x8 .f32) : FVec Ideal S192x192 .f32 :=
  (addf (F := Ideal) : (⟨S192x192, .f32⟩ : BufTy).Contents (Elt Ideal) → (⟨S192x192, .f32⟩ : BufTy).Contents (Elt Ideal) → (⟨S192x192, .f32⟩ : BufTy).Contents (Elt Ideal))
    ((addf (F := Ideal) : (⟨S192x192, .f32⟩ : BufTy).Contents (Elt Ideal) → (⟨S192x192, .f32⟩ : BufTy).Contents (Elt Ideal) → (⟨S192x192, .f32⟩ : BufTy).Contents (Elt Ideal))
      ((addf (F := Ideal) : (⟨S192x192, .f32⟩ : BufTy).Contents (Elt Ideal) → (⟨S192x192, .f32⟩ : BufTy).Contents (Elt Ideal) → (⟨S192x192, .f32⟩ : BufTy).Contents (Elt Ideal))
        ((broadcastInDim S192x192 ![] bcast_S_S192x192 : (⟨S_, .f32⟩ : BufTy).Contents (Elt Ideal) → (⟨S192x192, .f32⟩ : BufTy).Contents (Elt Ideal)) (constant (F := Ideal) S_ .f32 0x00000000#32))
        (kron8 (trT eyeT) (slab8_0 W)))
      (kron8 (trT P) (slab8_1 W)))
    (kron8 (trT (t2T P)) (slab8_2 W))

/-- The second collapsed matrix. -/
def wbig8 (P : FVec Ideal S24x24 .f32) (W : FVec Ideal S3x8x8 .f32) : FVec Ideal S192x192 .bf16 :=
  ((truncf (F := Ideal) .bf16 · bitsLt_bf16_f32) : (⟨S192x192, .f32⟩ : BufTy).Contents (Elt Ideal) → (⟨S192x192, .bf16⟩ : BufTy).Contents (Elt Ideal)) (wsum8 P W)

/-! ## The bias rows, the dense weights, the flattened input -/

/-- A bias vector of length 8 repeated for each of the 24 nodes, as one row. -/
def btile (b : FVec Ideal S8 .f32) : FVec Ideal S1x192 .f32 :=
  shapeCast S1x192
    (shapeCast S192
      ((broadcastInDim S24x8 ![0, 1] bcast_S1x8_S24x8_0_1 : (⟨S1x8, .f32⟩ : BufTy).Contents (Elt Ideal) → (⟨S24x8, .f32⟩ : BufTy).Contents (Elt Ideal))
        (shapeCast S1x8 b shapeCasts_S8_S1x8))
      shapeCasts_S24x8_S192)
    shapeCasts_S192_S1x192

/-- The first dense layer's weights transposed. -/
def fc1T (W : FVec Ideal S64x192 .f32) : FVec Ideal S192x64 .bf16 :=
  ((truncf (F := Ideal) .bf16 · bitsLt_bf16_f32) : (⟨S192x64, .f32⟩ : BufTy).Contents (Elt Ideal) → (⟨S192x64, .bf16⟩ : BufTy).Contents (Elt Ideal))
    (((transpose S192x64 [1, 0] · transposes_S64x192_S192x64_1_0) : (⟨S64x192, .f32⟩ : BufTy).Contents (Elt Ideal) → (⟨S192x64, .f32⟩ : BufTy).Contents (Elt Ideal)) W)

/-- The first dense layer's bias as a row. -/
def fc1bT (v : FVec Ideal S64 .f32) : FVec Ideal S1x64 .f32 :=
  shapeCast S1x64 v shapeCasts_S64_S1x64

/-- The second dense layer's weights transposed. -/
def fc2T (W : FVec Ideal S2x64 .f32) : FVec Ideal S64x2 .bf16 :=
  ((truncf (F := Ideal) .bf16 · bitsLt_bf16_f32) : (⟨S64x2, .f32⟩ : BufTy).Contents (Elt Ideal) → (⟨S64x2, .bf16⟩ : BufTy).Contents (Elt Ideal))
    (((transpose S64x2 [1, 0] · transposes_S2x64_S64x2_1_0) : (⟨S2x64, .f32⟩ : BufTy).Contents (Elt Ideal) → (⟨S64x2, .f32⟩ : BufTy).Contents (Elt Ideal)) W)

/-- The second dense layer's bias as a row. -/
def fc2bT (v : FVec Ideal S2 .f32) : FVec Ideal S1x2 .f32 :=
  shapeCast S1x2 v shapeCasts_S2_S1x2

/-- The input with its node and feature axes flattened into one. -/
def xflat (x : FVec Ideal S131072x24x4 .f32) : FVec Ideal S131072x96 .f32 :=
  shapeCast S131072x96 x shapeCasts_S131072x24x4_S131072x96

end Cert.Cheb.KerHost

end
-- ==== Proof.LibJoinPieces.lean ====
/-
  A concatenation of two pieces as a function of its pieces.

  `concatenate s d [⟨s₁, a⟩, ⟨s₂, b⟩] h` holds its pieces inside a list of shape–contents pairs, where a rewrite of `a`
  or `b` cannot be carried out piece by piece (the second component's type depends on the first). Named as
  `joinTwo s s₁ s₂ d h a b`, the pieces are ordinary arguments: the equation `concat_eq_joinTwo` (true by definition, for
  any shapes, axis and element type) turns the one form into the other, after which equations about `a` and `b`
  rewrite under the concatenation like under any function.
-/
import Idealize.ShloMosaic.Lib.Pipeline.Value

namespace Cert.Lib.JoinPieces

open Idealize.ShloMosaic

/-- Two pieces of shapes `s₁`, `s₂` joined along axis `d` into shape `s`. -/
def joinTwo {α : Type} (s s₁ s₂ : Shape) (d : Fin s.rank) (h : Shape.Concatenates [s₁, s₂] s d) (a : s₁.Idx → α) (b : s₂.Idx → α) :
    s.Idx → α :=
  concatenate s d [⟨s₁, a⟩, ⟨s₂, b⟩] h

/-- A two-piece concatenation is `joinTwo` of its pieces. -/
theorem concat_eq_joinTwo {α : Type} (s s₁ s₂ : Shape) (d : Fin s.rank) (h : Shape.Concatenates [s₁, s₂] s d) (a : s₁.Idx → α)
    (b : s₂.Idx → α) : concatenate s d [⟨s₁, a⟩, ⟨s₂, b⟩] h = joinTwo s s₁ s₂ d h a b := rfl

/-- Equal pieces give equal concatenations. -/
theorem joinTwo_congr {α : Type} (s s₁ s₂ : Shape) (d : Fin s.rank) (h : Shape.Concatenates [s₁, s₂] s d) {a a' : s₁.Idx → α}
    {b b' : s₂.Idx → α} (ha : a = a') (hb : b = b') : joinTwo s s₁ s₂ d h a b = joinTwo s s₁ s₂ d h a' b' := by
  rw [ha, hb]

end Cert.Lib.JoinPieces
-- ==== Proof.KerEntry.lean ====
/-
  What the kernel call finds in its nine input arrays: each is one of the pure host functions applied to the
  program's arguments.  The host operations before the call are run symbolically, one simplification pass per
  array, and the resulting composition is the named function by unfolding.
-/
import proofs.«144586_j5729486372945_2_alg».proof.Proof.KerTerm
import proofs.«144586_j5729486372945_2_alg».proof.Proof.Gen.KernelIdeal.Frame
import Idealize.ShloMosaic.Lib.StableHlo.Run
import proofs.«144586_j5729486372945_2_alg».proof.Proof.LibJoinPieces

set_option maxRecDepth 16384

noncomputable section

namespace Cert.Cheb.KerHost

open Cert.KernelIdeal Idealize.ShloMosaic Idealize.ShloMosaic.ValueIdx Idealize.ShloMosaic.TcCoe
open Idealize.ShloMosaic.StableHlo
open Cert.KernelIdeal.Facts₀ Cert.KernelIdeal.Facts

variable [Cert.KernelIdeal.Facts]
variable (m : (ℓ : Loc nD τ sig) → Buf (Elt Ideal) ℓ)

/-- The contents of one buffer after a list of operations, by one simplification pass: each operation's result at its
    own buffer is its function of its operands' contents, and at any other buffer what was there; a two-piece
    concatenation is read as a function of its two pieces so that the pieces are rewritten too. -/
macro "host_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.Lib.JoinPieces.concat_eq_joinTwo]))

set_option maxHeartbeats 4000000 in
/-- The flattened input. -/
theorem V_main_v104 (c : Dev nD) : Gen.V m c main_v104 = xflat (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  host_results
  rfl

set_option maxHeartbeats 4000000 in
/-- The first collapsed matrix. -/
theorem V_main_v75 (c : Dev nD) : Gen.V m c main_v75 = wbig4 (pmat (wrapV (rowV (m ((c : Thread nD τ).loc main_arg1)))) (wrapV (colV (m ((c : Thread nD τ).loc main_arg1)))) (ewT (m ((c : Thread nD τ).loc main_arg1)))) (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  host_results
  rfl

set_option maxHeartbeats 4000000 in
/-- The first bias row. -/
theorem V_main_v93 (c : Dev nD) : Gen.V m c main_v93 = btile (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  host_results
  rfl

set_option maxHeartbeats 4000000 in
/-- The second collapsed matrix. -/
theorem V_main_v89 (c : Dev nD) : Gen.V m c main_v89 = wbig8 (pmat (wrapV (rowV (m ((c : Thread nD τ).loc main_arg1)))) (wrapV (colV (m ((c : Thread nD τ).loc main_arg1)))) (ewT (m ((c : Thread nD τ).loc main_arg1)))) (m ((c : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  host_results
  rfl

set_option maxHeartbeats 4000000 in
/-- The second bias row. -/
theorem V_main_v97 (c : Dev nD) : Gen.V m c main_v97 = btile (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  host_results
  rfl

set_option maxHeartbeats 4000000 in
/-- The first dense layer's weights, transposed. -/
theorem V_main_v99 (c : Dev nD) : Gen.V m c main_v99 = fc1T (m ((c : Thread nD τ).loc main_arg6)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  host_results
  rfl

set_option maxHeartbeats 4000000 in
/-- The first dense layer's bias row. -/
theorem V_main_v100 (c : Dev nD) : Gen.V m c main_v100 = fc1bT (m ((c : Thread nD τ).loc main_arg7)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  host_results
  rfl

set_option maxHeartbeats 4000000 in
/-- The second dense layer's weights, transposed. -/
theorem V_main_v102 (c : Dev nD) : Gen.V m c main_v102 = fc2T (m ((c : Thread nD τ).loc main_arg8)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  host_results
  rfl

set_option maxHeartbeats 4000000 in
/-- The second dense layer's bias row. -/
theorem V_main_v103 (c : Dev nD) : Gen.V m c main_v103 = fc2bT (m ((c : Thread nD τ).loc main_arg9)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  host_results
  rfl

end Cert.Cheb.KerHost

end
-- ==== Proof.LibHostForms.lean ====
/-
  Readings, at an entry, of host operations that spread a vector over a matrix or multiply two matrices, for any
  sizes.

  * A length-`a` vector laid out as an `a × 1` column (a broadcast along a new unit axis) and then spread over `b`
    columns reads, at `(p, q)`, the vector at `p`.
  * A length-`b` vector laid out as a `1 × b` row and then spread over `a` rows reads, at `(p, q)`, the vector at `q`.
  * The two steps of the first one at a time; the host's logarithm at an entry; the zero word added to a sum.
  * A scalar spread over any shape reads the scalar at every entry.
  * The host's matrix product of an `M × K` table with a `K × N` matrix, for any dimension numbers that contract the
    left columns with the right rows and batch nothing, reads at `(p, q)` the sum over `c` of
    `A (p, c) * B (c, q)` over the extended reals.
-/
import Idealize.ShloMosaic.Lib.Pipeline.Value
import Idealize.ShloMosaic.Lib.ValueIdx
import Idealize.ShloMosaic.PureOps.Ideal.Laws

noncomputable section

open scoped BigOperators

namespace Cert.Lib.HostForms

open Idealize.ShloMosaic Idealize.ShloMosaic.ValueIdx

variable {α : Type}

/-- A vector kept as a column and spread along the rows reads, at `(p, q)`, the vector at `p`. -/
theorem bcast_col_chain_apply {a b : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![a, 1]⟩ ![0] h1 d) (ix2 p q) = d (ix1 p) := by
  refine (broadcastInDim_apply ![0, 1] h2 _ (ix2 p q) (ix2 p (0 : Fin 1)) fun ax => ?_).trans
    (broadcastInDim_apply ![0] h1 d (ix2 p (0 : Fin 1)) (ix1 p) fun ax => ?_)
  · match ax with
    | ⟨0, _⟩ =>
      show p.val = if a = 1 then 0 else p.val
      split
      · have := p.isLt; omega
      · rfl
    | ⟨1, _⟩ =>
      show (0 : ℕ) = if (1 : ℕ) = 1 then 0 else q.val
      rw [if_pos rfl]
  · match ax with
    | ⟨0, _⟩ =>
      show p.val = if a = 1 then 0 else p.val
      split
      · have := p.isLt; omega
      · rfl

/-- A vector kept as a row and spread down the rows reads, at `(p, q)`, the vector at `q`. -/
theorem bcast_row_chain_apply {a b : ℕ} (v : (⟨1, ![b]⟩ : Shape).Idx → α)
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- An `a × 1` column spread over `b` columns reads, at `(p, q)`, the column's entry of row `p`. -/
theorem bcast_col_spread_apply {a b : ℕ} (v : (⟨2, ![a, 1]⟩ : Shape).Idx → α)
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 v (ix2 p q) = v (ix2 p (0 : Fin 1)) := by
  refine broadcastInDim_apply ![0, 1] h2 v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A length-`a` vector kept as an `a × 1` column reads, at `(p, u)`, the vector at `p`. -/
theorem bcast_vec_col_apply {a : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (p : Fin a) (u : Fin 1) :
    broadcastInDim ⟨2, ![a, 1]⟩ ![0] h1 d (ix2 p u) = d (ix1 p) := by
  refine broadcastInDim_apply ![0] h1 d (ix2 p u) (ix1 p) fun ax => ?_
  match ax with
  | ⟨0, _⟩ =>
    show p.val = if a = 1 then 0 else p.val
    split
    · have := p.isLt; omega
    · rfl

/-- The host's logarithm of a vector read at an entry. -/
theorem hostLog_apply {s : Shape} {φ : FTy} (x : FVec Ideal s φ) (i : s.Idx) : Host.log x i = Ideal.log (x i) := rfl

/-- The zero word in front of a sum adds nothing. -/
theorem zero_word_add (v : FVec Ideal ⟨0, ![]⟩ .f32) (hv : v = constant (F := Ideal) ⟨0, ![]⟩ .f32 0x00000000#32)
    (j : (⟨0, ![]⟩ : Shape).Idx) (s : EReal) : v j + s = s := by
  subst hv
  show Ideal.ofBits .f32 0x00000000#32 + s = s
  rw [Ideal.ofBits_zero_f32, zero_add]

/-- A scalar spread over any shape reads, at every entry, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- The host's product of an `M × K` table with a `K × N` matrix reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  show FloatOps.dotGeneral (DotDims.plain M K N) prec .single A B (ix2 p q) = _
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.HostForms

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.LibWords.lean ====
import Idealize.ShloMosaic.PureOps

/-!
# Small 32-bit words as the numbers they hold

A natural number below `2^31` written as a 32-bit word is non-negative as a signed integer and reads back as itself;
two numbers below `2^32` give equal words only when they are equal; and a word-level sum or product of small numbers
is the word of the sum or product. With these an index computed in 32-bit arithmetic is compared as a number.
-/

namespace Idealize.ShloMosaic.Words

/-- A number below `2^32` reads back from its word. -/
theorem toNat_ofNat_of_lt {n : ℕ} (h : n < 2 ^ 32) : (BitVec.ofNat 32 n).toNat = n := by
  rw [BitVec.toNat_ofNat]; exact Nat.mod_eq_of_lt h

/-- A number below `2^31` reads back from its word as a signed integer. -/
theorem toInt_ofNat_of_lt {n : ℕ} (h : n < 2 ^ 31) : (BitVec.ofNat 32 n).toInt = (n : ℤ) := by
  have hn : (BitVec.ofNat 32 n).toNat = n := toNat_ofNat_of_lt (by omega)
  rw [BitVec.toInt_eq_toNat_of_lt (by rw [hn]; omega), hn]

/-- Numbers below `2^32` with equal words are equal. -/
theorem ofNat_inj_of_lt {a b : ℕ} (ha : a < 2 ^ 32) (hb : b < 2 ^ 32) : BitVec.ofNat 32 a = BitVec.ofNat 32 b ↔ a = b := by
  constructor
  · intro h
    have := congrArg BitVec.toNat h
    rwa [toNat_ofNat_of_lt ha, toNat_ofNat_of_lt hb] at this
  · intro h; rw [h]

/-- A small number's word is not below zero as a signed integer. -/
theorem cmpi_slt_ofNat_zero {n : ℕ} (h : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_of_lt h]
    simp
  rw [this]; rfl

/-- Equality of the words of two numbers below `2^32` is equality of the numbers. -/
theorem cmpi_eq_ofNat {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h]
    have : (BitVec.ofNat 32 a == BitVec.ofNat 32 b) = false := by
      rw [beq_eq_false_iff_ne]; exact fun e => h ((ofNat_inj_of_lt ha hb).mp e)
    rw [this]; rfl

end Idealize.ShloMosaic.Words
-- ==== Proof.LibEqSelector.lean ====
/-
  The equality flag of two small numbers, read as a float and as the driver of a select.

  Two naturals below `2^32` written as 32-bit words compare equal exactly when they are equal. A kernel widens that
  one-bit flag to 32 bits and converts it, signed, to a float; a host program converts the one-bit flag, unsigned; either
  way the float is `1` when the numbers agree and `0` when they do not, as an extended real. A select driven by the flag
  picks by the numbers' equality. (Adding the zero word to one of the words first changes nothing.)
-/
import Idealize.ShloMosaic.PureOps.Ideal
import Idealize.ShloMosaic.Lib.ValueIdx
import proofs.«144586_j5729486372945_2_alg».proof.Proof.LibWords

noncomputable section

namespace Cert.Lib.EqSelector

open Idealize.ShloMosaic Idealize.ShloMosaic.ValueIdx Idealize.ShloMosaic.Words

/-- The equality flag of two words, widened to 32 bits and converted as a signed integer, is `1` or `0` by the
    numbers' equality. -/
theorem sitofp_extui_cmpi_eq {n m : ℕ} (hn : n < 2 ^ 32) (hm : m < 2 ^ 32) :
    FloatOps.sitofp (F := Ideal) .f32 ((IntOp.cmpi .eq (BitVec.ofNat 32 n) (BitVec.ofNat 32 m)).setWidth 32)
      = if n = m then (1 : EReal) else 0 := by
  rw [cmpi_eq_ofNat hn hm]
  split
  · show (((((1#1 : BitVec 1).setWidth 32).toInt : ℝ)) : EReal) = 1
    have e : ((1#1 : BitVec 1).setWidth 32).toInt = 1 := by decide
    rw [e]; simp
  · show (((((0#1 : BitVec 1).setWidth 32).toInt : ℝ)) : EReal) = 0
    have e : ((0#1 : BitVec 1).setWidth 32).toInt = 0 := by decide
    rw [e]; simp

/-- The equality flag of two words (the zero word added to the first), converted as an unsigned integer, is `1` or `0`
    by the numbers' equality. -/
theorem uitofp_cmpi_eq_add_zero {n m : ℕ} (hn : n < 2 ^ 32) (hm : m < 2 ^ 32) :
    FloatOps.uitofp (F := Ideal) .f32 (IntOp.cmpi .eq (IntOp.addi (BitVec.ofNat 32 n) 0#32) (BitVec.ofNat 32 m))
      = if n = m then (1 : EReal) else 0 := by
  have h0 : IntOp.addi (BitVec.ofNat 32 n) 0#32 = BitVec.ofNat 32 n := BitVec.add_zero _
  rw [h0, cmpi_eq_ofNat hn hm]
  split
  · show ((((1#1 : BitVec 1).toNat : ℝ)) : EReal) = 1
    simp
  · show ((((0#1 : BitVec 1).toNat : ℝ)) : EReal) = 0
    simp

/-- A select driven by the equality flag of two words picks by the numbers' equality. -/
theorem select_cmpi_eq {α : Type} {n m : ℕ} (hn : n < 2 ^ 32) (hm : m < 2 ^ 32) (x y : α) :
    Scalar.select (IntOp.cmpi .eq (BitVec.ofNat 32 n) (BitVec.ofNat 32 m)) x y = if n = m then x else y := by
  rw [cmpi_eq_ofNat hn hm]
  split
  · exact select_one x y
  · exact select_zero x y

end Cert.Lib.EqSelector

end
-- ==== Proof.KerRead1.lean ====
/-
  The propagation matrix, the identity, the second Chebyshev polynomial and a transpose, each read at an entry.

  The propagation matrix is an accumulation of the edge weights into a zero matrix at the pairs (head, tail) the two
  index columns name: each pair is read as two signed integers and is NOT clamped, so an update lands on entry (n, m)
  exactly when its head is n and its tail is m.  The general statement (any sizes) comes first; the rest reads this
  program's operations through it.
-/
import proofs.«144586_j5729486372945_2_alg».proof.Proof.KerTerm
import proofs.«144586_j5729486372945_2_alg».proof.Proof.GraphSpec
import proofs.«144586_j5729486372945_2_alg».proof.Proof.LibHostForms
import proofs.«144586_j5729486372945_2_alg».proof.Proof.LibConcatCols
import proofs.«144586_j5729486372945_2_alg».proof.Proof.LibEqSelector
import Idealize.ShloMosaic.Lib.IdealHost
import Idealize.ShloMosaic.Lib.Pipeline.Value

noncomputable section

open scoped BigOperators

namespace Cert.Cheb.KerHost

open Cert.KernelIdeal Idealize.ShloMosaic Idealize.ShloMosaic.ValueIdx
open Cert.KernelIdeal.Facts₀ Cert.KernelIdeal.Facts

/-! ## Numbers added into a matrix at the entries a two-column array of integers names -/

namespace ScatterPairs

/-- The dimension numbers of an entrywise accumulation: operand `[N, M]`, positions `[E, 2]` (the second axis holds
    the two components of a start index, addressing the operand's two axes in order), updates `[E]`; each update
    window is a single entry, so the updates have no window axis and both operand axes are inserted. -/
abbrev pairsScatter (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {R : Type*} [AddCommMonoid R] {n : Nat} (f : (⟨1, ![n]⟩ : Shape).Idx → R) :
    ∑ i, f i = ∑ a : Fin n, f (ix1 a) := by
  rw [← Equiv.sum_comp (idxEquiv1 (n := n)).symm f]
  rfl

section
variable {N M E w : Nat} (wf : ScatterDims.WF ⟨2, ![N, M]⟩ ⟨2, ![E, 2]⟩ ⟨1, ![E]⟩ [] [0, 1] [0, 1] 1)
  (idx : IVec ⟨2, ![E, 2]⟩ w) (e : Fin E)

/-- On the first axis the window of update `e` starts at `idx[e, 0]`, read signed. -/
theorem start_fst : (pairsScatter N M E wf).start (ix1 e) idx 0 = (idx (ix2 e (0 : Fin 2))).toInt := by
  unfold ScatterDims.start
  have hmem : (0 : Fin 2) ∈ (pairsScatter N M E wf).scatterDimsToOperandDims :=
    show (0 : Fin 2) ∈ ([0, 1] : List (Fin 2)) by decide
  rw [dif_pos hmem]
  have hsi : (pairsScatter N M E wf).siIdx (ix1 e) ⟨List.idxOf (0 : Fin 2) (pairsScatter N M E wf).scatterDimsToOperandDims,
      List.idxOf_lt_length_iff.2 hmem⟩ = ix2 e (0 : Fin 2) := by
    funext b; refine Fin.ext ?_
    match b with
    | ⟨0, _⟩ => rfl
    | ⟨1, _⟩ => rfl
  rw [hsi]

/-- On the second axis it starts at `idx[e, 1]`, read signed. -/
theorem start_snd : (pairsScatter N M E wf).start (ix1 e) idx 1 = (idx (ix2 e (1 : Fin 2))).toInt := by
  unfold ScatterDims.start
  have hmem : (1 : Fin 2) ∈ (pairsScatter N M E wf).scatterDimsToOperandDims :=
    show (1 : Fin 2) ∈ ([0, 1] : List (Fin 2)) by decide
  rw [dif_pos hmem]
  have hsi : (pairsScatter N M E wf).siIdx (ix1 e) ⟨List.idxOf (1 : Fin 2) (pairsScatter N M E wf).scatterDimsToOperandDims,
      List.idxOf_lt_length_iff.2 hmem⟩ = ix2 e (1 : Fin 2) := by
    funext b; refine Fin.ext ?_
    match b with
    | ⟨0, _⟩ => rfl
    | ⟨1, _⟩ => rfl
  rw [hsi]

/-- Both operand axes are inserted: the window has no extent along either. -/
theorem window_zero (a : Fin 2) : (pairsScatter N M E wf).window (ix1 e) a = 0 := by
  unfold ScatterDims.window
  have h0 : ¬ a ∈ (pairsScatter N M E wf).sKept := by
    have : (pairsScatter N M E wf).sKept = [] := by
      simp [ScatterDims.sKept, Shape.kept, List.finRange, List.filter]
    rw [this]; exact List.not_mem_nil
  rw [dif_neg h0]

/-- WHERE AN UPDATE LANDS: update `e` lands on entry `(r, p)` exactly when its two components, read signed, are
    `r` and `p`. -/
theorem resultIdx?_eq_some_iff (r : Fin N) (p : Fin M) :
    (pairsScatter N M E wf).resultIdx? (ix1 e) idx = some (ix2 r p)
      ↔ (idx (ix2 e (0 : Fin 2))).toInt = (r.val : Int) ∧ (idx (ix2 e (1 : Fin 2))).toInt = (p.val : Int) := by
  have hN : (⟨2, ![N, M]⟩ : Shape).size 0 = N := rfl
  have hM : (⟨2, ![N, M]⟩ : Shape).size 1 = M := rfl
  have hr := r.isLt
  have hp := p.isLt
  unfold ScatterDims.resultIdx?
  split
  · rename_i h
    rw [Option.some.injEq]
    constructor
    · intro hf
      have h0 := congrArg (fun f => (f 0).val) hf
      have h1 := congrArg (fun f => (f 1).val) hf
      simp only [start_fst, start_snd, window_zero] at h0 h1
      have hh0 := (h 0).1
      have hh1 := (h 1).1
      rw [start_fst, window_zero] at hh0
      rw [start_snd, window_zero] at hh1
      have e0 : ((ix2 r p : (⟨2, ![N, M]⟩ : Shape).Idx) 0).val = r.val := rfl
      have e1 : ((ix2 r p : (⟨2, ![N, M]⟩ : Shape).Idx) 1).val = p.val := rfl
      rw [e0] at h0
      rw [e1] at h1
      exact ⟨by omega, by omega⟩
    · rintro ⟨hs0, hs1⟩
      funext a
      refine Fin.ext ?_
      match a with
      | ⟨0, _⟩ =>
        show ((pairsScatter N M E wf).start (ix1 e) idx 0 + ((pairsScatter N M E wf).window (ix1 e) 0 : Nat)).toNat = r.val
        rw [start_fst, window_zero, hs0]; omega
      | ⟨1, _⟩ =>
        show ((pairsScatter N M E wf).start (ix1 e) idx 1 + ((pairsScatter N M E wf).window (ix1 e) 1 : Nat)).toNat = p.val
        rw [start_snd, window_zero, hs1]; omega
  · rename_i h
    constructor
    · intro hf; exact absurd hf (by simp)
    · rintro ⟨hs0, hs1⟩
      refine absurd (fun a => ?_) h
      match a with
      | ⟨0, _⟩ =>
        show 0 ≤ (pairsScatter N M E wf).start (ix1 e) idx 0 + ((pairsScatter N M E wf).window (ix1 e) 0 : Nat)
          ∧ (pairsScatter N M E wf).start (ix1 e) idx 0 + ((pairsScatter N M E wf).window (ix1 e) 0 : Nat) < ((⟨2, ![N, M]⟩ : Shape).size 0 : Nat)
        rw [start_fst, window_zero, hs0, hN]; omega
      | ⟨1, _⟩ =>
        show 0 ≤ (pairsScatter N M E wf).start (ix1 e) idx 1 + ((pairsScatter N M E wf).window (ix1 e) 1 : Nat)
          ∧ (pairsScatter N M E wf).start (ix1 e) idx 1 + ((pairsScatter N M E wf).window (ix1 e) 1 : Nat) < ((⟨2, ![N, M]⟩ : Shape).size 1 : Nat)
        rw [start_snd, window_zero, hs1, hM]; omega

end

/-- THE ACCUMULATION READ AT `(r, p)`: the operand's entry plus the sum, over the positions whose two components
    are `r` and `p`, of the updates. -/
theorem scatterAdd_pairs_apply {N M E w : Nat} {φ : FTy}
    (wf : ScatterDims.WF ⟨2, ![N, M]⟩ ⟨2, ![E, 2]⟩ ⟨1, ![E]⟩ [] [0, 1] [0, 1] 1)
    (x : FVec Ideal ⟨2, ![N, M]⟩ φ) (idx : IVec ⟨2, ![E, 2]⟩ w) (upd : FVec Ideal ⟨1, ![E]⟩ φ) (r : Fin N) (p : Fin M) :
    Host.scatterAdd (F := Ideal) (pairsScatter N M E wf) x idx upd (ix2 r p)
      = x (ix2 r p) + ∑ e : Fin E,
          if (idx (ix2 e (0 : Fin 2))).toInt = (r.val : Int) ∧ (idx (ix2 e (1 : Fin 2))).toInt = (p.val : Int)
            then upd (ix1 e) else 0 := by
  show Ideal.hostScatterAdd (pairsScatter N M E wf) x idx upd (ix2 r p) = _
  unfold Ideal.hostScatterAdd
  congr 1
  rw [Finset.sum_filter, sum_idx1]
  refine Finset.sum_congr rfl fun e _ => ?_
  simp only [resultIdx?_eq_some_iff]

end ScatterPairs

variable [Cert.KernelIdeal.Facts]

/-! ## The propagation matrix -/

/-- The index column read at a row: the vector's entry. -/
theorem colOf_apply (v : IVec S128 32) (e : Fin 128) (u : Fin 1) : colOf v (ix2 e u) = v (ix1 e) :=
  Cert.Lib.HostForms.bcast_vec_col_apply v bcast_S128_S128x1_0 e u

/-- The propagation matrix at `(n, m)` is the total weight of the edges whose head is `n` and whose tail is `m`,
    for index vectors that hold node numbers. -/
theorem pmat_apply (rowW colW : IVec S128 32) (ew : FVec Ideal S128 .f32) (rN cN : Fin 128 → Fin 24)
    (hr : ∀ e, (rowW (ix1 e)).toInt = ((rN e).val : ℤ)) (hc : ∀ e, (colW (ix1 e)).toInt = ((cN e).val : ℤ))
    (n m : Fin 24) :
    pmat rowW colW ew (ix2 n m) = Cert.Cheb.PmS rN cN (fun e => ew (ix1 e)) n m := by
  have hd : scatter_S24x24_S128x2_S128_n_01_01_1
      = ScatterPairs.pairsScatter 24 24 128 scatter_S24x24_S128x2_S128_n_01_01_1_wf := rfl
  have h0 : ∀ e : Fin 128,
      concatenate S128x2 1 [⟨S128x1, colOf rowW⟩, ⟨S128x1, colOf colW⟩] concatenates_S128x1_S128x1_S128x2_d1 (ix2 e (0 : Fin 2))
        = rowW (ix1 e) := fun e =>
    (Cert.Lib.ConcatCols.concat_cols_left (colOf rowW) (colOf colW) concatenates_S128x1_S128x1_S128x2_d1 e (0 : Fin 2) (0 : Fin 1) rfl).trans
      (colOf_apply rowW e 0)
  have h1 : ∀ e : Fin 128,
      concatenate S128x2 1 [⟨S128x1, colOf rowW⟩, ⟨S128x1, colOf colW⟩] concatenates_S128x1_S128x1_S128x2_d1 (ix2 e (1 : Fin 2))
        = colW (ix1 e) := fun e =>
    (Cert.Lib.ConcatCols.concat_cols_right (colOf rowW) (colOf colW) concatenates_S128x1_S128x1_S128x2_d1 e (1 : Fin 2) (0 : Fin 1) rfl).trans
      (colOf_apply colW e 0)
  show Host.scatterAdd (F := Ideal) scatter_S24x24_S128x2_S128_n_01_01_1
      (broadcastInDim S24x24 ![] bcast_S_S24x24 (constant (F := Ideal) S_ .f32 0x00000000#32))
      (concatenate S128x2 1 [⟨S128x1, colOf rowW⟩, ⟨S128x1, colOf colW⟩] concatenates_S128x1_S128x1_S128x2_d1)
      ew (ix2 n m) = _
  rw [hd, ScatterPairs.scatterAdd_pairs_apply, broadcastInDim_scalar_apply, constant_apply, Ideal.ofBits_zero_f32, zero_add]
  unfold Cert.Cheb.PmS
  refine Finset.sum_congr rfl fun e _ => ?_
  rw [h0 e, h1 e, hr e, hc e]
  refine if_congr ?_ rfl rfl
  rw [Nat.cast_inj, Nat.cast_inj, Fin.val_inj, Fin.val_inj]

/-! ## The identity -/

/-- The identity matrix at `(n, m)`. -/
theorem eyeT_apply (n m : Fin 24) : eyeT (ix2 n m) = Cert.Cheb.eyeS n m := by
  have h : eyeT (ix2 n m)
      = FloatOps.uitofp (F := Ideal) .f32 (IntOp.cmpi .eq (IntOp.addi (BitVec.ofNat 32 n.val) 0#32) (BitVec.ofNat 32 m.val)) := rfl
  have hn : n.val < 2 ^ 32 := by have := n.isLt; omega
  have hm : m.val < 2 ^ 32 := by have := m.isLt; omega
  rw [h, Cert.Lib.EqSelector.uitofp_cmpi_eq_add_zero hn hm]
  unfold Cert.Cheb.eyeS
  exact if_congr Fin.val_inj rfl rfl

/-! ## The second polynomial -/

/-- The f32 pattern `0x40000000` is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- Twice the square, minus the identity, at `(n, m)`. -/
theorem t2T_apply (P : FVec Ideal S24x24 .f32) (n m : Fin 24) :
    t2T P (ix2 n m) = 2 * (∑ k : Fin 24, P (ix2 n k) * P (ix2 k m)) - Cert.Cheb.eyeS n m := by
  have h : t2T P (ix2 n m)
      = Ideal.ofBits .f32 0x40000000#32
          * Host.dotGeneral (F := Ideal) (φ₁ := .f32) (φ₂ := .f32) dot_S24x24_S24x24_S24x24_1_0_0_1_n_n none P P (ix2 n m)
        - eyeT (ix2 n m) := rfl
  rw [h, ofBits_two_f32, eyeT_apply,
    Cert.Lib.HostForms.plain_dotGeneral_apply dot_S24x24_S24x24_S24x24_1_0_0_1_n_n rfl none P P n m]

/-! ## A transpose -/

/-- The transpose at `(n, m)` is the matrix at `(m, n)`. -/
theorem trT_apply (A : FVec Ideal S24x24 .f32) (n m : Fin 24) : trT A (ix2 n m) = A (ix2 m n) :=
  transpose_apply [1, 0] A transposes_S24x24_S24x24_1_0 (ix2 n m) (ix2 m n) (fun b => by
    match b with
    | ⟨0, _⟩ => rfl
    | ⟨1, _⟩ => rfl)

end Cert.Cheb.KerHost

end
-- ==== Proof.KerRead2.lean ====
/-
  Kronecker products and the two collapsed layer matrices, each read at an entry.

  A Kronecker product is made by spreading the two factors over a four-axis array, multiplying, and flattening the
  axes in pairs: the row of (m, f) is m·F + f and the column of (n, h) is n·8 + h.  The collapsed matrix is the sum,
  starting from zeros, of one such product per Chebyshev polynomial, each polynomial transposed first.
-/
import proofs.«144586_j5729486372945_2_alg».proof.Proof.KerRead1

noncomputable section

open scoped BigOperators

namespace Cert.Cheb.KerHost

open Cert.KernelIdeal Idealize.ShloMosaic Idealize.ShloMosaic.ValueIdx
open Cert.KernelIdeal.Facts₀ Cert.KernelIdeal.Facts

variable [Cert.KernelIdeal.Facts]

/-- The Kronecker product at row `m·4 + f` and column `n·8 + h` is the product of the entries. -/
theorem kron4_apply (A : FVec Ideal S24x24 .f32) (W : FVec Ideal S4x8 .f32) (m : Fin 24) (f : Fin 4) (n : Fin 24) (h : Fin 8) :
    kron4 A W (ix2 (Cert.Cheb.fl4 m f) (Cert.Cheb.fl8 n h)) = A (ix2 m n) * W (ix2 f h) := by
  unfold kron4
  refine (shapeCast_apply _ shapeCasts_S24x4x24x8_S96x192 (ix2 (Cert.Cheb.fl4 m f) (Cert.Cheb.fl8 n h)) (ix4 m f n h) ?_).trans ?_
  · rw [Shape.rowMajor_val_four, Shape.rowMajor_val_two]
    show ((m.val * 4 + f.val) * 24 + n.val) * 8 + h.val = (m.val * 4 + f.val) * 192 + (n.val * 8 + h.val)
    omega
  rw [mulf_apply]
  congr 1
  · refine (broadcastInDim_apply ![0, 1, 2, 3] bcast_S24x1x24x1_S24x4x24x8_0_1_2_3 _ (ix4 m f n h)
      (ix4 m (0 : Fin 1) n (0 : Fin 1)) (fun a => ?_)).trans ?_
    · match a with
      | ⟨0, _⟩ => rfl
      | ⟨1, _⟩ => rfl
      | ⟨2, _⟩ => rfl
      | ⟨3, _⟩ => rfl
    refine broadcastInDim_apply ![0, 2] bcast_S24x24_S24x1x24x1_0_2 A (ix4 m (0 : Fin 1) n (0 : Fin 1)) (ix2 m n) (fun a => ?_)
    match a with
    | ⟨0, _⟩ => rfl
    | ⟨1, _⟩ => rfl
  · refine (broadcastInDim_apply ![0, 1, 2, 3] bcast_S1x4x1x8_S24x4x24x8_0_1_2_3 _ (ix4 m f n h)
      (ix4 (0 : Fin 1) f (0 : Fin 1) h) (fun a => ?_)).trans ?_
    · match a with
      | ⟨0, _⟩ => rfl
      | ⟨1, _⟩ => rfl
      | ⟨2, _⟩ => rfl
      | ⟨3, _⟩ => rfl
    refine broadcastInDim_apply ![1, 3] bcast_S4x8_S1x4x1x8_1_3 W (ix4 (0 : Fin 1) f (0 : Fin 1) h) (ix2 f h) (fun a => ?_)
    match a with
    | ⟨0, _⟩ => rfl
    | ⟨1, _⟩ => rfl

/-- The Kronecker product at row `m·8 + g` and column `n·8 + h` is the product of the entries. -/
theorem kron8_apply (A : FVec Ideal S24x24 .f32) (W : FVec Ideal S8x8 .f32) (m : Fin 24) (g : Fin 8) (n : Fin 24) (h : Fin 8) :
    kron8 A W (ix2 (Cert.Cheb.fl8 m g) (Cert.Cheb.fl8 n h)) = A (ix2 m n) * W (ix2 g h) := by
  unfold kron8
  refine (shapeCast_apply _ shapeCasts_S24x8x24x8_S192x192 (ix2 (Cert.Cheb.fl8 m g) (Cert.Cheb.fl8 n h)) (ix4 m g n h) ?_).trans ?_
  · rw [Shape.rowMajor_val_four, Shape.rowMajor_val_two]
    show ((m.val * 8 + g.val) * 24 + n.val) * 8 + h.val = (m.val * 8 + g.val) * 192 + (n.val * 8 + h.val)
    omega
  rw [mulf_apply]
  congr 1
  · refine (broadcastInDim_apply ![0, 1, 2, 3] bcast_S24x1x24x1_S24x8x24x8_0_1_2_3 _ (ix4 m g n h)
      (ix4 m (0 : Fin 1) n (0 : Fin 1)) (fun a => ?_)).trans ?_
    · match a with
      | ⟨0, _⟩ => rfl
      | ⟨1, _⟩ => rfl
      | ⟨2, _⟩ => rfl
      | ⟨3, _⟩ => rfl
    refine broadcastInDim_apply ![0, 2] bcast_S24x24_S24x1x24x1_0_2 A (ix4 m (0 : Fin 1) n (0 : Fin 1)) (ix2 m n) (fun a => ?_)
    match a with
    | ⟨0, _⟩ => rfl
    | ⟨1, _⟩ => rfl
  · refine (broadcastInDim_apply ![0, 1, 2, 3] bcast_S1x8x1x8_S24x8x24x8_0_1_2_3 _ (ix4 m g n h)
      (ix4 (0 : Fin 1) g (0 : Fin 1) h) (fun a => ?_)).trans ?_
    · match a with
      | ⟨0, _⟩ => rfl
      | ⟨1, _⟩ => rfl
      | ⟨2, _⟩ => rfl
      | ⟨3, _⟩ => rfl
    refine broadcastInDim_apply ![1, 3] bcast_S8x8_S1x8x1x8_1_3 W (ix4 (0 : Fin 1) g (0 : Fin 1) h) (ix2 g h) (fun a => ?_)
    match a with
    | ⟨0, _⟩ => rfl
    | ⟨1, _⟩ => rfl

/-- Slab 0 at `(f, h)`. -/
theorem slab4_0_apply (W : FVec Ideal S3x4x8 .f32) (f : Fin 4) (h : Fin 8) :
    slab4_0 W (ix2 f h) = W (ix3 (0 : Fin 3) f h) := by
  unfold slab4_0
  refine (shapeCast_apply _ shapeCasts_S1x4x8_S4x8 (ix2 f h) (ix3 (0 : Fin 1) f h) ?_).trans ?_
  · rw [Shape.rowMajor_val_three, Shape.rowMajor_val_two]
    show (0 * 4 + f.val) * 8 + h.val = f.val * 8 + h.val
    omega
  refine extractStridedSlice_apply ![0, 0, 0] W slices_S3x4x8_S1x4x8_0_0_0 (ix3 (0 : Fin 1) f h) (ix3 (0 : Fin 3) f h) (fun a => ?_)
  match a with
  | ⟨0, _⟩ => rfl
  | ⟨1, _⟩ => exact (Nat.zero_add _).symm
  | ⟨2, _⟩ => exact (Nat.zero_add _).symm

/-- Slab 1 at `(f, h)`. -/
theorem slab4_1_apply (W : FVec Ideal S3x4x8 .f32) (f : Fin 4) (h : Fin 8) :
    slab4_1 W (ix2 f h) = W (ix3 (1 : Fin 3) f h) := by
  unfold slab4_1
  refine (shapeCast_apply _ shapeCasts_S1x4x8_S4x8 (ix2 f h) (ix3 (0 : Fin 1) f h) ?_).trans ?_
  · rw [Shape.rowMajor_val_three, Shape.rowMajor_val_two]
    show (0 * 4 + f.val) * 8 + h.val = f.val * 8 + h.val
    omega
  refine extractStridedSlice_apply ![1, 0, 0] W slices_S3x4x8_S1x4x8_1_0_0 (ix3 (0 : Fin 1) f h) (ix3 (1 : Fin 3) f h) (fun a => ?_)
  match a with
  | ⟨0, _⟩ => rfl
  | ⟨1, _⟩ => exact (Nat.zero_add _).symm
  | ⟨2, _⟩ => exact (Nat.zero_add _).symm

/-- Slab 2 at `(f, h)`. -/
theorem slab4_2_apply (W : FVec Ideal S3x4x8 .f32) (f : Fin 4) (h : Fin 8) :
    slab4_2 W (ix2 f h) = W (ix3 (2 : Fin 3) f h) := by
  unfold slab4_2
  refine (shapeCast_apply _ shapeCasts_S1x4x8_S4x8 (ix2 f h) (ix3 (0 : Fin 1) f h) ?_).trans ?_
  · rw [Shape.rowMajor_val_three, Shape.rowMajor_val_two]
    show (0 * 4 + f.val) * 8 + h.val = f.val * 8 + h.val
    omega
  refine extractStridedSlice_apply ![2, 0, 0] W slices_S3x4x8_S1x4x8_2_0_0 (ix3 (0 : Fin 1) f h) (ix3 (2 : Fin 3) f h) (fun a => ?_)
  match a with
  | ⟨0, _⟩ => rfl
  | ⟨1, _⟩ => exact (Nat.zero_add _).symm
  | ⟨2, _⟩ => exact (Nat.zero_add _).symm

/-- Slab 0 at `(g, h)`. -/
theorem slab8_0_apply (W : FVec Ideal S3x8x8 .f32) (g : Fin 8) (h : Fin 8) :
    slab8_0 W (ix2 g h) = W (ix3 (0 : Fin 3) g h) := by
  unfold slab8_0
  refine (shapeCast_apply _ shapeCasts_S1x8x8_S8x8 (ix2 g h) (ix3 (0 : Fin 1) g h) ?_).trans ?_
  · rw [Shape.rowMajor_val_three, Shape.rowMajor_val_two]
    show (0 * 8 + g.val) * 8 + h.val = g.val * 8 + h.val
    omega
  refine extractStridedSlice_apply ![0, 0, 0] W slices_S3x8x8_S1x8x8_0_0_0 (ix3 (0 : Fin 1) g h) (ix3 (0 : Fin 3) g h) (fun a => ?_)
  match a with
  | ⟨0, _⟩ => rfl
  | ⟨1, _⟩ => exact (Nat.zero_add _).symm
  | ⟨2, _⟩ => exact (Nat.zero_add _).symm

/-- Slab 1 at `(g, h)`. -/
theorem slab8_1_apply (W : FVec Ideal S3x8x8 .f32) (g : Fin 8) (h : Fin 8) :
    slab8_1 W (ix2 g h) = W (ix3 (1 : Fin 3) g h) := by
  unfold slab8_1
  refine (shapeCast_apply _ shapeCasts_S1x8x8_S8x8 (ix2 g h) (ix3 (0 : Fin 1) g h) ?_).trans ?_
  · rw [Shape.rowMajor_val_three, Shape.rowMajor_val_two]
    show (0 * 8 + g.val) * 8 + h.val = g.val * 8 + h.val
    omega
  refine extractStridedSlice_apply ![1, 0, 0] W slices_S3x8x8_S1x8x8_1_0_0 (ix3 (0 : Fin 1) g h) (ix3 (1 : Fin 3) g h) (fun a => ?_)
  match a with
  | ⟨0, _⟩ => rfl
  | ⟨1, _⟩ => exact (Nat.zero_add _).symm
  | ⟨2, _⟩ => exact (Nat.zero_add _).symm

/-- Slab 2 at `(g, h)`. -/
theorem slab8_2_apply (W : FVec Ideal S3x8x8 .f32) (g : Fin 8) (h : Fin 8) :
    slab8_2 W (ix2 g h) = W (ix3 (2 : Fin 3) g h) := by
  unfold slab8_2
  refine (shapeCast_apply _ shapeCasts_S1x8x8_S8x8 (ix2 g h) (ix3 (0 : Fin 1) g h) ?_).trans ?_
  · rw [Shape.rowMajor_val_three, Shape.rowMajor_val_two]
    show (0 * 8 + g.val) * 8 + h.val = g.val * 8 + h.val
    omega
  refine extractStridedSlice_apply ![2, 0, 0] W slices_S3x8x8_S1x8x8_2_0_0 (ix3 (0 : Fin 1) g h) (ix3 (2 : Fin 3) g h) (fun a => ?_)
  match a with
  | ⟨0, _⟩ => rfl
  | ⟨1, _⟩ => exact (Nat.zero_add _).symm
  | ⟨2, _⟩ => exact (Nat.zero_add _).symm

/-- The sum of the three Kronecker products, before the change of format, at row `m·4 + f` and column
    `n·8 + h`: the transposes put each polynomial's entry `(n, m)` at the factor's `(m, n)`, and the zeros the sum
    starts from add nothing. -/
theorem wsum4_apply (P : FVec Ideal S24x24 .f32) (W : FVec Ideal S3x4x8 .f32) (m : Fin 24) (f : Fin 4) (n : Fin 24) (h : Fin 8) :
    wsum4 P W (ix2 (Cert.Cheb.fl4 m f) (Cert.Cheb.fl8 n h))
      = (Cert.Cheb.eyeS n m * W (ix3 (0 : Fin 3) f h) + P (ix2 n m) * W (ix3 (1 : Fin 3) f h))
        + (2 * (∑ k : Fin 24, P (ix2 n k) * P (ix2 k m)) - Cert.Cheb.eyeS n m) * W (ix3 (2 : Fin 3) f h) := by
  have hz : wsum4 P W (ix2 (Cert.Cheb.fl4 m f) (Cert.Cheb.fl8 n h))
      = ((Ideal.ofBits .f32 0x00000000#32
            + kron4 (trT eyeT) (slab4_0 W) (ix2 (Cert.Cheb.fl4 m f) (Cert.Cheb.fl8 n h)))
          + kron4 (trT P) (slab4_1 W) (ix2 (Cert.Cheb.fl4 m f) (Cert.Cheb.fl8 n h)))
        + kron4 (trT (t2T P)) (slab4_2 W) (ix2 (Cert.Cheb.fl4 m f) (Cert.Cheb.fl8 n h)) := rfl
  rw [hz, Ideal.ofBits_zero_f32, zero_add, kron4_apply, kron4_apply, kron4_apply, trT_apply, trT_apply, trT_apply,
    eyeT_apply, t2T_apply, slab4_0_apply, slab4_1_apply, slab4_2_apply]

/-- The collapsed matrix at row `m·4 + f` and column `n·8 + h`, for index vectors that hold node numbers. -/
theorem wbig4_apply (rowW colW : IVec S128 32) (ew : FVec Ideal S128 .f32) (rN cN : Fin 128 → Fin 24)
    (hr : ∀ e, (rowW (ix1 e)).toInt = ((rN e).val : ℤ)) (hc : ∀ e, (colW (ix1 e)).toInt = ((cN e).val : ℤ))
    (W : FVec Ideal S3x4x8 .f32) (m : Fin 24) (f : Fin 4) (n : Fin 24) (h : Fin 8) :
    wbig4 (pmat rowW colW ew) W (ix2 (Cert.Cheb.fl4 m f) (Cert.Cheb.fl8 n h))
      = Cert.Cheb.wbigS rN cN (fun e => ew (ix1 e)) (fun k f' h' => W (ix3 k f' h')) m f n h := by
  have ht : wbig4 (pmat rowW colW ew) W (ix2 (Cert.Cheb.fl4 m f) (Cert.Cheb.fl8 n h))
      = wsum4 (pmat rowW colW ew) W (ix2 (Cert.Cheb.fl4 m f) (Cert.Cheb.fl8 n h)) := rfl
  rw [ht, wsum4_apply]
  unfold Cert.Cheb.wbigS Cert.Cheb.T2S
  simp only [pmat_apply rowW colW ew rN cN hr hc]

/-- The sum of the three Kronecker products, before the change of format, at row `m·8 + g` and column
    `n·8 + h`: the transposes put each polynomial's entry `(n, m)` at the factor's `(m, n)`, and the zeros the sum
    starts from add nothing. -/
theorem wsum8_apply (P : FVec Ideal S24x24 .f32) (W : FVec Ideal S3x8x8 .f32) (m : Fin 24) (g : Fin 8) (n : Fin 24) (h : Fin 8) :
    wsum8 P W (ix2 (Cert.Cheb.fl8 m g) (Cert.Cheb.fl8 n h))
      = (Cert.Cheb.eyeS n m * W (ix3 (0 : Fin 3) g h) + P (ix2 n m) * W (ix3 (1 : Fin 3) g h))
        + (2 * (∑ k : Fin 24, P (ix2 n k) * P (ix2 k m)) - Cert.Cheb.eyeS n m) * W (ix3 (2 : Fin 3) g h) := by
  have hz : wsum8 P W (ix2 (Cert.Cheb.fl8 m g) (Cert.Cheb.fl8 n h))
      = ((Ideal.ofBits .f32 0x00000000#32
            + kron8 (trT eyeT) (slab8_0 W) (ix2 (Cert.Cheb.fl8 m g) (Cert.Cheb.fl8 n h)))
          + kron8 (trT P) (slab8_1 W) (ix2 (Cert.Cheb.fl8 m g) (Cert.Cheb.fl8 n h)))
        + kron8 (trT (t2T P)) (slab8_2 W) (ix2 (Cert.Cheb.fl8 m g) (Cert.Cheb.fl8 n h)) := rfl
  rw [hz, Ideal.ofBits_zero_f32, zero_add, kron8_apply, kron8_apply, kron8_apply, trT_apply, trT_apply, trT_apply,
    eyeT_apply, t2T_apply, slab8_0_apply, slab8_1_apply, slab8_2_apply]

/-- The collapsed matrix at row `m·8 + g` and column `n·8 + h`, for index vectors that hold node numbers. -/
theorem wbig8_apply (rowW colW : IVec S128 32) (ew : FVec Ideal S128 .f32) (rN cN : Fin 128 → Fin 24)
    (hr : ∀ e, (rowW (ix1 e)).toInt = ((rN e).val : ℤ)) (hc : ∀ e, (colW (ix1 e)).toInt = ((cN e).val : ℤ))
    (W : FVec Ideal S3x8x8 .f32) (m : Fin 24) (g : Fin 8) (n : Fin 24) (h : Fin 8) :
    wbig8 (pmat rowW colW ew) W (ix2 (Cert.Cheb.fl8 m g) (Cert.Cheb.fl8 n h))
      = Cert.Cheb.wbigS rN cN (fun e => ew (ix1 e)) (fun k f' h' => W (ix3 k f' h')) m g n h := by
  have ht : wbig8 (pmat rowW colW ew) W (ix2 (Cert.Cheb.fl8 m g) (Cert.Cheb.fl8 n h))
      = wsum8 (pmat rowW colW ew) W (ix2 (Cert.Cheb.fl8 m g) (Cert.Cheb.fl8 n h)) := rfl
  rw [ht, wsum8_apply]
  unfold Cert.Cheb.wbigS Cert.Cheb.T2S
  simp only [pmat_apply rowW colW ew rN cN hr hc]

end Cert.Cheb.KerHost

end
-- ==== Proof.KerRead3.lean ====
/-
  The bias rows, the transposed dense weights and the flattened input, each read at an entry.  A reshape keeps the
  row-major position; a transpose exchanges the two coordinates; a change of float format is the identity over the
  extended reals.
-/
import proofs.«144586_j5729486372945_2_alg».proof.Proof.KerTerm
import proofs.«144586_j5729486372945_2_alg».proof.Proof.GraphSpec
import Idealize.ShloMosaic.Lib.Pipeline.Value

noncomputable section

open scoped BigOperators

namespace Cert.Cheb.KerHost

open Cert.KernelIdeal Idealize.ShloMosaic Idealize.ShloMosaic.ValueIdx
open Cert.KernelIdeal.Facts₀ Cert.KernelIdeal.Facts

variable [Cert.KernelIdeal.Facts]

/-- The tiled bias row at column `n·8 + h` is the bias at `h`. -/
theorem btile_apply (b : FVec Ideal S8 .f32) (n : Fin 24) (h : Fin 8) :
    btile b (ix2 (0 : Fin 1) (Cert.Cheb.fl8 n h)) = b (ix1 h) := by
  unfold btile
  refine (shapeCast_apply _ shapeCasts_S192_S1x192 (ix2 (0 : Fin 1) (Cert.Cheb.fl8 n h)) (ix1 (Cert.Cheb.fl8 n h)) ?_).trans ?_
  · rw [Shape.rowMajor_val_one, Shape.rowMajor_val_two]
    show (Cert.Cheb.fl8 n h).val = 0 * 192 + (Cert.Cheb.fl8 n h).val
    omega
  refine (shapeCast_apply _ shapeCasts_S24x8_S192 (ix1 (Cert.Cheb.fl8 n h)) (ix2 n h) ?_).trans ?_
  · rw [Shape.rowMajor_val_two, Shape.rowMajor_val_one]
    show n.val * 8 + h.val = n.val * 8 + h.val
    rfl
  refine (broadcastInDim_apply ![0, 1] bcast_S1x8_S24x8_0_1 _ (ix2 n h) (ix2 (0 : Fin 1) h) (fun a => ?_)).trans ?_
  · match a with
    | ⟨0, _⟩ => rfl
    | ⟨1, _⟩ => rfl
  refine shapeCast_apply b shapeCasts_S8_S1x8 (ix2 (0 : Fin 1) h) (ix1 h) ?_
  rw [Shape.rowMajor_val_one, Shape.rowMajor_val_two]
  show h.val = 0 * 8 + h.val
  omega

/-- The transposed first dense weights at `(i, j)`. -/
theorem fc1T_apply (W : FVec Ideal S64x192 .f32) (i : Fin 192) (j : Fin 64) : fc1T W (ix2 i j) = W (ix2 j i) := by
  show transpose S192x64 [1, 0] W transposes_S64x192_S192x64_1_0 (ix2 i j) = _
  exact transpose_apply [1, 0] W transposes_S64x192_S192x64_1_0 (ix2 i j) (ix2 j i) (fun b => by
    match b with
    | ⟨0, _⟩ => rfl
    | ⟨1, _⟩ => rfl)

/-- The first dense bias row at column `j`. -/
theorem fc1bT_apply (v : FVec Ideal S64 .f32) (j : Fin 64) : fc1bT v (ix2 (0 : Fin 1) j) = v (ix1 j) := by
  unfold fc1bT
  refine shapeCast_apply v shapeCasts_S64_S1x64 (ix2 (0 : Fin 1) j) (ix1 j) ?_
  rw [Shape.rowMajor_val_one, Shape.rowMajor_val_two]
  show j.val = 0 * 64 + j.val
  omega

/-- The transposed second dense weights at `(j, q)`. -/
theorem fc2T_apply (W : FVec Ideal S2x64 .f32) (j : Fin 64) (q : Fin 2) : fc2T W (ix2 j q) = W (ix2 q j) := by
  show transpose S64x2 [1, 0] W transposes_S2x64_S64x2_1_0 (ix2 j q) = _
  exact transpose_apply [1, 0] W transposes_S2x64_S64x2_1_0 (ix2 j q) (ix2 q j) (fun b => by
    match b with
    | ⟨0, _⟩ => rfl
    | ⟨1, _⟩ => rfl)

/-- The second dense bias row at column `q`. -/
theorem fc2bT_apply (v : FVec Ideal S2 .f32) (q : Fin 2) : fc2bT v (ix2 (0 : Fin 1) q) = v (ix1 q) := by
  unfold fc2bT
  refine shapeCast_apply v shapeCasts_S2_S1x2 (ix2 (0 : Fin 1) q) (ix1 q) ?_
  rw [Shape.rowMajor_val_one, Shape.rowMajor_val_two]
  show q.val = 0 * 2 + q.val
  omega

/-- The flattened input at row `b` and column `m·4 + f`. -/
theorem xflat_apply (x : FVec Ideal S131072x24x4 .f32) (b : Fin 131072) (m : Fin 24) (f : Fin 4) :
    xflat x (ix2 b (Cert.Cheb.fl4 m f)) = x (ix3 b m f) := by
  unfold xflat
  refine shapeCast_apply x shapeCasts_S131072x24x4_S131072x96 (ix2 b (Cert.Cheb.fl4 m f)) (ix3 b m f) ?_
  rw [Shape.rowMajor_val_three, Shape.rowMajor_val_two]
  show (b.val * 24 + m.val) * 4 + f.val = b.val * 96 + (m.val * 4 + f.val)
  omega

end Cert.Cheb.KerHost

end
-- ==== Proof.Flatten.lean ====
/-
  Sums over the node-major flattened positions as double sums over node and feature.

  Position `n·8 + h` runs over `0 … 191` exactly once as the node `n` runs over 24 values and the feature `h`
  over 8, and every position is `(i / 8)·8 + i % 8`; the same for `m·4 + f` over `0 … 95`.
-/
import Mathlib.Algebra.BigOperators.Fin
import Mathlib.Logic.Equiv.Fin.Basic
import Mathlib.Tactic
import proofs.«144586_j5729486372945_2_alg».proof.Proof.GraphSpec

noncomputable section

open scoped BigOperators

namespace Cert.Cheb

theorem fl8_div_mod (i : Fin 192) : fl8 ⟨i.val / 8, by omega⟩ ⟨i.val % 8, by omega⟩ = i := by
  apply Fin.ext
  show i.val / 8 * 8 + i.val % 8 = i.val
  omega

theorem fl8_div (n : Fin 24) (h : Fin 8) : (fl8 n h).val / 8 = n.val := by
  show (n.val * 8 + h.val) / 8 = n.val
  omega

theorem fl8_mod (n : Fin 24) (h : Fin 8) : (fl8 n h).val % 8 = h.val := by
  show (n.val * 8 + h.val) % 8 = h.val
  omega

/-- The flattening of 24 × 8 as a bijection. -/
def fl8Equiv : Fin 24 × Fin 8 ≃ Fin 192 where
  toFun p := fl8 p.1 p.2
  invFun i := (⟨i.val / 8, by omega⟩, ⟨i.val % 8, by omega⟩)
  left_inv p := by
    obtain ⟨n, h⟩ := p
    refine Prod.ext (Fin.ext ?_) (Fin.ext ?_)
    · exact fl8_div n h
    · exact fl8_mod n h
  right_inv i := fl8_div_mod i

/-- The flattening of 24 × 4 as a bijection. -/
def fl4Equiv : Fin 24 × Fin 4 ≃ Fin 96 where
  toFun p := fl4 p.1 p.2
  invFun i := (⟨i.val / 4, by omega⟩, ⟨i.val % 4, by omega⟩)
  left_inv p := by
    obtain ⟨n, h⟩ := p
    refine Prod.ext (Fin.ext ?_) (Fin.ext ?_)
    · show (n.val * 4 + h.val) / 4 = n.val
      omega
    · show (n.val * 4 + h.val) % 4 = h.val
      omega
  right_inv i := by
    apply Fin.ext
    show i.val / 4 * 4 + i.val % 4 = i.val
    omega

theorem sum_fl8 {M : Type*} [AddCommMonoid M] (F : Fin 192 → M) :
    ∑ i : Fin 192, F i = ∑ n : Fin 24, ∑ h : Fin 8, F (fl8 n h) := by
  rw [← Fintype.sum_prod_type']
  exact (Fintype.sum_equiv fl8Equiv (fun p => F (fl8 p.1 p.2)) F fun _ => rfl).symm

theorem sum_fl4 {M : Type*} [AddCommMonoid M] (F : Fin 96 → M) :
    ∑ i : Fin 96, F i = ∑ m : Fin 24, ∑ f : Fin 4, F (fl4 m f) := by
  rw [← Fintype.sum_prod_type']
  exact (Fintype.sum_equiv fl4Equiv (fun p => F (fl4 p.1 p.2)) F fun _ => rfl).symm

end Cert.Cheb

end
-- ==== Proof.KerValue.lean ====
/-
  The kernel's output row function is the collapsed arrangement of the two Chebyshev layers followed by the head.

  Row r of the flattened input holds sample r's 24 × 4 features node-major. The first matrix, read at row (m, f) and
  column (n, h) of the two node-major flattenings, is the collapsed layer matrix of the first layer, and the first bias
  row repeats the layer's bias at every node; so the first product plus bias, at column (m, g), is the first layer in
  the collapsed arrangement at node m and feature g. The same holds for the second matrix and bias on the 24 × 8 features
  that the exponential linear unit gives. Every position i of 0 … 191 is (i / 8)·8 + i % 8, so the second product plus
  bias at column i is the second layer at node i / 8 and feature i % 8. The two dense tables enter transposed and the
  bias rows as vectors, which is what the head is stated over.
-/
import proofs.«144586_j5729486372945_2_alg».proof.Proof.GraphSpec
import proofs.«144586_j5729486372945_2_alg».proof.Proof.Flatten
import Idealize.ShloMosaic.Lib.ValueIdx

noncomputable section

open scoped BigOperators

namespace Cert.Cheb.KerValue

open Idealize.ShloMosaic Idealize.ShloMosaic.ValueIdx Cert.Cheb

/-- Entry (r, q) of the output as a function of nine arrays: the head applied to row r's twice-transformed features. -/
def rowOutS (X : (⟨2, ![131072, 96]⟩ : Shape).Idx → EReal) (w1 : (⟨2, ![96, 192]⟩ : Shape).Idx → EReal)
    (b1 : (⟨2, ![1, 192]⟩ : Shape).Idx → EReal) (w2 : (⟨2, ![192, 192]⟩ : Shape).Idx → EReal)
    (b2 : (⟨2, ![1, 192]⟩ : Shape).Idx → EReal) (w3 : (⟨2, ![192, 64]⟩ : Shape).Idx → EReal)
    (b3 : (⟨2, ![1, 64]⟩ : Shape).Idx → EReal) (w4 : (⟨2, ![64, 2]⟩ : Shape).Idx → EReal)
    (b4 : (⟨2, ![1, 2]⟩ : Shape).Idx → EReal) (r : Fin 131072) (q : Fin 2) : EReal :=
  headS
    (fun i : Fin 192 => eluS ((∑ k : Fin 192,
        eluS ((∑ k' : Fin 96, X (ix2 r k') * w1 (ix2 k' k)) + b1 (ix2 (0 : Fin 1) k)) * w2 (ix2 k i))
      + b2 (ix2 (0 : Fin 1) i)))
    (fun j i => w3 (ix2 i j)) (fun j => b3 (ix2 (0 : Fin 1) j))
    (fun c j => w4 (ix2 j c)) (fun c => b4 (ix2 (0 : Fin 1) c)) q

/-- The head of equal features, tables and biases is equal. -/
theorem headS_congr {g g' : Fin 192 → EReal} {u u' : Fin 64 → Fin 192 → EReal} {v v' : Fin 64 → EReal}
    {s s' : Fin 2 → Fin 64 → EReal} {t t' : Fin 2 → EReal}
    (hg : ∀ i, g i = g' i) (hu : ∀ j i, u j i = u' j i) (hv : ∀ j, v j = v' j) (hs : ∀ c j, s c j = s' c j)
    (ht : ∀ c, t c = t' c) (q : Fin 2) : headS g u v s t q = headS g' u' v' s' t' q := by
  have e1 : g = g' := funext hg
  have e2 : u = u' := funext fun j => funext fun i => hu j i
  have e3 : v = v' := funext hv
  have e4 : s = s' := funext fun c => funext fun j => hs c j
  have e5 : t = t' := funext ht
  rw [e1, e2, e3, e4, e5]

section Layers
variable (rN cN : Fin 128 → Fin 24) (ew : Fin 128 → EReal)

/-- A product with a collapsed layer matrix over the 24 × 4 flattening, plus the repeated bias, read at column (n, h),
    is the layer in the collapsed arrangement at node n and feature h. -/
theorem layer4_col (y : Fin 96 → EReal) (w : (⟨2, ![96, 192]⟩ : Shape).Idx → EReal)
    (bb : (⟨2, ![1, 192]⟩ : Shape).Idx → EReal) (z : Fin 24 → Fin 4 → EReal) (W : Fin 3 → Fin 4 → Fin 8 → EReal)
    (c : Fin 8 → EReal)
    (hy : ∀ (m : Fin 24) (f : Fin 4), y (fl4 m f) = z m f)
    (hw : ∀ (m : Fin 24) (f : Fin 4) (n : Fin 24) (h : Fin 8), w (ix2 (fl4 m f) (fl8 n h)) = wbigS rN cN ew W m f n h)
    (hb : ∀ (n : Fin 24) (h : Fin 8), bb (ix2 (0 : Fin 1) (fl8 n h)) = c h) (n : Fin 24) (h : Fin 8) :
    (∑ k' : Fin 96, y k' * w (ix2 k' (fl8 n h))) + bb (ix2 (0 : Fin 1) (fl8 n h)) = chebKerS rN cN ew z W c n h := by
  rw [sum_fl4, hb]
  unfold chebKerS
  refine congrArg (· + c h) ?_
  exact Finset.sum_congr rfl fun m _ => Finset.sum_congr rfl fun f _ => by rw [hy, hw]

/-- The same over the 24 × 8 flattening. -/
theorem layer8_col (y : Fin 192 → EReal) (w : (⟨2, ![192, 192]⟩ : Shape).Idx → EReal)
    (bb : (⟨2, ![1, 192]⟩ : Shape).Idx → EReal) (z : Fin 24 → Fin 8 → EReal) (W : Fin 3 → Fin 8 → Fin 8 → EReal)
    (c : Fin 8 → EReal)
    (hy : ∀ (m : Fin 24) (g : Fin 8), y (fl8 m g) = z m g)
    (hw : ∀ (m : Fin 24) (g : Fin 8) (n : Fin 24) (h : Fin 8), w (ix2 (fl8 m g) (fl8 n h)) = wbigS rN cN ew W m g n h)
    (hb : ∀ (n : Fin 24) (h : Fin 8), bb (ix2 (0 : Fin 1) (fl8 n h)) = c h) (n : Fin 24) (h : Fin 8) :
    (∑ k : Fin 192, y k * w (ix2 k (fl8 n h))) + bb (ix2 (0 : Fin 1) (fl8 n h)) = chebKerS rN cN ew z W c n h := by
  rw [sum_fl8, hb]
  unfold chebKerS
  refine congrArg (· + c h) ?_
  exact Finset.sum_congr rfl fun m _ => Finset.sum_congr rfl fun g _ => by rw [hy, hw]

end Layers

/-- THE OUTPUT ROW FUNCTION, when the flattened input holds the samples' features node-major, the two matrices are the
    collapsed layer matrices, the two bias rows repeat the layers' biases, and the dense tables enter transposed: the
    head of the second collapsed layer of the unit of the first collapsed layer of sample r's features. -/
theorem rowOutS_spec (X : (⟨2, ![131072, 96]⟩ : Shape).Idx → EReal) (w1 : (⟨2, ![96, 192]⟩ : Shape).Idx → EReal)
    (b1 : (⟨2, ![1, 192]⟩ : Shape).Idx → EReal) (w2 : (⟨2, ![192, 192]⟩ : Shape).Idx → EReal)
    (b2 : (⟨2, ![1, 192]⟩ : Shape).Idx → EReal) (w3 : (⟨2, ![192, 64]⟩ : Shape).Idx → EReal)
    (b3 : (⟨2, ![1, 64]⟩ : Shape).Idx → EReal) (w4 : (⟨2, ![64, 2]⟩ : Shape).Idx → EReal)
    (b4 : (⟨2, ![1, 2]⟩ : Shape).Idx → EReal)
    (rN cN : Fin 128 → Fin 24) (ew : Fin 128 → EReal)
    (x : (⟨3, ![131072, 24, 4]⟩ : Shape).Idx → EReal) (W1 : (⟨3, ![3, 4, 8]⟩ : Shape).Idx → EReal)
    (c1 : (⟨1, ![8]⟩ : Shape).Idx → EReal) (W2 : (⟨3, ![3, 8, 8]⟩ : Shape).Idx → EReal)
    (c2 : (⟨1, ![8]⟩ : Shape).Idx → EReal)
    (A1 : (⟨2, ![64, 192]⟩ : Shape).Idx → EReal) (a1 : (⟨1, ![64]⟩ : Shape).Idx → EReal)
    (A2 : (⟨2, ![2, 64]⟩ : Shape).Idx → EReal) (a2 : (⟨1, ![2]⟩ : Shape).Idx → EReal)
    (hX : ∀ (b : Fin 131072) (m : Fin 24) (f : Fin 4), X (ix2 b (fl4 m f)) = x (ix3 b m f))
    (hw1 : ∀ (m : Fin 24) (f : Fin 4) (n : Fin 24) (h : Fin 8),
      w1 (ix2 (fl4 m f) (fl8 n h)) = wbigS rN cN ew (fun k f' h' => W1 (ix3 k f' h')) m f n h)
    (hb1 : ∀ (n : Fin 24) (h : Fin 8), b1 (ix2 (0 : Fin 1) (fl8 n h)) = c1 (ix1 h))
    (hw2 : ∀ (m : Fin 24) (g : Fin 8) (n : Fin 24) (h : Fin 8),
      w2 (ix2 (fl8 m g) (fl8 n h)) = wbigS rN cN ew (fun k g' h' => W2 (ix3 k g' h')) m g n h)
    (hb2 : ∀ (n : Fin 24) (h : Fin 8), b2 (ix2 (0 : Fin 1) (fl8 n h)) = c2 (ix1 h))
    (hw3 : ∀ (i : Fin 192) (j : Fin 64), w3 (ix2 i j) = A1 (ix2 j i))
    (hb3 : ∀ j : Fin 64, b3 (ix2 (0 : Fin 1) j) = a1 (ix1 j))
    (hw4 : ∀ (j : Fin 64) (c : Fin 2), w4 (ix2 j c) = A2 (ix2 c j))
    (hb4 : ∀ c : Fin 2, b4 (ix2 (0 : Fin 1) c) = a2 (ix1 c))
    (r : Fin 131072) (q : Fin 2) :
    rowOutS X w1 b1 w2 b2 w3 b3 w4 b4 r q
      = headS
          (fun i : Fin 192 => eluS (chebKerS rN cN ew
            (fun n h => eluS (chebKerS rN cN ew (fun m f => x (ix3 r m f)) (fun k f' h' => W1 (ix3 k f' h'))
              (fun h' => c1 (ix1 h')) n h))
            (fun k g' h' => W2 (ix3 k g' h')) (fun h' => c2 (ix1 h')) ⟨i.val / 8, by omega⟩ ⟨i.val % 8, by omega⟩))
          (fun j i => A1 (ix2 j i)) (fun j => a1 (ix1 j)) (fun c j => A2 (ix2 c j)) (fun c => a2 (ix1 c)) q := by
  -- the first product plus bias at column (m, g): the first layer at node m, feature g
  have hA : ∀ (m : Fin 24) (g : Fin 8),
      (∑ k' : Fin 96, X (ix2 r k') * w1 (ix2 k' (fl8 m g))) + b1 (ix2 (0 : Fin 1) (fl8 m g))
        = chebKerS rN cN ew (fun m f => x (ix3 r m f)) (fun k f' h' => W1 (ix3 k f' h')) (fun h' => c1 (ix1 h')) m g :=
    layer4_col rN cN ew (fun k' => X (ix2 r k')) w1 b1 (fun m f => x (ix3 r m f)) (fun k f' h' => W1 (ix3 k f' h'))
      (fun h' => c1 (ix1 h')) (fun m f => hX r m f) hw1 hb1
  -- the second product plus bias at column (n, h): the second layer at node n, feature h
  have hB : ∀ (n : Fin 24) (h : Fin 8),
      (∑ k : Fin 192, eluS ((∑ k' : Fin 96, X (ix2 r k') * w1 (ix2 k' k)) + b1 (ix2 (0 : Fin 1) k)) * w2 (ix2 k (fl8 n h)))
          + b2 (ix2 (0 : Fin 1) (fl8 n h))
        = chebKerS rN cN ew
            (fun n h => eluS (chebKerS rN cN ew (fun m f => x (ix3 r m f)) (fun k f' h' => W1 (ix3 k f' h'))
              (fun h' => c1 (ix1 h')) n h))
            (fun k g' h' => W2 (ix3 k g' h')) (fun h' => c2 (ix1 h')) n h :=
    layer8_col rN cN ew (fun k => eluS ((∑ k' : Fin 96, X (ix2 r k') * w1 (ix2 k' k)) + b1 (ix2 (0 : Fin 1) k))) w2 b2
      (fun n h => eluS (chebKerS rN cN ew (fun m f => x (ix3 r m f)) (fun k f' h' => W1 (ix3 k f' h'))
        (fun h' => c1 (ix1 h')) n h))
      (fun k g' h' => W2 (ix3 k g' h')) (fun h' => c2 (ix1 h')) (fun m g => congrArg eluS (hA m g)) hw2 hb2
  unfold rowOutS
  refine headS_congr (fun i => ?_) (fun j i => hw3 i j) hb3 (fun c j => hw4 j c) hb4 q
  have h := hB ⟨i.val / 8, by omega⟩ ⟨i.val % 8, by omega⟩
  rw [fl8_div_mod i] at h
  exact congrArg eluS h

end Cert.Cheb.KerValue

end
-- ==== Proof.RefRead1.lean ====
/-
  One propagation step of the reference, read at an entry.

  The operand is a stack of B tables of N rows and C columns. A lookup of its rows at an E × 1 column of positions gives a
  B × E × C array whose row e (in every table) is the table's row at position e's start index, read signed and clamped
  into [0, N − 1]. An accumulation of a B × E × C array of updates at an E × 1 column of positions adds update row e of
  table b into row idx[e, 0] of table b of the operand, the index read signed and NOT clamped. Propagation is the lookup
  along the edges' sources, a scaling by the edge weights, and the accumulation along the edges' targets from zero: at
  node n and feature f it is the sum over the edges into n of the feature at the edge's source times the edge's weight.
-/
import Idealize.ShloMosaic.Lib.IdealHost
import Idealize.ShloMosaic.Lib.Pipeline.Value
import Idealize.ShloMosaic.Lib.ValueIdx
import Idealize.ShloMosaic.PureOps.Ideal.Laws
import proofs.«144586_j5729486372945_2_alg».proof.ReferenceIdeal
import proofs.«144586_j5729486372945_2_alg».proof.Proof.GraphSpec
import proofs.«144586_j5729486372945_2_alg».proof.Proof.RefTerm

noncomputable section

open scoped BigOperators

namespace Cert.Cheb.RefRead

open Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rows of a stack of tables looked up at a column of positions -/

section StackGather
variable {α : Type}

/-- The dimension numbers of a row lookup in a stack of tables: operand [B, N, C], start positions [E, 1] (the unit axis
    holds the one component of a start index, which addresses the operand's row axis), result [B, E, C]; each slice is
    one whole row of every table, its row axis collapsed, its table and column axes kept as the result's first and last
    axes. -/
abbrev stackGather (B N C E : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

/-- THE LOOKUP READ AT (a, r, p): table a of the stack at the row idx[r, 0] names — read signed and clamped into
    [0, N − 1] — and column p. -/
theorem gather_stack_apply {B N C E w : Nat} (hN : 0 < N)
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ w) (a : Fin B) (r : Fin E) (p : Fin C) :
    Host.gather (stackGather B N C E wf) x idx (ix3 a r p)
      = x (ix3 a ⟨min (idx (ix2 r ⟨0, Nat.one_pos⟩)).toInt.toNat (N - 1), by omega⟩ p) := by
  have h01 : ¬ (0 : Fin 3) ∈ ([1] : List (Fin 3)) := by decide
  have h21 : ¬ (2 : Fin 3) ∈ ([1] : List (Fin 3)) := by decide
  unfold Host.gather
  congr 1
  funext c
  refine Fin.ext ?_
  match c with
  | ⟨0, _⟩ =>
    show (stackGather B N C E wf).start (ix3 a r p) idx 0 + (stackGather B N C E wf).batchCoord (ix3 a r p) 0
      + (stackGather B N C E wf).offCoord (ix3 a r p) 0 = a.val
    rw [GatherDims.batchCoord_eq_zero _ _ _ List.not_mem_nil]
    unfold GatherDims.start
    rw [dif_neg (show ¬ (0 : Fin 3) ∈ (stackGather B N C E wf).startIndexMap from h01)]
    unfold GatherDims.offCoord
    rw [dif_pos (show (0 : Fin 3) ∈ (stackGather B N C E wf).sKept from
      (GatherDims.mem_sKept _ _).mpr ⟨h01, List.not_mem_nil⟩)]
    have hpos : (stackGather B N C E wf).sKept.idxOf (0 : Fin 3) = 0 := rfl
    have key : ∀ (q : Nat) (hq : q < ([0, 2] : List (Fin 3)).length), q = 0 →
        (ix3 a r p (([0, 2] : List (Fin 3))[q]'hq)).val = a.val := by
      intro q hq hq0
      subst hq0; rfl
    simp only [Nat.zero_add]
    exact key _ _ hpos
  | ⟨1, _⟩ =>
    show (stackGather B N C E wf).start (ix3 a r p) idx 1 + (stackGather B N C E wf).batchCoord (ix3 a r p) 1
      + (stackGather B N C E wf).offCoord (ix3 a r p) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (stackGather B N C E wf).startIndexMap from List.mem_singleton.mpr rfl)]
    have hsi : (stackGather B N C E wf).siIdx (ix3 a r p) ⟨List.idxOf (1 : Fin 3) (stackGather B N C E wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨2, _⟩ =>
    show (stackGather B N C E wf).start (ix3 a r p) idx 2 + (stackGather B N C E wf).batchCoord (ix3 a r p) 2
      + (stackGather B N C E wf).offCoord (ix3 a r p) 2 = p.val
    rw [GatherDims.batchCoord_eq_zero _ _ _ List.not_mem_nil]
    unfold GatherDims.start
    rw [dif_neg (show ¬ (2 : Fin 3) ∈ (stackGather B N C E wf).startIndexMap from h21)]
    unfold GatherDims.offCoord
    rw [dif_pos (show (2 : Fin 3) ∈ (stackGather B N C E wf).sKept from
      (GatherDims.mem_sKept _ _).mpr ⟨h21, List.not_mem_nil⟩)]
    have hpos : (stackGather B N C E wf).sKept.idxOf (2 : Fin 3) = 1 := rfl
    have key : ∀ (q : Nat) (hq : q < ([0, 2] : List (Fin 3)).length), q = 1 →
        (ix3 a r p (([0, 2] : List (Fin 3))[q]'hq)).val = p.val := by
      intro q hq hq1
      subst hq1; rfl
    simp only [Nat.zero_add]
    exact key _ _ hpos

end StackGather

/-! ## Rows added into a stack of tables at the rows a column of positions names -/

/-- The dimension numbers of a row accumulation in a stack of tables: operand [B, N, C], positions [E, 1] (the unit axis
    holds the one component of a start index, which addresses the operand's rows), updates [B, E, C]; each update window
    is one whole row of every table. -/
abbrev stackScatter (B N C E : Nat)
    (wf : ScatterDims.WF ⟨3, ![B, N, C]⟩ ⟨2, ![E, 1]⟩ ⟨3, ![B, E, C]⟩ [0, 2] [1] [1] 1) :
    ScatterDims ⟨3, ![B, N, C]⟩ ⟨2, ![E, 1]⟩ ⟨3, ![B, E, C]⟩ where
  updateWindowDims := [0, 2]
  insertedWindowDims := [1]
  scatterDimsToOperandDims := [1]
  indexVectorDim := 1
  wf := wf

section StackScatter
variable {B N C E w : Nat} (wf : ScatterDims.WF ⟨3, ![B, N, C]⟩ ⟨2, ![E, 1]⟩ ⟨3, ![B, E, C]⟩ [0, 2] [1] [1] 1)
  (idx : IVec ⟨2, ![E, 1]⟩ w) (a : Fin B) (e : Fin E) (q : Fin C)

/-- On the row axis the window of update (a, e, q) starts at the position idx[e, 0], read signed. -/
theorem start_row : (stackScatter B N C E wf).start (ix3 a e q) idx 1 = (idx (ix2 e ⟨0, Nat.one_pos⟩)).toInt := by
  unfold ScatterDims.start
  rw [dif_pos (show (1 : Fin 3) ∈ (stackScatter B N C E wf).scatterDimsToOperandDims from List.mem_singleton.mpr rfl)]
  have hsi : (stackScatter B N C E wf).siIdx (ix3 a e q) ⟨List.idxOf (1 : Fin 3) (stackScatter B N C E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the table axis it starts at zero: no position component addresses the tables. -/
theorem start_tab : (stackScatter B N C E wf).start (ix3 a e q) idx 0 = 0 := by
  unfold ScatterDims.start
  have h01 : ¬ (0 : Fin 3) ∈ ([1] : List (Fin 3)) := by decide
  rw [dif_neg (show ¬ (0 : Fin 3) ∈ (stackScatter B N C E wf).scatterDimsToOperandDims from h01)]

/-- On the column axis it starts at zero: no position component addresses the columns. -/
theorem start_col : (stackScatter B N C E wf).start (ix3 a e q) idx 2 = 0 := by
  unfold ScatterDims.start
  have h21 : ¬ (2 : Fin 3) ∈ ([1] : List (Fin 3)) := by decide
  rw [dif_neg (show ¬ (2 : Fin 3) ∈ (stackScatter B N C E wf).scatterDimsToOperandDims from h21)]

/-- The row axis is inserted: the window has no extent along it. -/
theorem window_row : (stackScatter B N C E wf).window (ix3 a e q) 1 = 0 := by
  unfold ScatterDims.window
  have h1 : ¬ (1 : Fin 3) ∈ (stackScatter B N C E wf).sKept := by
    simp [ScatterDims.sKept, Shape.kept, List.mem_filter]
  rw [dif_neg h1]

/-- Along the tables the window coordinate of update (a, e, q) is a. -/
theorem window_tab : (stackScatter B N C E wf).window (ix3 a e q) 0 = a.val := by
  unfold ScatterDims.window
  have h0 : (0 : Fin 3) ∈ (stackScatter B N C E wf).sKept := by
    simp [ScatterDims.sKept, Shape.kept, List.mem_filter, List.mem_finRange]
  rw [dif_pos h0]
  have hpos : (stackScatter B N C E wf).sKept.idxOf (0 : Fin 3) = 0 := rfl
  have key : ∀ (k : Nat) (hk : k < ([0, 2] : List (Fin 3)).length), k = 0 →
      (ix3 a e q (([0, 2] : List (Fin 3))[k]'hk)).val = a.val := by
    intro k hk hk0
    subst hk0; rfl
  exact key _ _ hpos

/-- Along the columns the window coordinate of update (a, e, q) is q. -/
theorem window_col : (stackScatter B N C E wf).window (ix3 a e q) 2 = q.val := by
  unfold ScatterDims.window
  have h2 : (2 : Fin 3) ∈ (stackScatter B N C E wf).sKept := by
    simp [ScatterDims.sKept, Shape.kept, List.mem_filter, List.mem_finRange]
  rw [dif_pos h2]
  have hpos : (stackScatter B N C E wf).sKept.idxOf (2 : Fin 3) = 1 := rfl
  have key : ∀ (k : Nat) (hk : k < ([0, 2] : List (Fin 3)).length), k = 1 →
      (ix3 a e q (([0, 2] : List (Fin 3))[k]'hk)).val = q.val := by
    intro k hk hk1
    subst hk1; rfl
  exact key _ _ hpos

/-- WHERE AN UPDATE LANDS: update (a, e, q) lands on (b, n, p) exactly when its position is n, its table b and its
    column p. -/
theorem resultIdx?_eq_some_iff (b : Fin B) (n : Fin N) (p : Fin C) :
    (stackScatter B N C E wf).resultIdx? (ix3 a e q) idx = some (ix3 b n p)
      ↔ (idx (ix2 e ⟨0, Nat.one_pos⟩)).toInt = (n.val : Int) ∧ a = b ∧ q = p := by
  have hB : (⟨3, ![B, N, C]⟩ : Shape).size 0 = B := rfl
  have hN : (⟨3, ![B, N, C]⟩ : Shape).size 1 = N := rfl
  have hC : (⟨3, ![B, N, C]⟩ : Shape).size 2 = C := rfl
  have hn := n.isLt
  have hq := q.isLt
  have ha := a.isLt
  unfold ScatterDims.resultIdx?
  split
  · rename_i h
    rw [Option.some.injEq]
    constructor
    · intro hf
      have h0 := congrArg (fun f => (f 0).val) hf
      have h1 := congrArg (fun f => (f 1).val) hf
      have h2 := congrArg (fun f => (f 2).val) hf
      simp only [start_row, start_tab, start_col, window_row, window_tab, window_col] at h0 h1 h2
      have hh := (h 1).1
      rw [start_row, window_row] at hh
      have e0 : ((ix3 b n p : (⟨3, ![B, N, C]⟩ : Shape).Idx) 0).val = b.val := rfl
      have e1 : ((ix3 b n p : (⟨3, ![B, N, C]⟩ : Shape).Idx) 1).val = n.val := rfl
      have e2 : ((ix3 b n p : (⟨3, ![B, N, C]⟩ : Shape).Idx) 2).val = p.val := rfl
      rw [e0] at h0
      rw [e1] at h1
      rw [e2] at h2
      refine ⟨by omega, Fin.ext (by omega), Fin.ext (by omega)⟩
    · rintro ⟨hs, rfl, rfl⟩
      funext c
      refine Fin.ext ?_
      match c with
      | ⟨0, _⟩ =>
        show ((stackScatter B N C E wf).start (ix3 a e q) idx 0 + ((stackScatter B N C E wf).window (ix3 a e q) 0 : Nat)).toNat = a.val
        rw [start_tab, window_tab]; omega
      | ⟨1, _⟩ =>
        show ((stackScatter B N C E wf).start (ix3 a e q) idx 1 + ((stackScatter B N C E wf).window (ix3 a e q) 1 : Nat)).toNat = n.val
        rw [start_row, window_row, hs]; omega
      | ⟨2, _⟩ =>
        show ((stackScatter B N C E wf).start (ix3 a e q) idx 2 + ((stackScatter B N C E wf).window (ix3 a e q) 2 : Nat)).toNat = q.val
        rw [start_col, window_col]; omega
  · rename_i h
    constructor
    · intro hf; exact absurd hf (by simp)
    · rintro ⟨hs, rfl, rfl⟩
      refine absurd (fun c => ?_) h
      match c with
      | ⟨0, _⟩ =>
        show 0 ≤ (stackScatter B N C E wf).start (ix3 a e q) idx 0 + ((stackScatter B N C E wf).window (ix3 a e q) 0 : Nat)
          ∧ (stackScatter B N C E wf).start (ix3 a e q) idx 0 + ((stackScatter B N C E wf).window (ix3 a e q) 0 : Nat) < ((⟨3, ![B, N, C]⟩ : Shape).size 0 : Nat)
        rw [start_tab, window_tab, hB]; omega
      | ⟨1, _⟩ =>
        show 0 ≤ (stackScatter B N C E wf).start (ix3 a e q) idx 1 + ((stackScatter B N C E wf).window (ix3 a e q) 1 : Nat)
          ∧ (stackScatter B N C E wf).start (ix3 a e q) idx 1 + ((stackScatter B N C E wf).window (ix3 a e q) 1 : Nat) < ((⟨3, ![B, N, C]⟩ : Shape).size 1 : Nat)
        rw [start_row, window_row, hs, hN]; omega
      | ⟨2, _⟩ =>
        show 0 ≤ (stackScatter B N C E wf).start (ix3 a e q) idx 2 + ((stackScatter B N C E wf).window (ix3 a e q) 2 : Nat)
          ∧ (stackScatter B N C E wf).start (ix3 a e q) idx 2 + ((stackScatter B N C E wf).window (ix3 a e q) 2 : Nat) < ((⟨3, ![B, N, C]⟩ : Shape).size 2 : Nat)
        rw [start_col, window_col, hC]; omega

end StackScatter

/-- THE ACCUMULATION READ AT (b, n, p): the operand's entry plus the sum, over the positions that name row n, of the
    update's entry in table b and column p. -/
theorem scatterAdd_stack_apply {B N C E w : Nat} {φ : FTy}
    (wf : ScatterDims.WF ⟨3, ![B, N, C]⟩ ⟨2, ![E, 1]⟩ ⟨3, ![B, E, C]⟩ [0, 2] [1] [1] 1)
    (x : FVec Ideal ⟨3, ![B, N, C]⟩ φ) (idx : IVec ⟨2, ![E, 1]⟩ w) (upd : FVec Ideal ⟨3, ![B, E, C]⟩ φ)
    (b : Fin B) (n : Fin N) (p : Fin C) :
    Host.scatterAdd (stackScatter B N C E wf) x idx upd (ix3 b n p)
      = x (ix3 b n p) + ∑ e : Fin E, if (idx (ix2 e ⟨0, Nat.one_pos⟩)).toInt = (n.val : Int) then upd (ix3 b e p) else 0 := by
  show Ideal.hostScatterAdd (stackScatter B N C E wf) x idx upd (ix3 b n p) = _
  unfold Ideal.hostScatterAdd
  congr 1
  rw [Finset.sum_filter, sum_idx3, Finset.sum_comm]
  refine Finset.sum_congr rfl fun e _ => ?_
  simp only [resultIdx?_eq_some_iff]
  by_cases hs : (idx (ix2 e ⟨0, Nat.one_pos⟩)).toInt = (n.val : Int)
  · simp only [hs, true_and, if_true]
    rw [Finset.sum_eq_single b]
    · rw [Finset.sum_eq_single p]
      · simp
      · intro q _ hq; simp [hq]
      · simp
    · intro a _ ha
      refine Finset.sum_eq_zero fun q _ => ?_
      simp [ha]
    · simp
  · simp only [hs, false_and, if_false, Finset.sum_const_zero]

/-! ## The edge weights spread over a stack -/

/-- A vector of E weights kept as a 1 × E × 1 array and spread over a B × E × C array reads, at (b, e, f), weight e. -/
theorem edgeSpread_apply {α : Type} {B E C : Nat}
    (h1 : (⟨1, ![E]⟩ : Shape).BroadcastsInDim ⟨3, ![1, E, 1]⟩ ![1])
    (h2 : (⟨3, ![1, E, 1]⟩ : Shape).BroadcastsInDim ⟨3, ![B, E, C]⟩ ![0, 1, 2])
    (ew : (⟨1, ![E]⟩ : Shape).Idx → α) (b : Fin B) (e : Fin E) (f : Fin C) :
    broadcastInDim ⟨3, ![B, E, C]⟩ ![0, 1, 2] h2 (broadcastInDim ⟨3, ![1, E, 1]⟩ ![1] h1 ew) (ix3 b e f) = ew (ix1 e) := by
  refine (broadcastInDim_apply _ h2 _ (ix3 b e f) (ix3 (0 : Fin 1) e (0 : Fin 1)) (fun ax => match ax with
    | ⟨0, _⟩ => by
      show (0 : ℕ) = if (1 : ℕ) = 1 then 0 else b.val
      rw [if_pos rfl]
    | ⟨1, _⟩ => by
      show e.val = if E = 1 then 0 else e.val
      split
      · have := e.isLt; omega
      · rfl
    | ⟨2, _⟩ => by
      show (0 : ℕ) = if (1 : ℕ) = 1 then 0 else f.val
      rw [if_pos rfl])).trans ?_
  exact broadcastInDim_apply _ h1 ew (ix3 (0 : Fin 1) e (0 : Fin 1)) (ix1 e) (fun ax => match ax with
    | ⟨0, _⟩ => by
      show e.val = if E = 1 then 0 else e.val
      split
      · have := e.isLt; omega
      · rfl)

/-! ## Propagation read at an entry -/

section Propagation
open Cert.ReferenceIdeal Cert.ReferenceIdeal.Facts₀ Cert.Cheb.RefRun

variable [Cert.ReferenceIdeal.Facts]

/-- The signed reading of a position that is a node's number, clamped into [0, 23], is that number. -/
theorem clamp_node (v : BitVec 32) (m : Fin 24) (h : v.toInt = (m.val : ℤ)) : min v.toInt.toNat (24 - 1) = m.val := by
  have := m.isLt
  rw [h, Int.toNat_natCast]
  omega

/-- PROPAGATION ON FOUR FEATURES read at (b, n, f): the sum over the edges into node n of the feature at the edge's
    source times the edge's weight. -/
theorem prop4_apply (z : FVec Ideal S131072x24x4 .f32) (rowC colC : IVec S128x1 32) (ew : FVec Ideal S128 .f32)
    (rN cN : Fin 128 → Fin 24)
    (hr : ∀ e : Fin 128, (rowC (ix2 e 0)).toInt = ((rN e).val : ℤ))
    (hc : ∀ e : Fin 128, (colC (ix2 e 0)).toInt = ((cN e).val : ℤ))
    (b : Fin 131072) (n : Fin 24) (f : Fin 4) :
    prop4 rowC colC ew z (ix3 b n f)
      = Cert.Cheb.propS rN cN (fun e => ew (ix1 e)) (fun m g => z (ix3 b m g)) n f := by
  unfold prop4
  refine (scatterAdd_stack_apply (B := 131072) (N := 24) (C := 4) (E := 128)
    scatter_S131072x24x4_S128x1_S131072x128x4_02_1_1_1_wf _ rowC _ b n f).trans ?_
  rw [broadcastInDim_scalar_apply, constant_apply, Ideal.ofBits_zero_f32, zero_add]
  unfold Cert.Cheb.propS
  refine Finset.sum_congr rfl fun e _ => ?_
  have hre : (rowC (ix2 e ⟨0, Nat.one_pos⟩)).toInt = (n.val : ℤ) ↔ rN e = n := by
    rw [show (rowC (ix2 e ⟨0, Nat.one_pos⟩)).toInt = ((rN e).val : ℤ) from hr e]
    constructor
    · intro h; exact Fin.ext (by exact_mod_cast h)
    · rintro rfl; rfl
  refine if_congr hre ?_ rfl
  rw [mulf_apply]
  refine congrArg₂ (· * ·) ?_ ?_
  · refine (gather_stack_apply (B := 131072) (N := 24) (C := 4) (E := 128) (by decide)
      gather_S131072x24x4_S128x1_S131072x128x4_02_1_n_n_1_1_13107214_wf z colC b e f).trans ?_
    exact congrArg (fun m => z (ix3 b m f)) (Fin.ext (clamp_node _ (cN e) (hc e)))
  · exact edgeSpread_apply bcast_S128_S1x128x1_1 bcast_S1x128x1_S131072x128x4_0_1_2 ew b e f

/-- PROPAGATION ON EIGHT FEATURES read at (b, n, f). -/
theorem prop8_apply (z : FVec Ideal S131072x24x8 .f32) (rowC colC : IVec S128x1 32) (ew : FVec Ideal S128 .f32)
    (rN cN : Fin 128 → Fin 24)
    (hr : ∀ e : Fin 128, (rowC (ix2 e 0)).toInt = ((rN e).val : ℤ))
    (hc : ∀ e : Fin 128, (colC (ix2 e 0)).toInt = ((cN e).val : ℤ))
    (b : Fin 131072) (n : Fin 24) (f : Fin 8) :
    prop8 rowC colC ew z (ix3 b n f)
      = Cert.Cheb.propS rN cN (fun e => ew (ix1 e)) (fun m g => z (ix3 b m g)) n f := by
  unfold prop8
  refine (scatterAdd_stack_apply (B := 131072) (N := 24) (C := 8) (E := 128)
    scatter_S131072x24x8_S128x1_S131072x128x8_02_1_1_1_wf _ rowC _ b n f).trans ?_
  rw [broadcastInDim_scalar_apply, constant_apply, Ideal.ofBits_zero_f32, zero_add]
  unfold Cert.Cheb.propS
  refine Finset.sum_congr rfl fun e _ => ?_
  have hre : (rowC (ix2 e ⟨0, Nat.one_pos⟩)).toInt = (n.val : ℤ) ↔ rN e = n := by
    rw [show (rowC (ix2 e ⟨0, Nat.one_pos⟩)).toInt = ((rN e).val : ℤ) from hr e]
    constructor
    · intro h; exact Fin.ext (by exact_mod_cast h)
    · rintro rfl; rfl
  refine if_congr hre ?_ rfl
  rw [mulf_apply]
  refine congrArg₂ (· * ·) ?_ ?_
  · refine (gather_stack_apply (B := 131072) (N := 24) (C := 8) (E := 128) (by decide)
      gather_S131072x24x8_S128x1_S131072x128x8_02_1_n_n_1_1_13107218_wf z colC b e f).trans ?_
    exact congrArg (fun m => z (ix3 b m f)) (Fin.ext (clamp_node _ (cN e) (hc e)))
  · exact edgeSpread_apply bcast_S128_S1x128x1_1 bcast_S1x128x1_S131072x128x8_0_1_2 ew b e f

end Propagation

end Cert.Cheb.RefRead

end
-- ==== Proof.RefRead2.lean ====
/-
  One Chebyshev layer of the reference, read at an entry.

  A stack of B tables of N rows and K columns times a K × C matrix contracts the tables' last axis with the matrix's
  first; the table axis and the rows pass through, so the entry at (b, n, q) is the sum over k of table (b, n, k) times
  matrix (k, q). A weight slab is one K × C matrix cut out of a 3 × K × C array; the bias is a vector of C numbers spread
  over the stack. The layer is the sum of the three products — of the features, of their propagation, and of twice the
  propagation of the propagation less the features — with the three slabs, plus the bias.
-/
import Idealize.ShloMosaic.Lib.IdealHost
import Idealize.ShloMosaic.Lib.Pipeline.Value
import Idealize.ShloMosaic.Lib.ValueIdx
import Idealize.ShloMosaic.PureOps.Ideal.Laws
import proofs.«144586_j5729486372945_2_alg».proof.Proof.RefRead1

noncomputable section

open scoped BigOperators

namespace Cert.Cheb.RefRead

open Idealize.ShloMosaic Idealize.ShloMosaic.ValueIdx

/-! ## A stack of tables times a matrix -/

/-- The dimension numbers of the product: contract axis 2 of the stack [B, N, K] with axis 0 of the matrix [K, C]; the
    stack's axes 0 and 1 and the matrix's axis 1 are free; nothing is batched. -/
abbrev stackDot (B N K C : Nat)
    (wf : DotDims.WF ⟨3, ![B, N, K]⟩ ⟨2, ![K, C]⟩ ⟨3, ![B, N, C]⟩ [2] [0] [0, 1] [1] [] []) :
    DotDims ⟨3, ![B, N, K]⟩ ⟨2, ![K, C]⟩ ⟨3, ![B, N, C]⟩ where
  lhsContracting := [2]
  rhsContracting := [0]
  lhsNonContracting := [0, 1]
  rhsNonContracting := [1]
  lhsBatch := []
  rhsBatch := []
  wf := wf

section
variable {B N K C : Nat} (wf : DotDims.WF ⟨3, ![B, N, K]⟩ ⟨2, ![K, C]⟩ ⟨3, ![B, N, C]⟩ [2] [0] [0, 1] [1] [] [])
  (i : (⟨3, ![B, N, C]⟩ : Shape).Idx) (p : (stackDot B N K C wf).contr.Idx)

/-- The table's stack coordinate is the result's. -/
theorem lhs_0 : ((stackDot B N K C wf).lhsIdx i p 0).val = (i 0).val := by
  unfold DotDims.lhsIdx
  rw [dif_neg (show ¬(0 : Fin (⟨3, ![B, N, K]⟩ : Shape).rank) ∈ (stackDot B N K C wf).lhsBatch from List.not_mem_nil),
    dif_pos (show (0 : Fin (⟨3, ![B, N, K]⟩ : Shape).rank) ∈ (stackDot B N K C wf).lhsNonContracting by simp)]
  rfl

/-- The table's row is the result's. -/
theorem lhs_1 : ((stackDot B N K C wf).lhsIdx i p 1).val = (i 1).val := by
  unfold DotDims.lhsIdx
  rw [dif_neg (show ¬(1 : Fin (⟨3, ![B, N, K]⟩ : Shape).rank) ∈ (stackDot B N K C wf).lhsBatch from List.not_mem_nil),
    dif_pos (show (1 : Fin (⟨3, ![B, N, K]⟩ : Shape).rank) ∈ (stackDot B N K C wf).lhsNonContracting by simp)]
  rfl

/-- The table's column is the contraction position. -/
theorem lhs_2 : ((stackDot B N K C wf).lhsIdx i p 2).val = (p ⟨0, (show 0 < (stackDot B N K C wf).contr.rank from Nat.one_pos)⟩).val :=
  (stackDot B N K C wf).lhsIdx_val_of_single rfl i p

/-- The matrix's row is the contraction position. -/
theorem rhs_0 : ((stackDot B N K C wf).rhsIdx i p 0).val = (p ⟨0, (show 0 < (stackDot B N K C wf).contr.rank from Nat.one_pos)⟩).val :=
  (stackDot B N K C wf).rhsIdx_val_of_single rfl i p

/-- The matrix's column is the result's. -/
theorem rhs_1 : ((stackDot B N K C wf).rhsIdx i p 1).val = (i 2).val := by
  unfold DotDims.rhsIdx
  rw [dif_neg (show ¬(1 : Fin (⟨2, ![K, C]⟩ : Shape).rank) ∈ (stackDot B N K C wf).rhsBatch from List.not_mem_nil),
    dif_pos (show (1 : Fin (⟨2, ![K, C]⟩ : Shape).rank) ∈ (stackDot B N K C wf).rhsNonContracting by simp)]
  rfl

end

/-- THE PRODUCT READ AT (a, n, q): the sum over k of table (a, n, k) times matrix (k, q). -/
theorem dotGeneral_stack_apply {B N K C : Nat} {φ₁ φ₂ : FTy}
    (wf : DotDims.WF ⟨3, ![B, N, K]⟩ ⟨2, ![K, C]⟩ ⟨3, ![B, N, C]⟩ [2] [0] [0, 1] [1] [] [])
    (prec : Option ContractPrecision) (l : FVec Ideal ⟨3, ![B, N, K]⟩ φ₁) (r : FVec Ideal ⟨2, ![K, C]⟩ φ₂)
    (a : Fin B) (n : Fin N) (q : Fin C) :
    Host.dotGeneral (stackDot B N K C wf) prec l r (ix3 a n q) = ∑ k : Fin K, l (ix3 a n k) * r (ix2 k q) := by
  simp only [Host.dotGeneral]
  rw [Ideal.dotGeneral_apply, ← Equiv.sum_comp (contrEquiv1 (stackDot B N K C wf) K rfl rfl).symm]
  refine Finset.sum_congr rfl fun k _ => ?_
  have hk := contrEquiv1_symm_val (stackDot B N K C wf) K rfl rfl k
  have el : (stackDot B N K C wf).lhsIdx (ix3 a n q) ((contrEquiv1 (stackDot B N K C wf) K rfl rfl).symm k) = ix3 a n k :=
    funext fun b => Fin.ext (by
      match b with
      | ⟨0, _⟩ => exact lhs_0 wf _ _
      | ⟨1, _⟩ => exact lhs_1 wf _ _
      | ⟨2, _⟩ => exact (lhs_2 wf _ _).trans hk)
  have er : (stackDot B N K C wf).rhsIdx (ix3 a n q) ((contrEquiv1 (stackDot B N K C wf) K rfl rfl).symm k) = ix2 k q :=
    funext fun b => Fin.ext (by
      match b with
      | ⟨0, _⟩ => exact (rhs_0 wf _ _).trans hk
      | ⟨1, _⟩ => exact rhs_1 wf _ _)
  rw [el, er]

/-! ## A slab of a 3 × K × C array, and a bias spread over a stack -/

/-- Slab k of a 3 × K × C array, cut out as a 1 × K × C array and reshaped to K × C, reads at (f, h) the array at
    (k, f, h). -/
theorem slab_apply {α : Type} {K C : Nat} (k : Fin 3) (off : Fin 3 → Nat) (hoff0 : off 0 = k.val) (hoff1 : off 1 = 0)
    (hoff2 : off 2 = 0)
    (hs : (⟨3, ![3, K, C]⟩ : Shape).Slices off ⟨3, ![1, K, C]⟩)
    (hc : (⟨3, ![1, K, C]⟩ : Shape).ShapeCasts ⟨2, ![K, C]⟩)
    (W : (⟨3, ![3, K, C]⟩ : Shape).Idx → α) (f : Fin K) (h : Fin C) :
    shapeCast ⟨2, ![K, C]⟩ (extractStridedSlice ⟨3, ![1, K, C]⟩ off W hs) hc (ix2 f h) = W (ix3 k f h) := by
  refine (shapeCast_apply _ hc (ix2 f h) (ix3 (0 : Fin 1) f h) ?_).trans ?_
  · rw [Shape.rowMajor_val_three, Shape.rowMajor_val_two]
    show (0 * K + f.val) * C + h.val = f.val * C + h.val
    simp
  · exact extractStridedSlice_apply off W hs (ix3 (0 : Fin 1) f h) (ix3 k f h) (fun ax => match ax with
      | ⟨0, _⟩ => by
        show k.val = off 0 + 0
        omega
      | ⟨1, _⟩ => by
        show f.val = off 1 + f.val
        omega
      | ⟨2, _⟩ => by
        show h.val = off 2 + h.val
        omega)

/-- A vector of C numbers kept as a 1 × 1 × C array and spread over a B × N × C array reads, at (b, n, h), number h. -/
theorem biasSpread_apply {α : Type} {B N C : Nat}
    (h1 : (⟨1, ![C]⟩ : Shape).BroadcastsInDim ⟨3, ![1, 1, C]⟩ ![2])
    (h2 : (⟨3, ![1, 1, C]⟩ : Shape).BroadcastsInDim ⟨3, ![B, N, C]⟩ ![0, 1, 2])
    (bias : (⟨1, ![C]⟩ : Shape).Idx → α) (b : Fin B) (n : Fin N) (h : Fin C) :
    broadcastInDim ⟨3, ![B, N, C]⟩ ![0, 1, 2] h2 (broadcastInDim ⟨3, ![1, 1, C]⟩ ![2] h1 bias) (ix3 b n h) = bias (ix1 h) := by
  refine (broadcastInDim_apply _ h2 _ (ix3 b n h) (ix3 (0 : Fin 1) (0 : Fin 1) h) (fun ax => match ax with
    | ⟨0, _⟩ => by
      show (0 : ℕ) = if (1 : ℕ) = 1 then 0 else b.val
      rw [if_pos rfl]
    | ⟨1, _⟩ => by
      show (0 : ℕ) = if (1 : ℕ) = 1 then 0 else n.val
      rw [if_pos rfl]
    | ⟨2, _⟩ => by
      show h.val = if C = 1 then 0 else h.val
      split
      · have := h.isLt; omega
      · rfl)).trans ?_
  exact broadcastInDim_apply _ h1 bias (ix3 (0 : Fin 1) (0 : Fin 1) h) (ix1 h) (fun ax => match ax with
    | ⟨0, _⟩ => by
      show h.val = if C = 1 then 0 else h.val
      split
      · have := h.isLt; omega
      · rfl)

/-! ## The layer read at an entry -/

section Layer
open Cert.ReferenceIdeal Cert.ReferenceIdeal.Facts₀ Cert.Cheb.RefRun

variable [Cert.ReferenceIdeal.Facts]

/-- The float word 0x40000000 is 2. -/
theorem two_word : Ideal.ofBits .f32 0x40000000#32 = 2 := by
  simp [Ideal.ofBits, Ideal.ieee, -EReal.coe_mul]
  refine (congrArg (fun r : ℝ => (r : EReal)) (?_ : _ = (2 : ℝ))).trans rfl
  norm_num

/-- The first layer's three weight slabs read at (f, h). -/
theorem slab4_0_apply (W : FVec Ideal S3x4x8 .f32) (f : Fin 4) (h : Fin 8) : slab4_0 W (ix2 f h) = W (ix3 (0 : Fin 3) f h) :=
  slab_apply (K := 4) (C := 8) 0 ![0, 0, 0] rfl rfl rfl slices_S3x4x8_S1x4x8_0_0_0 shapeCasts_S1x4x8_S4x8 W f h
theorem slab4_1_apply (W : FVec Ideal S3x4x8 .f32) (f : Fin 4) (h : Fin 8) : slab4_1 W (ix2 f h) = W (ix3 (1 : Fin 3) f h) :=
  slab_apply (K := 4) (C := 8) 1 ![1, 0, 0] rfl rfl rfl slices_S3x4x8_S1x4x8_1_0_0 shapeCasts_S1x4x8_S4x8 W f h
theorem slab4_2_apply (W : FVec Ideal S3x4x8 .f32) (f : Fin 4) (h : Fin 8) : slab4_2 W (ix2 f h) = W (ix3 (2 : Fin 3) f h) :=
  slab_apply (K := 4) (C := 8) 2 ![2, 0, 0] rfl rfl rfl slices_S3x4x8_S1x4x8_2_0_0 shapeCasts_S1x4x8_S4x8 W f h

/-- The second layer's three weight slabs read at (f, h). -/
theorem slab8_0_apply (W : FVec Ideal S3x8x8 .f32) (f : Fin 8) (h : Fin 8) : slab8_0 W (ix2 f h) = W (ix3 (0 : Fin 3) f h) :=
  slab_apply (K := 8) (C := 8) 0 ![0, 0, 0] rfl rfl rfl slices_S3x8x8_S1x8x8_0_0_0 shapeCasts_S1x8x8_S8x8 W f h
theorem slab8_1_apply (W : FVec Ideal S3x8x8 .f32) (f : Fin 8) (h : Fin 8) : slab8_1 W (ix2 f h) = W (ix3 (1 : Fin 3) f h) :=
  slab_apply (K := 8) (C := 8) 1 ![1, 0, 0] rfl rfl rfl slices_S3x8x8_S1x8x8_1_0_0 shapeCasts_S1x8x8_S8x8 W f h
theorem slab8_2_apply (W : FVec Ideal S3x8x8 .f32) (f : Fin 8) (h : Fin 8) : slab8_2 W (ix2 f h) = W (ix3 (2 : Fin 3) f h) :=
  slab_apply (K := 8) (C := 8) 2 ![2, 0, 0] rfl rfl rfl slices_S3x8x8_S1x8x8_2_0_0 shapeCasts_S1x8x8_S8x8 W f h

/-- The first layer's product of a stack of 24 × 4 tables with a 4 × 8 matrix, read at (b, n, h). -/
theorem dot4_apply (z : FVec Ideal S131072x24x4 .f32) (V : FVec Ideal S4x8 .f32) (b : Fin 131072) (n : Fin 24) (h : Fin 8) :
    Host.dotGeneral (F := Ideal) dot_S131072x24x4_S4x8_S131072x24x8_2_0_01_1_n_n none z V (ix3 b n h)
      = ∑ f : Fin 4, z (ix3 b n f) * V (ix2 f h) :=
  dotGeneral_stack_apply (B := 131072) (N := 24) (K := 4) (C := 8)
    dot_S131072x24x4_S4x8_S131072x24x8_2_0_01_1_n_n_wf none z V b n h

/-- The second layer's product of a stack of 24 × 8 tables with an 8 × 8 matrix, read at (b, n, h). -/
theorem dot8_apply (z : FVec Ideal S131072x24x8 .f32) (V : FVec Ideal S8x8 .f32) (b : Fin 131072) (n : Fin 24) (h : Fin 8) :
    Host.dotGeneral (F := Ideal) dot_S131072x24x8_S8x8_S131072x24x8_2_0_01_1_n_n none z V (ix3 b n h)
      = ∑ f : Fin 8, z (ix3 b n f) * V (ix2 f h) :=
  dotGeneral_stack_apply (B := 131072) (N := 24) (K := 8) (C := 8)
    dot_S131072x24x8_S8x8_S131072x24x8_2_0_01_1_n_n_wf none z V b n h

/-- The bias of a layer spread over the stack, read at (b, n, h). -/
theorem bias_apply (bias : FVec Ideal S8 .f32) (b : Fin 131072) (n : Fin 24) (h : Fin 8) :
    broadcastInDim S131072x24x8 ![0, 1, 2] bcast_S1x1x8_S131072x24x8_0_1_2
      (broadcastInDim S1x1x8 ![2] bcast_S8_S1x1x8_2 bias) (ix3 b n h) = bias (ix1 h) :=
  biasSpread_apply bcast_S8_S1x1x8_2 bcast_S1x1x8_S131072x24x8_0_1_2 bias b n h

/-- THE FIRST LAYER read at (b, n, h): the Chebyshev layer of sample b's features in the propagating arrangement. -/
theorem cheb4_apply (z : FVec Ideal S131072x24x4 .f32) (rowC colC : IVec S128x1 32) (ew : FVec Ideal S128 .f32)
    (W : FVec Ideal S3x4x8 .f32) (bias : FVec Ideal S8 .f32) (rN cN : Fin 128 → Fin 24)
    (hr : ∀ e : Fin 128, (rowC (ix2 e 0)).toInt = ((rN e).val : ℤ))
    (hc : ∀ e : Fin 128, (colC (ix2 e 0)).toInt = ((cN e).val : ℤ))
    (b : Fin 131072) (n : Fin 24) (h : Fin 8) :
    cheb4 rowC colC ew z W bias (ix3 b n h)
      = Cert.Cheb.chebRefS rN cN (fun e => ew (ix1 e)) (fun m g => z (ix3 b m g)) (fun k g h' => W (ix3 k g h'))
          (fun h' => bias (ix1 h')) n h := by
  have hP : ∀ t : FVec Ideal S131072x24x4 .f32, (fun m g => prop4 rowC colC ew t (ix3 b m g))
      = Cert.Cheb.propS rN cN (fun e => ew (ix1 e)) (fun m g => t (ix3 b m g)) :=
    fun t => funext fun m => funext fun g => prop4_apply t rowC colC ew rN cN hr hc b m g
  have e0 : Host.dotGeneral (F := Ideal) dot_S131072x24x4_S4x8_S131072x24x8_2_0_01_1_n_n none z (slab4_0 W) (ix3 b n h)
      = ∑ f : Fin 4, z (ix3 b n f) * W (ix3 (0 : Fin 3) f h) := by
    rw [dot4_apply]
    exact Finset.sum_congr rfl fun f _ => by rw [slab4_0_apply]
  have e1 : Host.dotGeneral (F := Ideal) dot_S131072x24x4_S4x8_S131072x24x8_2_0_01_1_n_n none (prop4 rowC colC ew z)
        (slab4_1 W) (ix3 b n h)
      = ∑ f : Fin 4, Cert.Cheb.propS rN cN (fun e => ew (ix1 e)) (fun m g => z (ix3 b m g)) n f * W (ix3 (1 : Fin 3) f h) := by
    rw [dot4_apply]
    exact Finset.sum_congr rfl fun f _ => by rw [slab4_1_apply, prop4_apply z rowC colC ew rN cN hr hc]
  have e2 : Host.dotGeneral (F := Ideal) dot_S131072x24x4_S4x8_S131072x24x8_2_0_01_1_n_n none
        (subf
          (mulf (broadcastInDim S131072x24x4 ![] bcast_S_S131072x24x4 (constant (F := Ideal) S_ .f32 0x40000000#32))
            (prop4 rowC colC ew (prop4 rowC colC ew z)))
          z)
        (slab4_2 W) (ix3 b n h)
      = ∑ f : Fin 4, (2 * Cert.Cheb.propS rN cN (fun e => ew (ix1 e))
            (Cert.Cheb.propS rN cN (fun e => ew (ix1 e)) (fun m g => z (ix3 b m g))) n f - z (ix3 b n f))
          * W (ix3 (2 : Fin 3) f h) := by
    rw [dot4_apply]
    refine Finset.sum_congr rfl fun f _ => ?_
    rw [slab4_2_apply, subf_apply, mulf_apply, broadcastInDim_scalar_apply, constant_apply, two_word,
      prop4_apply (prop4 rowC colC ew z) rowC colC ew rN cN hr hc, hP z]
  unfold cheb4
  rw [addf_apply, addf_apply, addf_apply, e0, e1, e2, bias_apply]
  rfl

/-- THE SECOND LAYER read at (b, n, h). -/
theorem cheb8_apply (z : FVec Ideal S131072x24x8 .f32) (rowC colC : IVec S128x1 32) (ew : FVec Ideal S128 .f32)
    (W : FVec Ideal S3x8x8 .f32) (bias : FVec Ideal S8 .f32) (rN cN : Fin 128 → Fin 24)
    (hr : ∀ e : Fin 128, (rowC (ix2 e 0)).toInt = ((rN e).val : ℤ))
    (hc : ∀ e : Fin 128, (colC (ix2 e 0)).toInt = ((cN e).val : ℤ))
    (b : Fin 131072) (n : Fin 24) (h : Fin 8) :
    cheb8 rowC colC ew z W bias (ix3 b n h)
      = Cert.Cheb.chebRefS rN cN (fun e => ew (ix1 e)) (fun m g => z (ix3 b m g)) (fun k g h' => W (ix3 k g h'))
          (fun h' => bias (ix1 h')) n h := by
  have hP : ∀ t : FVec Ideal S131072x24x8 .f32, (fun m g => prop8 rowC colC ew t (ix3 b m g))
      = Cert.Cheb.propS rN cN (fun e => ew (ix1 e)) (fun m g => t (ix3 b m g)) :=
    fun t => funext fun m => funext fun g => prop8_apply t rowC colC ew rN cN hr hc b m g
  have e0 : Host.dotGeneral (F := Ideal) dot_S131072x24x8_S8x8_S131072x24x8_2_0_01_1_n_n none z (slab8_0 W) (ix3 b n h)
      = ∑ f : Fin 8, z (ix3 b n f) * W (ix3 (0 : Fin 3) f h) := by
    rw [dot8_apply]
    exact Finset.sum_congr rfl fun f _ => by rw [slab8_0_apply]
  have e1 : Host.dotGeneral (F := Ideal) dot_S131072x24x8_S8x8_S131072x24x8_2_0_01_1_n_n none (prop8 rowC colC ew z)
        (slab8_1 W) (ix3 b n h)
      = ∑ f : Fin 8, Cert.Cheb.propS rN cN (fun e => ew (ix1 e)) (fun m g => z (ix3 b m g)) n f * W (ix3 (1 : Fin 3) f h) := by
    rw [dot8_apply]
    exact Finset.sum_congr rfl fun f _ => by rw [slab8_1_apply, prop8_apply z rowC colC ew rN cN hr hc]
  have e2 : Host.dotGeneral (F := Ideal) dot_S131072x24x8_S8x8_S131072x24x8_2_0_01_1_n_n none
        (subf
          (mulf (broadcastInDim S131072x24x8 ![] bcast_S_S131072x24x8 (constant (F := Ideal) S_ .f32 0x40000000#32))
            (prop8 rowC colC ew (prop8 rowC colC ew z)))
          z)
        (slab8_2 W) (ix3 b n h)
      = ∑ f : Fin 8, (2 * Cert.Cheb.propS rN cN (fun e => ew (ix1 e))
            (Cert.Cheb.propS rN cN (fun e => ew (ix1 e)) (fun m g => z (ix3 b m g))) n f - z (ix3 b n f))
          * W (ix3 (2 : Fin 3) f h) := by
    rw [dot8_apply]
    refine Finset.sum_congr rfl fun f _ => ?_
    rw [slab8_2_apply, subf_apply, mulf_apply, broadcastInDim_scalar_apply, constant_apply, two_word,
      prop8_apply (prop8 rowC colC ew z) rowC colC ew rN cN hr hc, hP z]
  unfold cheb8
  rw [addf_apply, addf_apply, addf_apply, e0, e1, e2, bias_apply]
  rfl

end Layer

end Cert.Cheb.RefRead

end
-- ==== Proof.LibBatchRows.lean ====
/-
  Row operations on a stack of matrices (an `n × a × k` array), read at an entry, for any sizes.

  The host sums or maximises along the last axis, giving one number per row of each matrix of the stack; keeps that
  number as an `n × a × 1` column stack; and spreads the column stack back along the lanes. A scalar spread over any
  shape reads the scalar everywhere, and one `1 × a × b` slab spread over the stack repeats the slab in every matrix.
-/
import Idealize.ShloMosaic.Lib.Pipeline.Value
import Idealize.ShloMosaic.Lib.ValueIdx
import Idealize.ShloMosaic.PureOps.Ideal.Laws

noncomputable section

open scoped BigOperators

namespace Cert.Lib.BatchRows

open Idealize.ShloMosaic Idealize.ShloMosaic.ValueIdx

variable {α : Type}

/-- A scalar spread over any shape reads the scalar's one entry everywhere. -/
theorem splat_apply {s : Shape} (h : (⟨0, ![]⟩ : Shape).BroadcastsInDim s (![] : Fin 0 → Fin s.rank))
    (y : (⟨0, ![]⟩ : Shape).Idx → α) (j : s.Idx) : broadcastInDim s ![] h y j = y ix0 :=
  broadcastInDim_apply _ h y j ix0 (fun ax => ax.elim0)

/-- An `n × a` table kept as an `n × a × 1` column stack reads, at `(t, i, u)`, the table at `(t, i)`. -/
theorem keep_apply {n a : ℕ} (h : (⟨2, ![n, a]⟩ : Shape).BroadcastsInDim ⟨3, ![n, a, 1]⟩ ![0, 1])
    (y : (⟨2, ![n, a]⟩ : Shape).Idx → α) (t : Fin n) (i : Fin a) (u : Fin 1) :
    broadcastInDim ⟨3, ![n, a, 1]⟩ ![0, 1] h y (ix3 t i u) = y (ix2 t i) :=
  broadcastInDim_apply _ h y (ix3 t i u) (ix2 t i) (fun ax => match ax with
    | ⟨0, _⟩ => by
      show t.val = if n = 1 then 0 else t.val
      split
      · have := t.isLt; omega
      · rfl
    | ⟨1, _⟩ => by
      show i.val = if a = 1 then 0 else i.val
      split
      · have := i.isLt; omega
      · rfl)

/-- An `n × a × 1` column stack spread along `b` lanes reads, at `(t, i, c)`, the column entry of row `i` of matrix `t`. -/
theorem lanes_apply {n a b : ℕ} (h : (⟨3, ![n, a, 1]⟩ : Shape).BroadcastsInDim ⟨3, ![n, a, b]⟩ ![0, 1, 2])
    (y : (⟨3, ![n, a, 1]⟩ : Shape).Idx → α) (t : Fin n) (i : Fin a) (c : Fin b) :
    broadcastInDim ⟨3, ![n, a, b]⟩ ![0, 1, 2] h y (ix3 t i c) = y (ix3 t i (0 : Fin 1)) :=
  broadcastInDim_apply _ h y (ix3 t i c) (ix3 t i (0 : Fin 1)) (fun ax => match ax with
    | ⟨0, _⟩ => by
      show t.val = if n = 1 then 0 else t.val
      split
      · have := t.isLt; omega
      · rfl
    | ⟨1, _⟩ => by
      show i.val = if a = 1 then 0 else i.val
      split
      · have := i.isLt; omega
      · rfl
    | ⟨2, _⟩ => by
      show (0 : ℕ) = if (1 : ℕ) = 1 then 0 else c.val
      rw [if_pos rfl])

/-- One `1 × a × b` slab spread over a stack of `n` reads, at `(t, i, c)`, the slab at `(0, i, c)`. -/
theorem slab_apply {n a b : ℕ} (h : (⟨3, ![1, a, b]⟩ : Shape).BroadcastsInDim ⟨3, ![n, a, b]⟩ ![0, 1, 2])
    (y : (⟨3, ![1, a, b]⟩ : Shape).Idx → α) (t : Fin n) (i : Fin a) (c : Fin b) :
    broadcastInDim ⟨3, ![n, a, b]⟩ ![0, 1, 2] h y (ix3 t i c) = y (ix3 (0 : Fin 1) i c) :=
  broadcastInDim_apply _ h y (ix3 t i c) (ix3 (0 : Fin 1) i c) (fun ax => match ax with
    | ⟨0, _⟩ => by
      show (0 : ℕ) = if (1 : ℕ) = 1 then 0 else t.val
      rw [if_pos rfl]
    | ⟨1, _⟩ => by
      show i.val = if a = 1 then 0 else i.val
      split
      · have := i.isLt; omega
      · rfl
    | ⟨2, _⟩ => by
      show c.val = if b = 1 then 0 else c.val
      split
      · have := c.isLt; omega
      · rfl)

/-- The index of the stack over the reduced index `(t, i)` with the lane `c` put back is `(t, i, c)`. -/
theorem lift_last {n a k : ℕ} (h : (⟨3, ![n, a, k]⟩ : Shape).Reduces [2] ⟨2, ![n, a]⟩) (t : Fin n) (i : Fin a)
    (c : Fin ((⟨3, ![n, a, k]⟩ : Shape).size 2)) : h.lift (ix2 t i) c = ix3 t i (⟨c.val, c.isLt⟩ : Fin k) := by
  funext ax; apply Fin.ext
  match ax with
  | ⟨0, _⟩ => rfl
  | ⟨1, _⟩ => rfl
  | ⟨2, _⟩ => rfl

/-- The host's sum along the last axis reads, at `(t, i)`, the initial value plus the sum of row `i` of matrix `t`. -/
theorem hostSum_apply {n a k : ℕ} (x : FVec Ideal ⟨3, ![n, a, k]⟩ .f32) (v : FVec Ideal ⟨0, ![]⟩ .f32)
    (h' : (⟨3, ![n, a, k]⟩ : Shape).ReducesTo [2] ⟨2, ![n, a]⟩) (h : (⟨3, ![n, a, k]⟩ : Shape).Reduces [2] ⟨2, ![n, a]⟩)
    (hu : 0 < (⟨0, ![]⟩ : Shape).numel) (t : Fin n) (i : Fin a) :
    Host.reduceAdd x v h' hu (ix2 t i) = v ix0 + ∑ c : Fin k, x (ix3 t i c) := by
  simp only [Host.reduceAdd, Ideal.hostReduceAdd_def]
  rw [Ideal.hostReduceAdd_single h' h]
  refine congrArg₂ (· + ·) (congrArg v (eq_ix0 _)) ?_
  exact Finset.sum_congr rfl fun c _ => congrArg x (lift_last h t i c)

/-- The host's maximum along the last axis reads, at `(t, i)`, the fold of `max` from the initial value over row `i` of
    matrix `t`. -/
theorem hostMax_apply {n a k : ℕ} (x : FVec Ideal ⟨3, ![n, a, k]⟩ .f32) (v : FVec Ideal ⟨0, ![]⟩ .f32)
    (h' : (⟨3, ![n, a, k]⟩ : Shape).ReducesTo [2] ⟨2, ![n, a]⟩) (h : (⟨3, ![n, a, k]⟩ : Shape).Reduces [2] ⟨2, ![n, a]⟩)
    (hu : 0 < (⟨0, ![]⟩ : Shape).numel) (t : Fin n) (i : Fin a) :
    Host.reduce FloatOps.maximumf x v h' hu (ix2 t i)
      = (Finset.univ : Finset (Fin k)).fold max (v ix0) (fun c => x (ix3 t i c)) := by
  rw [Host.reduce_eq_fold_single FloatOps.maximumf x v h' h hu]
  have hv : v (Shape.Idx.first hu) = v ix0 := congrArg v (eq_ix0 _)
  have hf : (x ∘ h.lift (ix2 t i)) = fun c : Fin k => x (ix3 t i c) := funext fun c => congrArg x (lift_last h t i c)
  rw [hv]
  exact congrArg (fun f => Finset.fold max (v ix0) f (Finset.univ : Finset (Fin k))) hf

end Cert.Lib.BatchRows

end
-- ==== Proof.LibUnitAxes.lean ====
/-
  Arrays of three axes with unit axes added, dropped or spread, and sums along one of their axes, read at an entry,
  for any sizes.

  Row-major order fixes what each re-shaping does to an entry: a unit axis put in or taken out moves nothing, so the
  entry at `(i, j)` of an `a × b` table is the entry `(i, 0, j)` of the same table kept as `a × 1 × b`; a table whose
  middle (or first, or last) axis has one entry, spread along that axis, shows that one entry at every position; the
  first two axes of an `a × b × c` array folded into one put entry `(i, j, d)` at row `i * b + j`; and swapping the
  first two axes swaps the first two coordinates. A sum along one axis of a three-axis array is the sum over that
  axis's coordinate with the other two held.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib.UnitAxes

open Idealize.ShloMosaic Idealize.ShloMosaic.ValueIdx

variable {α : Type}

/-! ## Unit axes put in and taken out -/

/-- A `1 × 1 × a` array flattened to a length-`a` vector reads, at `i`, the array's entry `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `a × b` table kept as `a × b × 1` reads, at `(i, j, u)`, the table at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `a × b` table kept as `a × 1 × b` reads, at `(i, u, j)`, the table at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The first two axes of an `a × b × c` array folded into one of `n = a * b` rows: row `i * b + j` at `d` is the array
    at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- And back: an `n × c` table of `n = a * b` rows unfolded to `a × b × c` reads, at `(i, j, d)`, row `i * b + j` at `d`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (d : Fin c) (r : Fin n)
    (hr : r.val = i.val * b + j.val) :
    shapeCast ⟨3, ![a, b, c]⟩ x h (ix3 i j d) = x (ix2 r d) :=
  shapeCast_apply x h _ _ (by
    rw [Shape.rowMajor_val_three, Shape.rowMajor_val_two]
    show r.val * c + d.val = (i.val * b + j.val) * c + d.val
    rw [hr])

/-! ## One entry spread along an axis -/

/-- An `a × 1` column spread to `a × b` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `a × b × 1` array spread to `a × b × c` reads, at `(i, j, d)`, the entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `a × 1 × c` array spread to `a × b × c` reads, at `(i, j, d)`, the entry `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `1 × b × c` array spread to `a × b × c` reads, at `(i, j, d)`, the entry `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-! ## The first two axes swapped -/

/-- An `a × b × c` array with its first two axes swapped reads, at `(j, i, d)`, the array at `(i, j, d)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (d : Fin c) :
    transpose ⟨3, ![b, a, c]⟩ [1, 0, 2] x h (ix3 j i d) = x (ix3 i j d) :=
  transpose_apply _ x h _ _ fun ax => match ax with | ⟨0, _⟩ => rfl | ⟨1, _⟩ => rfl | ⟨2, _⟩ => rfl

/-! ## Sums along one axis -/

/-- The index of an `a × b × c` array over `(i, d)` with the middle coordinate `k` put back. -/
theorem lift_mid {a b c : ℕ} (h : (⟨3, ![a, b, c]⟩ : Shape).Reduces [1] ⟨2, ![a, c]⟩) (i : Fin a) (d : Fin c) (k : Fin b) :
    h.lift (ix2 i d) k = ix3 i k d := by
  funext ax; apply Fin.ext
  match ax with
  | ⟨0, _⟩ => rfl
  | ⟨1, _⟩ => rfl
  | ⟨2, _⟩ => rfl

/-- The index of an `a × b × c` array over `(j, d)` with the first coordinate `k` put back. -/
theorem lift_first {a b c : ℕ} (h : (⟨3, ![a, b, c]⟩ : Shape).Reduces [0] ⟨2, ![b, c]⟩) (j : Fin b) (d : Fin c) (k : Fin a) :
    h.lift (ix2 j d) k = ix3 k j d := by
  funext ax; apply Fin.ext
  match ax with
  | ⟨0, _⟩ => rfl
  | ⟨1, _⟩ => rfl
  | ⟨2, _⟩ => rfl

/-- The index of an `a × c` table over `d` with the row `k` put back. -/
theorem lift_rows {a c : ℕ} (h : (⟨2, ![a, c]⟩ : Shape).Reduces [0] ⟨1, ![c]⟩) (d : Fin c) (k : Fin a) :
    h.lift (ix1 d) k = ix2 k d := by
  funext ax; apply Fin.ext
  match ax with
  | ⟨0, _⟩ => rfl
  | ⟨1, _⟩ => rfl

/-- An f32 sum along the middle axis of an `a × b × c` array, from the zero word, is at `(i, d)` the sum over `k` of
    the entries `(i, k, d)`. -/
theorem sumMid_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (d : Fin c) :
    multiReduction .add [1] ⟨2, ![a, c]⟩ src 0x00000000#32 h hφ hacc (ix2 i d) = ∑ k : Fin b, src (ix3 i k d) :=
  (Ideal.multiReduction_add_single src 0x00000000#32 h hφ hacc (ix2 i d)).trans
    (Finset.sum_congr rfl fun k _ => congrArg src (lift_mid h i d k))

/-- An f32 sum along the first axis of an `a × b × c` array, from the zero word, is at `(j, d)` the sum over `k` of
    the entries `(k, j, d)`. -/
theorem sumFirst_apply {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec 32) = FKind.add.neutral .f32 hφ) (j : Fin b) (d : Fin c) :
    multiReduction .add [0] ⟨2, ![b, c]⟩ src 0x00000000#32 h hφ hacc (ix2 j d) = ∑ k : Fin a, src (ix3 k j d) :=
  (Ideal.multiReduction_add_single src 0x00000000#32 h hφ hacc (ix2 j d)).trans
    (Finset.sum_congr rfl fun k _ => congrArg src (lift_first h j d k))

/-- An f32 sum down the rows of an `a × c` table, from the zero word, is at `d` the sum over `k` of the entries `(k, d)`. -/
theorem sumRows_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = FKind.add.neutral .f32 hφ) (d : Fin c) :
    multiReduction .add [0] ⟨1, ![c]⟩ src 0x00000000#32 h hφ hacc (ix1 d) = ∑ k : Fin a, src (ix2 k d) :=
  (Ideal.multiReduction_add_single src 0x00000000#32 h hφ hacc (ix1 d)).trans
    (Finset.sum_congr rfl fun k _ => congrArg src (lift_rows h d k))

end Cert.Lib.UnitAxes

end
-- ==== Proof.RefRead3.lean ====
/-
  The exponential linear unit and the head of the reference, read at an entry.

  The unit is written "x where x > 0, else 1 * expm1 (0 where x > 0, else x)"; over the extended reals that is x where
  x > 0 and exp x - 1 elsewhere. The head flattens the 24 × 8 features of a sample node-major into 192 numbers, applies
  two dense layers (each a product with the transposed weight table plus a bias spread down the rows) and takes the
  log-softmax of the two logits: the logit less the larger of the two, less the logarithm of the sum of the two
  exponentials of the logits so shifted. The maximum is taken from the word of -∞, which is below everything, and the
  sum from the zero word.
-/
import Idealize.ShloMosaic.Lib.IdealHost
import Idealize.ShloMosaic.Lib.Pipeline.Value
import Idealize.ShloMosaic.Lib.ValueIdx
import Idealize.ShloMosaic.PureOps.Ideal.Laws
import proofs.«144586_j5729486372945_2_alg».proof.ReferenceIdeal
import proofs.«144586_j5729486372945_2_alg».proof.Proof.GraphSpec
import proofs.«144586_j5729486372945_2_alg».proof.Proof.RefTerm
import proofs.«144586_j5729486372945_2_alg».proof.Proof.LibBatchRows
import proofs.«144586_j5729486372945_2_alg».proof.Proof.LibElu
import proofs.«144586_j5729486372945_2_alg».proof.Proof.LibRowMax
import proofs.«144586_j5729486372945_2_alg».proof.Proof.LibHostForms
import proofs.«144586_j5729486372945_2_alg».proof.Proof.LibUnitAxes

noncomputable section

open scoped BigOperators

namespace Cert.Cheb.RefRead

open Idealize.ShloMosaic Idealize.ShloMosaic.ValueIdx

/-! ## Scalars -/

/-- The host's exponential less one of a vector read at an entry. -/
theorem hostExpm1_apply {s : Shape} {φ : FTy} (x : FVec Ideal s φ) (i : s.Idx) : Host.expm1 x i = Ideal.exp (x i) - 1 := rfl

/-- A select on "x is above zero" is the if on 0 < x. -/
theorem select_gt_zero {α : Type} (x : EReal) (a b : α) :
    Scalar.select (Ideal.cmp .ogt x 0) a b = if 0 < x then a else b := by
  unfold Scalar.select Ideal.cmp
  by_cases h : 0 < x
  · simp [h]
  · simp [h]

/-- The fold of max over two entries from a starting value. -/
theorem fold_max_two (w : EReal) (f : Fin 2 → EReal) :
    (Finset.univ : Finset (Fin 2)).fold max w f = max (f 0) (max w (f 1)) := by
  have hu : (Finset.univ : Finset (Fin 2)) = insert 0 {1} := by decide
  rw [hu, Finset.fold_insert (by decide), Finset.fold_singleton, max_comm (f 1) w]

section Stages
open Cert.ReferenceIdeal Cert.ReferenceIdeal.Facts₀ Cert.Cheb.RefRun

variable [Cert.ReferenceIdeal.Facts]

/-! ## The exponential linear unit -/

/-- THE UNIT read at any entry: the scalar unit of that entry. -/
theorem eluT_apply (v : FVec Ideal S131072x24x8 .f32) (i : S131072x24x8.Idx) : eluT v i = Cert.Cheb.eluS (v i) := by
  unfold eluT
  simp only [select_apply, mulf_apply, cmpf_apply, hostExpm1_apply, id_eq, Ideal.cmpf_def]
  rw [broadcastInDim_scalar_apply, broadcastInDim_scalar_apply, constant_apply, constant_apply, Ideal.ofBits_zero_f32,
    Cert.LibElu.elu_scalar, Cert.LibElu.one_word, select_gt_zero]
  rfl

/-! ## The head -/

/-- The node-major flattening of a sample's features read at position i: node i / 8, feature i % 8. -/
theorem flat_apply (h : FVec Ideal S131072x24x8 .f32) (b : Fin 131072) (i : Fin 192) :
    shapeCast S131072x192 h shapeCasts_S131072x24x8_S131072x192 (ix2 b i)
      = h (ix3 b ⟨i.val / 8, by omega⟩ ⟨i.val % 8, by omega⟩) :=
  shapeCast_apply h _ _ _ (by
    rw [Shape.rowMajor_val_three, Shape.rowMajor_val_two]
    show (b.val * 24 + i.val / 8) * 8 + i.val % 8 = b.val * 192 + i.val
    omega)

/-- The transposed first dense table read at (i, j). -/
theorem fc1T_apply (fc1W : FVec Ideal S64x192 .f32) (i : Fin 192) (j : Fin 64) :
    transpose S192x64 [1, 0] fc1W transposes_S64x192_S192x64_1_0 (ix2 i j) = fc1W (ix2 j i) :=
  transpose_apply [1, 0] fc1W _ (ix2 i j) (ix2 j i) (fun ax => match ax with
    | ⟨0, _⟩ => rfl
    | ⟨1, _⟩ => rfl)

/-- The transposed second dense table read at (j, c). -/
theorem fc2T_apply (fc2W : FVec Ideal S2x64 .f32) (j : Fin 64) (c : Fin 2) :
    transpose S64x2 [1, 0] fc2W transposes_S2x64_S64x2_1_0 (ix2 j c) = fc2W (ix2 c j) :=
  transpose_apply [1, 0] fc2W _ (ix2 j c) (ix2 c j) (fun ax => match ax with
    | ⟨0, _⟩ => rfl
    | ⟨1, _⟩ => rfl)

/-- THE LOGITS of sample b read at class q. -/
theorem logitsT_apply (h : FVec Ideal S131072x24x8 .f32) (fc1W : FVec Ideal S64x192 .f32) (fc1b : FVec Ideal S64 .f32)
    (fc2W : FVec Ideal S2x64 .f32) (fc2b : FVec Ideal S2 .f32) (b : Fin 131072) (q : Fin 2) :
    logitsT h fc1W fc1b fc2W fc2b (ix3 b (0 : Fin 1) q)
      = (∑ j : Fin 64, ((∑ i : Fin 192, h (ix3 b ⟨i.val / 8, by omega⟩ ⟨i.val % 8, by omega⟩) * fc1W (ix2 j i))
          + fc1b (ix1 j)) * fc2W (ix2 q j)) + fc2b (ix1 q) := by
  unfold logitsT
  rw [Cert.Lib.UnitAxes.shapeCast_ab_a1b_apply, addf_apply, Cert.Lib.HostForms.bcast_row_chain_apply,
    Cert.Lib.HostForms.plain_dotGeneral_apply dot_S131072x64_S64x2_S131072x2_1_0_0_1_n_n rfl]
  refine congrArg₂ (· + ·) (Finset.sum_congr rfl fun j _ => ?_) rfl
  rw [fc2T_apply, addf_apply, Cert.Lib.HostForms.bcast_row_chain_apply,
    Cert.Lib.HostForms.plain_dotGeneral_apply dot_S131072x192_S192x64_S131072x64_1_0_0_1_n_n rfl]
  refine congrArg₂ (· * ·) (congrArg₂ (· + ·) (Finset.sum_congr rfl fun i _ => ?_) rfl) rfl
  rw [fc1T_apply, flat_apply]

/-- The shifted logits of sample b at class q: the logit less the larger of the two. -/
theorem shiftT_apply (l : FVec Ideal S131072x1x2 .f32) (b : Fin 131072) (q : Fin 2) :
    shiftT l (ix3 b (0 : Fin 1) q)
      = l (ix3 b (0 : Fin 1) q) - max (l (ix3 b (0 : Fin 1) (0 : Fin 2))) (l (ix3 b (0 : Fin 1) (1 : Fin 2))) := by
  unfold shiftT
  rw [subf_apply, Cert.Lib.BatchRows.lanes_apply, Cert.Lib.BatchRows.keep_apply, maximumf_apply,
    Cert.Lib.BatchRows.splat_apply, constant_apply, Cert.Lib.RowMax.max_negInf,
    Cert.Lib.BatchRows.hostMax_apply l _ reducesTo_S131072x1x2_S131072x1_d2 (by decide) h_S_ b (0 : Fin 1),
    fold_max_two, constant_apply, Cert.Lib.RowMax.max_negInf]

/-- THE LOG-SOFTMAX of sample b read at class q. -/
theorem lsmT_apply (l : FVec Ideal S131072x1x2 .f32) (b : Fin 131072) (q : Fin 2) :
    lsmT l (ix3 b (0 : Fin 1) q) = Cert.Cheb.lsm2 (fun c => l (ix3 b (0 : Fin 1) c)) q := by
  unfold lsmT
  rw [subf_apply, Cert.Lib.BatchRows.lanes_apply, Cert.Lib.HostForms.hostLog_apply, Cert.Lib.BatchRows.keep_apply,
    Cert.Lib.BatchRows.hostSum_apply _ _ reducesTo_S131072x1x2_S131072x1_d2 (by decide) h_S_ b (0 : Fin 1),
    constant_apply, Ideal.ofBits_zero_f32, zero_add, Fin.sum_univ_two, Cert.Lib.RowMax.hostExp_apply,
    Cert.Lib.RowMax.hostExp_apply, shiftT_apply, shiftT_apply, shiftT_apply]
  rfl

/-- THE HEAD of sample b read at class q: the two dense layers on the node-major flattening of the sample's features
    and the log-softmax of the two logits. -/
theorem headT_apply (h : FVec Ideal S131072x24x8 .f32) (fc1W : FVec Ideal S64x192 .f32) (fc1b : FVec Ideal S64 .f32)
    (fc2W : FVec Ideal S2x64 .f32) (fc2b : FVec Ideal S2 .f32) (b : Fin 131072) (q : Fin 2) :
    headT h fc1W fc1b fc2W fc2b (ix3 b (0 : Fin 1) q)
      = Cert.Cheb.headS (fun i => h (ix3 b ⟨i.val / 8, by omega⟩ ⟨i.val % 8, by omega⟩)) (fun j i => fc1W (ix2 j i))
          (fun j => fc1b (ix1 j)) (fun c j => fc2W (ix2 c j)) (fun c => fc2b (ix1 c)) q := by
  unfold headT Cert.Cheb.headS
  rw [lsmT_apply]
  exact congrArg (fun l => Cert.Cheb.lsm2 l q) (funext fun c => logitsT_apply h fc1W fc1b fc2W fc2b b c)

end Stages

end Cert.Cheb.RefRead

end
-- ==== Proof.RefReadAll.lean ====
/-
  The reference's result read at an entry.

  Composing the stages: at sample b and class q the result is the head — two dense layers and the log-softmax — applied
  to the node-major flattening of the second Chebyshev layer's output through the exponential linear unit, that layer
  applied to the first layer's output through the unit, every layer in the propagating arrangement along the edges the
  two (wrapped) rows of the edge list name, with the edge weights kept as an opaque parameter.
-/
import proofs.«144586_j5729486372945_2_alg».proof.Proof.RefRead1
import proofs.«144586_j5729486372945_2_alg».proof.Proof.RefRead2
import proofs.«144586_j5729486372945_2_alg».proof.Proof.RefRead3

noncomputable section

open scoped BigOperators

namespace Cert.Cheb.RefRead

open Idealize.ShloMosaic Idealize.ShloMosaic.ValueIdx
open Cert.ReferenceIdeal Cert.ReferenceIdeal.Facts₀ Cert.Cheb.RefRun

variable [Cert.ReferenceIdeal.Facts]

/-- THE REFERENCE'S RESULT read at (b, 0, q), when the wrapped rows of the edge list name the nodes rN e (targets) and
    cN e (sources). -/
theorem refOut_apply (x : FVec Ideal S131072x24x4 .f32) (ei : IVec S2x128 32) (W1 : FVec Ideal S3x4x8 .f32)
    (b1 : FVec Ideal S8 .f32) (W2 : FVec Ideal S3x8x8 .f32) (b2 : FVec Ideal S8 .f32) (fc1W : FVec Ideal S64x192 .f32)
    (fc1b : FVec Ideal S64 .f32) (fc2W : FVec Ideal S2x64 .f32) (fc2b : FVec Ideal S2 .f32)
    (rN cN : Fin 128 → Fin 24)
    (hr : ∀ e : Fin 128, (wrapC (rowV ei) (ix2 e 0)).toInt = ((rN e).val : ℤ))
    (hc : ∀ e : Fin 128, (wrapC (colV ei) (ix2 e 0)).toInt = ((cN e).val : ℤ))
    (b : Fin 131072) (q : Fin 2) :
    refOut x ei W1 b1 W2 b2 fc1W fc1b fc2W fc2b (ix3 b (0 : Fin 1) q)
      = Cert.Cheb.headS
          (fun i => Cert.Cheb.eluS (Cert.Cheb.chebRefS rN cN (fun e => ewT ei (ix1 e))
            (fun n h => Cert.Cheb.eluS (Cert.Cheb.chebRefS rN cN (fun e => ewT ei (ix1 e)) (fun m g => x (ix3 b m g))
              (fun k g h' => W1 (ix3 k g h')) (fun h' => b1 (ix1 h')) n h))
            (fun k g h' => W2 (ix3 k g h')) (fun h' => b2 (ix1 h')) ⟨i.val / 8, by omega⟩ ⟨i.val % 8, by omega⟩))
          (fun j i => fc1W (ix2 j i)) (fun j => fc1b (ix1 j)) (fun c j => fc2W (ix2 c j)) (fun c => fc2b (ix1 c)) q := by
  have h1 : (fun m g => eluT (cheb4 (wrapC (rowV ei)) (wrapC (colV ei)) (ewT ei) x W1 b1) (ix3 b m g))
      = fun n h => Cert.Cheb.eluS (Cert.Cheb.chebRefS rN cN (fun e => ewT ei (ix1 e)) (fun m g => x (ix3 b m g))
          (fun k g h' => W1 (ix3 k g h')) (fun h' => b1 (ix1 h')) n h) :=
    funext fun m => funext fun g => by rw [eluT_apply, cheb4_apply _ _ _ _ _ _ rN cN hr hc]
  unfold refOut
  rw [headT_apply]
  refine congrArg (fun g => Cert.Cheb.headS g _ _ _ _ q) (funext fun i => ?_)
  rw [eluT_apply, cheb8_apply _ _ _ _ _ _ rN cN hr hc, h1]

end Cert.Cheb.RefRead

end
-- ==== Proof.EdgeNode.lean ====
/-
  A node number read off a 32-bit word.

  The graph has 24 nodes.  A 32-bit word names the node whose number is the word's value modulo 24; for a word
  that, read as a signed integer, lies in `[0, 24)`, that node's number is the word's signed value itself.
-/
import Mathlib.Data.Fin.Basic
import Mathlib.Tactic.Ring
import Mathlib.Tactic.Linarith

namespace Cert.Cheb

/-- The node a 32-bit word names: its value modulo 24. -/
def node (w : BitVec 32) : Fin 24 := ⟨w.toNat % 24, Nat.mod_lt _ (by decide)⟩

/-- A word that is not negative when read signed reads, signed, as the natural number it holds. -/
theorem toInt_eq_toNat_of_nonneg (w : BitVec 32) (h : 0 ≤ w.toInt) : w.toInt = (w.toNat : ℤ) := by
  rw [BitVec.toInt_eq_toNat_cond] at h ⊢
  have := w.isLt
  split
  · rfl
  · rename_i h2
    rw [if_neg h2] at h
    omega

/-- A word whose signed value lies in `[0, 24)` holds the number of the node it names. -/
theorem toNat_node (w : BitVec 32) (h : 0 ≤ w.toInt ∧ w.toInt < 24) : w.toNat = (node w).val := by
  have h1 := toInt_eq_toNat_of_nonneg w h.1
  have h2 : w.toNat < 24 := by have := h.2; omega
  show w.toNat = w.toNat % 24
  exact (Nat.mod_eq_of_lt h2).symm

/-- A word whose signed value lies in `[0, 24)` reads, signed, as the number of the node it names. -/
theorem toInt_node (w : BitVec 32) (h : 0 ≤ w.toInt ∧ w.toInt < 24) : w.toInt = ((node w).val : ℤ) := by
  rw [toInt_eq_toNat_of_nonneg w h.1, ← toNat_node w h]

end Cert.Cheb
-- ==== Proof.LibScatterAddPoints.lean ====
/-
  Points added into a vector at the positions a column of integers names, read at an entry, for any sizes.

  The updates are a vector of `E` numbers, one per position; the positions are an `E × 1` column of integers; the operand
  is a vector of `N` numbers. Update `e` is added into the operand's entry `idx[e, 0]`, read as a signed integer and NOT
  clamped: a position outside `[0, N)` adds nothing. Over the extended reals the result at `r` is therefore the operand's
  entry plus the sum, over the positions `e` whose start is exactly `r`, of the update `e`.
-/
import Idealize.ShloMosaic.Lib.ValueIdx
import Idealize.ShloMosaic.PureOps.Ideal

noncomputable section

open scoped BigOperators

namespace Cert.Lib.ScatterAddPoints

open Idealize.ShloMosaic Idealize.ShloMosaic.ValueIdx

/-- The dimension numbers of a pointwise accumulation: operand `[N]`, positions `[E, 1]` (the unit axis holds the one
    component of a start index, which addresses the operand's only axis), updates `[E]`; each update window is a
    single entry, so the updates have no window axis and the operand's axis is inserted. -/
abbrev pointsScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## A sum over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where an update lands -/

section
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the position `idx[e, 0]`, read signed. -/
theorem start_pt : (pointsScatter N E wf).start (ix1 e) idx 0 = (idx (ix2 e ⟨0, Nat.one_pos⟩)).toInt := by
  unfold ScatterDims.start
  rw [dif_pos (show (0 : Fin 1) ∈ (pointsScatter N E wf).scatterDimsToOperandDims from List.mem_singleton.mpr rfl)]
  have hsi : (pointsScatter N E wf).siIdx (ix1 e) ⟨List.idxOf (0 : Fin 1) (pointsScatter N E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's axis is inserted: the window has no extent along it. -/
theorem window_pt : (pointsScatter N E wf).window (ix1 e) 0 = 0 := by
  unfold ScatterDims.window
  have h0 : ¬ (0 : Fin 1) ∈ (pointsScatter N E wf).sKept := by
    simp [ScatterDims.sKept, Shape.kept, List.mem_filter]
  rw [dif_neg h0]

/-- WHERE AN UPDATE LANDS: update `e` lands on entry `r` exactly when its position, read signed, is `r`. -/
theorem resultIdx?_eq_some_iff (r : Fin N) :
    (pointsScatter N E wf).resultIdx? (ix1 e) idx = some (ix1 r)
      ↔ (idx (ix2 e ⟨0, Nat.one_pos⟩)).toInt = (r.val : Int) := by
  have hN : (⟨1, ![N]⟩ : Shape).size 0 = N := rfl
  have hr := r.isLt
  unfold ScatterDims.resultIdx?
  split
  · rename_i h
    rw [Option.some.injEq]
    constructor
    · intro hf
      have h0 := congrArg (fun f => (f 0).val) hf
      simp only [start_pt, window_pt] at h0
      have hh := (h 0).1
      rw [start_pt, window_pt] at hh
      have e0 : ((ix1 r : (⟨1, ![N]⟩ : Shape).Idx) 0).val = r.val := rfl
      rw [e0] at h0
      omega
    · intro hs
      funext a
      refine Fin.ext ?_
      match a with
      | ⟨0, _⟩ =>
        show ((pointsScatter N E wf).start (ix1 e) idx 0 + ((pointsScatter N E wf).window (ix1 e) 0 : Nat)).toNat = r.val
        rw [start_pt, window_pt, hs]; omega
  · rename_i h
    constructor
    · intro hf; exact absurd hf (by simp)
    · intro hs
      refine absurd (fun a => ?_) h
      match a with
      | ⟨0, _⟩ =>
        show 0 ≤ (pointsScatter N E wf).start (ix1 e) idx 0 + ((pointsScatter N E wf).window (ix1 e) 0 : Nat)
          ∧ (pointsScatter N E wf).start (ix1 e) idx 0 + ((pointsScatter N E wf).window (ix1 e) 0 : Nat) < ((⟨1, ![N]⟩ : Shape).size 0 : Nat)
        rw [start_pt, window_pt, hs, hN]; omega

end

/-- THE ACCUMULATION READ AT `r`: the operand's entry plus the sum, over the positions that name `r`, of the updates. -/
theorem scatterAdd_points_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (r : Fin N) :
    Host.scatterAdd (pointsScatter N E wf) x idx upd (ix1 r)
      = x (ix1 r) + ∑ e : Fin E, if (idx (ix2 e ⟨0, Nat.one_pos⟩)).toInt = (r.val : Int) then upd (ix1 e) else 0 := by
  show Ideal.hostScatterAdd (pointsScatter N E wf) x idx upd (ix1 r) = _
  unfold Ideal.hostScatterAdd
  congr 1
  rw [Finset.sum_filter, sum_idx1]
  refine Finset.sum_congr rfl fun e _ => ?_
  simp only [resultIdx?_eq_some_iff]

end Cert.Lib.ScatterAddPoints

end
-- ==== Proof.LibGatherPoints.lean ====
/-
  Entries of a vector looked up at a column of positions, read at an entry, for any sizes.

  A lookup of entries of a vector of `N` numbers at an `R × 1` column of start positions gives a vector of `R` numbers
  whose entry `r` is the operand's entry at position `r`'s start index, that index read as a signed integer and clamped
  into `[0, N − 1]`: a negative index reads entry `0`, an index past the end reads the last entry.
-/
import Idealize.ShloMosaic.Lib.ValueIdx
import Idealize.ShloMosaic.PureOps.Ideal

noncomputable section

namespace Cert.Lib.GatherPoints

open Idealize.ShloMosaic Idealize.ShloMosaic.ValueIdx

section Points
variable {α : Type}

/-- The dimension numbers of an entry lookup: operand `[N]`, start positions `[R, 1]` (the unit axis holds the one
    component of a start index, which addresses the operand's only axis), result `[R]`; each slice is a single entry,
    its one axis collapsed, so the result has no offset axis. -/
abbrev pointsDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE LOOKUP READ AT `r`: the operand at the entry `idx[r, 0]` names — read signed and clamped into `[0, N − 1]`. -/
theorem gather_points_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (pointsDims N R wf) x idx (ix1 r)
      = x (ix1 ⟨min (idx (ix2 r ⟨0, Nat.one_pos⟩)).toInt.toNat (N - 1), by omega⟩) := by
  unfold Host.gather
  congr 1
  funext a
  refine Fin.ext ?_
  match a with
  | ⟨0, _⟩ =>
    show (pointsDims N R wf).start (ix1 r) idx 0 + (pointsDims N R wf).batchCoord (ix1 r) 0
      + (pointsDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (pointsDims N R wf).startIndexMap from List.mem_singleton.mpr rfl)]
    have hsi : (pointsDims N R wf).siIdx (ix1 r) ⟨List.idxOf (0 : Fin 1) (pointsDims N R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl

end Points

end Cert.Lib.GatherPoints

end
-- ==== Proof.LibSymNorm.lean ====
/-
  The symmetric-normalisation edge weights of a graph are real numbers, for any sizes.

  A graph's edges name target positions; the degree of node `r` is the number of edges whose target is exactly `r`
  (accumulated as a sum of ones into a vector of zeros, so a nonnegative real). The inverse square-root degree is
  `1 / √deg` where the degree is positive and `0` elsewhere: a real number in both cases, since the reciprocal square
  root of a positive real is real. An edge's weight is the product of the inverse square-root degrees looked up at two
  columns of positions, hence again a real number.
-/
import Idealize.ShloMosaic.Lib.ValueIdx
import Idealize.ShloMosaic.Lib.Pipeline.Value
import Idealize.ShloMosaic.PureOps.Ideal
import Idealize.ShloMosaic.PureOps.Ideal.Laws
import proofs.«144586_j5729486372945_2_alg».proof.Proof.LibScatterAddPoints
import proofs.«144586_j5729486372945_2_alg».proof.Proof.LibGatherPoints

noncomputable section

open scoped BigOperators

namespace Cert.Lib.SymNorm

open Idealize.ShloMosaic Idealize.ShloMosaic.ValueIdx Cert.Lib.ScatterAddPoints Cert.Lib.GatherPoints

/-! ## The two constant words -/

/-- The word `0x3F800000` denotes `1`. -/
theorem ofBits_one_f32 : Ideal.ofBits .f32 0x3F800000#32 = 1 := by
  simp [Ideal.ofBits, Ideal.ieee, -EReal.coe_mul]; norm_num

/-- A scalar spread over any shape reads, at every index, the scalar. -/
theorem bcast0_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-! ## Degrees and inverse square-root degrees -/

section
variable {N E w : Nat}
  (swf : ScatterDims.WF ⟨1, ![N]⟩ ⟨2, ![E, 1]⟩ ⟨1, ![E]⟩ [] [0] [0] 1)
  (hbN : (⟨0, ![]⟩ : Shape).BroadcastsInDim ⟨1, ![N]⟩ (![] : Fin 0 → Fin (⟨1, ![N]⟩ : Shape).rank))
  (hbE : (⟨0, ![]⟩ : Shape).BroadcastsInDim ⟨1, ![E]⟩ (![] : Fin 0 → Fin (⟨1, ![E]⟩ : Shape).rank))
  (tgt : IVec ⟨2, ![E, 1]⟩ w)

/-- The degree vector: a one added, for every edge, into a vector of zeros at the edge's target position. -/
def degOf : FVec Ideal ⟨1, ![N]⟩ .f32 :=
  Host.scatterAdd (pointsScatter N E swf)
    (broadcastInDim ⟨1, ![N]⟩ ![] hbN (constant (F := Ideal) ⟨0, ![]⟩ .f32 0x00000000#32)) tgt
    (broadcastInDim ⟨1, ![E]⟩ ![] hbE (constant (F := Ideal) ⟨0, ![]⟩ .f32 0x3F800000#32))

/-- The inverse square-root degree: `1 / √deg` where the degree is positive, `0` elsewhere. -/
def dinvOf : FVec Ideal ⟨1, ![N]⟩ .f32 :=
  select (cmpf (F := Ideal) .ogt (degOf swf hbN hbE tgt)
      (broadcastInDim ⟨1, ![N]⟩ ![] hbN (constant (F := Ideal) ⟨0, ![]⟩ .f32 0x00000000#32)))
    (Host.rsqrt (degOf swf hbN hbE tgt))
    (broadcastInDim ⟨1, ![N]⟩ ![] hbN (constant (F := Ideal) ⟨0, ![]⟩ .f32 0x00000000#32))

/-- The vector of zeros reads `0` at every index. -/
theorem zeroN_apply (i : (⟨1, ![N]⟩ : Shape).Idx) :
    broadcastInDim ⟨1, ![N]⟩ ![] hbN (constant (F := Ideal) ⟨0, ![]⟩ .f32 0x00000000#32) i = (0 : EReal) := by
  rw [bcast0_apply, constant_apply]
  exact Ideal.ofBits_zero_f32

/-- The vector of ones reads `1` at every index. -/
theorem oneE_apply (i : (⟨1, ![E]⟩ : Shape).Idx) :
    broadcastInDim ⟨1, ![E]⟩ ![] hbE (constant (F := Ideal) ⟨0, ![]⟩ .f32 0x3F800000#32) i = (1 : EReal) := by
  rw [bcast0_apply, constant_apply]
  exact ofBits_one_f32

/-- A count — a finite sum of ones and zeros — is a nonnegative real. -/
theorem count_real {ι : Type} (s : Finset ι) (c : ι → Prop) [DecidablePred c] :
    ∃ r : ℝ, 0 ≤ r ∧ (∑ e ∈ s, if c e then (1 : EReal) else 0) = (r : EReal) := by
  classical
  refine Finset.induction_on s ⟨0, le_refl _, by simp⟩ fun a s ha ih => ?_
  obtain ⟨r, hr, h⟩ := ih
  rw [Finset.sum_insert ha, h]
  by_cases hc : c a
  · refine ⟨1 + r, by linarith, ?_⟩
    rw [if_pos hc, EReal.coe_add]; rfl
  · exact ⟨r, hr, by rw [if_neg hc, zero_add]⟩

/-- THE DEGREE IS A NONNEGATIVE REAL: at node `r`, the number of edges whose target is exactly `r`. -/
theorem deg_real (r : Fin N) : ∃ d : ℝ, 0 ≤ d ∧ degOf swf hbN hbE tgt (ix1 r) = (d : EReal) := by
  obtain ⟨d, hd, h⟩ := count_real (Finset.univ : Finset (Fin E))
    (fun e => (tgt (ix2 e ⟨0, Nat.one_pos⟩)).toInt = (r.val : Int))
  refine ⟨d, hd, ?_⟩
  unfold degOf
  rw [scatterAdd_points_apply, zeroN_apply, zero_add, ← h]
  refine Finset.sum_congr rfl fun e _ => ?_
  rw [oneE_apply]

/-- THE INVERSE SQUARE-ROOT DEGREE IS REAL. -/
theorem dinv_real (i : (⟨1, ![N]⟩ : Shape).Idx) : ∃ x : ℝ, dinvOf swf hbN hbE tgt i = (x : EReal) := by
  obtain ⟨r, rfl⟩ : ∃ r : Fin N, i = ix1 r := ⟨i 0, eq_ix1 i⟩
  obtain ⟨d, hd, hdeg⟩ := deg_real swf hbN hbE tgt r
  have hz := zeroN_apply (N := N) hbN (ix1 r)
  show ∃ x : ℝ, Scalar.select (Ideal.cmp .ogt (degOf swf hbN hbE tgt (ix1 r))
      (broadcastInDim ⟨1, ![N]⟩ ![] hbN (constant (F := Ideal) ⟨0, ![]⟩ .f32 0x00000000#32) (ix1 r)))
    (Ideal.rsqrt (degOf swf hbN hbE tgt (ix1 r)))
    (broadcastInDim ⟨1, ![N]⟩ ![] hbN (constant (F := Ideal) ⟨0, ![]⟩ .f32 0x00000000#32) (ix1 r)) = (x : EReal)
  rw [hz, hdeg]
  unfold Scalar.select
  split
  · rename_i hc
    have hpos : 0 < d := by
      by_contra hn
      have hlt : ¬ ((0 : EReal) < (d : EReal)) := fun h => hn (EReal.coe_pos.mp h)
      simp [Ideal.cmp, hlt] at hc
    refine ⟨(Real.sqrt d)⁻¹, ?_⟩
    rw [Ideal.rsqrt_coe, if_neg (not_lt.mpr hd), if_neg hpos.ne']
  · exact ⟨0, rfl⟩

/-- THE EDGE WEIGHTS ARE REAL: the product of the inverse square-root degrees looked up at two columns of positions. -/
theorem symNorm_real (hN : 0 < N)
    (gwf : GatherDims.WF ⟨1, ![N]⟩ ⟨2, ![E, 1]⟩ ⟨1, ![E]⟩ [] [0] [] [0] [] 1 ![1])
    (c1 c2 : IVec ⟨2, ![E, 1]⟩ w) (e : (⟨1, ![E]⟩ : Shape).Idx) :
    ∃ r : ℝ, mulf (Host.gather (pointsDims N E gwf) (dinvOf swf hbN hbE tgt) c1)
      (Host.gather (pointsDims N E gwf) (dinvOf swf hbN hbE tgt) c2) e = (r : EReal) := by
  obtain ⟨e, rfl⟩ : ∃ e' : Fin E, e = ix1 e' := ⟨e 0, eq_ix1 e⟩
  rw [mulf_apply, gather_points_apply hN, gather_points_apply hN]
  obtain ⟨a, ha⟩ := dinv_real swf hbN hbE tgt (ix1 ⟨min (c1 (ix2 e ⟨0, Nat.one_pos⟩)).toInt.toNat (N - 1), by omega⟩)
  obtain ⟨b, hb⟩ := dinv_real swf hbN hbE tgt (ix1 ⟨min (c2 (ix2 e ⟨0, Nat.one_pos⟩)).toInt.toNat (N - 1), by omega⟩)
  exact ⟨a * b, by rw [ha, hb, EReal.coe_mul]⟩

end

end Cert.Lib.SymNorm

end
-- ==== Proof.LibIotaColumn.lean ====
/-
  The positions `0 … N − 1` as 32-bit words, kept as an `N × 1` column: what the usual index arithmetic does to them.

  A natural number below `2 ^ 31`, written as a 32-bit word, reads back as itself when the word is read as a signed
  integer. Hence such a word is not negative, is at least zero, compares by `≤` as the numbers do, and — read signed
  and clamped into `[0, N − 1]` with `n < N ≤ 2 ^ 31` — gives `n` again. On vectors: a vector of `N` words stretched to an
  `N × 1` column reads the vector's entry on its row; the "wrap" that adds a constant to the negative entries leaves the
  positions `0 … N − 1` alone; and the flag "`0 ≤ c ≤ N − 1`" is one on a column holding the positions.
-/
import Idealize.ShloMosaic.Lib.ValueIdx
import Idealize.ShloMosaic.PureOps.Ideal
import Idealize.ShloMosaic.Lib.IdealHost
import Idealize.ShloMosaic.Lib.Pipeline.Value

noncomputable section

namespace Cert.Lib.IotaColumn

open Idealize.ShloMosaic Idealize.ShloMosaic.ValueIdx

/-! ## A small natural number as a 32-bit word -/

/-- A natural number below `2 ^ 31`, as a 32-bit word read signed, is itself. -/
theorem toInt_ofNat_of_lt (n : Nat) (h : n < 2 ^ 31) : (BitVec.ofNat 32 n).toInt = (n : Int) := by
  rw [BitVec.toInt_eq_toNat_cond, BitVec.toNat_ofNat]
  have h1 : n % 2 ^ 32 = n := Nat.mod_eq_of_lt (by omega)
  rw [h1]
  split
  · rfl
  · omega

/-- Such a word is not negative: the signed comparison "below zero" answers zero. -/
theorem slt_ofNat_zero (n : Nat) (h : n < 2 ^ 31) : IntOp.cmpi .slt (BitVec.ofNat 32 n) 0#32 = 0#1 := by
  show BitVec.ofBool ((BitVec.ofNat 32 n).slt 0#32) = 0#1
  have hb : (BitVec.ofNat 32 n).slt 0#32 = false := by
    rw [BitVec.slt, toInt_ofNat_of_lt n h]
    simp
  rw [hb]; rfl

/-- Such a word is at least zero: the signed comparison "at least zero" answers one. -/
theorem sge_ofNat_zero (n : Nat) (h : n < 2 ^ 31) : IntOp.cmpi .sge (BitVec.ofNat 32 n) 0#32 = 1#1 := by
  show BitVec.ofBool ((0#32).sle (BitVec.ofNat 32 n)) = 1#1
  have hb : (0#32).sle (BitVec.ofNat 32 n) = true := by
    rw [BitVec.sle, toInt_ofNat_of_lt n h]
    simp
  rw [hb]; rfl

/-- Two such words compare, signed, as the numbers do: `n ≤ k` gives the answer one. -/
theorem sle_ofNat_ofNat (n k : Nat) (hnk : n ≤ k) (hk : k < 2 ^ 31) :
    IntOp.cmpi .sle (BitVec.ofNat 32 n) (BitVec.ofNat 32 k) = 1#1 := by
  show BitVec.ofBool ((BitVec.ofNat 32 n).sle (BitVec.ofNat 32 k)) = 1#1
  have hb : (BitVec.ofNat 32 n).sle (BitVec.ofNat 32 k) = true := by
    rw [BitVec.sle, toInt_ofNat_of_lt n (by omega), toInt_ofNat_of_lt k hk]
    simp [hnk]
  rw [hb]; rfl

/-- A position `n < N ≤ 2 ^ 31`, read signed off its word and clamped into `[0, N − 1]`, is `n`. -/
theorem clamp_ofNat (n N : Nat) (hn : n < N) (hN : N ≤ 2 ^ 31) : min (BitVec.ofNat 32 n).toInt.toNat (N - 1) = n := by
  rw [toInt_ofNat_of_lt n (by omega), Int.toNat_natCast]
  omega

/-! ## The vector forms, read at an index -/

/-- A vector of `N` entries of any kind stretched to an `N × 1` column reads, at row `e`, the vector's entry `e`. -/
theorem col_apply_any {α : Type} {N : Nat} (hcol : (⟨1, ![N]⟩ : Shape).BroadcastsInDim ⟨2, ![N, 1]⟩ ![0])
    (v : (⟨1, ![N]⟩ : Shape).Idx → α) (e : Fin N) (z : Fin 1) :
    broadcastInDim ⟨2, ![N, 1]⟩ ![0] hcol v (ix2 e z) = v (ix1 e) := by
  refine broadcastInDim_apply _ hcol v (ix2 e z) (ix1 e) fun a => ?_
  match a with
  | ⟨0, _⟩ =>
    show e.val = if N = 1 then 0 else e.val
    have he := e.isLt
    split
    · omega
    · rfl

/-- The same for a vector of `w`-bit words. -/
theorem col_apply {N w : Nat} (hcol : (⟨1, ![N]⟩ : Shape).BroadcastsInDim ⟨2, ![N, 1]⟩ ![0])
    (v : IVec ⟨1, ![N]⟩ w) (e : Fin N) (z : Fin 1) :
    broadcastInDim ⟨2, ![N, 1]⟩ ![0] hcol v (ix2 e z) = v (ix1 e) :=
  col_apply_any hcol v e z

/-- The wrap "add `K` where the entry is negative" leaves the positions `0 … N − 1` as they are: none is negative. -/
theorem wrap_iota_apply {N : Nat} (hN : N ≤ 2 ^ 31) (h0 : (⟨0, ![]⟩ : Shape).BroadcastsInDim ⟨1, ![N]⟩ ![])
    (K : BitVec 32) (n : Fin N) :
    select (cmpi .slt (iotaInDim ⟨1, ![N]⟩ 32 0) (broadcastInDim ⟨1, ![N]⟩ ![] h0 (constantI ⟨0, ![]⟩ 32 0#32)))
        (addi (iotaInDim ⟨1, ![N]⟩ 32 0) (broadcastInDim ⟨1, ![N]⟩ ![] h0 (constantI ⟨0, ![]⟩ 32 K)))
        (iotaInDim ⟨1, ![N]⟩ 32 0) (ix1 n)
      = BitVec.ofNat 32 n.val := by
  have hn := n.isLt
  show Scalar.select (IntOp.cmpi .slt (BitVec.ofNat 32 n.val) 0#32) (IntOp.addi (BitVec.ofNat 32 n.val) K)
    (BitVec.ofNat 32 n.val) = BitVec.ofNat 32 n.val
  rw [slt_ofNat_zero n.val (by omega)]
  unfold Scalar.select
  exact if_neg (by decide)

/-- The flag "`0 ≤ c` and `c ≤ M`" with `M` the word of `N − 1` is one at a row of `c` that holds its own position. -/
theorem inrange_apply {N : Nat} (hN : N ≤ 2 ^ 31)
    (h00 : (⟨0, ![]⟩ : Shape).BroadcastsInDim ⟨2, ![N, 1]⟩ ![])
    (h11 : (⟨2, ![1, 1]⟩ : Shape).BroadcastsInDim ⟨2, ![N, 1]⟩ ![0, 1])
    (h1 : (⟨1, ![1]⟩ : Shape).BroadcastsInDim ⟨2, ![1, 1]⟩ ![1])
    (M : BitVec 32) (hM : M = BitVec.ofNat 32 (N - 1))
    (c : IVec ⟨2, ![N, 1]⟩ 32) (e : Fin N) (z : Fin 1) (hc : c (ix2 e z) = BitVec.ofNat 32 e.val) :
    andi (cmpi .sge c (broadcastInDim ⟨2, ![N, 1]⟩ ![] h00 (constantI ⟨0, ![]⟩ 32 0#32)))
        (cmpi .sle c (broadcastInDim ⟨2, ![N, 1]⟩ ![0, 1] h11
          (broadcastInDim ⟨2, ![1, 1]⟩ ![1] h1 (constantI ⟨1, ![1]⟩ 32 M)))) (ix2 e z)
      = 1#1 := by
  have he := e.isLt
  show IntOp.andi (IntOp.cmpi .sge (c (ix2 e z)) 0#32) (IntOp.cmpi .sle (c (ix2 e z)) M) = 1#1
  rw [hc, hM, sge_ofNat_zero e.val (by omega), sle_ofNat_ofNat e.val (N - 1) (by omega) (by omega)]
  rfl

end Cert.Lib.IotaColumn

end
-- ==== Proof.LibOneHot.lean ====
/-
  Sums that pick out entries, and sums added up piece by piece.

  A sum whose terms vanish off one index is the term at that index; a sum of terms each weighted by a one-or-zero flag is the
  sum of the flagged terms (in particular the one flagged term, when exactly one index is flagged). A running total started
  from zero that takes in one further term at a time is, after `n + 1` steps, the sum of the first `n + 1` terms. And a
  32-bit word that is not negative when read signed is the word of the natural number it holds, so that comparing such words is
  comparing numbers. The unweighted sums are in any commutative monoid; the weighted ones are over the extended reals, where `0 * x = 0` and
  `1 * x = x` hold for every `x`, infinite or not.
-/
import Mathlib.Algebra.BigOperators.Fin
import Mathlib.Algebra.BigOperators.Intervals
import Mathlib.Algebra.GroupWithZero.Defs
import Mathlib.Data.EReal.Operations
import Idealize.ShloMosaic.PureOps

open scoped BigOperators

namespace Cert.Lib.OneHot

open Idealize.ShloMosaic

/-! ## Sums that pick out one entry -/

section Pick
variable {M : Type*} [AddCommMonoid M] {ι : Type*} [Fintype ι] [DecidableEq ι]

/-- A sum whose term at `j` is `f j` when `j = k` and zero otherwise is `f k`. -/
theorem sum_ite_eq_left (k : ι) (f : ι → M) : (∑ j, if j = k then f j else 0) = f k := by
  rw [Finset.sum_ite_eq' Finset.univ k f, if_pos (Finset.mem_univ k)]

/-- The same with the equation written the other way round. -/
theorem sum_ite_eq_right (k : ι) (f : ι → M) : (∑ j, if k = j then f j else 0) = f k := by
  rw [Finset.sum_ite_eq Finset.univ k f, if_pos (Finset.mem_univ k)]

/-- Over positions `0 … n − 1`, picking the position whose number is `c < n`. -/
theorem sum_ite_val_eq {n : ℕ} (c : ℕ) (hc : c < n) (f : Fin n → M) :
    (∑ j : Fin n, if j.val = c then f j else 0) = f ⟨c, hc⟩ := by
  rw [← sum_ite_eq_left (⟨c, hc⟩ : Fin n) f]
  refine Finset.sum_congr rfl fun j _ => ?_
  by_cases h : j.val = c
  · rw [if_pos h, if_pos (Fin.ext h)]
  · rw [if_neg h, if_neg (fun e => h (congrArg Fin.val e))]

/-- The same with the equation written the other way round. -/
theorem sum_ite_eq_val {n : ℕ} (c : ℕ) (hc : c < n) (f : Fin n → M) :
    (∑ j : Fin n, if c = j.val then f j else 0) = f ⟨c, hc⟩ := by
  rw [← sum_ite_val_eq c hc f]
  exact Finset.sum_congr rfl fun j _ => if_congr eq_comm rfl rfl

/-- No position has a number `c ≥ n`: the sum is zero. -/
theorem sum_ite_val_eq_of_le {n : ℕ} (c : ℕ) (hc : n ≤ c) (f : Fin n → M) :
    (∑ j : Fin n, if j.val = c then f j else 0) = 0 :=
  Finset.sum_eq_zero fun j _ => if_neg (by have := j.isLt; omega)

end Pick

/-! ## One-or-zero weights -/

section Weights
variable {M : Type*} [MulZeroOneClass M]

/-- A one-or-zero flag times `x` is `x` or zero. -/
theorem flag_mul (p : Prop) [Decidable p] (x : M) : (if p then (1 : M) else 0) * x = if p then x else 0 := by
  by_cases h : p
  · rw [if_pos h, if_pos h, one_mul]
  · rw [if_neg h, if_neg h, zero_mul]

/-- `x` times a one-or-zero flag is `x` or zero. -/
theorem mul_flag (p : Prop) [Decidable p] (x : M) : x * (if p then (1 : M) else 0) = if p then x else 0 := by
  by_cases h : p
  · rw [if_pos h, if_pos h, mul_one]
  · rw [if_neg h, if_neg h, mul_zero]

end Weights

section WeightedSums
variable {ι : Type*} [Fintype ι]

/-- A sum of extended reals weighted by one-or-zero flags is the sum of the flagged terms. -/
theorem sum_flag_mul (p : ι → Prop) [DecidablePred p] (f : ι → EReal) :
    (∑ j, (if p j then (1 : EReal) else 0) * f j) = ∑ j, if p j then f j else 0 :=
  Finset.sum_congr rfl fun j _ => flag_mul (p j) (f j)

/-- The same with the weight on the right. -/
theorem sum_mul_flag (p : ι → Prop) [DecidablePred p] (f : ι → EReal) :
    (∑ j, f j * (if p j then (1 : EReal) else 0)) = ∑ j, if p j then f j else 0 :=
  Finset.sum_congr rfl fun j _ => mul_flag (p j) (f j)

variable [DecidableEq ι]

/-- Weights that are one at `k` and zero elsewhere pick out the term at `k`. -/
theorem sum_onehot_mul (k : ι) (e f : ι → EReal) (hk : e k = 1) (h0 : ∀ j, j ≠ k → e j = 0) :
    (∑ j, e j * f j) = f k := by
  rw [← sum_ite_eq_left k f]
  refine Finset.sum_congr rfl fun j _ => ?_
  by_cases h : j = k
  · rw [if_pos h, h, hk, one_mul]
  · rw [if_neg h, h0 j h, zero_mul]

/-- The same with the weight on the right. -/
theorem sum_mul_onehot (k : ι) (e f : ι → EReal) (hk : e k = 1) (h0 : ∀ j, j ≠ k → e j = 0) :
    (∑ j, f j * e j) = f k := by
  rw [← sum_ite_eq_left k f]
  refine Finset.sum_congr rfl fun j _ => ?_
  by_cases h : j = k
  · rw [if_pos h, h, hk, mul_one]
  · rw [if_neg h, h0 j h, mul_zero]

end WeightedSums

/-! ## Running totals -/

section Running
variable {M : Type*} [AddCommMonoid M]

/-- A running total that starts as `0 + m 0` and takes in `m (n + 1)` at step `n + 1` is the sum of the first `n + 1` terms. -/
theorem running_sum (m acc : ℕ → M) (h0 : acc 0 = 0 + m 0) (hs : ∀ n, acc (n + 1) = acc n + m (n + 1)) (n : ℕ) :
    acc n = ∑ k ∈ Finset.range (n + 1), m k := by
  induction n with
  | zero => rw [h0, zero_add, Finset.sum_range_one]
  | succ n ih => rw [hs n, ih, ← Finset.sum_range_succ]

/-- The same for the first `B` steps only: the recurrence is asked for below `B`, and the total is read at a step below `B`. -/
theorem running_sum_below (B : ℕ) (m acc : ℕ → M) (h0 : acc 0 = 0 + m 0)
    (hs : ∀ n, n + 1 < B → acc (n + 1) = acc n + m (n + 1)) (n : ℕ) (hn : n < B) :
    acc n = ∑ k ∈ Finset.range (n + 1), m k := by
  induction n with
  | zero => rw [h0, zero_add, Finset.sum_range_one]
  | succ n ih => rw [hs n hn, ih (by omega), ← Finset.sum_range_succ]

/-- A total that is zero before the first step and takes in `m n` at step `n` is, before step `n`, the sum of the first `n`
    terms. -/
theorem running_sum_from_zero (m acc : ℕ → M) (h0 : acc 0 = 0) (hs : ∀ n, acc (n + 1) = acc n + m n) (n : ℕ) :
    acc n = ∑ k ∈ Finset.range n, m k := by
  induction n with
  | zero => rw [h0, Finset.sum_range_zero]
  | succ n ih => rw [hs n, ih, ← Finset.sum_range_succ]

/-- After all `B + 1` steps over a family of `B + 1` terms the running total is the sum of the family. -/
theorem running_sum_fin {B : ℕ} (m acc : Fin (B + 1) → M) (h0 : acc 0 = 0 + m 0)
    (hs : ∀ (n : ℕ) (h : n + 1 < B + 1), acc ⟨n + 1, h⟩ = acc ⟨n, by omega⟩ + m ⟨n + 1, h⟩) :
    acc (Fin.last B) = ∑ t, m t := by
  have key : ∀ (n : ℕ) (h : n < B + 1), acc ⟨n, h⟩ = ∑ k ∈ Finset.range (n + 1), if hk : k < B + 1 then m ⟨k, hk⟩ else 0 := by
    intro n
    induction n with
    | zero =>
      intro h
      rw [Finset.sum_range_one, dif_pos (by omega)]
      rw [← zero_add (m ⟨0, _⟩)]
      exact h0
    | succ n ih =>
      intro h
      rw [hs n h, ih (by omega), Finset.sum_range_succ _ (n + 1), dif_pos h]
  have hl : acc (Fin.last B) = acc ⟨B, by omega⟩ := rfl
  rw [hl, key B (by omega), Finset.sum_range]
  exact Finset.sum_congr rfl fun k _ => dif_pos k.isLt

end Running

/-! ## Small 32-bit words as the numbers they hold -/

section Words

/-- A 32-bit word that is not negative when read signed reads, signed, as the natural number it holds. -/
theorem toInt_eq_toNat_of_nonneg (w : BitVec 32) (h : 0 ≤ w.toInt) : w.toInt = (w.toNat : ℤ) := by
  rw [BitVec.toInt_eq_toNat_cond] at h ⊢
  have := w.isLt
  split
  · rfl
  · rename_i h2
    rw [if_neg h2] at h
    omega

/-- Such a word, below `N` when read signed, holds a natural number below `N`. -/
theorem toNat_lt_of_toInt_lt (w : BitVec 32) (N : ℕ) (h0 : 0 ≤ w.toInt) (h : w.toInt < (N : ℤ)) : w.toNat < N := by
  rw [toInt_eq_toNat_of_nonneg w h0] at h
  exact_mod_cast h

/-- Such a word's signed reading is the natural number `r` exactly when the number it holds is `r`. -/
theorem toInt_eq_natCast_iff (w : BitVec 32) (h0 : 0 ≤ w.toInt) (r : ℕ) : w.toInt = (r : ℤ) ↔ w.toNat = r := by
  rw [toInt_eq_toNat_of_nonneg w h0]
  exact Int.natCast_inj

/-- A natural number below `2 ^ 31`, as a 32-bit word read signed, is itself. -/
theorem toInt_ofNat_of_lt (n : ℕ) (h : n < 2 ^ 31) : (BitVec.ofNat 32 n).toInt = (n : ℤ) := by
  rw [BitVec.toInt_eq_toNat_cond, BitVec.toNat_ofNat]
  have h1 : n % 2 ^ 32 = n := Nat.mod_eq_of_lt (by omega)
  rw [h1]
  split
  · rfl
  · omega

/-- A word is the word of the number `c < 2 ^ 32` exactly when the number it holds is `c`. -/
theorem eq_ofNat_iff (w : BitVec 32) (c : ℕ) (hc : c < 2 ^ 32) : w = BitVec.ofNat 32 c ↔ w.toNat = c := by
  constructor
  · intro h
    rw [h, BitVec.toNat_ofNat]
    exact Nat.mod_eq_of_lt hc
  · intro h
    rw [← h, BitVec.ofNat_toNat, BitVec.setWidth_eq]

/-- Two naturals below `2 ^ 32` have equal words exactly when they are equal. -/
theorem ofNat_inj_of_lt (a b : ℕ) (ha : a < 2 ^ 32) (hb : b < 2 ^ 32) : BitVec.ofNat 32 a = BitVec.ofNat 32 b ↔ a = b := by
  rw [eq_ofNat_iff _ b hb, BitVec.toNat_ofNat, Nat.mod_eq_of_lt ha]

/-- The word comparison "equal" of a word with the word of `c < 2 ^ 32` answers one exactly when the word holds `c`. -/
theorem cmpi_eq_ofNat (w : BitVec 32) (c : ℕ) (hc : c < 2 ^ 32) :
    IntOp.cmpi .eq w (BitVec.ofNat 32 c) = if w.toNat = c then 1#1 else 0#1 := by
  show BitVec.ofBool (w == BitVec.ofNat 32 c) = _
  by_cases h : w.toNat = c
  · rw [if_pos h, (eq_ofNat_iff w c hc).mpr h]; simp
  · rw [if_neg h]
    have : (w == BitVec.ofNat 32 c) = false := by
      rw [beq_eq_false_iff_ne]; exact fun e => h ((eq_ofNat_iff w c hc).mp e)
    rw [this]; rfl

/-- The same with the word of `c` on the left. -/
theorem cmpi_ofNat_eq (w : BitVec 32) (c : ℕ) (hc : c < 2 ^ 32) :
    IntOp.cmpi .eq (BitVec.ofNat 32 c) w = if c = w.toNat then 1#1 else 0#1 := by
  show BitVec.ofBool (BitVec.ofNat 32 c == w) = _
  by_cases h : c = w.toNat
  · rw [if_pos h, (eq_ofNat_iff w c hc).mpr h.symm]; simp
  · rw [if_neg h]
    have : (BitVec.ofNat 32 c == w) = false := by
      rw [beq_eq_false_iff_ne]; exact fun e => h ((eq_ofNat_iff w c hc).mp e.symm).symm
    rw [this]; rfl

/-- A word that is not negative when read signed answers zero to the signed comparison "below zero". -/
theorem cmpi_slt_zero_of_nonneg (w : BitVec 32) (h : 0 ≤ w.toInt) : IntOp.cmpi .slt w 0#32 = 0#1 := by
  show BitVec.ofBool (w.slt 0#32) = 0#1
  have hb : w.slt 0#32 = false := by
    rw [BitVec.slt]
    simp
    exact h
  rw [hb]; rfl

/-- The index wrap "add `K` where the word is negative" leaves a word that is not negative as it is. -/
theorem wrap_of_nonneg (w K : BitVec 32) (h : 0 ≤ w.toInt) :
    Scalar.select (IntOp.cmpi .slt w 0#32) (IntOp.addi w K) w = w := by
  rw [cmpi_slt_zero_of_nonneg w h]
  unfold Scalar.select
  exact if_neg (by decide)

end Words

end Cert.Lib.OneHot
-- ==== Proof.EdgesK.lean ====
/-
  The edge list of the graph, as both programs read it, and the edge weights.

  The edge list is a 2 × 128 array of 32-bit words: row 0 holds, for each of the 128 edges, the node the edge
  goes into, and row 1 the node it comes from.  Both programs start by
  * cutting the two rows out (a slice to 1 × 128 followed by a reshape to 128);
  * shifting the negative entries of a row up by 24 (the usual reading of a negative index from the end) and
    standing the row up as a 128 × 1 column, before every lookup or accumulation that uses it;
  * accumulating a one for every edge into a vector of 24 zeros at the edge's row-0 node (the node's degree),
    raising the degree to the power -1/2 where it is positive and putting 0 elsewhere, looking that vector
    up at the two columns, and multiplying minus the first by the second: the edge's weight.

  Under the hypothesis that every entry of the edge list, read signed, lies in `[0, 24)` the shift changes
  nothing.  The edge weights are real numbers whatever the columns hold: a degree is a count, a nonnegative
  real; a real to a real power is a real in the model of the extended reals used here; a lookup reads some
  entry of the vector; and a product of two reals is a real.
-/
import proofs.«144586_j5729486372945_2_alg».proof.KernelIdeal
import Idealize.ShloMosaic.Lib.ValueIdx
import Idealize.ShloMosaic.Lib.Pipeline.Value
import Idealize.ShloMosaic.PureOps.Ideal
import Idealize.ShloMosaic.PureOps.Ideal.Laws
import proofs.«144586_j5729486372945_2_alg».proof.Proof.LibSymNorm
import proofs.«144586_j5729486372945_2_alg».proof.Proof.LibIotaColumn
import proofs.«144586_j5729486372945_2_alg».proof.Proof.LibOneHot
import proofs.«144586_j5729486372945_2_alg».proof.Proof.EdgeNode

noncomputable section

namespace Cert.Cheb.EdgesK

open Idealize.ShloMosaic Idealize.ShloMosaic.ValueIdx
open Cert.KernelIdeal Cert.KernelIdeal.Facts₀ Cert.KernelIdeal.Facts

variable [Cert.KernelIdeal.Facts]

/-! ## The two rows of the edge list -/

/-- Row 0 of the edge list, cut out and flattened, reads at `e` the entry `(0, e)`. -/
theorem row_apply (ei : IVec S2x128 32) (e : Fin 128) :
    shapeCast S128 (extractStridedSlice S1x128 ![0, 0] ei slices_S2x128_S1x128_0_0) shapeCasts_S1x128_S128 (ix1 e)
      = ei (ix2 0 e) := by
  rw [shapeCast_apply _ shapeCasts_S1x128_S128 (ix1 e) (ix2 (0 : Fin 1) e) (by
    rw [Shape.rowMajor_val_two, Shape.rowMajor_val_one]
    show 0 * 128 + e.val = e.val
    omega)]
  exact extractStridedSlice_apply ![0, 0] ei slices_S2x128_S1x128_0_0 (ix2 (0 : Fin 1) e) (ix2 (0 : Fin 2) e) (fun a => by
    match a with
    | ⟨0, _⟩ => rfl
    | ⟨1, _⟩ => show e.val = 0 + e.val; omega)

/-- Row 1 of the edge list, cut out and flattened, reads at `e` the entry `(1, e)`. -/
theorem col_apply (ei : IVec S2x128 32) (e : Fin 128) :
    shapeCast S128 (extractStridedSlice S1x128 ![1, 0] ei slices_S2x128_S1x128_1_0) shapeCasts_S1x128_S128 (ix1 e)
      = ei (ix2 1 e) := by
  rw [shapeCast_apply _ shapeCasts_S1x128_S128 (ix1 e) (ix2 (0 : Fin 1) e) (by
    rw [Shape.rowMajor_val_two, Shape.rowMajor_val_one]
    show 0 * 128 + e.val = e.val
    omega)]
  exact extractStridedSlice_apply ![1, 0] ei slices_S2x128_S1x128_1_0 (ix2 (0 : Fin 1) e) (ix2 (1 : Fin 2) e) (fun a => by
    match a with
    | ⟨0, _⟩ => rfl
    | ⟨1, _⟩ => show e.val = 0 + e.val; omega)

/-! ## The shift of negative entries -/

/-- On a vector whose entries are not negative the shift "add 24 where the entry is negative" changes nothing. -/
theorem wrap_apply (v : IVec S128 32) (hv : ∀ e : Fin 128, 0 ≤ (v (ix1 e)).toInt ∧ (v (ix1 e)).toInt < 24)
    (e : Fin 128) :
    select (cmpi .slt v (broadcastInDim S128 ![] bcast_S_S128 (constantI S_ 32 0#32)))
        (addi v (broadcastInDim S128 ![] bcast_S_S128 (constantI S_ 32 24#32))) v (ix1 e)
      = v (ix1 e) :=
  Cert.Lib.OneHot.wrap_of_nonneg (v (ix1 e)) 24#32 (hv e).1

/-- The same vector stood up as a 128 × 1 column reads, at `(e, 0)`, the vector's entry `e`. -/
theorem wrapcol_apply (v : IVec S128 32) (hv : ∀ e : Fin 128, 0 ≤ (v (ix1 e)).toInt ∧ (v (ix1 e)).toInt < 24)
    (e : Fin 128) :
    broadcastInDim S128x1 ![0] bcast_S128_S128x1_0
        (select (cmpi .slt v (broadcastInDim S128 ![] bcast_S_S128 (constantI S_ 32 0#32)))
          (addi v (broadcastInDim S128 ![] bcast_S_S128 (constantI S_ 32 24#32))) v) (ix2 e 0)
      = v (ix1 e) := by
  rw [Cert.Lib.IotaColumn.col_apply_any (N := 128) bcast_S128_S128x1_0 _ e 0]
  exact wrap_apply v hv e

/-! ## Degrees, their inverse square roots, and the edge weights -/

/-- The degree vector: a one added, for every edge, into a vector of 24 zeros at the position the column names. -/
def degV (tgt : IVec S128x1 32) : FVec Ideal S24 .f32 :=
  Host.scatterAdd (F := Ideal) scatter_S24_S128x1_S128_n_0_0_1
    (broadcastInDim S24 ![] bcast_S_S24 (constant (F := Ideal) S_ .f32 0x00000000#32))
    tgt
    (broadcastInDim S128 ![] bcast_S_S128 (constant (F := Ideal) S_ .f32 0x3F800000#32))

/-- The degree to the power -1/2 where it is positive, zero elsewhere. -/
def disV (tgt : IVec S128x1 32) : FVec Ideal S24 .f32 :=
  select
    (cmpf .ogt (degV tgt) (broadcastInDim S24 ![] bcast_S_S24 (constant (F := Ideal) S_ .f32 0x00000000#32)))
    (Host.powf (F := Ideal) (degV tgt)
      (broadcastInDim S24 ![] bcast_S_S24 (constant (F := Ideal) S_ .f32 0xBF000000#32)))
    (broadcastInDim S24 ![] bcast_S_S24 (id (constant (F := Ideal) S_ .f32 0x00000000#32)))

/-- The word `0xBF000000` denotes `-1/2`. -/
theorem neg_half_word : Ideal.ofBits .f32 0xBF000000#32 = ((-(1 / 2) : ℝ) : EReal) := by
  simp [Ideal.ofBits, Ideal.ieee, -EReal.coe_mul]; norm_num

/-- A real to a real power is a real. -/
theorem pow_coe_coe (d y : ℝ) : Ideal.pow (d : EReal) (y : EReal) = ((Real.rpow d y : ℝ) : EReal) := rfl

/-- The degree of a node is a nonnegative real: a count of edges. -/
theorem deg_real (tgt : IVec S128x1 32) (r : Fin 24) : ∃ d : ℝ, 0 ≤ d ∧ degV tgt (ix1 r) = (d : EReal) :=
  Cert.Lib.SymNorm.deg_real (N := 24) (E := 128) scatter_S24_S128x1_S128_n_0_0_1_wf bcast_S_S24 bcast_S_S128 tgt r

/-- The inverse square-root degree of a node is a real. -/
theorem dis_real (tgt : IVec S128x1 32) (i : S24.Idx) : ∃ x : ℝ, disV tgt i = (x : EReal) := by
  obtain ⟨r, rfl⟩ : ∃ r : Fin 24, i = ix1 r := ⟨i 0, eq_ix1 i⟩
  obtain ⟨d, hd, hdeg⟩ := deg_real tgt r
  show ∃ x : ℝ, Scalar.select
      (Ideal.cmp .ogt (degV tgt (ix1 r))
        (broadcastInDim S24 ![] bcast_S_S24 (constant (F := Ideal) S_ .f32 0x00000000#32) (ix1 r)))
      (Ideal.pow (degV tgt (ix1 r))
        (broadcastInDim S24 ![] bcast_S_S24 (constant (F := Ideal) S_ .f32 0xBF000000#32) (ix1 r)))
      (broadcastInDim S24 ![] bcast_S_S24 (id (constant (F := Ideal) S_ .f32 0x00000000#32)) (ix1 r)) = (x : EReal)
  rw [hdeg, Cert.Lib.SymNorm.bcast0_apply _ bcast_S_S24 (ix1 r), Cert.Lib.SymNorm.bcast0_apply _ bcast_S_S24 (ix1 r),
    Cert.Lib.SymNorm.bcast0_apply _ bcast_S_S24 (ix1 r)]
  unfold Scalar.select
  split
  · refine ⟨Real.rpow d (-(1 / 2)), ?_⟩
    rw [constant_apply, neg_half_word, pow_coe_coe]
  · refine ⟨0, ?_⟩
    show Ideal.ofBits .f32 0x00000000#32 = ((0 : ℝ) : EReal)
    rw [Ideal.ofBits_zero_f32]; rfl

/-- A lookup in a vector of 24 entries at a 128 × 1 column reads, at `e`, the entry the column's word `(e, 0)`
    names: the word read signed and clamped into `[0, 23]`. -/
theorem gather_apply {α : Type} (x : S24.Idx → α) (c : IVec S128x1 32) (e : Fin 128) :
    Host.gather gather_S24_S128x1_S128_n_0_n_n_0_1_1 x c (ix1 e)
      = x (ix1 ⟨min (c (ix2 e 0)).toInt.toNat 23, by omega⟩) :=
  Cert.Lib.GatherPoints.gather_points_apply (N := 24) (R := 128) (by decide)
    gather_S24_S128x1_S128_n_0_n_n_0_1_1_wf x c e

/-- THE EDGE WEIGHTS ARE REAL, whatever the three columns hold. -/
theorem ew_real (tgt rowC colC : IVec S128x1 32) (e : Fin 128) : ∃ r : ℝ,
    mulf (Host.negf (F := Ideal) (Host.gather gather_S24_S128x1_S128_n_0_n_n_0_1_1 (disV tgt) rowC))
      (Host.gather gather_S24_S128x1_S128_n_0_n_n_0_1_1 (disV tgt) colC) (ix1 e) = (r : EReal) := by
  show ∃ r : ℝ, -(Host.gather gather_S24_S128x1_S128_n_0_n_n_0_1_1 (disV tgt) rowC (ix1 e))
      * Host.gather gather_S24_S128x1_S128_n_0_n_n_0_1_1 (disV tgt) colC (ix1 e) = (r : EReal)
  rw [gather_apply, gather_apply]
  obtain ⟨a, ha⟩ := dis_real tgt (ix1 ⟨min (rowC (ix2 e 0)).toInt.toNat 23, by omega⟩)
  obtain ⟨b, hb⟩ := dis_real tgt (ix1 ⟨min (colC (ix2 e 0)).toInt.toNat 23, by omega⟩)
  exact ⟨-a * b, by rw [ha, hb, EReal.coe_mul, EReal.coe_neg]⟩

end Cert.Cheb.EdgesK

end
-- ==== Proof.EdgesR.lean ====
/-
  The edge list of the graph, as both programs read it, and the edge weights.

  The edge list is a 2 × 128 array of 32-bit words: row 0 holds, for each of the 128 edges, the node the edge
  goes into, and row 1 the node it comes from.  Both programs start by
  * cutting the two rows out (a slice to 1 × 128 followed by a reshape to 128);
  * shifting the negative entries of a row up by 24 (the usual reading of a negative index from the end) and
    standing the row up as a 128 × 1 column, before every lookup or accumulation that uses it;
  * accumulating a one for every edge into a vector of 24 zeros at the edge's row-0 node (the node's degree),
    raising the degree to the power -1/2 where it is positive and putting 0 elsewhere, looking that vector
    up at the two columns, and multiplying minus the first by the second: the edge's weight.

  Under the hypothesis that every entry of the edge list, read signed, lies in `[0, 24)` the shift changes
  nothing.  The edge weights are real numbers whatever the columns hold: a degree is a count, a nonnegative
  real; a real to a real power is a real in the model of the extended reals used here; a lookup reads some
  entry of the vector; and a product of two reals is a real.
-/
import proofs.«144586_j5729486372945_2_alg».proof.ReferenceIdeal
import Idealize.ShloMosaic.Lib.ValueIdx
import Idealize.ShloMosaic.Lib.Pipeline.Value
import Idealize.ShloMosaic.PureOps.Ideal
import Idealize.ShloMosaic.PureOps.Ideal.Laws
import proofs.«144586_j5729486372945_2_alg».proof.Proof.LibSymNorm
import proofs.«144586_j5729486372945_2_alg».proof.Proof.LibIotaColumn
import proofs.«144586_j5729486372945_2_alg».proof.Proof.LibOneHot
import proofs.«144586_j5729486372945_2_alg».proof.Proof.EdgeNode

noncomputable section

namespace Cert.Cheb.EdgesR

open Idealize.ShloMosaic Idealize.ShloMosaic.ValueIdx
open Cert.ReferenceIdeal Cert.ReferenceIdeal.Facts₀ Cert.ReferenceIdeal.Facts

variable [Cert.ReferenceIdeal.Facts]

/-! ## The two rows of the edge list -/

/-- Row 0 of the edge list, cut out and flattened, reads at `e` the entry `(0, e)`. -/
theorem row_apply (ei : IVec S2x128 32) (e : Fin 128) :
    shapeCast S128 (extractStridedSlice S1x128 ![0, 0] ei slices_S2x128_S1x128_0_0) shapeCasts_S1x128_S128 (ix1 e)
      = ei (ix2 0 e) := by
  rw [shapeCast_apply _ shapeCasts_S1x128_S128 (ix1 e) (ix2 (0 : Fin 1) e) (by
    rw [Shape.rowMajor_val_two, Shape.rowMajor_val_one]
    show 0 * 128 + e.val = e.val
    omega)]
  exact extractStridedSlice_apply ![0, 0] ei slices_S2x128_S1x128_0_0 (ix2 (0 : Fin 1) e) (ix2 (0 : Fin 2) e) (fun a => by
    match a with
    | ⟨0, _⟩ => rfl
    | ⟨1, _⟩ => show e.val = 0 + e.val; omega)

/-- Row 1 of the edge list, cut out and flattened, reads at `e` the entry `(1, e)`. -/
theorem col_apply (ei : IVec S2x128 32) (e : Fin 128) :
    shapeCast S128 (extractStridedSlice S1x128 ![1, 0] ei slices_S2x128_S1x128_1_0) shapeCasts_S1x128_S128 (ix1 e)
      = ei (ix2 1 e) := by
  rw [shapeCast_apply _ shapeCasts_S1x128_S128 (ix1 e) (ix2 (0 : Fin 1) e) (by
    rw [Shape.rowMajor_val_two, Shape.rowMajor_val_one]
    show 0 * 128 + e.val = e.val
    omega)]
  exact extractStridedSlice_apply ![1, 0] ei slices_S2x128_S1x128_1_0 (ix2 (0 : Fin 1) e) (ix2 (1 : Fin 2) e) (fun a => by
    match a with
    | ⟨0, _⟩ => rfl
    | ⟨1, _⟩ => show e.val = 0 + e.val; omega)

/-! ## The shift of negative entries -/

/-- On a vector whose entries are not negative the shift "add 24 where the entry is negative" changes nothing. -/
theorem wrap_apply (v : IVec S128 32) (hv : ∀ e : Fin 128, 0 ≤ (v (ix1 e)).toInt ∧ (v (ix1 e)).toInt < 24)
    (e : Fin 128) :
    select (cmpi .slt v (broadcastInDim S128 ![] bcast_S_S128 (constantI S_ 32 0#32)))
        (addi v (broadcastInDim S128 ![] bcast_S_S128 (constantI S_ 32 24#32))) v (ix1 e)
      = v (ix1 e) :=
  Cert.Lib.OneHot.wrap_of_nonneg (v (ix1 e)) 24#32 (hv e).1

/-- The same vector stood up as a 128 × 1 column reads, at `(e, 0)`, the vector's entry `e`. -/
theorem wrapcol_apply (v : IVec S128 32) (hv : ∀ e : Fin 128, 0 ≤ (v (ix1 e)).toInt ∧ (v (ix1 e)).toInt < 24)
    (e : Fin 128) :
    broadcastInDim S128x1 ![0] bcast_S128_S128x1_0
        (select (cmpi .slt v (broadcastInDim S128 ![] bcast_S_S128 (constantI S_ 32 0#32)))
          (addi v (broadcastInDim S128 ![] bcast_S_S128 (constantI S_ 32 24#32))) v) (ix2 e 0)
      = v (ix1 e) := by
  rw [Cert.Lib.IotaColumn.col_apply_any (N := 128) bcast_S128_S128x1_0 _ e 0]
  exact wrap_apply v hv e

/-! ## Degrees, their inverse square roots, and the edge weights -/

/-- The degree vector: a one added, for every edge, into a vector of 24 zeros at the position the column names. -/
def degV (tgt : IVec S128x1 32) : FVec Ideal S24 .f32 :=
  Host.scatterAdd (F := Ideal) scatter_S24_S128x1_S128_n_0_0_1
    (broadcastInDim S24 ![] bcast_S_S24 (constant (F := Ideal) S_ .f32 0x00000000#32))
    tgt
    (broadcastInDim S128 ![] bcast_S_S128 (constant (F := Ideal) S_ .f32 0x3F800000#32))

/-- The degree to the power -1/2 where it is positive, zero elsewhere. -/
def disV (tgt : IVec S128x1 32) : FVec Ideal S24 .f32 :=
  select
    (cmpf .ogt (degV tgt) (broadcastInDim S24 ![] bcast_S_S24 (constant (F := Ideal) S_ .f32 0x00000000#32)))
    (Host.powf (F := Ideal) (degV tgt)
      (broadcastInDim S24 ![] bcast_S_S24 (constant (F := Ideal) S_ .f32 0xBF000000#32)))
    (broadcastInDim S24 ![] bcast_S_S24 (id (constant (F := Ideal) S_ .f32 0x00000000#32)))

/-- The word `0xBF000000` denotes `-1/2`. -/
theorem neg_half_word : Ideal.ofBits .f32 0xBF000000#32 = ((-(1 / 2) : ℝ) : EReal) := by
  simp [Ideal.ofBits, Ideal.ieee, -EReal.coe_mul]; norm_num

/-- A real to a real power is a real. -/
theorem pow_coe_coe (d y : ℝ) : Ideal.pow (d : EReal) (y : EReal) = ((Real.rpow d y : ℝ) : EReal) := rfl

/-- The degree of a node is a nonnegative real: a count of edges. -/
theorem deg_real (tgt : IVec S128x1 32) (r : Fin 24) : ∃ d : ℝ, 0 ≤ d ∧ degV tgt (ix1 r) = (d : EReal) :=
  Cert.Lib.SymNorm.deg_real (N := 24) (E := 128) scatter_S24_S128x1_S128_n_0_0_1_wf bcast_S_S24 bcast_S_S128 tgt r

/-- The inverse square-root degree of a node is a real. -/
theorem dis_real (tgt : IVec S128x1 32) (i : S24.Idx) : ∃ x : ℝ, disV tgt i = (x : EReal) := by
  obtain ⟨r, rfl⟩ : ∃ r : Fin 24, i = ix1 r := ⟨i 0, eq_ix1 i⟩
  obtain ⟨d, hd, hdeg⟩ := deg_real tgt r
  show ∃ x : ℝ, Scalar.select
      (Ideal.cmp .ogt (degV tgt (ix1 r))
        (broadcastInDim S24 ![] bcast_S_S24 (constant (F := Ideal) S_ .f32 0x00000000#32) (ix1 r)))
      (Ideal.pow (degV tgt (ix1 r))
        (broadcastInDim S24 ![] bcast_S_S24 (constant (F := Ideal) S_ .f32 0xBF000000#32) (ix1 r)))
      (broadcastInDim S24 ![] bcast_S_S24 (id (constant (F := Ideal) S_ .f32 0x00000000#32)) (ix1 r)) = (x : EReal)
  rw [hdeg, Cert.Lib.SymNorm.bcast0_apply _ bcast_S_S24 (ix1 r), Cert.Lib.SymNorm.bcast0_apply _ bcast_S_S24 (ix1 r),
    Cert.Lib.SymNorm.bcast0_apply _ bcast_S_S24 (ix1 r)]
  unfold Scalar.select
  split
  · refine ⟨Real.rpow d (-(1 / 2)), ?_⟩
    rw [constant_apply, neg_half_word, pow_coe_coe]
  · refine ⟨0, ?_⟩
    show Ideal.ofBits .f32 0x00000000#32 = ((0 : ℝ) : EReal)
    rw [Ideal.ofBits_zero_f32]; rfl

/-- A lookup in a vector of 24 entries at a 128 × 1 column reads, at `e`, the entry the column's word `(e, 0)`
    names: the word read signed and clamped into `[0, 23]`. -/
theorem gather_apply {α : Type} (x : S24.Idx → α) (c : IVec S128x1 32) (e : Fin 128) :
    Host.gather gather_S24_S128x1_S128_n_0_n_n_0_1_1 x c (ix1 e)
      = x (ix1 ⟨min (c (ix2 e 0)).toInt.toNat 23, by omega⟩) :=
  Cert.Lib.GatherPoints.gather_points_apply (N := 24) (R := 128) (by decide)
    gather_S24_S128x1_S128_n_0_n_n_0_1_1_wf x c e

/-- THE EDGE WEIGHTS ARE REAL, whatever the three columns hold. -/
theorem ew_real (tgt rowC colC : IVec S128x1 32) (e : Fin 128) : ∃ r : ℝ,
    mulf (Host.negf (F := Ideal) (Host.gather gather_S24_S128x1_S128_n_0_n_n_0_1_1 (disV tgt) rowC))
      (Host.gather gather_S24_S128x1_S128_n_0_n_n_0_1_1 (disV tgt) colC) (ix1 e) = (r : EReal) := by
  show ∃ r : ℝ, -(Host.gather gather_S24_S128x1_S128_n_0_n_n_0_1_1 (disV tgt) rowC (ix1 e))
      * Host.gather gather_S24_S128x1_S128_n_0_n_n_0_1_1 (disV tgt) colC (ix1 e) = (r : EReal)
  rw [gather_apply, gather_apply]
  obtain ⟨a, ha⟩ := dis_real tgt (ix1 ⟨min (rowC (ix2 e 0)).toInt.toNat 23, by omega⟩)
  obtain ⟨b, hb⟩ := dis_real tgt (ix1 ⟨min (colC (ix2 e 0)).toInt.toNat 23, by omega⟩)
  exact ⟨-a * b, by rw [ha, hb, EReal.coe_mul, EReal.coe_neg]⟩

end Cert.Cheb.EdgesR

end
-- ==== Proof.PreFacts.lean ====
/-
  The precondition, read back.

  The claim's precondition says that a printed predicate of the ten argument arrays is all ones.  The predicate
  is the conjunction of: for each of the nine float arguments, "every entry has absolute value below +∞";
  for the integer argument (the edge list), "every entry is at least 0" and "every entry is below 24".
  Over the extended reals an entry whose absolute value is below +∞ is a real number.  This module turns the
  precondition into those facts, entry by entry.
-/
import proofs.«144586_j5729486372945_2_alg».proof.Defs
import Idealize.ShloMosaic.Lib.ReduceAll
import Idealize.ShloMosaic.Lib.ValueIdx

noncomputable section

namespace Cert.Cheb.Pre

open Idealize.ShloMosaic

/-- The float word `0x7F800000` denotes +∞. -/
theorem inf_word : Ideal.ofBits .f32 0x7F800000#32 = (⊤ : EReal) := by
  simp [Ideal.ofBits, Ideal.ieee]

/-- An extended real whose absolute value `max x (-x)` is below +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | top => simp [Ideal.cmp] at h
  | coe r => exact ⟨r, rfl⟩

/-- The result shape of a reduction over all axes has exactly one index. -/
instance : Subsingleton Cert.Pre_finite_inputs.S_.Idx := ⟨fun a b => funext fun d => d.elim0⟩

/-- An `and` of two one-bit vectors that is 1 at an index has both operands 1 there. -/
theorem vand {s : Shape} {a b : IVec s 1} {j : s.Idx} (h : andi a b j = 1#1) : a j = 1#1 ∧ b j = 1#1 :=
  IntOp.andi_eq_one.1 h

/-- `all (|x| < +∞)` being 1 makes every entry of `x` a real number. -/
theorem all_real {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (h0 : 0 < Cert.Pre_finite_inputs.S_.numel)
    (h : Host.reduce IntOp.andi
          (cmpf .olt (Host.absf x)
            (broadcastInDim s ![] bc (constant (F := Ideal) Cert.Pre_finite_inputs.S_ .f32 0x7F800000#32)))
          (constantI Cert.Pre_finite_inputs.S_ 1 1#1) hr h0 ValueIdx.ix0 = 1#1)
    (i : s.Idx) : ∃ r : ℝ, x i = (r : EReal) :=
  real_of_abs_lt (x i) (Host.reduce_andi_all _ _ hr h0 _ h i)

/-- `all (v ≥ 0)` being 1 makes every entry of `v` nonnegative, read signed. -/
theorem all_nonneg {s : Shape} {axes : List (Fin s.rank)} (v : IVec s 32)
    (bc : Cert.Pre_finite_inputs.S_.BroadcastsInDim s (![] : Fin 0 → Fin s.rank))
    (hr : s.ReducesTo axes Cert.Pre_finite_inputs.S_) (h0 : 0 < Cert.Pre_finite_inputs.S_.numel)
    (h : Host.reduce IntOp.andi
          (cmpi .sge v (broadcastInDim s ![] bc (constantI Cert.Pre_finite_inputs.S_ 32 0#32)))
          (constantI Cert.Pre_finite_inputs.S_ 1 1#1) hr h0 ValueIdx.ix0 = 1#1)
    (i : s.Idx) : 0 ≤ (v i).toInt := by
  have e : IntOp.cmpi .sge (v i) 0#32 = 1#1 := Host.reduce_andi_all _ _ hr h0 _ h i
  have := IntOp.cmpi_sge.1 e
  rwa [show (0#32 : BitVec 32).toInt = 0 from by decide] at this

/-- `all (v < 24)` being 1 makes every entry of `v` below 24, read signed. -/
theorem all_lt {s : Shape} {axes : List (Fin s.rank)} (v : IVec s 32)
    (bc : Cert.Pre_finite_inputs.S_.BroadcastsInDim s (![] : Fin 0 → Fin s.rank))
    (hr : s.ReducesTo axes Cert.Pre_finite_inputs.S_) (h0 : 0 < Cert.Pre_finite_inputs.S_.numel)
    (h : Host.reduce IntOp.andi
          (cmpi .slt v (broadcastInDim s ![] bc (constantI Cert.Pre_finite_inputs.S_ 32 24#32)))
          (constantI Cert.Pre_finite_inputs.S_ 1 1#1) hr h0 ValueIdx.ix0 = 1#1)
    (i : s.Idx) : (v i).toInt < 24 := by
  have e : IntOp.cmpi .slt (v i) 24#32 = 1#1 := Host.reduce_andi_all _ _ hr h0 _ h i
  have := IntOp.cmpi_slt.1 e
  rwa [show (24#32 : BitVec 32).toInt = 24 from by decide] at this

/-- What the precondition says of the ten argument arrays: every float entry is a real number and every
    entry of the edge list is a node number in `[0, 24)`. -/
structure InputFacts (x : Cert.KernelIdeal.S131072x24x4.Idx → EReal) (ei : Cert.KernelIdeal.S2x128.Idx → BitVec 32)
    (W1 : Cert.KernelIdeal.S3x4x8.Idx → EReal) (b1 : Cert.KernelIdeal.S8.Idx → EReal)
    (W2 : Cert.KernelIdeal.S3x8x8.Idx → EReal) (b2 : Cert.KernelIdeal.S8.Idx → EReal)
    (fc1W : Cert.KernelIdeal.S64x192.Idx → EReal) (fc1b : Cert.KernelIdeal.S64.Idx → EReal)
    (fc2W : Cert.KernelIdeal.S2x64.Idx → EReal) (fc2b : Cert.KernelIdeal.S2.Idx → EReal) : Prop where
  x_real : ∀ i, ∃ r : ℝ, x i = (r : EReal)
  W1_real : ∀ i, ∃ r : ℝ, W1 i = (r : EReal)
  b1_real : ∀ i, ∃ r : ℝ, b1 i = (r : EReal)
  W2_real : ∀ i, ∃ r : ℝ, W2 i = (r : EReal)
  b2_real : ∀ i, ∃ r : ℝ, b2 i = (r : EReal)
  fc1W_real : ∀ i, ∃ r : ℝ, fc1W i = (r : EReal)
  fc1b_real : ∀ i, ∃ r : ℝ, fc1b i = (r : EReal)
  fc2W_real : ∀ i, ∃ r : ℝ, fc2W i = (r : EReal)
  fc2b_real : ∀ i, ∃ r : ℝ, fc2b i = (r : EReal)
  ei_range : ∀ i, 0 ≤ (ei i).toInt ∧ (ei i).toInt < 24

/-- The printed predicate being all ones gives the facts, for any ten arrays. -/
theorem facts_of_fn [Cert.Pre_finite_inputs.Facts]
    (x : FVec Ideal Cert.Pre_finite_inputs.S131072x24x4 .f32) (ei : IVec Cert.Pre_finite_inputs.S2x128 32)
    (W1 : FVec Ideal Cert.Pre_finite_inputs.S3x4x8 .f32) (b1 : FVec Ideal Cert.Pre_finite_inputs.S8 .f32)
    (W2 : FVec Ideal Cert.Pre_finite_inputs.S3x8x8 .f32) (b2 : FVec Ideal Cert.Pre_finite_inputs.S8 .f32)
    (fc1W : FVec Ideal Cert.Pre_finite_inputs.S64x192 .f32) (fc1b : FVec Ideal Cert.Pre_finite_inputs.S64 .f32)
    (fc2W : FVec Ideal Cert.Pre_finite_inputs.S2x64 .f32) (fc2b : FVec Ideal Cert.Pre_finite_inputs.S2 .f32)
    (h : Cert.Pre_finite_inputs.fn (F := Ideal) x ei W1 b1 W2 b2 fc1W fc1b fc2W fc2b = fun _ => 1#1) :
    InputFacts x ei W1 b1 W2 b2 fc1W fc1b fc2W fc2b := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h47, h50⟩ := vand h0
  obtain ⟨h43, h46⟩ := vand h47
  obtain ⟨h38, h42⟩ := vand h43
  obtain ⟨h33, h37⟩ := vand h38
  obtain ⟨h28, h32⟩ := vand h33
  obtain ⟨h23, h27⟩ := vand h28
  obtain ⟨h18, h22⟩ := vand h23
  obtain ⟨h13, h17⟩ := vand h18
  obtain ⟨h8, h12⟩ := vand h13
  obtain ⟨h3, h7⟩ := vand h8
  exact
    { x_real := all_real x _ _ _ h3
      W1_real := all_real W1 _ _ _ h7
      b1_real := all_real b1 _ _ _ h12
      W2_real := all_real W2 _ _ _ h17
      b2_real := all_real b2 _ _ _ h22
      fc1W_real := all_real fc1W _ _ _ h27
      fc1b_real := all_real fc1b _ _ _ h32
      fc2W_real := all_real fc2W _ _ _ h37
      fc2b_real := all_real fc2b _ _ _ h42
      ei_range := fun i => ⟨all_nonneg ei _ _ _ h46 i, all_lt ei _ _ _ h50 i⟩ }

/-- The claim's precondition gives the facts of the kernel program's ten argument arrays on every device. -/
theorem facts_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    InputFacts (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) :=
  facts_of_fn _ _ _ _ _ _ _ _ _ _ (h c)

end Cert.Cheb.Pre

end
-- ==== Proof.EdgeFacts.lean ====
/-
  The edge list under the range hypothesis, in the spelling of each program.

  Both programs read the two rows of the edge list, shift the negative entries up by 24 and use the result as
  node numbers.  When every entry of the edge list, read signed, lies in `[0, 24)` the shift does nothing and the
  word an edge contributes is the number of the node `node w` that the entry `w` names.  The edge weights of
  the two programs are the same function of the edge list, and every edge weight is a real number.
-/
import proofs.«144586_j5729486372945_2_alg».proof.Proof.KerTerm
import proofs.«144586_j5729486372945_2_alg».proof.Proof.RefTerm
import proofs.«144586_j5729486372945_2_alg».proof.Proof.EdgeNode
import proofs.«144586_j5729486372945_2_alg».proof.Proof.EdgesK
import proofs.«144586_j5729486372945_2_alg».proof.Proof.EdgesR
import proofs.«144586_j5729486372945_2_alg».proof.Proof.PreFacts

noncomputable section

namespace Cert.Cheb.EdgeFacts

open Idealize.ShloMosaic Idealize.ShloMosaic.ValueIdx

variable [Cert.KernelIdeal.Facts] [Cert.ReferenceIdeal.Facts]

/-! ## The kernel program's spelling -/

/-- Row 0 of the edge list reads at `e` the entry `(0, e)`. -/
theorem rowK (ei : IVec Cert.KernelIdeal.S2x128 32) (e : Fin 128) : KerHost.rowV ei (ix1 e) = ei (ix2 0 e) :=
  EdgesK.row_apply ei e

/-- Row 1 of the edge list reads at `e` the entry `(1, e)`. -/
theorem colK (ei : IVec Cert.KernelIdeal.S2x128 32) (e : Fin 128) : KerHost.colV ei (ix1 e) = ei (ix2 1 e) :=
  EdgesK.col_apply ei e

/-- The shift leaves a vector of entries in `[0, 24)` as it is. -/
theorem wrapK (v : IVec Cert.KernelIdeal.S128 32)
    (hv : ∀ e : Fin 128, 0 ≤ (v (ix1 e)).toInt ∧ (v (ix1 e)).toInt < 24) (e : Fin 128) :
    KerHost.wrapV v (ix1 e) = v (ix1 e) :=
  EdgesK.wrap_apply v hv e

section
variable (ei : IVec Cert.KernelIdeal.S2x128 32) (hrange : ∀ i, 0 ≤ (ei i).toInt ∧ (ei i).toInt < 24)
include hrange

/-- The shifted row 0, read signed at `e`, is the number of the node the entry `(0, e)` names. -/
theorem hrK (e : Fin 128) :
    (KerHost.wrapV (KerHost.rowV ei) (ix1 e)).toInt = ((Cert.Cheb.node (ei (ix2 0 e))).val : ℤ) := by
  rw [wrapK _ (fun e => by rw [rowK]; exact hrange _) e, rowK]
  exact Cert.Cheb.toInt_node _ (hrange _)

/-- The shifted row 1, read signed at `e`, is the number of the node the entry `(1, e)` names. -/
theorem hcK (e : Fin 128) :
    (KerHost.wrapV (KerHost.colV ei) (ix1 e)).toInt = ((Cert.Cheb.node (ei (ix2 1 e))).val : ℤ) := by
  rw [wrapK _ (fun e => by rw [colK]; exact hrange _) e, colK]
  exact Cert.Cheb.toInt_node _ (hrange _)

/-! ## The reference program's spelling -/

/-- The shifted row 0 as a column, read signed at `(e, 0)`, is the number of the node the entry `(0, e)` names. -/
theorem hrR (e : Fin 128) :
    (RefRun.wrapC (RefRun.rowV ei) (ix2 e 0)).toInt = ((Cert.Cheb.node (ei (ix2 0 e))).val : ℤ) := by
  have h1 : ∀ e : Fin 128, RefRun.rowV ei (ix1 e) = ei (ix2 0 e) := fun e => EdgesR.row_apply ei e
  have h2 : RefRun.wrapC (RefRun.rowV ei) (ix2 e 0) = RefRun.rowV ei (ix1 e) :=
    EdgesR.wrapcol_apply (RefRun.rowV ei) (fun e => by rw [h1]; exact hrange _) e
  rw [h2, h1]
  exact Cert.Cheb.toInt_node _ (hrange _)

/-- The shifted row 1 as a column, read signed at `(e, 0)`, is the number of the node the entry `(1, e)` names. -/
theorem hcR (e : Fin 128) :
    (RefRun.wrapC (RefRun.colV ei) (ix2 e 0)).toInt = ((Cert.Cheb.node (ei (ix2 1 e))).val : ℤ) := by
  have h1 : ∀ e : Fin 128, RefRun.colV ei (ix1 e) = ei (ix2 1 e) := fun e => EdgesR.col_apply ei e
  have h2 : RefRun.wrapC (RefRun.colV ei) (ix2 e 0) = RefRun.colV ei (ix1 e) :=
    EdgesR.wrapcol_apply (RefRun.colV ei) (fun e => by rw [h1]; exact hrange _) e
  rw [h2, h1]
  exact Cert.Cheb.toInt_node _ (hrange _)

end

/-! ## The edge weights -/

/-- The kernel program's edge weights are real numbers (no hypothesis on the edge list is needed). -/
theorem ewK_real (ei : IVec Cert.KernelIdeal.S2x128 32) (e : Fin 128) :
    ∃ r : ℝ, KerHost.ewT ei (ix1 e) = (r : EReal) :=
  EdgesK.ew_real (KerHost.colOf (KerHost.wrapV (KerHost.rowV ei))) (KerHost.colOf (KerHost.wrapV (KerHost.rowV ei)))
    (KerHost.colOf (KerHost.wrapV (KerHost.colV ei))) e

/-- The reference program's edge weights are real numbers (no hypothesis on the edge list is needed). -/
theorem ewR_real (ei : IVec Cert.KernelIdeal.S2x128 32) (e : Fin 128) :
    ∃ r : ℝ, RefRun.ewT ei (ix1 e) = (r : EReal) :=
  EdgesR.ew_real (RefRun.wrapC (RefRun.rowV ei)) (RefRun.wrapC (RefRun.rowV ei)) (RefRun.wrapC (RefRun.colV ei)) e

/-- The two programs compute the edge weights by the same operations. -/
theorem ewT_eq (ei : IVec Cert.KernelIdeal.S2x128 32) : KerHost.ewT ei = RefRun.ewT ei := rfl

/-- The two programs' edge weights agree at every edge. -/
theorem ew_eq (ei : IVec Cert.KernelIdeal.S2x128 32) (e : Fin 128) :
    KerHost.ewT ei (ix1 e) = RefRun.ewT ei (ix1 e) := rfl

end Cert.Cheb.EdgeFacts

end
-- ==== Proof.GraphCollapse.lean ====
/-
  The collapsed Chebyshev layer equals the propagating one when every number involved is real.

  Over the reals, propagation along the weighted edges is multiplication by the propagation matrix,
  `prop z n f = Σ_m P n m · z m f` (an edge into `n` from `m` contributes its weight to the entry (n, m)).  Hence
  contracting the flattened features with `Σ_k T_k(P)ᵀ ⊗ W_k` is the same as applying each polynomial
  `T_k(P)` to the features and mixing with `W_k`: `T₀ = 1` gives the features themselves, `T₁ = P` one
  propagation, `T₂ = 2P² − 1` twice the double propagation less the features.  These are identities of finite
  real sums (sums exchanged, factors moved across sums); over the extended reals they hold because real
  numbers embed with their sums, products and differences.
-/
import Mathlib.Tactic
import Mathlib.Data.EReal.Operations
import proofs.«144586_j5729486372945_2_alg».proof.Proof.GraphSpec

noncomputable section

namespace Cert.Cheb

open Idealize.ShloMosaic
open scoped BigOperators

/-- The embedding of the reals carries finite sums to finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Over the reals -/

section real

variable (rN cN : Fin 128 → Fin 24) (ew : Fin 128 → ℝ)

def propR {F : ℕ} (z : Fin 24 → Fin F → ℝ) (n : Fin 24) (f : Fin F) : ℝ :=
  ∑ e : Fin 128, if rN e = n then z (cN e) f * ew e else 0

def PmR (n m : Fin 24) : ℝ := ∑ e : Fin 128, if rN e = n ∧ cN e = m then ew e else 0

def eyeR (n m : Fin 24) : ℝ := if n = m then 1 else 0

def T2R (n m : Fin 24) : ℝ := 2 * (∑ k : Fin 24, PmR rN cN ew n k * PmR rN cN ew k m) - eyeR n m

def chebRefR {F H : ℕ} (z : Fin 24 → Fin F → ℝ) (W : Fin 3 → Fin F → Fin H → ℝ) (bias : Fin H → ℝ)
    (n : Fin 24) (h : Fin H) : ℝ :=
  (((∑ f : Fin F, z n f * W 0 f h) + (∑ f : Fin F, propR rN cN ew z n f * W 1 f h))
      + (∑ f : Fin F, (2 * propR rN cN ew (propR rN cN ew z) n f - z n f) * W 2 f h))
    + bias h

def wbigR {F H : ℕ} (W : Fin 3 → Fin F → Fin H → ℝ) (m : Fin 24) (f : Fin F) (n : Fin 24) (h : Fin H) : ℝ :=
  (eyeR n m * W 0 f h + PmR rN cN ew n m * W 1 f h) + T2R rN cN ew n m * W 2 f h

def chebKerR {F H : ℕ} (z : Fin 24 → Fin F → ℝ) (W : Fin 3 → Fin F → Fin H → ℝ) (bias : Fin H → ℝ)
    (n : Fin 24) (h : Fin H) : ℝ :=
  (∑ m : Fin 24, ∑ f : Fin F, z m f * wbigR rN cN ew W m f n h) + bias h

/-- Propagation is multiplication by the propagation matrix. -/
theorem propR_eq {F : ℕ} (z : Fin 24 → Fin F → ℝ) (n : Fin 24) (f : Fin F) :
    propR rN cN ew z n f = ∑ m : Fin 24, PmR rN cN ew n m * z m f := by
  unfold propR PmR
  simp_rw [Finset.sum_mul]
  rw [Finset.sum_comm]
  refine Finset.sum_congr rfl fun e _ => ?_
  by_cases hr : rN e = n
  · simp only [hr, true_and, if_true, ite_mul, zero_mul]
    rw [Finset.sum_ite_eq Finset.univ (cN e) (fun m => ew e * z m f)]
    simp only [Finset.mem_univ, if_true]
    ring
  · simp [hr]

/-- A matrix applied along the node axis, then a weight slab along the feature axis, as one double sum. -/
theorem apply_then_mix {F H : ℕ} (A : Fin 24 → Fin 24 → ℝ) (z : Fin 24 → Fin F → ℝ) (V : Fin F → Fin H → ℝ)
    (n : Fin 24) (h : Fin H) :
    (∑ m : Fin 24, ∑ f : Fin F, z m f * (A n m * V f h)) = ∑ f : Fin F, (∑ m : Fin 24, A n m * z m f) * V f h := by
  rw [Finset.sum_comm]
  refine Finset.sum_congr rfl fun f _ => ?_
  rw [Finset.sum_mul]
  refine Finset.sum_congr rfl fun m _ => ?_
  ring

theorem chebKerR_eq_chebRefR {F H : ℕ} (z : Fin 24 → Fin F → ℝ) (W : Fin 3 → Fin F → Fin H → ℝ)
    (bias : Fin H → ℝ) (n : Fin 24) (h : Fin H) :
    chebKerR rN cN ew z W bias n h = chebRefR rN cN ew z W bias n h := by
  unfold chebKerR chebRefR wbigR
  congr 1
  simp_rw [mul_add, Finset.sum_add_distrib]
  rw [apply_then_mix, apply_then_mix, apply_then_mix]
  congr 1
  · congr 1
    · refine Finset.sum_congr rfl fun f _ => ?_
      congr 1
      unfold eyeR
      simp [Finset.sum_ite_eq]
    · refine Finset.sum_congr rfl fun f _ => ?_
      rw [propR_eq]
  · refine Finset.sum_congr rfl fun f _ => ?_
    congr 1
    rw [propR_eq]
    simp_rw [propR_eq]
    unfold T2R eyeR
    simp_rw [sub_mul, Finset.sum_sub_distrib]
    congr 1
    · simp_rw [Finset.mul_sum, Finset.sum_mul]
      rw [Finset.sum_comm]
      refine Finset.sum_congr rfl fun k _ => ?_
      refine Finset.sum_congr rfl fun m _ => ?_
      ring
    · simp [Finset.sum_ite_eq]

end real

/-! ## Over the extended reals -/

section ereal

variable (rN cN : Fin 128 → Fin 24)

theorem two_coe : ((2 : ℝ) : EReal) = 2 := by norm_cast

theorem propS_coe {F : ℕ} (ew : Fin 128 → ℝ) (z : Fin 24 → Fin F → ℝ) (n : Fin 24) (f : Fin F) :
    propS rN cN (fun e => (ew e : EReal)) (fun m g => (z m g : EReal)) n f
      = ((propR rN cN ew z n f : ℝ) : EReal) := by
  unfold propS propR
  rw [coe_sum]
  refine Finset.sum_congr rfl fun e _ => ?_
  split_ifs <;> simp [EReal.coe_mul]

theorem propS_coe_fun {F : ℕ} (ew : Fin 128 → ℝ) (z : Fin 24 → Fin F → ℝ) :
    propS rN cN (fun e => (ew e : EReal)) (fun m g => (z m g : EReal))
      = fun m g => ((propR rN cN ew z m g : ℝ) : EReal) :=
  funext fun m => funext fun g => propS_coe rN cN ew z m g

theorem PmS_coe (ew : Fin 128 → ℝ) (n m : Fin 24) :
    PmS rN cN (fun e => (ew e : EReal)) n m = ((PmR rN cN ew n m : ℝ) : EReal) := by
  unfold PmS PmR
  rw [coe_sum]
  refine Finset.sum_congr rfl fun e _ => ?_
  split_ifs <;> simp

theorem eyeS_coe (n m : Fin 24) : eyeS n m = ((eyeR n m : ℝ) : EReal) := by
  unfold eyeS eyeR
  split_ifs <;> simp

theorem T2S_coe (ew : Fin 128 → ℝ) (n m : Fin 24) :
    T2S rN cN (fun e => (ew e : EReal)) n m = ((T2R rN cN ew n m : ℝ) : EReal) := by
  unfold T2S T2R
  simp_rw [PmS_coe, eyeS_coe]
  rw [EReal.coe_sub, EReal.coe_mul, coe_sum, two_coe]
  simp_rw [EReal.coe_mul]

theorem wbigS_coe {F H : ℕ} (ew : Fin 128 → ℝ) (W : Fin 3 → Fin F → Fin H → ℝ) (m : Fin 24) (f : Fin F)
    (n : Fin 24) (h : Fin H) :
    wbigS rN cN (fun e => (ew e : EReal)) (fun k f' h' => (W k f' h' : EReal)) m f n h
      = ((wbigR rN cN ew W m f n h : ℝ) : EReal) := by
  unfold wbigS wbigR
  rw [PmS_coe, T2S_coe, eyeS_coe]
  simp only [EReal.coe_add, EReal.coe_mul]

theorem chebKerS_coe {F H : ℕ} (ew : Fin 128 → ℝ) (z : Fin 24 → Fin F → ℝ) (W : Fin 3 → Fin F → Fin H → ℝ)
    (bias : Fin H → ℝ) (n : Fin 24) (h : Fin H) :
    chebKerS rN cN (fun e => (ew e : EReal)) (fun m g => (z m g : EReal)) (fun k f' h' => (W k f' h' : EReal))
        (fun h' => (bias h' : EReal)) n h
      = ((chebKerR rN cN ew z W bias n h : ℝ) : EReal) := by
  unfold chebKerS chebKerR
  simp_rw [wbigS_coe]
  rw [EReal.coe_add, coe_sum]
  simp_rw [coe_sum, EReal.coe_mul]

theorem chebRefS_coe {F H : ℕ} (ew : Fin 128 → ℝ) (z : Fin 24 → Fin F → ℝ) (W : Fin 3 → Fin F → Fin H → ℝ)
    (bias : Fin H → ℝ) (n : Fin 24) (h : Fin H) :
    chebRefS rN cN (fun e => (ew e : EReal)) (fun m g => (z m g : EReal)) (fun k f' h' => (W k f' h' : EReal))
        (fun h' => (bias h' : EReal)) n h
      = ((chebRefR rN cN ew z W bias n h : ℝ) : EReal) := by
  unfold chebRefS chebRefR
  rw [propS_coe_fun, propS_coe_fun]
  simp only [EReal.coe_add, coe_sum, EReal.coe_mul, EReal.coe_sub, two_coe]

/-- With real edge weights, features, slabs and bias, the collapsed layer is the propagating one, and a
    real number. -/
theorem cheb_collapse {F H : ℕ} (ew : Fin 128 → EReal) (hew : ∀ e, ∃ r : ℝ, ew e = (r : EReal))
    (z : Fin 24 → Fin F → EReal) (hz : ∀ m f, ∃ r : ℝ, z m f = (r : EReal))
    (W : Fin 3 → Fin F → Fin H → EReal) (hW : ∀ k f h, ∃ r : ℝ, W k f h = (r : EReal))
    (bias : Fin H → EReal) (hb : ∀ h, ∃ r : ℝ, bias h = (r : EReal)) (n : Fin 24) (h : Fin H) :
    chebKerS rN cN ew z W bias n h = chebRefS rN cN ew z W bias n h
      ∧ ∃ r : ℝ, chebRefS rN cN ew z W bias n h = (r : EReal) := by
  choose ewr hewr using hew
  choose zr hzr using hz
  choose Wr hWr using hW
  choose br hbr using hb
  obtain rfl : ew = fun e => (ewr e : EReal) := funext hewr
  obtain rfl : z = fun m f => (zr m f : EReal) := funext fun m => funext fun f => hzr m f
  obtain rfl : W = fun k f h => (Wr k f h : EReal) := funext fun k => funext fun f => funext fun h => hWr k f h
  obtain rfl : bias = fun h => (br h : EReal) := funext hbr
  rw [chebKerS_coe, chebRefS_coe, chebKerR_eq_chebRefR]
  exact ⟨rfl, _, rfl⟩

/-- The exponential linear unit of a real number is a real number. -/
theorem eluS_real (x : EReal) (hx : ∃ r : ℝ, x = (r : EReal)) : ∃ r : ℝ, eluS x = (r : EReal) := by
  obtain ⟨r, rfl⟩ := hx
  unfold eluS
  split_ifs
  · exact ⟨r, rfl⟩
  · exact ⟨Real.exp r - 1, by rw [EReal.coe_sub, EReal.coe_one]; rfl⟩

/-- Two layers through the unit and the head: the collapsed network is the propagating one on real inputs.
    The first layer's outputs are real (a real layer through the unit), which is what the second layer's
    collapse needs; the head reads equal features. -/
theorem net_collapse (ew : Fin 128 → EReal) (hew : ∀ e, ∃ r : ℝ, ew e = (r : EReal))
    (x : Fin 24 → Fin 4 → EReal) (hx : ∀ m f, ∃ r : ℝ, x m f = (r : EReal))
    (W1 : Fin 3 → Fin 4 → Fin 8 → EReal) (hW1 : ∀ k f h, ∃ r : ℝ, W1 k f h = (r : EReal))
    (c1 : Fin 8 → EReal) (hc1 : ∀ h, ∃ r : ℝ, c1 h = (r : EReal))
    (W2 : Fin 3 → Fin 8 → Fin 8 → EReal) (hW2 : ∀ k f h, ∃ r : ℝ, W2 k f h = (r : EReal))
    (c2 : Fin 8 → EReal) (hc2 : ∀ h, ∃ r : ℝ, c2 h = (r : EReal))
    (A1 : Fin 64 → Fin 192 → EReal) (a1 : Fin 64 → EReal) (A2 : Fin 2 → Fin 64 → EReal) (a2 : Fin 2 → EReal) (q : Fin 2) :
    headS (fun i : Fin 192 => eluS (chebKerS rN cN ew (fun n h => eluS (chebKerS rN cN ew x W1 c1 n h)) W2 c2
        ⟨i.val / 8, by omega⟩ ⟨i.val % 8, by omega⟩)) A1 a1 A2 a2 q
      = headS (fun i : Fin 192 => eluS (chebRefS rN cN ew (fun n h => eluS (chebRefS rN cN ew x W1 c1 n h)) W2 c2
        ⟨i.val / 8, by omega⟩ ⟨i.val % 8, by omega⟩)) A1 a1 A2 a2 q := by
  have h1 : (fun n h => eluS (chebKerS rN cN ew x W1 c1 n h)) = fun n h => eluS (chebRefS rN cN ew x W1 c1 n h) :=
    funext fun n => funext fun h => by rw [(cheb_collapse rN cN ew hew x hx W1 hW1 c1 hc1 n h).1]
  rw [h1]
  have hH : ∀ n h, ∃ r : ℝ, eluS (chebRefS rN cN ew x W1 c1 n h) = (r : EReal) := fun n h =>
    eluS_real _ (cheb_collapse rN cN ew hew x hx W1 hW1 c1 hc1 n h).2
  refine congrArg (fun g => headS g A1 a1 A2 a2 q) (funext fun i => ?_)
  rw [(cheb_collapse rN cN ew hew _ hH W2 hW2 c2 hc2 _ _).1]

end ereal

end Cert.Cheb

end
-- ==== Proof.Bridge.lean ====
/-
  The kernel's output array is the reference's result, entry by entry, under the precondition.

  Entry (b, q) of the kernel's output is the head applied to sample b's features after two Chebyshev layers in
  the COLLAPSED arrangement: the region's nine input arrays are the flattened sample, the two collapsed matrices
  `Σ_k T_k(P)ᵀ ⊗ W_k`, the tiled biases and the transposed dense weights.  Entry (b, 0, q) of the reference's
  result is the same head applied to the features after two layers in the PROPAGATING arrangement.  With every
  edge index in range the two programs' edges are the same 128 pairs of nodes; the edge weights are real
  whatever the indices; the inputs are real by the precondition.  On real numbers the two arrangements agree
  layer by layer, and the first layer's outputs are real again.
-/
import proofs.«144586_j5729486372945_2_alg».proof.Proof.KerBlocks
import proofs.«144586_j5729486372945_2_alg».proof.Proof.KerEntry
import proofs.«144586_j5729486372945_2_alg».proof.Proof.KerRead2
import proofs.«144586_j5729486372945_2_alg».proof.Proof.KerRead3
import proofs.«144586_j5729486372945_2_alg».proof.Proof.KerValue
import proofs.«144586_j5729486372945_2_alg».proof.Proof.RefReadAll
import proofs.«144586_j5729486372945_2_alg».proof.Proof.EdgeFacts
import proofs.«144586_j5729486372945_2_alg».proof.Proof.PreFacts
import proofs.«144586_j5729486372945_2_alg».proof.Proof.GraphCollapse
import proofs.«144586_j5729486372945_2_alg».proof.Proof.Gen.ReferenceIdeal
import proofs.«144586_j5729486372945_2_alg».proof.Proof.Gen.Pre_finite_inputs

noncomputable section

open scoped BigOperators

namespace Cert.Cheb.Bridge

open Cert.KernelIdeal Idealize.ShloMosaic Idealize.ShloMosaic.ValueIdx Idealize.ShloMosaic.TcCoe
open Idealize.SL.Sem

variable (m : (ℓ : Loc nD τ sig) → Buf (Elt Ideal) ℓ)

/-- Entry (b, q) of the kernel's output array against entry (b, 0, q) of the reference's result of the same
    arguments. -/
theorem arrOut_entry (hpre : Cert.Pre_KernelIdeal m) (c : Dev nD) (b : Fin 131072) (q : Fin 2) :
    KerBlocks.arrOut (Gen.V m c main_v104) (Gen.V m c main_v75) (Gen.V m c main_v93) (Gen.V m c main_v89)
        (Gen.V m c main_v97) (Gen.V m c main_v99) (Gen.V m c main_v100) (Gen.V m c main_v102) (Gen.V m c main_v103) (ix2 b q)
      = RefRun.refOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) (ix3 b (0 : Fin 1) q) := by
  have F := Pre.facts_of_pre m hpre c
  rw [KerHost.V_main_v104, KerHost.V_main_v75, KerHost.V_main_v93, KerHost.V_main_v89, KerHost.V_main_v97,
    KerHost.V_main_v99, KerHost.V_main_v100, KerHost.V_main_v102, KerHost.V_main_v103]
  generalize m ((c : Thread nD τ).loc main_arg0) = x at F ⊢
  generalize m ((c : Thread nD τ).loc main_arg1) = ei at F ⊢
  generalize m ((c : Thread nD τ).loc main_arg2) = W1 at F ⊢
  generalize m ((c : Thread nD τ).loc main_arg3) = c1 at F ⊢
  generalize m ((c : Thread nD τ).loc main_arg4) = W2 at F ⊢
  generalize m ((c : Thread nD τ).loc main_arg5) = c2 at F ⊢
  generalize m ((c : Thread nD τ).loc main_arg6) = A1 at F ⊢
  generalize m ((c : Thread nD τ).loc main_arg7) = a1 at F ⊢
  generalize m ((c : Thread nD τ).loc main_arg8) = A2 at F ⊢
  generalize m ((c : Thread nD τ).loc main_arg9) = a2 at F ⊢
  -- the edges: the node words of the two rows of the index array
  have hrange := F.ei_range
  rw [RefRead.refOut_apply x ei W1 c1 W2 c2 A1 a1 A2 a2 (fun e => node (ei (ix2 0 e))) (fun e => node (ei (ix2 1 e)))
    (EdgeFacts.hrR ei hrange) (EdgeFacts.hcR ei hrange) b q]
  refine (KerValue.rowOutS_spec (KerHost.xflat x)
    (KerHost.wbig4 (KerHost.pmat (KerHost.wrapV (KerHost.rowV ei)) (KerHost.wrapV (KerHost.colV ei)) (KerHost.ewT ei)) W1)
    (KerHost.btile c1)
    (KerHost.wbig8 (KerHost.pmat (KerHost.wrapV (KerHost.rowV ei)) (KerHost.wrapV (KerHost.colV ei)) (KerHost.ewT ei)) W2)
    (KerHost.btile c2) (KerHost.fc1T A1) (KerHost.fc1bT a1) (KerHost.fc2T A2) (KerHost.fc2bT a2)
    (fun e => node (ei (ix2 0 e))) (fun e => node (ei (ix2 1 e))) (fun e => KerHost.ewT ei (ix1 e))
    x W1 c1 W2 c2 A1 a1 A2 a2
    (KerHost.xflat_apply x)
    (KerHost.wbig4_apply _ _ _ _ _ (EdgeFacts.hrK ei hrange) (EdgeFacts.hcK ei hrange) W1)
    (KerHost.btile_apply c1)
    (KerHost.wbig8_apply _ _ _ _ _ (EdgeFacts.hrK ei hrange) (EdgeFacts.hcK ei hrange) W2)
    (KerHost.btile_apply c2) (KerHost.fc1T_apply A1) (KerHost.fc1bT_apply a1) (KerHost.fc2T_apply A2) (KerHost.fc2bT_apply a2)
    b q).trans ?_
  rw [show (fun e => RefRun.ewT ei (ix1 e)) = fun e => KerHost.ewT ei (ix1 e) from
    funext fun e => (EdgeFacts.ew_eq ei e).symm]
  exact net_collapse _ _ _ (EdgeFacts.ewK_real ei) _ (fun mm f => F.x_real _) _ (fun k f h => F.W1_real _)
    _ (fun h => F.b1_real _) _ (fun k f h => F.W2_real _) _ (fun h => F.b2_real _) _ _ _ _ q

end Cert.Cheb.Bridge

end
-- ==== Proof.lean ====
/-
  The certificate of the fused Chebyshev-graph-convolution network against its reference.

  Both idealized programs compute, for each of 131072 samples, a log-softmax over two classes of a head applied
  to node features after two Chebyshev layers of order three on a 24-node graph given by 128 edges.  The
  reference propagates the features along the edges (gather, weigh, scatter-add); the kernel contracts the
  flattened features with one matrix per layer, `Σ_k T_k(P)ᵀ ⊗ W_k`, built on the host from the propagation
  matrix `P`.  Under the precondition — every float input finite, every edge index a node number — all the
  numbers are real, and on real numbers the two arrangements are one function (Proof/GraphCollapse.lean).

  * The word-level kernel's and the idealized kernel's frames are the generated frame certificates.
  * The reference's frame is its run (Proof/RefRun.lean: its host operations listed and read back) with the
    result dropped.
  * The idealization rewrote nothing, so `preserves` is trivial.
  * `algebraic`: the kernel's run names its result as the reshape of the region's output array, which is one
    whole-array function of the region's input arrays (Proof/KerBody.lean, Proof/KerBlocks.lean,
    Proof/KerRun.lean); those arrays are the host operations' functions of the arguments (Proof/KerEntry.lean),
    read at an entry in Proof/KerRead1–3.lean; the reference's result is read in Proof/RefRead1–3.lean and
    Proof/RefReadAll.lean; Proof/Bridge.lean joins the two entry by entry.
-/
import proofs.«144586_j5729486372945_2_alg».proof.Defs
import proofs.«144586_j5729486372945_2_alg».proof.Proof.Gen.Kernel
import proofs.«144586_j5729486372945_2_alg».proof.Proof.Gen.Kernel.Frame
import proofs.«144586_j5729486372945_2_alg».proof.Proof.Gen.KernelIdeal
import proofs.«144586_j5729486372945_2_alg».proof.Proof.Gen.KernelIdeal.Frame
import proofs.«144586_j5729486372945_2_alg».proof.Proof.Gen.ReferenceIdeal
import proofs.«144586_j5729486372945_2_alg».proof.Proof.Gen.Pre_finite_inputs
import proofs.«144586_j5729486372945_2_alg».proof.Proof.RefRun
import proofs.«144586_j5729486372945_2_alg».proof.Proof.KerRun
import proofs.«144586_j5729486372945_2_alg».proof.Proof.Bridge
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.Cheb.RefRun.run m ρ)

/-- Both runs end with the reference's result function of the (agreeing) arguments. -/
theorem algebraic : Cert.algebraic_KernelIdeal_ReferenceIdeal := by
  intro m ρ m' ρ' hpre hagree
  refine ⟨fun c => Cert.Cheb.RefRun.refOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.Cheb.KerRun.run m ρ)
    funext i
    obtain ⟨b, u, q, rfl⟩ : ∃ (b : Fin 131072) (u : Fin 1) (q : Fin 2), i = ix3 b u q := ⟨i 0, i 1, i 2, eq_ix3 i⟩
    obtain rfl : u = 0 := Subsingleton.elim _ _
    rw [Cert.Cheb.KerRun.tailT_apply]
    exact Cert.Cheb.Bridge.arrOut_entry m hpre c b q
  · refine (θ_run Cert.ReferenceIdeal.defs _ _).mono (fun r h c => ⟨?_, (h c).2⟩)
      (Cert.Cheb.RefRun.run m' ρ')
    obtain ⟨h0, h1, h2, h3, h4, h5, h6, h7, h8, h9⟩ := hagree c
    rw [(h c).1, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
